-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v185) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1 : Shape := ⟨2, ![131072, 1]⟩
abbrev S2x4194304 : Shape := ⟨2, ![2, 4194304]⟩
abbrev S4194304 : Shape := ⟨1, ![4194304]⟩
abbrev S131072 : Shape := ⟨1, ![131072]⟩
abbrev S5x1x8 : Shape := ⟨3, ![5, 1, 8]⟩
abbrev S8 : Shape := ⟨1, ![8]⟩
abbrev S5x8x8 : Shape := ⟨3, ![5, 8, 8]⟩
abbrev S65536x1000 : Shape := ⟨2, ![65536, 1000]⟩
abbrev S1000 : Shape := ⟨1, ![1000]⟩
abbrev S1000x34 : Shape := ⟨2, ![1000, 34]⟩
abbrev S34 : Shape := ⟨1, ![34]⟩
abbrev S_ : Shape := ⟨0, ![]⟩

class Facts : Prop where
  bcast_S_S131072x1 : S_.BroadcastsInDim S131072x1 (![] : Fin 0 → Fin S131072x1.rank)
  reducesTo_S131072x1_S_d0_1 : S131072x1.ReducesTo [0, 1] S_
  h_S_ : 0 < S_.numel
  bcast_S_S4194304 : S_.BroadcastsInDim S4194304 (![] : Fin 0 → Fin S4194304.rank)
  reducesTo_S4194304_S_d0 : S4194304.ReducesTo [0] S_
  bcast_S_S5x1x8 : S_.BroadcastsInDim S5x1x8 (![] : Fin 0 → Fin S5x1x8.rank)
  reducesTo_S5x1x8_S_d0_1_2 : S5x1x8.ReducesTo [0, 1, 2] S_
  bcast_S_S8 : S_.BroadcastsInDim S8 (![] : Fin 0 → Fin S8.rank)
  reducesTo_S8_S_d0 : S8.ReducesTo [0] S_
  bcast_S_S5x8x8 : S_.BroadcastsInDim S5x8x8 (![] : Fin 0 → Fin S5x8x8.rank)
  reducesTo_S5x8x8_S_d0_1_2 : S5x8x8.ReducesTo [0, 1, 2] S_
  bcast_S_S65536x1000 : S_.BroadcastsInDim S65536x1000 (![] : Fin 0 → Fin S65536x1000.rank)
  reducesTo_S65536x1000_S_d0_1 : S65536x1000.ReducesTo [0, 1] S_
  bcast_S_S1000 : S_.BroadcastsInDim S1000 (![] : Fin 0 → Fin S1000.rank)
  reducesTo_S1000_S_d0 : S1000.ReducesTo [0] S_
  bcast_S_S1000x34 : S_.BroadcastsInDim S1000x34 (![] : Fin 0 → Fin S1000x34.rank)
  reducesTo_S1000x34_S_d0_1 : S1000x34.ReducesTo [0, 1] S_
  bcast_S_S34 : S_.BroadcastsInDim S34 (![] : Fin 0 → Fin S34.rank)
  reducesTo_S34_S_d0 : S34.ReducesTo [0] S_

variable [Facts]

def fn_part2 {F : FTy → Type} [FloatOps F] (main_arg9 : FVec F S1000 .f32) (main_arg10 : FVec F S1000x34 .f32) (main_arg11 : FVec F S34 .f32) (main_v33 : IVec S_ 1) : IVec S_ 1 :=
  let main_v34 : FVec F S1000 .f32 := Host.absf main_arg9
  let main_cst_12 : FVec F S_ .f32 := constant S_ .f32 0x7F800000#32
  let main_v35 : FVec F S1000 .f32 := broadcastInDim S1000 ![] bcast_S_S1000 main_cst_12
  let main_v36 : IVec S1000 1 := cmpf .olt main_v34 main_v35
  let main_c_13 : IVec S_ 1 := constantI S_ 1 1#1
  let main_v37 : IVec S_ 1 := (fun x v => Host.reduce IntOp.andi x v reducesTo_S1000_S_d0 h_S_) main_v36 main_c_13
  let main_v38 : IVec S_ 1 := andi main_v33 main_v37
  let main_v39 : FVec F S1000x34 .f32 := Host.absf main_arg10
  let main_cst_14 : FVec F S_ .f32 := constant S_ .f32 0x7F800000#32
  let main_v40 : FVec F S1000x34 .f32 := broadcastInDim S1000x34 ![] bcast_S_S1000x34 main_cst_14
  let main_v41 : IVec S1000x34 1 := cmpf .olt main_v39 main_v40
  let main_c_15 : IVec S_ 1 := constantI S_ 1 1#1
  let main_v42 : IVec S_ 1 := (fun x v => Host.reduce IntOp.andi x v reducesTo_S1000x34_S_d0_1 h_S_) main_v41 main_c_15
  let main_v43 : IVec S_ 1 := andi main_v38 main_v42
  let main_v44 : FVec F S34 .f32 := Host.absf main_arg11
  let main_cst_16 : FVec F S_ .f32 := constant S_ .f32 0x7F800000#32
  let main_v45 : FVec F S34 .f32 := broadcastInDim S34 ![] bcast_S_S34 main_cst_16
  let main_v46 : IVec S34 1 := cmpf .olt main_v44 main_v45
  let main_c_17 : IVec S_ 1 := constantI S_ 1 1#1
  let main_v47 : IVec S_ 1 := (fun x v => Host.reduce IntOp.andi x v reducesTo_S34_S_d0 h_S_) main_v46 main_c_17
  let main_v48 : IVec S_ 1 := andi main_v43 main_v47
  main_v48

def fn_part1 {F : FTy → Type} [FloatOps F] (main_arg6 : FVec F S5x8x8 .f32) (main_arg7 : FVec F S8 .f32) (main_arg8 : FVec F S65536x1000 .f32) (main_arg9 : FVec F S1000 .f32) (main_arg10 : FVec F S1000x34 .f32) (main_arg11 : FVec F S34 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S5x8x8 .f32 := Host.absf main_arg6
  let main_cst_6 : FVec F S_ .f32 := constant S_ .f32 0x7F800000#32
  let main_v20 : FVec F S5x8x8 .f32 := broadcastInDim S5x8x8 ![] bcast_S_S5x8x8 main_cst_6
  let main_v21 : IVec S5x8x8 1 := cmpf .olt main_v19 main_v20
  let main_c_7 : IVec S_ 1 := constantI S_ 1 1#1
  let main_v22 : IVec S_ 1 := (fun x v => Host.reduce IntOp.andi x v reducesTo_S5x8x8_S_d0_1_2 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S65536x1000 .f32 := Host.absf main_arg8
  let main_cst_10 : FVec F S_ .f32 := constant S_ .f32 0x7F800000#32
  let main_v30 : FVec F S65536x1000 .f32 := broadcastInDim S65536x1000 ![] bcast_S_S65536x1000 main_cst_10
  let main_v31 : IVec S65536x1000 1 := cmpf .olt main_v29 main_v30
  let main_c_11 : IVec S_ 1 := constantI S_ 1 1#1
  let main_v32 : IVec S_ 1 := (fun x v => Host.reduce IntOp.andi x v reducesTo_S65536x1000_S_d0_1 h_S_) main_v31 main_c_11
  let main_v33 : IVec S_ 1 := andi main_v28 main_v32
  fn_part2 (F := F) main_arg9 main_arg10 main_arg11 main_v33

def fn {F : FTy → Type} [FloatOps F] (main_arg0 : FVec F S131072x1 .f32) (main_arg1 : IVec S2x4194304 32) (main_arg2 : FVec F S4194304 .f32) (main_arg3 : IVec S131072 32) (main_arg4 : FVec F S5x1x8 .f32) (main_arg5 : FVec F S8 .f32) (main_arg6 : FVec F S5x8x8 .f32) (main_arg7 : FVec F S8 .f32) (main_arg8 : FVec F S65536x1000 .f32) (main_arg9 : FVec F S1000 .f32) (main_arg10 : FVec F S1000x34 .f32) (main_arg11 : FVec F S34 .f32) : IVec S_ 1 :=
  let main_v0 : FVec F S131072x1 .f32 := Host.absf main_arg0
  let main_cst : FVec F S_ .f32 := constant S_ .f32 0x7F800000#32
  let main_v1 : FVec F S131072x1 .f32 := broadcastInDim S131072x1 ![] bcast_S_S131072x1 main_cst
  let main_v2 : IVec S131072x1 1 := cmpf .olt main_v0 main_v1
  let main_c : IVec S_ 1 := constantI S_ 1 1#1
  let main_v3 : IVec S_ 1 := (fun x v => Host.reduce IntOp.andi x v reducesTo_S131072x1_S_d0_1 h_S_) main_v2 main_c
  let main_v4 : FVec F S4194304 .f32 := Host.absf main_arg2
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  let main_v9 : FVec F S5x1x8 .f32 := Host.absf main_arg4
  let main_cst_2 : FVec F S_ .f32 := constant S_ .f32 0x7F800000#32
  let main_v10 : FVec F S5x1x8 .f32 := broadcastInDim S5x1x8 ![] bcast_S_S5x1x8 main_cst_2
  let main_v11 : IVec S5x1x8 1 := cmpf .olt main_v9 main_v10
  let main_c_3 : IVec S_ 1 := constantI S_ 1 1#1
  let main_v12 : IVec S_ 1 := (fun x v => Host.reduce IntOp.andi x v reducesTo_S5x1x8_S_d0_1_2 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg6 main_arg7 main_arg8 main_arg9 main_arg10 main_arg11 main_v13 main_v16
-- ==== Kernel.lean ====
abbrev S131072x1 : Shape := ⟨2, ![131072, 1]⟩
abbrev S2x4194304 : Shape := ⟨2, ![2, 4194304]⟩
abbrev S4194304 : Shape := ⟨1, ![4194304]⟩
abbrev S131072 : Shape := ⟨1, ![131072]⟩
abbrev S5x1x8 : Shape := ⟨3, ![5, 1, 8]⟩
abbrev S8 : Shape := ⟨1, ![8]⟩
abbrev S5x8x8 : Shape := ⟨3, ![5, 8, 8]⟩
abbrev S65536x1000 : Shape := ⟨2, ![65536, 1000]⟩
abbrev S1000 : Shape := ⟨1, ![1000]⟩
abbrev S1000x34 : Shape := ⟨2, ![1000, 34]⟩
abbrev S34 : Shape := ⟨1, ![34]⟩
abbrev S1x4194304 : Shape := ⟨2, ![1, 4194304]⟩
abbrev S_ : Shape := ⟨0, ![]⟩
abbrev S4194304x1 : Shape := ⟨2, ![4194304, 1]⟩
abbrev S131072x8 : Shape := ⟨2, ![131072, 8]⟩
abbrev S2048x1 : Shape := ⟨2, ![2048, 1]⟩
abbrev S2048x8 : Shape := ⟨2, ![2048, 8]⟩
abbrev S1x1x8 : Shape := ⟨3, ![1, 1, 8]⟩
abbrev S1x8 : Shape := ⟨2, ![1, 8]⟩
abbrev S4194304x8 : Shape := ⟨2, ![4194304, 8]⟩
abbrev S1x8x8 : Shape := ⟨3, ![1, 8, 8]⟩
abbrev S8x8 : Shape := ⟨2, ![8, 8]⟩
abbrev S16x65536 : Shape := ⟨2, ![16, 65536]⟩
abbrev S16x34 : Shape := ⟨2, ![16, 34]⟩
abbrev S16x2048 : Shape := ⟨2, ![16, 2048]⟩
abbrev S2048x1000 : Shape := ⟨2, ![2048, 1000]⟩
abbrev S16x1000 : Shape := ⟨2, ![16, 1000]⟩
abbrev S1x1000 : Shape := ⟨2, ![1, 1000]⟩
abbrev S1x34 : Shape := ⟨2, ![1, 34]⟩

abbrev nBuf : Space → Nat
  | .hbm => 243
  | .vmem => 37
  | .smem => 0
  | _ => 0

abbrev hbmTy0_0 (i : Nat) : BufTy := match i % 128 with
  | 0 => ⟨S131072x1, .f32⟩
  | 1 => ⟨S2x4194304, .i32⟩
  | 2 => ⟨S4194304, .f32⟩
  | 3 => ⟨S131072, .i32⟩
  | 4 => ⟨S5x1x8, .f32⟩
  | 5 => ⟨S8, .f32⟩
  | 6 => ⟨S5x8x8, .f32⟩
  | 7 => ⟨S8, .f32⟩
  | 8 => ⟨S65536x1000, .f32⟩
  | 9 => ⟨S1000, .f32⟩
  | 10 => ⟨S1000x34, .f32⟩
  | 11 => ⟨S34, .f32⟩
  | 12 => ⟨S1x4194304, .i32⟩
  | 13 => ⟨S4194304, .i32⟩
  | 14 => ⟨S1x4194304, .i32⟩
  | 15 => ⟨S4194304, .i32⟩
  | 16 => ⟨S4194304, .i1⟩
  | 17 => ⟨S4194304, .f32⟩
  | 18 => ⟨S_, .f32⟩
  | 19 => ⟨S131072, .f32⟩
  | 20 => ⟨S4194304x1, .i32⟩
  | 21 => ⟨S131072, .f32⟩
  | 22 => ⟨S_, .f32⟩
  | 23 => ⟨S131072, .f32⟩
  | 24 => ⟨S131072, .i1⟩
  | 25 => ⟨S_, .f32⟩
  | 26 => ⟨S131072, .f32⟩
  | 27 => ⟨S131072, .f32⟩
  | 28 => ⟨S131072, .f32⟩
  | 29 => ⟨S_, .f32⟩
  | 30 => ⟨S_, .f32⟩
  | 31 => ⟨S131072, .f32⟩
  | 32 => ⟨S131072, .f32⟩
  | 33 => ⟨S_, .i32⟩
  | 34 => ⟨S4194304, .i32⟩
  | 35 => ⟨S4194304, .i1⟩
  | 36 => ⟨S_, .i32⟩
  | 37 => ⟨S4194304, .i32⟩
  | 38 => ⟨S4194304, .i32⟩
  | 39 => ⟨S4194304, .i32⟩
  | 40 => ⟨S4194304x1, .i32⟩
  | 41 => ⟨S4194304, .f32⟩
  | 42 => ⟨S4194304, .f32⟩
  | 43 => ⟨S4194304, .f32⟩
  | 44 => ⟨S_, .i32⟩
  | 45 => ⟨S4194304, .i32⟩
  | 46 => ⟨S4194304, .i1⟩
  | 47 => ⟨S_, .i32⟩
  | 48 => ⟨S4194304, .i32⟩
  | 49 => ⟨S4194304, .i32⟩
  | 50 => ⟨S4194304, .i32⟩
  | 51 => ⟨S4194304x1, .i32⟩
  | 52 => ⟨S4194304, .f32⟩
  | 53 => ⟨S4194304, .f32⟩
  | 54 => ⟨S_, .f32⟩
  | 55 => ⟨S131072, .f32⟩
  | 56 => ⟨S131072, .i1⟩
  | 57 => ⟨S_, .f32⟩
  | 58 => ⟨S_, .f32⟩
  | 59 => ⟨S131072, .f32⟩
  | 60 => ⟨S131072, .f32⟩
  | 61 => ⟨S131072, .f32⟩
  | 62 => ⟨S131072x1, .f32⟩
  | 63 => ⟨S4194304x1, .f32⟩
  | 64 => ⟨S_, .i32⟩
  | 65 => ⟨S4194304, .i32⟩
  | 66 => ⟨S4194304, .i1⟩
  | 67 => ⟨S_, .i32⟩
  | 68 => ⟨S4194304, .i32⟩
  | 69 => ⟨S4194304, .i32⟩
  | 70 => ⟨S4194304, .i32⟩
  | 71 => ⟨S4194304x1, .i32⟩
  | 72 => ⟨S4194304x1, .f32⟩
  | 73 => ⟨S4194304x1, .f32⟩
  | 74 => ⟨S_, .f32⟩
  | 75 => ⟨S131072x1, .f32⟩
  | 76 => ⟨S4194304x1, .i32⟩
  | 77 => ⟨S131072x1, .f32⟩
  | 78 => ⟨S131072x1, .f32⟩
  | 79 => ⟨S131072x1, .f32⟩
  | 80 => ⟨S131072x1, .f32⟩
  | 81 => ⟨S4194304x1, .f32⟩
  | 82 => ⟨S_, .i32⟩
  | 83 => ⟨S4194304, .i32⟩
  | 84 => ⟨S4194304, .i1⟩
  | 85 => ⟨S_, .i32⟩
  | 86 => ⟨S4194304, .i32⟩
  | 87 => ⟨S4194304, .i32⟩
  | 88 => ⟨S4194304, .i32⟩
  | 89 => ⟨S4194304x1, .i32⟩
  | 90 => ⟨S4194304x1, .f32⟩
  | 91 => ⟨S4194304x1, .f32⟩
  | 92 => ⟨S_, .f32⟩
  | 93 => ⟨S131072x1, .f32⟩
  | 94 => ⟨S4194304x1, .i32⟩
  | 95 => ⟨S131072x1, .f32⟩
  | 96 => ⟨S131072x1, .f32⟩
  | 97 => ⟨S131072x1, .f32⟩
  | 98 => ⟨S131072x1, .f32⟩
  | 99 => ⟨S_, .f32⟩
  | 100 => ⟨S131072x1, .f32⟩
  | 101 => ⟨S131072x1, .f32⟩
  | 102 => ⟨S131072x1, .f32⟩
  | 103 => ⟨S4194304x1, .f32⟩
  | 104 => ⟨S_, .i32⟩
  | 105 => ⟨S4194304, .i32⟩
  | 106 => ⟨S4194304, .i1⟩
  | 107 => ⟨S_, .i32⟩
  | 108 => ⟨S4194304, .i32⟩
  | 109 => ⟨S4194304, .i32⟩
  | 110 => ⟨S4194304, .i32⟩
  | 111 => ⟨S4194304x1, .i32⟩
  | 112 => ⟨S4194304x1, .f32⟩
  | 113 => ⟨S4194304x1, .f32⟩
  | 114 => ⟨S_, .f32⟩
  | 115 => ⟨S131072x1, .f32⟩
  | 116 => ⟨S4194304x1, .i32⟩
  | 117 => ⟨S131072x1, .f32⟩
  | 118 => ⟨S131072x1, .f32⟩
  | 119 => ⟨S131072x1, .f32⟩
  | 120 => ⟨S131072x1, .f32⟩
  | 121 => ⟨S_, .f32⟩
  | 122 => ⟨S131072x1, .f32⟩
  | 123 => ⟨S131072x1, .f32⟩
  | 124 => ⟨S131072x1, .f32⟩
  | 125 => ⟨S4194304x1, .f32⟩
  | 126 => ⟨S_, .i32⟩
  | 127 => ⟨S4194304, .i32⟩
  | _ => ⟨S131072x1, .f32⟩

abbrev hbmTy0_1 (i : Nat) : BufTy := match i % 128 with
  | 0 => ⟨S4194304, .i1⟩
  | 1 => ⟨S_, .i32⟩
  | 2 => ⟨S4194304, .i32⟩
  | 3 => ⟨S4194304, .i32⟩
  | 4 => ⟨S4194304, .i32⟩
  | 5 => ⟨S4194304x1, .i32⟩
  | 6 => ⟨S4194304x1, .f32⟩
  | 7 => ⟨S4194304x1, .f32⟩
  | 8 => ⟨S_, .f32⟩
  | 9 => ⟨S131072x1, .f32⟩
  | 10 => ⟨S4194304x1, .i32⟩
  | 11 => ⟨S131072x1, .f32⟩
  | 12 => ⟨S131072x1, .f32⟩
  | 13 => ⟨S131072x1, .f32⟩
  | 14 => ⟨S131072x1, .f32⟩
  | 15 => ⟨S_, .f32⟩
  | 16 => ⟨S131072x1, .f32⟩
  | 17 => ⟨S131072x1, .f32⟩
  | 18 => ⟨S131072x1, .f32⟩
  | 19 => ⟨S131072x8, .f32⟩
  | 20 => ⟨S4194304x1, .f32⟩
  | 21 => ⟨S_, .i32⟩
  | 22 => ⟨S4194304, .i32⟩
  | 23 => ⟨S4194304, .i1⟩
  | 24 => ⟨S_, .i32⟩
  | 25 => ⟨S4194304, .i32⟩
  | 26 => ⟨S4194304, .i32⟩
  | 27 => ⟨S4194304, .i32⟩
  | 28 => ⟨S4194304x1, .i32⟩
  | 29 => ⟨S4194304x8, .f32⟩
  | 30 => ⟨S4194304x8, .f32⟩
  | 31 => ⟨S4194304x8, .f32⟩
  | 32 => ⟨S_, .f32⟩
  | 33 => ⟨S131072x8, .f32⟩
  | 34 => ⟨S4194304x1, .i32⟩
  | 35 => ⟨S131072x8, .f32⟩
  | 36 => ⟨S131072x1, .f32⟩
  | 37 => ⟨S131072x8, .f32⟩
  | 38 => ⟨S131072x8, .f32⟩
  | 39 => ⟨S131072x8, .f32⟩
  | 40 => ⟨S4194304x1, .f32⟩
  | 41 => ⟨S_, .i32⟩
  | 42 => ⟨S4194304, .i32⟩
  | 43 => ⟨S4194304, .i1⟩
  | 44 => ⟨S_, .i32⟩
  | 45 => ⟨S4194304, .i32⟩
  | 46 => ⟨S4194304, .i32⟩
  | 47 => ⟨S4194304, .i32⟩
  | 48 => ⟨S4194304x1, .i32⟩
  | 49 => ⟨S4194304x8, .f32⟩
  | 50 => ⟨S4194304x8, .f32⟩
  | 51 => ⟨S4194304x8, .f32⟩
  | 52 => ⟨S_, .f32⟩
  | 53 => ⟨S131072x8, .f32⟩
  | 54 => ⟨S4194304x1, .i32⟩
  | 55 => ⟨S131072x8, .f32⟩
  | 56 => ⟨S131072x1, .f32⟩
  | 57 => ⟨S131072x8, .f32⟩
  | 58 => ⟨S131072x8, .f32⟩
  | 59 => ⟨S131072x8, .f32⟩
  | 60 => ⟨S_, .f32⟩
  | 61 => ⟨S131072x8, .f32⟩
  | 62 => ⟨S131072x8, .f32⟩
  | 63 => ⟨S131072x8, .f32⟩
  | 64 => ⟨S4194304x1, .f32⟩
  | 65 => ⟨S_, .i32⟩
  | 66 => ⟨S4194304, .i32⟩
  | 67 => ⟨S4194304, .i1⟩
  | 68 => ⟨S_, .i32⟩
  | 69 => ⟨S4194304, .i32⟩
  | 70 => ⟨S4194304, .i32⟩
  | 71 => ⟨S4194304, .i32⟩
  | 72 => ⟨S4194304x1, .i32⟩
  | 73 => ⟨S4194304x8, .f32⟩
  | 74 => ⟨S4194304x8, .f32⟩
  | 75 => ⟨S4194304x8, .f32⟩
  | 76 => ⟨S_, .f32⟩
  | 77 => ⟨S131072x8, .f32⟩
  | 78 => ⟨S4194304x1, .i32⟩
  | 79 => ⟨S131072x8, .f32⟩
  | 80 => ⟨S131072x1, .f32⟩
  | 81 => ⟨S131072x8, .f32⟩
  | 82 => ⟨S131072x8, .f32⟩
  | 83 => ⟨S131072x8, .f32⟩
  | 84 => ⟨S_, .f32⟩
  | 85 => ⟨S131072x8, .f32⟩
  | 86 => ⟨S131072x8, .f32⟩
  | 87 => ⟨S131072x8, .f32⟩
  | 88 => ⟨S4194304x1, .f32⟩
  | 89 => ⟨S_, .i32⟩
  | 90 => ⟨S4194304, .i32⟩
  | 91 => ⟨S4194304, .i1⟩
  | 92 => ⟨S_, .i32⟩
  | 93 => ⟨S4194304, .i32⟩
  | 94 => ⟨S4194304, .i32⟩
  | 95 => ⟨S4194304, .i32⟩
  | 96 => ⟨S4194304x1, .i32⟩
  | 97 => ⟨S4194304x8, .f32⟩
  | 98 => ⟨S4194304x8, .f32⟩
  | 99 => ⟨S4194304x8, .f32⟩
  | 100 => ⟨S_, .f32⟩
  | 101 => ⟨S131072x8, .f32⟩
  | 102 => ⟨S4194304x1, .i32⟩
  | 103 => ⟨S131072x8, .f32⟩
  | 104 => ⟨S131072x1, .f32⟩
  | 105 => ⟨S131072x8, .f32⟩
  | 106 => ⟨S131072x8, .f32⟩
  | 107 => ⟨S131072x8, .f32⟩
  | 108 => ⟨S_, .f32⟩
  | 109 => ⟨S131072x8, .f32⟩
  | 110 => ⟨S131072x8, .f32⟩
  | 111 => ⟨S131072x8, .f32⟩
  | 112 => ⟨S131072x8, .f32⟩
  | 113 => ⟨S16x65536, .f32⟩
  | 114 => ⟨S16x34, .f32⟩
  | _ => ⟨S131072x1, .f32⟩

abbrev hbmTy (i : Nat) : BufTy := match i / 128 with
  | 0 => hbmTy0_0 i
  | 1 => hbmTy0_1 i
  | _ => ⟨S131072x1, .f32⟩

abbrev bufTy : (tb : Table) → Fin (tcTables nBuf tb) → BufTy
  | .hbm, ⟨i, _⟩ => hbmTy i
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S5x1x8, .f32⟩
  | .local _ .vmem, ⟨11, _⟩ => ⟨S8, .f32⟩
  | .local _ .vmem, ⟨12, _⟩ => ⟨S2048x8, .f32⟩
  | .local _ .vmem, ⟨13, _⟩ => ⟨S2048x8, .f32⟩
  | .local _ .vmem, ⟨14, _⟩ => ⟨S2048x8, .f32⟩
  | .local _ .vmem, ⟨15, _⟩ => ⟨S2048x8, .f32⟩
  | .local _ .vmem, ⟨16, _⟩ => ⟨S2048x8, .f32⟩
  | .local _ .vmem, ⟨17, _⟩ => ⟨S2048x8, .f32⟩
  | .local _ .vmem, ⟨18, _⟩ => ⟨S2048x8, .f32⟩
  | .local _ .vmem, ⟨19, _⟩ => ⟨S2048x8, .f32⟩
  | .local _ .vmem, ⟨20, _⟩ => ⟨S2048x8, .f32⟩
  | .local _ .vmem, ⟨21, _⟩ => ⟨S2048x8, .f32⟩
  | .local _ .vmem, ⟨22, _⟩ => ⟨S2048x8, .f32⟩
  | .local _ .vmem, ⟨23, _⟩ => ⟨S2048x8, .f32⟩
  | .local _ .vmem, ⟨24, _⟩ => ⟨S5x8x8, .f32⟩
  | .local _ .vmem, ⟨25, _⟩ => ⟨S8, .f32⟩
  | .local _ .vmem, ⟨26, _⟩ => ⟨S2048x8, .f32⟩
  | .local _ .vmem, ⟨27, _⟩ => ⟨S2048x8, .f32⟩
  | .local _ .vmem, ⟨28, _⟩ => ⟨S16x2048, .f32⟩
  | .local _ .vmem, ⟨29, _⟩ => ⟨S16x2048, .f32⟩
  | .local _ .vmem, ⟨30, _⟩ => ⟨S2048x1000, .f32⟩
  | .local _ .vmem, ⟨31, _⟩ => ⟨S2048x1000, .f32⟩
  | .local _ .vmem, ⟨32, _⟩ => ⟨S1000, .f32⟩
  | .local _ .vmem, ⟨33, _⟩ => ⟨S1000x34, .f32⟩
  | .local _ .vmem, ⟨34, _⟩ => ⟨S34, .f32⟩
  | .local _ .vmem, ⟨35, _⟩ => ⟨S16x34, .f32⟩
  | .local _ .vmem, ⟨36, _⟩ => ⟨S16x1000, .f32⟩
  | _, _ => ⟨S131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_cst_8 : Ref sig .tc := ⟨.hbm, 58, rfl⟩
abbrev main_call1_v0 : Ref sig .tc := ⟨.hbm, 59, rfl⟩
abbrev main_call1_v1 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_c_10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_v52 : Ref sig .tc := ⟨.hbm, 83, rfl⟩
abbrev main_v53 : Ref sig .tc := ⟨.hbm, 84, rfl⟩
abbrev main_c_13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_14 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_16 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_18 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_19 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_20 : Ref sig .tc := ⟨.hbm, 126, rfl⟩
abbrev main_v88 : Ref sig .tc := ⟨.hbm, 127, rfl⟩
abbrev main_v89 : Ref sig .tc := ⟨.hbm, 128, rfl⟩
abbrev main_c_21 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_22 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_23 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_c_24 : Ref sig .tc := ⟨.hbm, 149, rfl⟩
abbrev main_v107 : Ref sig .tc := ⟨.hbm, 150, rfl⟩
abbrev main_v108 : Ref sig .tc := ⟨.hbm, 151, rfl⟩
abbrev main_c_25 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_26 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_27 : Ref sig .tc := ⟨.hbm, 169, rfl⟩
abbrev main_v124 : Ref sig .tc := ⟨.hbm, 170, rfl⟩
abbrev main_v125 : Ref sig .tc := ⟨.hbm, 171, rfl⟩
abbrev main_c_28 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_29 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_30 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_c_31 : Ref sig .tc := ⟨.hbm, 193, rfl⟩
abbrev main_v144 : Ref sig .tc := ⟨.hbm, 194, rfl⟩
abbrev main_v145 : Ref sig .tc := ⟨.hbm, 195, rfl⟩
abbrev main_c_32 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_33 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_34 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_c_35 : Ref sig .tc := ⟨.hbm, 217, rfl⟩
abbrev main_v164 : Ref sig .tc := ⟨.hbm, 218, rfl⟩
abbrev main_v165 : Ref sig .tc := ⟨.hbm, 219, rfl⟩
abbrev main_c_36 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_cst_37 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_cst_38 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5x1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S5x8x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def k2_cond2 (i : grid2.Coords) : BitVec 1 :=
  let arg0 : BitVec 32 := BitVec.ofNat 32 (i 0).val
  let c31_i32 : BitVec 32 := 31#32
  let v14 : BitVec 1 := Scalar.cmpi .eq arg0 c31_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S16x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1000x34 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S34 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x34 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S131072 : S_.BroadcastsInDim S131072 (![] : Fin 0 → Fin S131072.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  bcast_S131072_S131072x1_0 : S131072.BroadcastsInDim S131072x1 (![0] : Fin 1 → Fin S131072x1.rank)
  bcast_S_S131072x1 : S_.BroadcastsInDim S131072x1 (![] : Fin 0 → Fin S131072x1.rank)
  inb_S2048x1_S2048x1_0_0 : ∀ a, (![0, 0] : Fin 2 → Nat) a + S2048x1.size a ≤ S2048x1.size a
  h_S2048x1 : 0 < S2048x1.numel
  bitsLt_bf16_f32 : FTy.bits .bf16 < FTy.bits .f32
  inb_S5x1x8_S1x1x8_0_0_0 : ∀ a, (![0, 0, 0] : Fin 3 → Nat) a + S1x1x8.size a ≤ S5x1x8.size a
  h_S1x1x8 : 0 < S1x1x8.numel
  shapeCasts_S1x1x8_S1x8 : S1x1x8.ShapeCasts S1x8
  shapeCasts_S2048x1_S2048x1 : S2048x1.ShapeCasts S2048x1
  inb_S5x1x8_S1x1x8_1_0_0 : ∀ a, (![1, 0, 0] : Fin 3 → Nat) a + S1x1x8.size a ≤ S5x1x8.size a
  inb_S5x1x8_S1x1x8_2_0_0 : ∀ a, (![2, 0, 0] : Fin 3 → Nat) a + S1x1x8.size a ≤ S5x1x8.size a
  inb_S5x1x8_S1x1x8_3_0_0 : ∀ a, (![3, 0, 0] : Fin 3 → Nat) a + S1x1x8.size a ≤ S5x1x8.size a
  inb_S5x1x8_S1x1x8_4_0_0 : ∀ a, (![4, 0, 0] : Fin 3 → Nat) a + S1x1x8.size a ≤ S5x1x8.size a
  inb_S8_S8_0 : ∀ a, (![0] : Fin 1 → Nat) a + S8.size a ≤ S8.size a
  h_S8 : 0 < S8.numel
  shapeCasts_S8_S1x8 : S8.ShapeCasts S1x8
  broadcasts_S1x8_S2048x8 : S1x8.Broadcasts S2048x8
  inb_S2048x8_S2048x8_0_0 : ∀ a, (![0, 0] : Fin 2 → Nat) a + S2048x8.size a ≤ S2048x8.size a
  h_S2048x8 : 0 < S2048x8.numel
  bcast_S4194304x1_S4194304x8_0_1 : S4194304x1.BroadcastsInDim S4194304x8 (![0, 1] : Fin 2 → Fin S4194304x8.rank)
  bcast_S_S131072x8 : S_.BroadcastsInDim S131072x8 (![] : Fin 0 → Fin S131072x8.rank)
  bcast_S131072x1_S131072x8_0_1 : S131072x1.BroadcastsInDim S131072x8 (![0, 1] : Fin 2 → Fin S131072x8.rank)
  shapeCasts_S2048x8_S2048x8 : S2048x8.ShapeCasts S2048x8
  inb_S5x8x8_S1x8x8_0_0_0 : ∀ a, (![0, 0, 0] : Fin 3 → Nat) a + S1x8x8.size a ≤ S5x8x8.size a
  h_S1x8x8 : 0 < S1x8x8.numel
  shapeCasts_S1x8x8_S8x8 : S1x8x8.ShapeCasts S8x8
  inb_S5x8x8_S1x8x8_1_0_0 : ∀ a, (![1, 0, 0] : Fin 3 → Nat) a + S1x8x8.size a ≤ S5x8x8.size a
  inb_S5x8x8_S1x8x8_2_0_0 : ∀ a, (![2, 0, 0] : Fin 3 → Nat) a + S1x8x8.size a ≤ S5x8x8.size a
  inb_S5x8x8_S1x8x8_3_0_0 : ∀ a, (![3, 0, 0] : Fin 3 → Nat) a + S1x8x8.size a ≤ S5x8x8.size a
  inb_S5x8x8_S1x8x8_4_0_0 : ∀ a, (![4, 0, 0] : Fin 3 → Nat) a + S1x8x8.size a ≤ S5x8x8.size a
  shapeCasts_S131072x8_S16x65536 : S131072x8.ShapeCasts S16x65536
  inb_S16x1000_S16x1000_0_0 : ∀ a, (![0, 0] : Fin 2 → Nat) a + S16x1000.size a ≤ S16x1000.size a
  h_S16x1000 : 0 < S16x1000.numel
  shapeCasts_S16x1000_S16x1000 : S16x1000.ShapeCasts S16x1000
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S2048x1000_S2048x1000_0_0 : ∀ a, (![0, 0] : Fin 2 → Nat) a + S2048x1000.size a ≤ S2048x1000.size a
  h_S2048x1000 : 0 < S2048x1000.numel
  inb_S1000_S1000_0 : ∀ a, (![0] : Fin 1 → Nat) a + S1000.size a ≤ S1000.size a
  h_S1000 : 0 < S1000.numel
  shapeCasts_S1000_S1x1000 : S1000.ShapeCasts S1x1000
  broadcasts_S1x1000_S16x1000 : S1x1000.Broadcasts S16x1000
  inb_S1000x34_S1000x34_0_0 : ∀ a, (![0, 0] : Fin 2 → Nat) a + S1000x34.size a ≤ S1000x34.size a
  h_S1000x34 : 0 < S1000x34.numel
  inb_S34_S34_0 : ∀ a, (![0] : Fin 1 → Nat) a + S34.size a ≤ S34.size a
  h_S34 : 0 < S34.numel
  shapeCasts_S34_S1x34 : S34.ShapeCasts S1x34
  broadcasts_S1x34_S16x34 : S1x34.Broadcasts S16x34
  inb_S16x34_S16x34_0_0 : ∀ a, (![0, 0] : Fin 2 → Nat) a + S16x34.size a ≤ S16x34.size a
  h_S16x34 : 0 < S16x34.numel
  scatter_S131072_S4194304x1_S4194304_n_0_0_1_wf : ScatterDims.WF S131072 S4194304x1 S4194304 [] [0] [0] 1
  gather_S131072_S4194304x1_S4194304_n_0_n_n_0_1_1_wf : GatherDims.WF S131072 S4194304x1 S4194304 [] [0] [] [0] [] 1 ![1]
  gather_S131072x1_S4194304x1_S4194304x1_1_0_n_n_0_1_11_wf : GatherDims.WF S131072x1 S4194304x1 S4194304x1 [1] [0] [] [0] [] 1 ![1, 1]
  scatter_S131072x1_S4194304x1_S4194304x1_1_0_0_1_wf : ScatterDims.WF S131072x1 S4194304x1 S4194304x1 [1] [0] [0] 1
  dot_S2048x1_S1x8_S2048x8_1_0_0_1_n_n_wf : DotDims.WF S2048x1 S1x8 S2048x8 [1] [0] [0] [1] [] []
  gather_S131072x8_S4194304x1_S4194304x8_1_0_n_n_0_1_18_wf : GatherDims.WF S131072x8 S4194304x1 S4194304x8 [1] [0] [] [0] [] 1 ![1, 8]
  scatter_S131072x8_S4194304x1_S4194304x8_1_0_0_1_wf : ScatterDims.WF S131072x8 S4194304x1 S4194304x8 [1] [0] [0] 1
  dot_S2048x8_S8x8_S2048x8_1_0_0_1_n_n_wf : DotDims.WF S2048x8 S8x8 S2048x8 [1] [0] [0] [1] [] []
  dot_S16x2048_S2048x1000_S16x1000_1_0_0_1_n_n_wf : DotDims.WF S16x2048 S2048x1000 S16x1000 [1] [0] [0] [1] [] []
  dot_S16x1000_S1000x34_S16x34_1_0_0_1_n_n_wf : DotDims.WF S16x1000 S1000x34 S16x34 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S131072x1.size a
  hwx0_0 : ∀ i : grid0.Coords, EltTy.bits .f32 = 32 ∨ (Rect.block (s := S131072x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .f32 = 32 ∨ (Rect.block (s := S131072x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S131072x1.size a
  hwx0_2 : ∀ i : grid0.Coords, EltTy.bits .f32 = 32 ∨ (Rect.block (s := S131072x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S131072x1.size a
  hwx0_3 : ∀ i : grid0.Coords, EltTy.bits .f32 = 32 ∨ (Rect.block (s := S131072x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S131072x1.size a
  hwx0_4 : ∀ i : grid0.Coords, EltTy.bits .f32 = 32 ∨ (Rect.block (s := S131072x1) S2048x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x1x8.size a ≤ S5x1x8.size a
  hwx0_5 : ∀ i : grid0.Coords, EltTy.bits .f32 = 32 ∨ (Rect.block (s := S5x1x8) S5x1x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x8.size a ≤ S131072x8.size a
  hwx0_7 : ∀ i : grid0.Coords, EltTy.bits .f32 = 32 ∨ (Rect.block (s := S131072x8) S2048x8.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x8.size a ≤ S131072x8.size a
  hwx1_0 : ∀ i : grid1.Coords, EltTy.bits .f32 = 32 ∨ (Rect.block (s := S131072x8) S2048x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x8.size a ≤ S131072x8.size a
  hwx1_1 : ∀ i : grid1.Coords, EltTy.bits .f32 = 32 ∨ (Rect.block (s := S131072x8) S2048x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x8.size a ≤ S131072x8.size a
  hwx1_2 : ∀ i : grid1.Coords, EltTy.bits .f32 = 32 ∨ (Rect.block (s := S131072x8) S2048x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x8.size a ≤ S131072x8.size a
  hwx1_3 : ∀ i : grid1.Coords, EltTy.bits .f32 = 32 ∨ (Rect.block (s := S131072x8) S2048x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x8.size a ≤ S131072x8.size a
  hwx1_4 : ∀ i : grid1.Coords, EltTy.bits .f32 = 32 ∨ (Rect.block (s := S131072x8) S2048x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5x8x8.size a ≤ S5x8x8.size a
  hwx1_5 : ∀ i : grid1.Coords, EltTy.bits .f32 = 32 ∨ (Rect.block (s := S5x8x8) S5x8x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8.size a ≤ S8.size a
  hwx1_6 : ∀ i : grid1.Coords, EltTy.bits .f32 = 32 ∨ (Rect.block (s := S8) S8.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x8.size a ≤ S131072x8.size a
  hwx1_7 : ∀ i : grid1.Coords, EltTy.bits .f32 = 32 ∨ (Rect.block (s := S131072x8) S2048x8.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x2048.size a ≤ S16x65536.size a
  hwx2_0 : ∀ i : grid2.Coords, EltTy.bits .f32 = 32 ∨ (Rect.block (s := S16x65536) S16x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1000.size a ≤ S65536x1000.size a
  hwx2_1 : ∀ i : grid2.Coords, EltTy.bits .f32 = 32 ∨ (Rect.block (s := S65536x1000) S2048x1000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1000.size a ≤ S1000.size a
  hwx2_2 : ∀ i : grid2.Coords, EltTy.bits .f32 = 32 ∨ (Rect.block (s := S1000) S1000.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1000x34.size a ≤ S1000x34.size a
  hwx2_3 : ∀ i : grid2.Coords, EltTy.bits .f32 = 32 ∨ (Rect.block (s := S1000x34) S1000x34.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S34.size a ≤ S34.size a
  hwx2_4 : ∀ i : grid2.Coords, EltTy.bits .f32 = 32 ∨ (Rect.block (s := S34) S34.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x34.size a ≤ S16x34.size a
  hwx2_5 : ∀ i : grid2.Coords, EltTy.bits .f32 = 32 ∨ (Rect.block (s := S16x34) S16x34.size (cc2_transform_5 i) (hinb2_5 i)).WholeWords (EltTy.packing .f32)

variable [Facts₀]

def scatter_S131072_S4194304x1_S4194304_n_0_0_1 : ScatterDims S131072 S4194304x1 S4194304 where
  updateWindowDims := []
  insertedWindowDims := [0]
  scatterDimsToOperandDims := [0]
  indexVectorDim := 1
  wf := scatter_S131072_S4194304x1_S4194304_n_0_0_1_wf
def gather_S131072_S4194304x1_S4194304_n_0_n_n_0_1_1 : GatherDims S131072 S4194304x1 S4194304 where
  offsetDims := []
  collapsedSliceDims := [0]
  operandBatchingDims := []
  startIndicesBatchingDims := []
  startIndexMap := [0]
  indexVectorDim := 1
  sliceSizes := ![1]
  wf := gather_S131072_S4194304x1_S4194304_n_0_n_n_0_1_1_wf
def gather_S131072x1_S4194304x1_S4194304x1_1_0_n_n_0_1_11 : GatherDims S131072x1 S4194304x1 S4194304x1 where
  offsetDims := [1]
  collapsedSliceDims := [0]
  operandBatchingDims := []
  startIndicesBatchingDims := []
  startIndexMap := [0]
  indexVectorDim := 1
  sliceSizes := ![1, 1]
  wf := gather_S131072x1_S4194304x1_S4194304x1_1_0_n_n_0_1_11_wf
def scatter_S131072x1_S4194304x1_S4194304x1_1_0_0_1 : ScatterDims S131072x1 S4194304x1 S4194304x1 where
  updateWindowDims := [1]
  insertedWindowDims := [0]
  scatterDimsToOperandDims := [0]
  indexVectorDim := 1
  wf := scatter_S131072x1_S4194304x1_S4194304x1_1_0_0_1_wf
def dot_S2048x1_S1x8_S2048x8_1_0_0_1_n_n : DotDims S2048x1 S1x8 S2048x8 where
  lhsContracting := [1]
  rhsContracting := [0]
  lhsNonContracting := [0]
  rhsNonContracting := [1]
  lhsBatch := []
  rhsBatch := []
  wf := dot_S2048x1_S1x8_S2048x8_1_0_0_1_n_n_wf
def gather_S131072x8_S4194304x1_S4194304x8_1_0_n_n_0_1_18 : GatherDims S131072x8 S4194304x1 S4194304x8 where
  offsetDims := [1]
  collapsedSliceDims := [0]
  operandBatchingDims := []
  startIndicesBatchingDims := []
  startIndexMap := [0]
  indexVectorDim := 1
  sliceSizes := ![1, 8]
  wf := gather_S131072x8_S4194304x1_S4194304x8_1_0_n_n_0_1_18_wf
def scatter_S131072x8_S4194304x1_S4194304x8_1_0_0_1 : ScatterDims S131072x8 S4194304x1 S4194304x8 where
  updateWindowDims := [1]
  insertedWindowDims := [0]
  scatterDimsToOperandDims := [0]
  indexVectorDim := 1
  wf := scatter_S131072x8_S4194304x1_S4194304x8_1_0_0_1_wf
def dot_S2048x8_S8x8_S2048x8_1_0_0_1_n_n : DotDims S2048x8 S8x8 S2048x8 where
  lhsContracting := [1]
  rhsContracting := [0]
  lhsNonContracting := [0]
  rhsNonContracting := [1]
  lhsBatch := []
  rhsBatch := []
  wf := dot_S2048x8_S8x8_S2048x8_1_0_0_1_n_n_wf
def dot_S16x2048_S2048x1000_S16x1000_1_0_0_1_n_n : DotDims S16x2048 S2048x1000 S16x1000 where
  lhsContracting := [1]
  rhsContracting := [0]
  lhsNonContracting := [0]
  rhsNonContracting := [1]
  lhsBatch := []
  rhsBatch := []
  wf := dot_S16x2048_S2048x1000_S16x1000_1_0_0_1_n_n_wf
def dot_S16x1000_S1000x34_S16x34_1_0_0_1_n_n : DotDims S16x1000 S1000x34 S16x34 where
  lhsContracting := [1]
  rhsContracting := [0]
  lhsNonContracting := [0]
  rhsNonContracting := [1]
  lhsBatch := []
  rhsBatch := []
  wf := dot_S16x1000_S1000x34_S16x34_1_0_0_1_n_n_wf

abbrev win0_0 : Pipeline.Window sig grid0 :=
  Pipeline.Window.ofSpec (Memref.whole main_arg0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v68) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v86) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v104) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S5x1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v105) S2048x8.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v105) S2048x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v122) S2048x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v142) S2048x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v162) S2048x8.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v182) S2048x8.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S5x8x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v183) S2048x8.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v184) S16x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S2048x1000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S1000x34.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S34.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v185) S16x34.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S131072x1 : Shape := ⟨2, ![131072, 1]⟩
abbrev S2x4194304 : Shape := ⟨2, ![2, 4194304]⟩
abbrev S4194304 : Shape := ⟨1, ![4194304]⟩
abbrev S131072 : Shape := ⟨1, ![131072]⟩
abbrev S5x1x8 : Shape := ⟨3, ![5, 1, 8]⟩
abbrev S8 : Shape := ⟨1, ![8]⟩
abbrev S5x8x8 : Shape := ⟨3, ![5, 8, 8]⟩
abbrev S65536x1000 : Shape := ⟨2, ![65536, 1000]⟩
abbrev S1000 : Shape := ⟨1, ![1000]⟩
abbrev S1000x34 : Shape := ⟨2, ![1000, 34]⟩
abbrev S34 : Shape := ⟨1, ![34]⟩
abbrev S1x4194304 : Shape := ⟨2, ![1, 4194304]⟩
abbrev S_ : Shape := ⟨0, ![]⟩
abbrev S4194304x1 : Shape := ⟨2, ![4194304, 1]⟩
abbrev S1x1x8 : Shape := ⟨3, ![1, 1, 8]⟩
abbrev S1x8 : Shape := ⟨2, ![1, 8]⟩
abbrev S131072x8 : Shape := ⟨2, ![131072, 8]⟩
abbrev S1x8x8 : Shape := ⟨3, ![1, 8, 8]⟩
abbrev S8x8 : Shape := ⟨2, ![8, 8]⟩
abbrev S4194304x8 : Shape := ⟨2, ![4194304, 8]⟩
abbrev S16x65536 : Shape := ⟨2, ![16, 65536]⟩
abbrev S16x1000 : Shape := ⟨2, ![16, 1000]⟩
abbrev S1x1000 : Shape := ⟨2, ![1, 1000]⟩
abbrev S16x34 : Shape := ⟨2, ![16, 34]⟩
abbrev S1x34 : Shape := ⟨2, ![1, 34]⟩

abbrev nBuf : Space → Nat
  | .hbm => 301
  | .vmem => 0
  | .smem => 0
  | _ => 0

abbrev hbmTy0_0 (i : Nat) : BufTy := match i % 128 with
  | 0 => ⟨S131072x1, .f32⟩
  | 1 => ⟨S2x4194304, .i32⟩
  | 2 => ⟨S4194304, .f32⟩
  | 3 => ⟨S131072, .i32⟩
  | 4 => ⟨S5x1x8, .f32⟩
  | 5 => ⟨S8, .f32⟩
  | 6 => ⟨S5x8x8, .f32⟩
  | 7 => ⟨S8, .f32⟩
  | 8 => ⟨S65536x1000, .f32⟩
  | 9 => ⟨S1000, .f32⟩
  | 10 => ⟨S1000x34, .f32⟩
  | 11 => ⟨S34, .f32⟩
  | 12 => ⟨S1x4194304, .i32⟩
  | 13 => ⟨S4194304, .i32⟩
  | 14 => ⟨S1x4194304, .i32⟩
  | 15 => ⟨S4194304, .i32⟩
  | 16 => ⟨S4194304, .i1⟩
  | 17 => ⟨S4194304, .f32⟩
  | 18 => ⟨S_, .f32⟩
  | 19 => ⟨S131072, .f32⟩
  | 20 => ⟨S4194304x1, .i32⟩
  | 21 => ⟨S131072, .f32⟩
  | 22 => ⟨S_, .f32⟩
  | 23 => ⟨S131072, .f32⟩
  | 24 => ⟨S131072, .i1⟩
  | 25 => ⟨S_, .f32⟩
  | 26 => ⟨S131072, .f32⟩
  | 27 => ⟨S131072, .f32⟩
  | 28 => ⟨S131072, .f32⟩
  | 29 => ⟨S_, .f32⟩
  | 30 => ⟨S_, .f32⟩
  | 31 => ⟨S131072, .f32⟩
  | 32 => ⟨S131072, .f32⟩
  | 33 => ⟨S_, .i32⟩
  | 34 => ⟨S4194304, .i32⟩
  | 35 => ⟨S4194304, .i1⟩
  | 36 => ⟨S_, .i32⟩
  | 37 => ⟨S4194304, .i32⟩
  | 38 => ⟨S4194304, .i32⟩
  | 39 => ⟨S4194304, .i32⟩
  | 40 => ⟨S4194304x1, .i32⟩
  | 41 => ⟨S4194304, .f32⟩
  | 42 => ⟨S4194304, .f32⟩
  | 43 => ⟨S4194304, .f32⟩
  | 44 => ⟨S_, .i32⟩
  | 45 => ⟨S4194304, .i32⟩
  | 46 => ⟨S4194304, .i1⟩
  | 47 => ⟨S_, .i32⟩
  | 48 => ⟨S4194304, .i32⟩
  | 49 => ⟨S4194304, .i32⟩
  | 50 => ⟨S4194304, .i32⟩
  | 51 => ⟨S4194304x1, .i32⟩
  | 52 => ⟨S4194304, .f32⟩
  | 53 => ⟨S4194304, .f32⟩
  | 54 => ⟨S_, .f32⟩
  | 55 => ⟨S131072, .f32⟩
  | 56 => ⟨S131072, .i1⟩
  | 57 => ⟨S_, .f32⟩
  | 58 => ⟨S_, .f32⟩
  | 59 => ⟨S131072, .f32⟩
  | 60 => ⟨S131072, .f32⟩
  | 61 => ⟨S131072, .f32⟩
  | 62 => ⟨S131072x1, .f32⟩
  | 63 => ⟨S1x1x8, .f32⟩
  | 64 => ⟨S1x8, .f32⟩
  | 65 => ⟨S131072x8, .f32⟩
  | 66 => ⟨S4194304x1, .f32⟩
  | 67 => ⟨S_, .i32⟩
  | 68 => ⟨S4194304, .i32⟩
  | 69 => ⟨S4194304, .i1⟩
  | 70 => ⟨S_, .i32⟩
  | 71 => ⟨S4194304, .i32⟩
  | 72 => ⟨S4194304, .i32⟩
  | 73 => ⟨S4194304, .i32⟩
  | 74 => ⟨S4194304x1, .i32⟩
  | 75 => ⟨S4194304x1, .f32⟩
  | 76 => ⟨S4194304x1, .f32⟩
  | 77 => ⟨S_, .f32⟩
  | 78 => ⟨S131072x1, .f32⟩
  | 79 => ⟨S4194304x1, .i32⟩
  | 80 => ⟨S131072x1, .f32⟩
  | 81 => ⟨S131072x1, .f32⟩
  | 82 => ⟨S131072x1, .f32⟩
  | 83 => ⟨S131072x1, .f32⟩
  | 84 => ⟨S1x1x8, .f32⟩
  | 85 => ⟨S1x8, .f32⟩
  | 86 => ⟨S131072x8, .f32⟩
  | 87 => ⟨S131072x8, .f32⟩
  | 88 => ⟨S4194304x1, .f32⟩
  | 89 => ⟨S_, .i32⟩
  | 90 => ⟨S4194304, .i32⟩
  | 91 => ⟨S4194304, .i1⟩
  | 92 => ⟨S_, .i32⟩
  | 93 => ⟨S4194304, .i32⟩
  | 94 => ⟨S4194304, .i32⟩
  | 95 => ⟨S4194304, .i32⟩
  | 96 => ⟨S4194304x1, .i32⟩
  | 97 => ⟨S4194304x1, .f32⟩
  | 98 => ⟨S4194304x1, .f32⟩
  | 99 => ⟨S_, .f32⟩
  | 100 => ⟨S131072x1, .f32⟩
  | 101 => ⟨S4194304x1, .i32⟩
  | 102 => ⟨S131072x1, .f32⟩
  | 103 => ⟨S131072x1, .f32⟩
  | 104 => ⟨S131072x1, .f32⟩
  | 105 => ⟨S131072x1, .f32⟩
  | 106 => ⟨S_, .f32⟩
  | 107 => ⟨S131072x1, .f32⟩
  | 108 => ⟨S131072x1, .f32⟩
  | 109 => ⟨S131072x1, .f32⟩
  | 110 => ⟨S1x1x8, .f32⟩
  | 111 => ⟨S1x8, .f32⟩
  | 112 => ⟨S131072x8, .f32⟩
  | 113 => ⟨S131072x8, .f32⟩
  | 114 => ⟨S4194304x1, .f32⟩
  | 115 => ⟨S_, .i32⟩
  | 116 => ⟨S4194304, .i32⟩
  | 117 => ⟨S4194304, .i1⟩
  | 118 => ⟨S_, .i32⟩
  | 119 => ⟨S4194304, .i32⟩
  | 120 => ⟨S4194304, .i32⟩
  | 121 => ⟨S4194304, .i32⟩
  | 122 => ⟨S4194304x1, .i32⟩
  | 123 => ⟨S4194304x1, .f32⟩
  | 124 => ⟨S4194304x1, .f32⟩
  | 125 => ⟨S_, .f32⟩
  | 126 => ⟨S131072x1, .f32⟩
  | 127 => ⟨S4194304x1, .i32⟩
  | _ => ⟨S131072x1, .f32⟩

abbrev hbmTy0_1 (i : Nat) : BufTy := match i % 128 with
  | 0 => ⟨S131072x1, .f32⟩
  | 1 => ⟨S131072x1, .f32⟩
  | 2 => ⟨S131072x1, .f32⟩
  | 3 => ⟨S131072x1, .f32⟩
  | 4 => ⟨S_, .f32⟩
  | 5 => ⟨S131072x1, .f32⟩
  | 6 => ⟨S131072x1, .f32⟩
  | 7 => ⟨S131072x1, .f32⟩
  | 8 => ⟨S1x1x8, .f32⟩
  | 9 => ⟨S1x8, .f32⟩
  | 10 => ⟨S131072x8, .f32⟩
  | 11 => ⟨S131072x8, .f32⟩
  | 12 => ⟨S4194304x1, .f32⟩
  | 13 => ⟨S_, .i32⟩
  | 14 => ⟨S4194304, .i32⟩
  | 15 => ⟨S4194304, .i1⟩
  | 16 => ⟨S_, .i32⟩
  | 17 => ⟨S4194304, .i32⟩
  | 18 => ⟨S4194304, .i32⟩
  | 19 => ⟨S4194304, .i32⟩
  | 20 => ⟨S4194304x1, .i32⟩
  | 21 => ⟨S4194304x1, .f32⟩
  | 22 => ⟨S4194304x1, .f32⟩
  | 23 => ⟨S_, .f32⟩
  | 24 => ⟨S131072x1, .f32⟩
  | 25 => ⟨S4194304x1, .i32⟩
  | 26 => ⟨S131072x1, .f32⟩
  | 27 => ⟨S131072x1, .f32⟩
  | 28 => ⟨S131072x1, .f32⟩
  | 29 => ⟨S131072x1, .f32⟩
  | 30 => ⟨S_, .f32⟩
  | 31 => ⟨S131072x1, .f32⟩
  | 32 => ⟨S131072x1, .f32⟩
  | 33 => ⟨S131072x1, .f32⟩
  | 34 => ⟨S1x1x8, .f32⟩
  | 35 => ⟨S1x8, .f32⟩
  | 36 => ⟨S131072x8, .f32⟩
  | 37 => ⟨S131072x8, .f32⟩
  | 38 => ⟨S1x8, .f32⟩
  | 39 => ⟨S131072x8, .f32⟩
  | 40 => ⟨S131072x8, .f32⟩
  | 41 => ⟨S_, .f32⟩
  | 42 => ⟨S131072x8, .f32⟩
  | 43 => ⟨S131072x8, .f32⟩
  | 44 => ⟨S1x8x8, .f32⟩
  | 45 => ⟨S8x8, .f32⟩
  | 46 => ⟨S131072x8, .f32⟩
  | 47 => ⟨S4194304x1, .f32⟩
  | 48 => ⟨S_, .i32⟩
  | 49 => ⟨S4194304, .i32⟩
  | 50 => ⟨S4194304, .i1⟩
  | 51 => ⟨S_, .i32⟩
  | 52 => ⟨S4194304, .i32⟩
  | 53 => ⟨S4194304, .i32⟩
  | 54 => ⟨S4194304, .i32⟩
  | 55 => ⟨S4194304x1, .i32⟩
  | 56 => ⟨S4194304x8, .f32⟩
  | 57 => ⟨S4194304x8, .f32⟩
  | 58 => ⟨S4194304x8, .f32⟩
  | 59 => ⟨S_, .f32⟩
  | 60 => ⟨S131072x8, .f32⟩
  | 61 => ⟨S4194304x1, .i32⟩
  | 62 => ⟨S131072x8, .f32⟩
  | 63 => ⟨S131072x1, .f32⟩
  | 64 => ⟨S131072x8, .f32⟩
  | 65 => ⟨S131072x8, .f32⟩
  | 66 => ⟨S131072x8, .f32⟩
  | 67 => ⟨S1x8x8, .f32⟩
  | 68 => ⟨S8x8, .f32⟩
  | 69 => ⟨S131072x8, .f32⟩
  | 70 => ⟨S131072x8, .f32⟩
  | 71 => ⟨S4194304x1, .f32⟩
  | 72 => ⟨S_, .i32⟩
  | 73 => ⟨S4194304, .i32⟩
  | 74 => ⟨S4194304, .i1⟩
  | 75 => ⟨S_, .i32⟩
  | 76 => ⟨S4194304, .i32⟩
  | 77 => ⟨S4194304, .i32⟩
  | 78 => ⟨S4194304, .i32⟩
  | 79 => ⟨S4194304x1, .i32⟩
  | 80 => ⟨S4194304x8, .f32⟩
  | 81 => ⟨S4194304x8, .f32⟩
  | 82 => ⟨S4194304x8, .f32⟩
  | 83 => ⟨S_, .f32⟩
  | 84 => ⟨S131072x8, .f32⟩
  | 85 => ⟨S4194304x1, .i32⟩
  | 86 => ⟨S131072x8, .f32⟩
  | 87 => ⟨S131072x1, .f32⟩
  | 88 => ⟨S131072x8, .f32⟩
  | 89 => ⟨S131072x8, .f32⟩
  | 90 => ⟨S131072x8, .f32⟩
  | 91 => ⟨S_, .f32⟩
  | 92 => ⟨S131072x8, .f32⟩
  | 93 => ⟨S131072x8, .f32⟩
  | 94 => ⟨S131072x8, .f32⟩
  | 95 => ⟨S1x8x8, .f32⟩
  | 96 => ⟨S8x8, .f32⟩
  | 97 => ⟨S131072x8, .f32⟩
  | 98 => ⟨S131072x8, .f32⟩
  | 99 => ⟨S4194304x1, .f32⟩
  | 100 => ⟨S_, .i32⟩
  | 101 => ⟨S4194304, .i32⟩
  | 102 => ⟨S4194304, .i1⟩
  | 103 => ⟨S_, .i32⟩
  | 104 => ⟨S4194304, .i32⟩
  | 105 => ⟨S4194304, .i32⟩
  | 106 => ⟨S4194304, .i32⟩
  | 107 => ⟨S4194304x1, .i32⟩
  | 108 => ⟨S4194304x8, .f32⟩
  | 109 => ⟨S4194304x8, .f32⟩
  | 110 => ⟨S4194304x8, .f32⟩
  | 111 => ⟨S_, .f32⟩
  | 112 => ⟨S131072x8, .f32⟩
  | 113 => ⟨S4194304x1, .i32⟩
  | 114 => ⟨S131072x8, .f32⟩
  | 115 => ⟨S131072x1, .f32⟩
  | 116 => ⟨S131072x8, .f32⟩
  | 117 => ⟨S131072x8, .f32⟩
  | 118 => ⟨S131072x8, .f32⟩
  | 119 => ⟨S_, .f32⟩
  | 120 => ⟨S131072x8, .f32⟩
  | 121 => ⟨S131072x8, .f32⟩
  | 122 => ⟨S131072x8, .f32⟩
  | 123 => ⟨S1x8x8, .f32⟩
  | 124 => ⟨S8x8, .f32⟩
  | 125 => ⟨S131072x8, .f32⟩
  | 126 => ⟨S131072x8, .f32⟩
  | 127 => ⟨S4194304x1, .f32⟩
  | _ => ⟨S131072x1, .f32⟩

abbrev hbmTy0_2 (i : Nat) : BufTy := match i % 128 with
  | 0 => ⟨S_, .i32⟩
  | 1 => ⟨S4194304, .i32⟩
  | 2 => ⟨S4194304, .i1⟩
  | 3 => ⟨S_, .i32⟩
  | 4 => ⟨S4194304, .i32⟩
  | 5 => ⟨S4194304, .i32⟩
  | 6 => ⟨S4194304, .i32⟩
  | 7 => ⟨S4194304x1, .i32⟩
  | 8 => ⟨S4194304x8, .f32⟩
  | 9 => ⟨S4194304x8, .f32⟩
  | 10 => ⟨S4194304x8, .f32⟩
  | 11 => ⟨S_, .f32⟩
  | 12 => ⟨S131072x8, .f32⟩
  | 13 => ⟨S4194304x1, .i32⟩
  | 14 => ⟨S131072x8, .f32⟩
  | 15 => ⟨S131072x1, .f32⟩
  | 16 => ⟨S131072x8, .f32⟩
  | 17 => ⟨S131072x8, .f32⟩
  | 18 => ⟨S131072x8, .f32⟩
  | 19 => ⟨S_, .f32⟩
  | 20 => ⟨S131072x8, .f32⟩
  | 21 => ⟨S131072x8, .f32⟩
  | 22 => ⟨S131072x8, .f32⟩
  | 23 => ⟨S1x8x8, .f32⟩
  | 24 => ⟨S8x8, .f32⟩
  | 25 => ⟨S131072x8, .f32⟩
  | 26 => ⟨S131072x8, .f32⟩
  | 27 => ⟨S1x8, .f32⟩
  | 28 => ⟨S131072x8, .f32⟩
  | 29 => ⟨S131072x8, .f32⟩
  | 30 => ⟨S_, .f32⟩
  | 31 => ⟨S131072x8, .f32⟩
  | 32 => ⟨S131072x8, .f32⟩
  | 33 => ⟨S16x65536, .f32⟩
  | 34 => ⟨S16x1000, .f32⟩
  | 35 => ⟨S1x1000, .f32⟩
  | 36 => ⟨S16x1000, .f32⟩
  | 37 => ⟨S16x1000, .f32⟩
  | 38 => ⟨S_, .f32⟩
  | 39 => ⟨S16x1000, .f32⟩
  | 40 => ⟨S16x1000, .f32⟩
  | 41 => ⟨S16x34, .f32⟩
  | 42 => ⟨S1x34, .f32⟩
  | 43 => ⟨S16x34, .f32⟩
  | 44 => ⟨S16x34, .f32⟩
  | _ => ⟨S131072x1, .f32⟩

abbrev hbmTy (i : Nat) : BufTy := match i / 128 with
  | 0 => hbmTy0_0 i
  | 1 => hbmTy0_1 i
  | 2 => hbmTy0_2 i
  | _ => ⟨S131072x1, .f32⟩

abbrev bufTy : (tb : Table) → Fin (tcTables nBuf tb) → BufTy
  | .hbm, ⟨i, _⟩ => hbmTy i
  | _, _ => ⟨S131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_cst_8 : Ref sig .tc := ⟨.hbm, 58, rfl⟩
abbrev main_call1_v0 : Ref sig .tc := ⟨.hbm, 59, rfl⟩
abbrev main_call1_v1 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_9 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_11 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_16 : Ref sig .tc := ⟨.hbm, 115, rfl⟩
abbrev main_v81 : Ref sig .tc := ⟨.hbm, 116, rfl⟩
abbrev main_v82 : Ref sig .tc := ⟨.hbm, 117, rfl⟩
abbrev main_c_17 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_19 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_20 : Ref sig .tc := ⟨.hbm, 141, rfl⟩
abbrev main_v103 : Ref sig .tc := ⟨.hbm, 142, rfl⟩
abbrev main_v104 : Ref sig .tc := ⟨.hbm, 143, rfl⟩
abbrev main_c_21 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_22 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_23 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_call2_cst : Ref sig .tc := ⟨.hbm, 169, rfl⟩
abbrev main_call2_v0 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_c_24 : Ref sig .tc := ⟨.hbm, 176, rfl⟩
abbrev main_v132 : Ref sig .tc := ⟨.hbm, 177, rfl⟩
abbrev main_v133 : Ref sig .tc := ⟨.hbm, 178, rfl⟩
abbrev main_c_25 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_26 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_c_27 : Ref sig .tc := ⟨.hbm, 200, rfl⟩
abbrev main_v153 : Ref sig .tc := ⟨.hbm, 201, rfl⟩
abbrev main_v154 : Ref sig .tc := ⟨.hbm, 202, rfl⟩
abbrev main_c_28 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_cst_29 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_cst_30 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_c_31 : Ref sig .tc := ⟨.hbm, 228, rfl⟩
abbrev main_v177 : Ref sig .tc := ⟨.hbm, 229, rfl⟩
abbrev main_v178 : Ref sig .tc := ⟨.hbm, 230, rfl⟩
abbrev main_c_32 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_cst_33 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_cst_34 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_c_35 : Ref sig .tc := ⟨.hbm, 256, rfl⟩
abbrev main_v201 : Ref sig .tc := ⟨.hbm, 257, rfl⟩
abbrev main_v202 : Ref sig .tc := ⟨.hbm, 258, rfl⟩
abbrev main_c_36 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_cst_37 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_cst_38 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_call3_cst : Ref sig .tc := ⟨.hbm, 286, rfl⟩
abbrev main_call3_v0 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_call4_cst : Ref sig .tc := ⟨.hbm, 294, rfl⟩
abbrev main_call4_v0 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩

abbrev nD : Nat := 1
abbrev τ : Topo := Topo.v7x

variable {F : FTy → Type} [FloatOps F]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S131072 : S_.BroadcastsInDim S131072 (![] : Fin 0 → Fin S131072.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  bcast_S131072_S131072x1_0 : S131072.BroadcastsInDim S131072x1 (![0] : Fin 1 → Fin S131072x1.rank)
  slices_S5x1x8_S1x1x8_0_0_0 : S5x1x8.Slices ![0, 0, 0] S1x1x8
  shapeCasts_S1x1x8_S1x8 : S1x1x8.ShapeCasts S1x8
  bcast_S_S131072x1 : S_.BroadcastsInDim S131072x1 (![] : Fin 0 → Fin S131072x1.rank)
  slices_S5x1x8_S1x1x8_1_0_0 : S5x1x8.Slices ![1, 0, 0] S1x1x8
  slices_S5x1x8_S1x1x8_2_0_0 : S5x1x8.Slices ![2, 0, 0] S1x1x8
  slices_S5x1x8_S1x1x8_3_0_0 : S5x1x8.Slices ![3, 0, 0] S1x1x8
  slices_S5x1x8_S1x1x8_4_0_0 : S5x1x8.Slices ![4, 0, 0] S1x1x8
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)
  bcast_S_S131072x8 : S_.BroadcastsInDim S131072x8 (![] : Fin 0 → Fin S131072x8.rank)
  slices_S5x8x8_S1x8x8_0_0_0 : S5x8x8.Slices ![0, 0, 0] S1x8x8
  shapeCasts_S1x8x8_S8x8 : S1x8x8.ShapeCasts S8x8
  bcast_S4194304x1_S4194304x8_0_1 : S4194304x1.BroadcastsInDim S4194304x8 (![0, 1] : Fin 2 → Fin S4194304x8.rank)
  bcast_S131072x1_S131072x8_0_1 : S131072x1.BroadcastsInDim S131072x8 (![0, 1] : Fin 2 → Fin S131072x8.rank)
  slices_S5x8x8_S1x8x8_1_0_0 : S5x8x8.Slices ![1, 0, 0] S1x8x8
  slices_S5x8x8_S1x8x8_2_0_0 : S5x8x8.Slices ![2, 0, 0] S1x8x8
  slices_S5x8x8_S1x8x8_3_0_0 : S5x8x8.Slices ![3, 0, 0] S1x8x8
  slices_S5x8x8_S1x8x8_4_0_0 : S5x8x8.Slices ![4, 0, 0] S1x8x8
  shapeCasts_S131072x8_S16x65536 : S131072x8.ShapeCasts S16x65536
  bcast_S1000_S1x1000_1 : S1000.BroadcastsInDim S1x1000 (![1] : Fin 1 → Fin S1x1000.rank)
  bcast_S1x1000_S16x1000_0_1 : S1x1000.BroadcastsInDim S16x1000 (![0, 1] : Fin 2 → Fin S16x1000.rank)
  bcast_S_S16x1000 : S_.BroadcastsInDim S16x1000 (![] : Fin 0 → Fin S16x1000.rank)
  bcast_S34_S1x34_1 : S34.BroadcastsInDim S1x34 (![1] : Fin 1 → Fin S1x34.rank)
  bcast_S1x34_S16x34_0_1 : S1x34.BroadcastsInDim S16x34 (![0, 1] : Fin 2 → Fin S16x34.rank)
  scatter_S131072_S4194304x1_S4194304_n_0_0_1_wf : ScatterDims.WF S131072 S4194304x1 S4194304 [] [0] [0] 1
  gather_S131072_S4194304x1_S4194304_n_0_n_n_0_1_1_wf : GatherDims.WF S131072 S4194304x1 S4194304 [] [0] [] [0] [] 1 ![1]
  dot_S131072x1_S1x8_S131072x8_1_0_0_1_n_n_wf : DotDims.WF S131072x1 S1x8 S131072x8 [1] [0] [0] [1] [] []
  gather_S131072x1_S4194304x1_S4194304x1_1_0_n_n_0_1_11_wf : GatherDims.WF S131072x1 S4194304x1 S4194304x1 [1] [0] [] [0] [] 1 ![1, 1]
  scatter_S131072x1_S4194304x1_S4194304x1_1_0_0_1_wf : ScatterDims.WF S131072x1 S4194304x1 S4194304x1 [1] [0] [0] 1
  dot_S131072x8_S8x8_S131072x8_1_0_0_1_n_n_wf : DotDims.WF S131072x8 S8x8 S131072x8 [1] [0] [0] [1] [] []
  gather_S131072x8_S4194304x1_S4194304x8_1_0_n_n_0_1_18_wf : GatherDims.WF S131072x8 S4194304x1 S4194304x8 [1] [0] [] [0] [] 1 ![1, 8]
  scatter_S131072x8_S4194304x1_S4194304x8_1_0_0_1_wf : ScatterDims.WF S131072x8 S4194304x1 S4194304x8 [1] [0] [0] 1
  dot_S16x65536_S65536x1000_S16x1000_1_0_0_1_n_n_wf : DotDims.WF S16x65536 S65536x1000 S16x1000 [1] [0] [0] [1] [] []
  dot_S16x1000_S1000x34_S16x34_1_0_0_1_n_n_wf : DotDims.WF S16x1000 S1000x34 S16x34 [1] [0] [0] [1] [] []

variable [Facts₀]

def scatter_S131072_S4194304x1_S4194304_n_0_0_1 : ScatterDims S131072 S4194304x1 S4194304 where
  updateWindowDims := []
  insertedWindowDims := [0]
  scatterDimsToOperandDims := [0]
  indexVectorDim := 1
  wf := scatter_S131072_S4194304x1_S4194304_n_0_0_1_wf
def gather_S131072_S4194304x1_S4194304_n_0_n_n_0_1_1 : GatherDims S131072 S4194304x1 S4194304 where
  offsetDims := []
  collapsedSliceDims := [0]
  operandBatchingDims := []
  startIndicesBatchingDims := []
  startIndexMap := [0]
  indexVectorDim := 1
  sliceSizes := ![1]
  wf := gather_S131072_S4194304x1_S4194304_n_0_n_n_0_1_1_wf
def dot_S131072x1_S1x8_S131072x8_1_0_0_1_n_n : DotDims S131072x1 S1x8 S131072x8 where
  lhsContracting := [1]
  rhsContracting := [0]
  lhsNonContracting := [0]
  rhsNonContracting := [1]
  lhsBatch := []
  rhsBatch := []
  wf := dot_S131072x1_S1x8_S131072x8_1_0_0_1_n_n_wf
def gather_S131072x1_S4194304x1_S4194304x1_1_0_n_n_0_1_11 : GatherDims S131072x1 S4194304x1 S4194304x1 where
  offsetDims := [1]
  collapsedSliceDims := [0]
  operandBatchingDims := []
  startIndicesBatchingDims := []
  startIndexMap := [0]
  indexVectorDim := 1
  sliceSizes := ![1, 1]
  wf := gather_S131072x1_S4194304x1_S4194304x1_1_0_n_n_0_1_11_wf
def scatter_S131072x1_S4194304x1_S4194304x1_1_0_0_1 : ScatterDims S131072x1 S4194304x1 S4194304x1 where
  updateWindowDims := [1]
  insertedWindowDims := [0]
  scatterDimsToOperandDims := [0]
  indexVectorDim := 1
  wf := scatter_S131072x1_S4194304x1_S4194304x1_1_0_0_1_wf
def dot_S131072x8_S8x8_S131072x8_1_0_0_1_n_n : DotDims S131072x8 S8x8 S131072x8 where
  lhsContracting := [1]
  rhsContracting := [0]
  lhsNonContracting := [0]
  rhsNonContracting := [1]
  lhsBatch := []
  rhsBatch := []
  wf := dot_S131072x8_S8x8_S131072x8_1_0_0_1_n_n_wf
def gather_S131072x8_S4194304x1_S4194304x8_1_0_n_n_0_1_18 : GatherDims S131072x8 S4194304x1 S4194304x8 where
  offsetDims := [1]
  collapsedSliceDims := [0]
  operandBatchingDims := []
  startIndicesBatchingDims := []
  startIndexMap := [0]
  indexVectorDim := 1
  sliceSizes := ![1, 8]
  wf := gather_S131072x8_S4194304x1_S4194304x8_1_0_n_n_0_1_18_wf
def scatter_S131072x8_S4194304x1_S4194304x8_1_0_0_1 : ScatterDims S131072x8 S4194304x1 S4194304x8 where
  updateWindowDims := [1]
  insertedWindowDims := [0]
  scatterDimsToOperandDims := [0]
  indexVectorDim := 1
  wf := scatter_S131072x8_S4194304x1_S4194304x8_1_0_0_1_wf
def dot_S16x65536_S65536x1000_S16x1000_1_0_0_1_n_n : DotDims S16x65536 S65536x1000 S16x1000 where
  lhsContracting := [1]
  rhsContracting := [0]
  lhsNonContracting := [0]
  rhsNonContracting := [1]
  lhsBatch := []
  rhsBatch := []
  wf := dot_S16x65536_S65536x1000_S16x1000_1_0_0_1_n_n_wf
def dot_S16x1000_S1000x34_S16x34_1_0_0_1_n_n : DotDims S16x1000 S1000x34 S16x34 where
  lhsContracting := [1]
  rhsContracting := [0]
  lhsNonContracting := [0]
  rhsNonContracting := [1]
  lhsBatch := []
  rhsBatch := []
  wf := dot_S16x1000_S1000x34_S16x34_1_0_0_1_n_n_wf

class Facts : Prop extends Facts₀ where

variable [Facts]
-- ==== Proof.Ref.Ops.lean ====
/-
  The reference program as a list: its 289 host operations in program order (an outlined function's operations stand
  in its call's place). The list is the printed program's own text; the run below reads the program as this list.
-/
import proofs.«121312_j57732950393207_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ unary main_arg1 main_v0 ((extractStridedSlice S1x4194304 ![0, 0] · slices_S2x4194304_S1x4194304_0_0) : (⟨S2x4194304, .i32⟩ : BufTy).Contents (Elt F) → (⟨S1x4194304, .i32⟩ : BufTy).Contents (Elt F)),
    reshape main_v0 main_v1 rfl shapeCasts_S1x4194304_S4194304,
    unary main_arg1 main_v2 ((extractStridedSlice S1x4194304 ![1, 0] · slices_S2x4194304_S1x4194304_1_0) : (⟨S2x4194304, .i32⟩ : BufTy).Contents (Elt F) → (⟨S1x4194304, .i32⟩ : BufTy).Contents (Elt F)),
    reshape main_v2 main_v3 rfl shapeCasts_S1x4194304_S4194304,
    binary main_v1 main_v3 main_v4 (cmpi .ne : (⟨S4194304, .i32⟩ : BufTy).Contents (Elt F) → (⟨S4194304, .i32⟩ : BufTy).Contents (Elt F) → (⟨S4194304, .i1⟩ : BufTy).Contents (Elt F)),
    unary main_v4 main_v5 (uitofp .f32 : (⟨S4194304, .i1⟩ : BufTy).Contents (Elt F) → (⟨S4194304, .f32⟩ : BufTy).Contents (Elt F)),
    nullary main_cst (constant S_ .f32 0x00000000#32),
    unary main_cst main_v6 (broadcastInDim S131072 ![] bcast_S_S131072 : (⟨S_, .f32⟩ : BufTy).Contents (Elt F) → (⟨S131072, .f32⟩ : BufTy).Contents (Elt F)),
    unary main_v1 main_v7 (broadcastInDim S4194304x1 ![0] bcast_S4194304_S4194304x1_0 : (⟨S4194304, .i32⟩ : BufTy).Contents (Elt F) → (⟨S4194304x1, .i32⟩ : BufTy).Contents (Elt F)),
    ternary main_v6 main_v7 main_v5 main_v8 ((fun x i u => Host.scatterAdd scatter_S131072_S4194304x1_S4194304_n_0_0_1 x i u) : (⟨S131072, .f32⟩ : BufTy).Contents (Elt F) → (⟨S4194304x1, .i32⟩ : BufTy).Contents (Elt F) → (⟨S4194304, .f32⟩ : BufTy).Contents (Elt F) → (⟨S131072, .f32⟩ : BufTy).Contents (Elt F)),
    nullary main_cst_0 (constant S_ .f32 0x00000000#32),
    unary main_cst_0 main_v9 (broadcastInDim S131072 ![] bcast_S_S131072 : (⟨S_, .f32⟩ : BufTy).Contents (Elt F) → (⟨S131072, .f32⟩ : BufTy).Contents (Elt F)),
    binary main_v8 main_v9 main_v10 (cmpf .ogt : (⟨S131072, .f32⟩ : BufTy).Contents (Elt F) → (⟨S131072, .f32⟩ : BufTy).Contents (Elt F) → (⟨S131072, .i1⟩ : BufTy).Contents (Elt F)),
    nullary main_cst_1 (constant S_ .f32 0x3F800000#32),
    unary main_cst_1 main_v11 (broadcastInDim S131072 ![] bcast_S_S131072 : (⟨S_, .f32⟩ : BufTy).Contents (Elt F) → (⟨S131072, .f32⟩ : BufTy).Contents (Elt F)),
    binary main_v8 main_v11 main_v12 (maximumf : (⟨S131072, .f32⟩ : BufTy).Contents (Elt F) → (⟨S131072, .f32⟩ : BufTy).Contents (Elt F) → (⟨S131072, .f32⟩ : BufTy).Contents (Elt F)),
    unary main_v12 main_v13 (Host.rsqrt : (⟨S131072, .f32⟩ : BufTy).Contents (Elt F) → (⟨S131072, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S131072, .f32⟩) main_call0_v1) (broadcastInDim S131072 ![] bcast_S_S131072),
    TRef.ternary (TRef.of (T := ⟨S131072, .i1⟩) main_v10) (TRef.of (T := ⟨S131072, .f32⟩) main_v13) (TRef.of (T := ⟨S131072, .f32⟩) main_call0_v1) (TRef.of (T := ⟨S131072, .f32⟩) main_v14) select,
    nullary main_c (constantI S_ 32 0#32),
    unary main_c main_v15 (broadcastInDim S4194304 ![] bcast_S_S4194304 : (⟨S_, .i32⟩ : BufTy).Contents (Elt F) → (⟨S4194304, .i32⟩ : BufTy).Contents (Elt F)),
    binary main_v1 main_v15 main_v16 (cmpi .slt : (⟨S4194304, .i32⟩ : BufTy).Contents (Elt F) → (⟨S4194304, .i32⟩ : BufTy).Contents (Elt F) → (⟨S4194304, .i1⟩ : BufTy).Contents (Elt F)),
    nullary main_c_3 (constantI S_ 32 131072#32),
    unary main_c_3 main_v17 (broadcastInDim S4194304 ![] bcast_S_S4194304 : (⟨S_, .i32⟩ : BufTy).Contents (Elt F) → (⟨S4194304, .i32⟩ : BufTy).Contents (Elt F)),
    binary main_v1 main_v17 main_v18 (addi : (⟨S4194304, .i32⟩ : BufTy).Contents (Elt F) → (⟨S4194304, .i32⟩ : BufTy).Contents (Elt F) → (⟨S4194304, .i32⟩ : BufTy).Contents (Elt F)),
    ternary main_v16 main_v18 main_v1 main_v19 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v19 main_v20 (broadcastInDim S4194304x1 ![0] bcast_S4194304_S4194304x1_0 : (⟨S4194304, .i32⟩ : BufTy).Contents (Elt F) → (⟨S4194304x1, .i32⟩ : BufTy).Contents (Elt F)),
    binary main_v14 main_v20 main_v21 ((fun x i => Host.gather gather_S131072_S4194304x1_S4194304_n_0_n_n_0_1_1 x i) : (⟨S131072, .f32⟩ : BufTy).Contents (Elt F) → (⟨S4194304x1, .i32⟩ : BufTy).Contents (Elt F) → (⟨S4194304, .f32⟩ : BufTy).Contents (Elt F)),
    unary main_v21 main_v22 (Host.negf : (⟨S4194304, .f32⟩ : BufTy).Contents (Elt F) → (⟨S4194304, .f32⟩ : BufTy).Contents (Elt F)),
    binary main_v22 main_v5 main_v23 (mulf : (⟨S4194304, .f32⟩ : BufTy).Contents (Elt F) → (⟨S4194304, .f32⟩ : BufTy).Contents (Elt F) → (⟨S4194304, .f32⟩ : BufTy).Contents (Elt F)),
    nullary main_c_4 (constantI S_ 32 0#32),
    unary main_c_4 main_v24 (broadcastInDim S4194304 ![] bcast_S_S4194304 : (⟨S_, .i32⟩ : BufTy).Contents (Elt F) → (⟨S4194304, .i32⟩ : BufTy).Contents (Elt F)),
    binary main_v3 main_v24 main_v25 (cmpi .slt : (⟨S4194304, .i32⟩ : BufTy).Contents (Elt F) → (⟨S4194304, .i32⟩ : BufTy).Contents (Elt F) → (⟨S4194304, .i1⟩ : BufTy).Contents (Elt F)),
    nullary main_c_5 (constantI S_ 32 131072#32),
    unary main_c_5 main_v26 (broadcastInDim S4194304 ![] bcast_S_S4194304 : (⟨S_, .i32⟩ : BufTy).Contents (Elt F) → (⟨S4194304, .i32⟩ : BufTy).Contents (Elt F)),
    binary main_v3 main_v26 main_v27 (addi : (⟨S4194304, .i32⟩ : BufTy).Contents (Elt F) → (⟨S4194304, .i32⟩ : BufTy).Contents (Elt F) → (⟨S4194304, .i32⟩ : BufTy).Contents (Elt F)),
    ternary main_v25 main_v27 main_v3 main_v28 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v28 main_v29 (broadcastInDim S4194304x1 ![0] bcast_S4194304_S4194304x1_0 : (⟨S4194304, .i32⟩ : BufTy).Contents (Elt F) → (⟨S4194304x1, .i32⟩ : BufTy).Contents (Elt F)),
    binary main_v14 main_v29 main_v30 ((fun x i => Host.gather gather_S131072_S4194304x1_S4194304_n_0_n_n_0_1_1 x i) : (⟨S131072, .f32⟩ : BufTy).Contents (Elt F) → (⟨S4194304x1, .i32⟩ : BufTy).Contents (Elt F) → (⟨S4194304, .f32⟩ : BufTy).Contents (Elt F)),
    binary main_v23 main_v30 main_v31 (mulf : (⟨S4194304, .f32⟩ : BufTy).Contents (Elt F) → (⟨S4194304, .f32⟩ : BufTy).Contents (Elt F) → (⟨S4194304, .f32⟩ : BufTy).Contents (Elt F)),
    nullary main_cst_6 (constant S_ .f32 0x00000000#32),
    unary main_cst_6 main_v32 (broadcastInDim S131072 ![] bcast_S_S131072 : (⟨S_, .f32⟩ : BufTy).Contents (Elt F) → (⟨S131072, .f32⟩ : BufTy).Contents (Elt F)),
    binary main_v8 main_v32 main_v33 (cmpf .ogt : (⟨S131072, .f32⟩ : BufTy).Contents (Elt F) → (⟨S131072, .f32⟩ : BufTy).Contents (Elt F) → (⟨S131072, .i1⟩ : BufTy).Contents (Elt F)),
    nullary main_cst_7 (constant S_ .f32 0x00000000#32),
    nullary main_cst_8 (constant S_ .f32 0xBF800000#32),
    TRef.unary (TRef.of (T := ⟨S_, .f32⟩) main_cst_7) (TRef.of (T := ⟨S131072, .f32⟩) main_call1_v0) (broadcastInDim S131072 ![] bcast_S_S131072),
    TRef.unary (TRef.of (T := ⟨S_, .f32⟩) main_cst_8) (TRef.of (T := ⟨S131072, .f32⟩) main_call1_v1) (broadcastInDim S131072 ![] bcast_S_S131072),
    TRef.ternary (TRef.of (T := ⟨S131072, .i1⟩) main_v33) (TRef.of (T := ⟨S131072, .f32⟩) main_call1_v0) (TRef.of (T := ⟨S131072, .f32⟩) main_call1_v1) (TRef.of (T := ⟨S131072, .f32⟩) main_v34) select,
    unary main_v34 main_v35 (broadcastInDim S131072x1 ![0] bcast_S131072_S131072x1_0 : (⟨S131072, .f32⟩ : BufTy).Contents (Elt F) → (⟨S131072x1, .f32⟩ : BufTy).Contents (Elt F)),
    unary main_arg4 main_v36 ((extractStridedSlice S1x1x8 ![0, 0, 0] · slices_S5x1x8_S1x1x8_0_0_0) : (⟨S5x1x8, .f32⟩ : BufTy).Contents (Elt F) → (⟨S1x1x8, .f32⟩ : BufTy).Contents (Elt F)),
    reshape main_v36 main_v37 rfl shapeCasts_S1x1x8_S1x8,
    binary main_arg0 main_v37 main_v38 ((fun l r => Host.dotGeneral dot_S131072x1_S1x8_S131072x8_1_0_0_1_n_n none l r) : (⟨S131072x1, .f32⟩ : BufTy).Contents (Elt F) → (⟨S1x8, .f32⟩ : BufTy).Contents (Elt F) → (⟨S131072x8, .f32⟩ : BufTy).Contents (Elt F)),
    unary main_v31 main_v39 (broadcastInDim S4194304x1 ![0] bcast_S4194304_S4194304x1_0 : (⟨S4194304, .f32⟩ : BufTy).Contents (Elt F) → (⟨S4194304x1, .f32⟩ : BufTy).Contents (Elt F)),
    nullary main_c_9 (constantI S_ 32 0#32),
    unary main_c_9 main_v40 (broadcastInDim S4194304 ![] bcast_S_S4194304 : (⟨S_, .i32⟩ : BufTy).Contents (Elt F) → (⟨S4194304, .i32⟩ : BufTy).Contents (Elt F)),
    binary main_v1 main_v40 main_v41 (cmpi .slt : (⟨S4194304, .i32⟩ : BufTy).Contents (Elt F) → (⟨S4194304, .i32⟩ : BufTy).Contents (Elt F) → (⟨S4194304, .i1⟩ : BufTy).Contents (Elt F)),
    nullary main_c_10 (constantI S_ 32 131072#32),
    unary main_c_10 main_v42 (broadcastInDim S4194304 ![] bcast_S_S4194304 : (⟨S_, .i32⟩ : BufTy).Contents (Elt F) → (⟨S4194304, .i32⟩ : BufTy).Contents (Elt F)),
    binary main_v1 main_v42 main_v43 (addi : (⟨S4194304, .i32⟩ : BufTy).Contents (Elt F) → (⟨S4194304, .i32⟩ : BufTy).Contents (Elt F) → (⟨S4194304, .i32⟩ : BufTy).Contents (Elt F)),
    ternary main_v41 main_v43 main_v1 main_v44 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v44 main_v45 (broadcastInDim S4194304x1 ![0] bcast_S4194304_S4194304x1_0 : (⟨S4194304, .i32⟩ : BufTy).Contents (Elt F) → (⟨S4194304x1, .i32⟩ : BufTy).Contents (Elt F)),
    binary main_arg0 main_v45 main_v46 ((fun x i => Host.gather gather_S131072x1_S4194304x1_S4194304x1_1_0_n_n_0_1_11 x i) : (⟨S131072x1, .f32⟩ : BufTy).Contents (Elt F) → (⟨S4194304x1, .i32⟩ : BufTy).Contents (Elt F) → (⟨S4194304x1, .f32⟩ : BufTy).Contents (Elt F)),
    binary main_v39 main_v46 main_v47 (mulf : (⟨S4194304x1, .f32⟩ : BufTy).Contents (Elt F) → (⟨S4194304x1, .f32⟩ : BufTy).Contents (Elt F) → (⟨S4194304x1, .f32⟩ : BufTy).Contents (Elt F)),
    nullary main_cst_11 (constant S_ .f32 0x00000000#32),
    unary main_cst_11 main_v48 (broadcastInDim S131072x1 ![] bcast_S_S131072x1 : (⟨S_, .f32⟩ : BufTy).Contents (Elt F) → (⟨S131072x1, .f32⟩ : BufTy).Contents (Elt F)),
    unary main_v3 main_v49 (broadcastInDim S4194304x1 ![0] bcast_S4194304_S4194304x1_0 : (⟨S4194304, .i32⟩ : BufTy).Contents (Elt F) → (⟨S4194304x1, .i32⟩ : BufTy).Contents (Elt F)),
    ternary main_v48 main_v49 main_v47 main_v50 ((fun x i u => Host.scatterAdd scatter_S131072x1_S4194304x1_S4194304x1_1_0_0_1 x i u) : (⟨S131072x1, .f32⟩ : BufTy).Contents (Elt F) → (⟨S4194304x1, .i32⟩ : BufTy).Contents (Elt F) → (⟨S4194304x1, .f32⟩ : BufTy).Contents (Elt F) → (⟨S131072x1, .f32⟩ : BufTy).Contents (Elt F)),
    unary main_v35 main_v51 (id : (⟨S131072x1, .f32⟩ : BufTy).Contents (Elt F) → (⟨S131072x1, .f32⟩ : BufTy).Contents (Elt F)),
    binary main_v51 main_arg0 main_v52 (mulf : (⟨S131072x1, .f32⟩ : BufTy).Contents (Elt F) → (⟨S131072x1, .f32⟩ : BufTy).Contents (Elt F) → (⟨S131072x1, .f32⟩ : BufTy).Contents (Elt F)),
    binary main_v50 main_v52 main_v53 (addf : (⟨S131072x1, .f32⟩ : BufTy).Contents (Elt F) → (⟨S131072x1, .f32⟩ : BufTy).Contents (Elt F) → (⟨S131072x1, .f32⟩ : BufTy).Contents (Elt F)),
    unary main_arg4 main_v54 ((extractStridedSlice S1x1x8 ![1, 0, 0] · slices_S5x1x8_S1x1x8_1_0_0) : (⟨S5x1x8, .f32⟩ : BufTy).Contents (Elt F) → (⟨S1x1x8, .f32⟩ : BufTy).Contents (Elt F)),
    reshape main_v54 main_v55 rfl shapeCasts_S1x1x8_S1x8,
    binary main_v53 main_v55 main_v56 ((fun l r => Host.dotGeneral dot_S131072x1_S1x8_S131072x8_1_0_0_1_n_n none l r) : (⟨S131072x1, .f32⟩ : BufTy).Contents (Elt F) → (⟨S1x8, .f32⟩ : BufTy).Contents (Elt F) → (⟨S131072x8, .f32⟩ : BufTy).Contents (Elt F)),
    binary main_v38 main_v56 main_v57 (addf : (⟨S131072x8, .f32⟩ : BufTy).Contents (Elt F) → (⟨S131072x8, .f32⟩ : BufTy).Contents (Elt F) → (⟨S131072x8, .f32⟩ : BufTy).Contents (Elt F)),
    unary main_v31 main_v58 (broadcastInDim S4194304x1 ![0] bcast_S4194304_S4194304x1_0 : (⟨S4194304, .f32⟩ : BufTy).Contents (Elt F) → (⟨S4194304x1, .f32⟩ : BufTy).Contents (Elt F)),
    nullary main_c_12 (constantI S_ 32 0#32),
    unary main_c_12 main_v59 (broadcastInDim S4194304 ![] bcast_S_S4194304 : (⟨S_, .i32⟩ : BufTy).Contents (Elt F) → (⟨S4194304, .i32⟩ : BufTy).Contents (Elt F)),
    binary main_v1 main_v59 main_v60 (cmpi .slt : (⟨S4194304, .i32⟩ : BufTy).Contents (Elt F) → (⟨S4194304, .i32⟩ : BufTy).Contents (Elt F) → (⟨S4194304, .i1⟩ : BufTy).Contents (Elt F)),
    nullary main_c_13 (constantI S_ 32 131072#32),
    unary main_c_13 main_v61 (broadcastInDim S4194304 ![] bcast_S_S4194304 : (⟨S_, .i32⟩ : BufTy).Contents (Elt F) → (⟨S4194304, .i32⟩ : BufTy).Contents (Elt F)),
    binary main_v1 main_v61 main_v62 (addi : (⟨S4194304, .i32⟩ : BufTy).Contents (Elt F) → (⟨S4194304, .i32⟩ : BufTy).Contents (Elt F) → (⟨S4194304, .i32⟩ : BufTy).Contents (Elt F)),
    ternary main_v60 main_v62 main_v1 main_v63 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v63 main_v64 (broadcastInDim S4194304x1 ![0] bcast_S4194304_S4194304x1_0 : (⟨S4194304, .i32⟩ : BufTy).Contents (Elt F) → (⟨S4194304x1, .i32⟩ : BufTy).Contents (Elt F)),
    binary main_v53 main_v64 main_v65 ((fun x i => Host.gather gather_S131072x1_S4194304x1_S4194304x1_1_0_n_n_0_1_11 x i) : (⟨S131072x1, .f32⟩ : BufTy).Contents (Elt F) → (⟨S4194304x1, .i32⟩ : BufTy).Contents (Elt F) → (⟨S4194304x1, .f32⟩ : BufTy).Contents (Elt F)),
    binary main_v58 main_v65 main_v66 (mulf : (⟨S4194304x1, .f32⟩ : BufTy).Contents (Elt F) → (⟨S4194304x1, .f32⟩ : BufTy).Contents (Elt F) → (⟨S4194304x1, .f32⟩ : BufTy).Contents (Elt F)),
    nullary main_cst_14 (constant S_ .f32 0x00000000#32),
    unary main_cst_14 main_v67 (broadcastInDim S131072x1 ![] bcast_S_S131072x1 : (⟨S_, .f32⟩ : BufTy).Contents (Elt F) → (⟨S131072x1, .f32⟩ : BufTy).Contents (Elt F)),
    unary main_v3 main_v68 (broadcastInDim S4194304x1 ![0] bcast_S4194304_S4194304x1_0 : (⟨S4194304, .i32⟩ : BufTy).Contents (Elt F) → (⟨S4194304x1, .i32⟩ : BufTy).Contents (Elt F)),
    ternary main_v67 main_v68 main_v66 main_v69 ((fun x i u => Host.scatterAdd scatter_S131072x1_S4194304x1_S4194304x1_1_0_0_1 x i u) : (⟨S131072x1, .f32⟩ : BufTy).Contents (Elt F) → (⟨S4194304x1, .i32⟩ : BufTy).Contents (Elt F) → (⟨S4194304x1, .f32⟩ : BufTy).Contents (Elt F) → (⟨S131072x1, .f32⟩ : BufTy).Contents (Elt F)),
    unary main_v35 main_v70 (id : (⟨S131072x1, .f32⟩ : BufTy).Contents (Elt F) → (⟨S131072x1, .f32⟩ : BufTy).Contents (Elt F)),
    binary main_v70 main_v53 main_v71 (mulf : (⟨S131072x1, .f32⟩ : BufTy).Contents (Elt F) → (⟨S131072x1, .f32⟩ : BufTy).Contents (Elt F) → (⟨S131072x1, .f32⟩ : BufTy).Contents (Elt F)),
    binary main_v69 main_v71 main_v72 (addf : (⟨S131072x1, .f32⟩ : BufTy).Contents (Elt F) → (⟨S131072x1, .f32⟩ : BufTy).Contents (Elt F) → (⟨S131072x1, .f32⟩ : BufTy).Contents (Elt F)),
    nullary main_cst_15 (constant S_ .f32 0x40000000#32),
    unary main_cst_15 main_v73 (broadcastInDim S131072x1 ![] bcast_S_S131072x1 : (⟨S_, .f32⟩ : BufTy).Contents (Elt F) → (⟨S131072x1, .f32⟩ : BufTy).Contents (Elt F)),
    binary main_v73 main_v72 main_v74 (mulf : (⟨S131072x1, .f32⟩ : BufTy).Contents (Elt F) → (⟨S131072x1, .f32⟩ : BufTy).Contents (Elt F) → (⟨S131072x1, .f32⟩ : BufTy).Contents (Elt F)),
    binary main_v74 main_arg0 main_v75 (subf : (⟨S131072x1, .f32⟩ : BufTy).Contents (Elt F) → (⟨S131072x1, .f32⟩ : BufTy).Contents (Elt F) → (⟨S131072x1, .f32⟩ : BufTy).Contents (Elt F)),
    unary main_arg4 main_v76 ((extractStridedSlice S1x1x8 ![2, 0, 0] · slices_S5x1x8_S1x1x8_2_0_0) : (⟨S5x1x8, .f32⟩ : BufTy).Contents (Elt F) → (⟨S1x1x8, .f32⟩ : BufTy).Contents (Elt F)),
    reshape main_v76 main_v77 rfl shapeCasts_S1x1x8_S1x8,
    binary main_v75 main_v77 main_v78 ((fun l r => Host.dotGeneral dot_S131072x1_S1x8_S131072x8_1_0_0_1_n_n none l r) : (⟨S131072x1, .f32⟩ : BufTy).Contents (Elt F) → (⟨S1x8, .f32⟩ : BufTy).Contents (Elt F) → (⟨S131072x8, .f32⟩ : BufTy).Contents (Elt F)),
    binary main_v57 main_v78 main_v79 (addf : (⟨S131072x8, .f32⟩ : BufTy).Contents (Elt F) → (⟨S131072x8, .f32⟩ : BufTy).Contents (Elt F) → (⟨S131072x8, .f32⟩ : BufTy).Contents (Elt F)),
    unary main_v31 main_v80 (broadcastInDim S4194304x1 ![0] bcast_S4194304_S4194304x1_0 : (⟨S4194304, .f32⟩ : BufTy).Contents (Elt F) → (⟨S4194304x1, .f32⟩ : BufTy).Contents (Elt F)),
    nullary main_c_16 (constantI S_ 32 0#32),
    unary main_c_16 main_v81 (broadcastInDim S4194304 ![] bcast_S_S4194304 : (⟨S_, .i32⟩ : BufTy).Contents (Elt F) → (⟨S4194304, .i32⟩ : BufTy).Contents (Elt F)),
    binary main_v1 main_v81 main_v82 (cmpi .slt : (⟨S4194304, .i32⟩ : BufTy).Contents (Elt F) → (⟨S4194304, .i32⟩ : BufTy).Contents (Elt F) → (⟨S4194304, .i1⟩ : BufTy).Contents (Elt F)),
    nullary main_c_17 (constantI S_ 32 131072#32),
    unary main_c_17 main_v83 (broadcastInDim S4194304 ![] bcast_S_S4194304 : (⟨S_, .i32⟩ : BufTy).Contents (Elt F) → (⟨S4194304, .i32⟩ : BufTy).Contents (Elt F)),
    binary main_v1 main_v83 main_v84 (addi : (⟨S4194304, .i32⟩ : BufTy).Contents (Elt F) → (⟨S4194304, .i32⟩ : BufTy).Contents (Elt F) → (⟨S4194304, .i32⟩ : BufTy).Contents (Elt F)),
    ternary main_v82 main_v84 main_v1 main_v85 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v85 main_v86 (broadcastInDim S4194304x1 ![0] bcast_S4194304_S4194304x1_0 : (⟨S4194304, .i32⟩ : BufTy).Contents (Elt F) → (⟨S4194304x1, .i32⟩ : BufTy).Contents (Elt F)),
    binary main_v75 main_v86 main_v87 ((fun x i => Host.gather gather_S131072x1_S4194304x1_S4194304x1_1_0_n_n_0_1_11 x i) : (⟨S131072x1, .f32⟩ : BufTy).Contents (Elt F) → (⟨S4194304x1, .i32⟩ : BufTy).Contents (Elt F) → (⟨S4194304x1, .f32⟩ : BufTy).Contents (Elt F)),
    binary main_v80 main_v87 main_v88 (mulf : (⟨S4194304x1, .f32⟩ : BufTy).Contents (Elt F) → (⟨S4194304x1, .f32⟩ : BufTy).Contents (Elt F) → (⟨S4194304x1, .f32⟩ : BufTy).Contents (Elt F)),
    nullary main_cst_18 (constant S_ .f32 0x00000000#32),
    unary main_cst_18 main_v89 (broadcastInDim S131072x1 ![] bcast_S_S131072x1 : (⟨S_, .f32⟩ : BufTy).Contents (Elt F) → (⟨S131072x1, .f32⟩ : BufTy).Contents (Elt F)),
    unary main_v3 main_v90 (broadcastInDim S4194304x1 ![0] bcast_S4194304_S4194304x1_0 : (⟨S4194304, .i32⟩ : BufTy).Contents (Elt F) → (⟨S4194304x1, .i32⟩ : BufTy).Contents (Elt F)),
    ternary main_v89 main_v90 main_v88 main_v91 ((fun x i u => Host.scatterAdd scatter_S131072x1_S4194304x1_S4194304x1_1_0_0_1 x i u) : (⟨S131072x1, .f32⟩ : BufTy).Contents (Elt F) → (⟨S4194304x1, .i32⟩ : BufTy).Contents (Elt F) → (⟨S4194304x1, .f32⟩ : BufTy).Contents (Elt F) → (⟨S131072x1, .f32⟩ : BufTy).Contents (Elt F)),
    unary main_v35 main_v92 (id : (⟨S131072x1, .f32⟩ : BufTy).Contents (Elt F) → (⟨S131072x1, .f32⟩ : BufTy).Contents (Elt F)),
    binary main_v92 main_v75 main_v93 (mulf : (⟨S131072x1, .f32⟩ : BufTy).Contents (Elt F) → (⟨S131072x1, .f32⟩ : BufTy).Contents (Elt F) → (⟨S131072x1, .f32⟩ : BufTy).Contents (Elt F)),
    binary main_v91 main_v93 main_v94 (addf : (⟨S131072x1, .f32⟩ : BufTy).Contents (Elt F) → (⟨S131072x1, .f32⟩ : BufTy).Contents (Elt F) → (⟨S131072x1, .f32⟩ : BufTy).Contents (Elt F)),
    nullary main_cst_19 (constant S_ .f32 0x40000000#32),
    unary main_cst_19 main_v95 (broadcastInDim S131072x1 ![] bcast_S_S131072x1 : (⟨S_, .f32⟩ : BufTy).Contents (Elt F) → (⟨S131072x1, .f32⟩ : BufTy).Contents (Elt F)),
    binary main_v95 main_v94 main_v96 (mulf : (⟨S131072x1, .f32⟩ : BufTy).Contents (Elt F) → (⟨S131072x1, .f32⟩ : BufTy).Contents (Elt F) → (⟨S131072x1, .f32⟩ : BufTy).Contents (Elt F)),
    binary main_v96 main_v53 main_v97 (subf : (⟨S131072x1, .f32⟩ : BufTy).Contents (Elt F) → (⟨S131072x1, .f32⟩ : BufTy).Contents (Elt F) → (⟨S131072x1, .f32⟩ : BufTy).Contents (Elt F)),
    unary main_arg4 main_v98 ((extractStridedSlice S1x1x8 ![3, 0, 0] · slices_S5x1x8_S1x1x8_3_0_0) : (⟨S5x1x8, .f32⟩ : BufTy).Contents (Elt F) → (⟨S1x1x8, .f32⟩ : BufTy).Contents (Elt F)),
    reshape main_v98 main_v99 rfl shapeCasts_S1x1x8_S1x8,
    binary main_v97 main_v99 main_v100 ((fun l r => Host.dotGeneral dot_S131072x1_S1x8_S131072x8_1_0_0_1_n_n none l r) : (⟨S131072x1, .f32⟩ : BufTy).Contents (Elt F) → (⟨S1x8, .f32⟩ : BufTy).Contents (Elt F) → (⟨S131072x8, .f32⟩ : BufTy).Contents (Elt F)),
    binary main_v79 main_v100 main_v101 (addf : (⟨S131072x8, .f32⟩ : BufTy).Contents (Elt F) → (⟨S131072x8, .f32⟩ : BufTy).Contents (Elt F) → (⟨S131072x8, .f32⟩ : BufTy).Contents (Elt F)),
    unary main_v31 main_v102 (broadcastInDim S4194304x1 ![0] bcast_S4194304_S4194304x1_0 : (⟨S4194304, .f32⟩ : BufTy).Contents (Elt F) → (⟨S4194304x1, .f32⟩ : BufTy).Contents (Elt F)),
    nullary main_c_20 (constantI S_ 32 0#32),
    unary main_c_20 main_v103 (broadcastInDim S4194304 ![] bcast_S_S4194304 : (⟨S_, .i32⟩ : BufTy).Contents (Elt F) → (⟨S4194304, .i32⟩ : BufTy).Contents (Elt F)),
    binary main_v1 main_v103 main_v104 (cmpi .slt : (⟨S4194304, .i32⟩ : BufTy).Contents (Elt F) → (⟨S4194304, .i32⟩ : BufTy).Contents (Elt F) → (⟨S4194304, .i1⟩ : BufTy).Contents (Elt F)),
    nullary main_c_21 (constantI S_ 32 131072#32),
    unary main_c_21 main_v105 (broadcastInDim S4194304 ![] bcast_S_S4194304 : (⟨S_, .i32⟩ : BufTy).Contents (Elt F) → (⟨S4194304, .i32⟩ : BufTy).Contents (Elt F)),
    binary main_v1 main_v105 main_v106 (addi : (⟨S4194304, .i32⟩ : BufTy).Contents (Elt F) → (⟨S4194304, .i32⟩ : BufTy).Contents (Elt F) → (⟨S4194304, .i32⟩ : BufTy).Contents (Elt F)),
    ternary main_v104 main_v106 main_v1 main_v107 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v107 main_v108 (broadcastInDim S4194304x1 ![0] bcast_S4194304_S4194304x1_0 : (⟨S4194304, .i32⟩ : BufTy).Contents (Elt F) → (⟨S4194304x1, .i32⟩ : BufTy).Contents (Elt F)),
    binary main_v97 main_v108 main_v109 ((fun x i => Host.gather gather_S131072x1_S4194304x1_S4194304x1_1_0_n_n_0_1_11 x i) : (⟨S131072x1, .f32⟩ : BufTy).Contents (Elt F) → (⟨S4194304x1, .i32⟩ : BufTy).Contents (Elt F) → (⟨S4194304x1, .f32⟩ : BufTy).Contents (Elt F)),
    binary main_v102 main_v109 main_v110 (mulf : (⟨S4194304x1, .f32⟩ : BufTy).Contents (Elt F) → (⟨S4194304x1, .f32⟩ : BufTy).Contents (Elt F) → (⟨S4194304x1, .f32⟩ : BufTy).Contents (Elt F)),
    nullary main_cst_22 (constant S_ .f32 0x00000000#32),
    unary main_cst_22 main_v111 (broadcastInDim S131072x1 ![] bcast_S_S131072x1 : (⟨S_, .f32⟩ : BufTy).Contents (Elt F) → (⟨S131072x1, .f32⟩ : BufTy).Contents (Elt F)),
    unary main_v3 main_v112 (broadcastInDim S4194304x1 ![0] bcast_S4194304_S4194304x1_0 : (⟨S4194304, .i32⟩ : BufTy).Contents (Elt F) → (⟨S4194304x1, .i32⟩ : BufTy).Contents (Elt F)),
    ternary main_v111 main_v112 main_v110 main_v113 ((fun x i u => Host.scatterAdd scatter_S131072x1_S4194304x1_S4194304x1_1_0_0_1 x i u) : (⟨S131072x1, .f32⟩ : BufTy).Contents (Elt F) → (⟨S4194304x1, .i32⟩ : BufTy).Contents (Elt F) → (⟨S4194304x1, .f32⟩ : BufTy).Contents (Elt F) → (⟨S131072x1, .f32⟩ : BufTy).Contents (Elt F)),
    unary main_v35 main_v114 (id : (⟨S131072x1, .f32⟩ : BufTy).Contents (Elt F) → (⟨S131072x1, .f32⟩ : BufTy).Contents (Elt F)),
    binary main_v114 main_v97 main_v115 (mulf : (⟨S131072x1, .f32⟩ : BufTy).Contents (Elt F) → (⟨S131072x1, .f32⟩ : BufTy).Contents (Elt F) → (⟨S131072x1, .f32⟩ : BufTy).Contents (Elt F)),
    binary main_v113 main_v115 main_v116 (addf : (⟨S131072x1, .f32⟩ : BufTy).Contents (Elt F) → (⟨S131072x1, .f32⟩ : BufTy).Contents (Elt F) → (⟨S131072x1, .f32⟩ : BufTy).Contents (Elt F)),
    nullary main_cst_23 (constant S_ .f32 0x40000000#32),
    unary main_cst_23 main_v117 (broadcastInDim S131072x1 ![] bcast_S_S131072x1 : (⟨S_, .f32⟩ : BufTy).Contents (Elt F) → (⟨S131072x1, .f32⟩ : BufTy).Contents (Elt F)),
    binary main_v117 main_v116 main_v118 (mulf : (⟨S131072x1, .f32⟩ : BufTy).Contents (Elt F) → (⟨S131072x1, .f32⟩ : BufTy).Contents (Elt F) → (⟨S131072x1, .f32⟩ : BufTy).Contents (Elt F)),
    binary main_v118 main_v75 main_v119 (subf : (⟨S131072x1, .f32⟩ : BufTy).Contents (Elt F) → (⟨S131072x1, .f32⟩ : BufTy).Contents (Elt F) → (⟨S131072x1, .f32⟩ : BufTy).Contents (Elt F)),
    unary main_arg4 main_v120 ((extractStridedSlice S1x1x8 ![4, 0, 0] · slices_S5x1x8_S1x1x8_4_0_0) : (⟨S5x1x8, .f32⟩ : BufTy).Contents (Elt F) → (⟨S1x1x8, .f32⟩ : BufTy).Contents (Elt F)),
    reshape main_v120 main_v121 rfl shapeCasts_S1x1x8_S1x8,
    binary main_v119 main_v121 main_v122 ((fun l r => Host.dotGeneral dot_S131072x1_S1x8_S131072x8_1_0_0_1_n_n none l r) : (⟨S131072x1, .f32⟩ : BufTy).Contents (Elt F) → (⟨S1x8, .f32⟩ : BufTy).Contents (Elt F) → (⟨S131072x8, .f32⟩ : BufTy).Contents (Elt F)),
    binary main_v101 main_v122 main_v123 (addf : (⟨S131072x8, .f32⟩ : BufTy).Contents (Elt F) → (⟨S131072x8, .f32⟩ : BufTy).Contents (Elt F) → (⟨S131072x8, .f32⟩ : BufTy).Contents (Elt F)),
    unary main_arg5 main_v124 (broadcastInDim S1x8 ![1] bcast_S8_S1x8_1 : (⟨S8, .f32⟩ : BufTy).Contents (Elt F) → (⟨S1x8, .f32⟩ : BufTy).Contents (Elt F)),
    unary main_v124 main_v125 (broadcastInDim S131072x8 ![0, 1] bcast_S1x8_S131072x8_0_1 : (⟨S1x8, .f32⟩ : BufTy).Contents (Elt F) → (⟨S131072x8, .f32⟩ : BufTy).Contents (Elt F)),
    binary main_v123 main_v125 main_v126 (addf : (⟨S131072x8, .f32⟩ : BufTy).Contents (Elt F) → (⟨S131072x8, .f32⟩ : BufTy).Contents (Elt F) → (⟨S131072x8, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S131072x8, .f32⟩) main_call2_v0) (broadcastInDim S131072x8 ![] bcast_S_S131072x8),
    TRef.binary (TRef.of (T := ⟨S131072x8, .f32⟩) main_v126) (TRef.of (T := ⟨S131072x8, .f32⟩) main_call2_v0) (TRef.of (T := ⟨S131072x8, .f32⟩) main_v127) maximumf,
    unary main_arg6 main_v128 ((extractStridedSlice S1x8x8 ![0, 0, 0] · slices_S5x8x8_S1x8x8_0_0_0) : (⟨S5x8x8, .f32⟩ : BufTy).Contents (Elt F) → (⟨S1x8x8, .f32⟩ : BufTy).Contents (Elt F)),
    reshape main_v128 main_v129 rfl shapeCasts_S1x8x8_S8x8,
    binary main_v127 main_v129 main_v130 ((fun l r => Host.dotGeneral dot_S131072x8_S8x8_S131072x8_1_0_0_1_n_n none l r) : (⟨S131072x8, .f32⟩ : BufTy).Contents (Elt F) → (⟨S8x8, .f32⟩ : BufTy).Contents (Elt F) → (⟨S131072x8, .f32⟩ : BufTy).Contents (Elt F)),
    unary main_v31 main_v131 (broadcastInDim S4194304x1 ![0] bcast_S4194304_S4194304x1_0 : (⟨S4194304, .f32⟩ : BufTy).Contents (Elt F) → (⟨S4194304x1, .f32⟩ : BufTy).Contents (Elt F)),
    nullary main_c_24 (constantI S_ 32 0#32),
    unary main_c_24 main_v132 (broadcastInDim S4194304 ![] bcast_S_S4194304 : (⟨S_, .i32⟩ : BufTy).Contents (Elt F) → (⟨S4194304, .i32⟩ : BufTy).Contents (Elt F)),
    binary main_v1 main_v132 main_v133 (cmpi .slt : (⟨S4194304, .i32⟩ : BufTy).Contents (Elt F) → (⟨S4194304, .i32⟩ : BufTy).Contents (Elt F) → (⟨S4194304, .i1⟩ : BufTy).Contents (Elt F)),
    nullary main_c_25 (constantI S_ 32 131072#32),
    unary main_c_25 main_v134 (broadcastInDim S4194304 ![] bcast_S_S4194304 : (⟨S_, .i32⟩ : BufTy).Contents (Elt F) → (⟨S4194304, .i32⟩ : BufTy).Contents (Elt F)),
    binary main_v1 main_v134 main_v135 (addi : (⟨S4194304, .i32⟩ : BufTy).Contents (Elt F) → (⟨S4194304, .i32⟩ : BufTy).Contents (Elt F) → (⟨S4194304, .i32⟩ : BufTy).Contents (Elt F)),
    ternary main_v133 main_v135 main_v1 main_v136 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v136 main_v137 (broadcastInDim S4194304x1 ![0] bcast_S4194304_S4194304x1_0 : (⟨S4194304, .i32⟩ : BufTy).Contents (Elt F) → (⟨S4194304x1, .i32⟩ : BufTy).Contents (Elt F)),
    binary main_v127 main_v137 main_v138 ((fun x i => Host.gather gather_S131072x8_S4194304x1_S4194304x8_1_0_n_n_0_1_18 x i) : (⟨S131072x8, .f32⟩ : BufTy).Contents (Elt F) → (⟨S4194304x1, .i32⟩ : BufTy).Contents (Elt F) → (⟨S4194304x8, .f32⟩ : BufTy).Contents (Elt F)),
    unary main_v131 main_v139 (broadcastInDim S4194304x8 ![0, 1] bcast_S4194304x1_S4194304x8_0_1 : (⟨S4194304x1, .f32⟩ : BufTy).Contents (Elt F) → (⟨S4194304x8, .f32⟩ : BufTy).Contents (Elt F)),
    binary main_v139 main_v138 main_v140 (mulf : (⟨S4194304x8, .f32⟩ : BufTy).Contents (Elt F) → (⟨S4194304x8, .f32⟩ : BufTy).Contents (Elt F) → (⟨S4194304x8, .f32⟩ : BufTy).Contents (Elt F)),
    nullary main_cst_26 (constant S_ .f32 0x00000000#32),
    unary main_cst_26 main_v141 (broadcastInDim S131072x8 ![] bcast_S_S131072x8 : (⟨S_, .f32⟩ : BufTy).Contents (Elt F) → (⟨S131072x8, .f32⟩ : BufTy).Contents (Elt F)),
    unary main_v3 main_v142 (broadcastInDim S4194304x1 ![0] bcast_S4194304_S4194304x1_0 : (⟨S4194304, .i32⟩ : BufTy).Contents (Elt F) → (⟨S4194304x1, .i32⟩ : BufTy).Contents (Elt F)),
    ternary main_v141 main_v142 main_v140 main_v143 ((fun x i u => Host.scatterAdd scatter_S131072x8_S4194304x1_S4194304x8_1_0_0_1 x i u) : (⟨S131072x8, .f32⟩ : BufTy).Contents (Elt F) → (⟨S4194304x1, .i32⟩ : BufTy).Contents (Elt F) → (⟨S4194304x8, .f32⟩ : BufTy).Contents (Elt F) → (⟨S131072x8, .f32⟩ : BufTy).Contents (Elt F)),
    unary main_v35 main_v144 (id : (⟨S131072x1, .f32⟩ : BufTy).Contents (Elt F) → (⟨S131072x1, .f32⟩ : BufTy).Contents (Elt F)),
    unary main_v144 main_v145 (broadcastInDim S131072x8 ![0, 1] bcast_S131072x1_S131072x8_0_1 : (⟨S131072x1, .f32⟩ : BufTy).Contents (Elt F) → (⟨S131072x8, .f32⟩ : BufTy).Contents (Elt F)),
    binary main_v145 main_v127 main_v146 (mulf : (⟨S131072x8, .f32⟩ : BufTy).Contents (Elt F) → (⟨S131072x8, .f32⟩ : BufTy).Contents (Elt F) → (⟨S131072x8, .f32⟩ : BufTy).Contents (Elt F)),
    binary main_v143 main_v146 main_v147 (addf : (⟨S131072x8, .f32⟩ : BufTy).Contents (Elt F) → (⟨S131072x8, .f32⟩ : BufTy).Contents (Elt F) → (⟨S131072x8, .f32⟩ : BufTy).Contents (Elt F)),
    unary main_arg6 main_v148 ((extractStridedSlice S1x8x8 ![1, 0, 0] · slices_S5x8x8_S1x8x8_1_0_0) : (⟨S5x8x8, .f32⟩ : BufTy).Contents (Elt F) → (⟨S1x8x8, .f32⟩ : BufTy).Contents (Elt F)),
    reshape main_v148 main_v149 rfl shapeCasts_S1x8x8_S8x8,
    binary main_v147 main_v149 main_v150 ((fun l r => Host.dotGeneral dot_S131072x8_S8x8_S131072x8_1_0_0_1_n_n none l r) : (⟨S131072x8, .f32⟩ : BufTy).Contents (Elt F) → (⟨S8x8, .f32⟩ : BufTy).Contents (Elt F) → (⟨S131072x8, .f32⟩ : BufTy).Contents (Elt F)),
    binary main_v130 main_v150 main_v151 (addf : (⟨S131072x8, .f32⟩ : BufTy).Contents (Elt F) → (⟨S131072x8, .f32⟩ : BufTy).Contents (Elt F) → (⟨S131072x8, .f32⟩ : BufTy).Contents (Elt F)),
    unary main_v31 main_v152 (broadcastInDim S4194304x1 ![0] bcast_S4194304_S4194304x1_0 : (⟨S4194304, .f32⟩ : BufTy).Contents (Elt F) → (⟨S4194304x1, .f32⟩ : BufTy).Contents (Elt F)),
    nullary main_c_27 (constantI S_ 32 0#32),
    unary main_c_27 main_v153 (broadcastInDim S4194304 ![] bcast_S_S4194304 : (⟨S_, .i32⟩ : BufTy).Contents (Elt F) → (⟨S4194304, .i32⟩ : BufTy).Contents (Elt F)),
    binary main_v1 main_v153 main_v154 (cmpi .slt : (⟨S4194304, .i32⟩ : BufTy).Contents (Elt F) → (⟨S4194304, .i32⟩ : BufTy).Contents (Elt F) → (⟨S4194304, .i1⟩ : BufTy).Contents (Elt F)),
    nullary main_c_28 (constantI S_ 32 131072#32),
    unary main_c_28 main_v155 (broadcastInDim S4194304 ![] bcast_S_S4194304 : (⟨S_, .i32⟩ : BufTy).Contents (Elt F) → (⟨S4194304, .i32⟩ : BufTy).Contents (Elt F)),
    binary main_v1 main_v155 main_v156 (addi : (⟨S4194304, .i32⟩ : BufTy).Contents (Elt F) → (⟨S4194304, .i32⟩ : BufTy).Contents (Elt F) → (⟨S4194304, .i32⟩ : BufTy).Contents (Elt F)),
    ternary main_v154 main_v156 main_v1 main_v157 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v157 main_v158 (broadcastInDim S4194304x1 ![0] bcast_S4194304_S4194304x1_0 : (⟨S4194304, .i32⟩ : BufTy).Contents (Elt F) → (⟨S4194304x1, .i32⟩ : BufTy).Contents (Elt F)),
    binary main_v147 main_v158 main_v159 ((fun x i => Host.gather gather_S131072x8_S4194304x1_S4194304x8_1_0_n_n_0_1_18 x i) : (⟨S131072x8, .f32⟩ : BufTy).Contents (Elt F) → (⟨S4194304x1, .i32⟩ : BufTy).Contents (Elt F) → (⟨S4194304x8, .f32⟩ : BufTy).Contents (Elt F)),
    unary main_v152 main_v160 (broadcastInDim S4194304x8 ![0, 1] bcast_S4194304x1_S4194304x8_0_1 : (⟨S4194304x1, .f32⟩ : BufTy).Contents (Elt F) → (⟨S4194304x8, .f32⟩ : BufTy).Contents (Elt F)),
    binary main_v160 main_v159 main_v161 (mulf : (⟨S4194304x8, .f32⟩ : BufTy).Contents (Elt F) → (⟨S4194304x8, .f32⟩ : BufTy).Contents (Elt F) → (⟨S4194304x8, .f32⟩ : BufTy).Contents (Elt F)),
    nullary main_cst_29 (constant S_ .f32 0x00000000#32),
    unary main_cst_29 main_v162 (broadcastInDim S131072x8 ![] bcast_S_S131072x8 : (⟨S_, .f32⟩ : BufTy).Contents (Elt F) → (⟨S131072x8, .f32⟩ : BufTy).Contents (Elt F)),
    unary main_v3 main_v163 (broadcastInDim S4194304x1 ![0] bcast_S4194304_S4194304x1_0 : (⟨S4194304, .i32⟩ : BufTy).Contents (Elt F) → (⟨S4194304x1, .i32⟩ : BufTy).Contents (Elt F)),
    ternary main_v162 main_v163 main_v161 main_v164 ((fun x i u => Host.scatterAdd scatter_S131072x8_S4194304x1_S4194304x8_1_0_0_1 x i u) : (⟨S131072x8, .f32⟩ : BufTy).Contents (Elt F) → (⟨S4194304x1, .i32⟩ : BufTy).Contents (Elt F) → (⟨S4194304x8, .f32⟩ : BufTy).Contents (Elt F) → (⟨S131072x8, .f32⟩ : BufTy).Contents (Elt F)),
    unary main_v35 main_v165 (id : (⟨S131072x1, .f32⟩ : BufTy).Contents (Elt F) → (⟨S131072x1, .f32⟩ : BufTy).Contents (Elt F)),
    unary main_v165 main_v166 (broadcastInDim S131072x8 ![0, 1] bcast_S131072x1_S131072x8_0_1 : (⟨S131072x1, .f32⟩ : BufTy).Contents (Elt F) → (⟨S131072x8, .f32⟩ : BufTy).Contents (Elt F)),
    binary main_v166 main_v147 main_v167 (mulf : (⟨S131072x8, .f32⟩ : BufTy).Contents (Elt F) → (⟨S131072x8, .f32⟩ : BufTy).Contents (Elt F) → (⟨S131072x8, .f32⟩ : BufTy).Contents (Elt F)),
    binary main_v164 main_v167 main_v168 (addf : (⟨S131072x8, .f32⟩ : BufTy).Contents (Elt F) → (⟨S131072x8, .f32⟩ : BufTy).Contents (Elt F) → (⟨S131072x8, .f32⟩ : BufTy).Contents (Elt F)),
    nullary main_cst_30 (constant S_ .f32 0x40000000#32),
    unary main_cst_30 main_v169 (broadcastInDim S131072x8 ![] bcast_S_S131072x8 : (⟨S_, .f32⟩ : BufTy).Contents (Elt F) → (⟨S131072x8, .f32⟩ : BufTy).Contents (Elt F)),
    binary main_v169 main_v168 main_v170 (mulf : (⟨S131072x8, .f32⟩ : BufTy).Contents (Elt F) → (⟨S131072x8, .f32⟩ : BufTy).Contents (Elt F) → (⟨S131072x8, .f32⟩ : BufTy).Contents (Elt F)),
    binary main_v170 main_v127 main_v171 (subf : (⟨S131072x8, .f32⟩ : BufTy).Contents (Elt F) → (⟨S131072x8, .f32⟩ : BufTy).Contents (Elt F) → (⟨S131072x8, .f32⟩ : BufTy).Contents (Elt F)),
    unary main_arg6 main_v172 ((extractStridedSlice S1x8x8 ![2, 0, 0] · slices_S5x8x8_S1x8x8_2_0_0) : (⟨S5x8x8, .f32⟩ : BufTy).Contents (Elt F) → (⟨S1x8x8, .f32⟩ : BufTy).Contents (Elt F)),
    reshape main_v172 main_v173 rfl shapeCasts_S1x8x8_S8x8,
    binary main_v171 main_v173 main_v174 ((fun l r => Host.dotGeneral dot_S131072x8_S8x8_S131072x8_1_0_0_1_n_n none l r) : (⟨S131072x8, .f32⟩ : BufTy).Contents (Elt F) → (⟨S8x8, .f32⟩ : BufTy).Contents (Elt F) → (⟨S131072x8, .f32⟩ : BufTy).Contents (Elt F)),
    binary main_v151 main_v174 main_v175 (addf : (⟨S131072x8, .f32⟩ : BufTy).Contents (Elt F) → (⟨S131072x8, .f32⟩ : BufTy).Contents (Elt F) → (⟨S131072x8, .f32⟩ : BufTy).Contents (Elt F)),
    unary main_v31 main_v176 (broadcastInDim S4194304x1 ![0] bcast_S4194304_S4194304x1_0 : (⟨S4194304, .f32⟩ : BufTy).Contents (Elt F) → (⟨S4194304x1, .f32⟩ : BufTy).Contents (Elt F)),
    nullary main_c_31 (constantI S_ 32 0#32),
    unary main_c_31 main_v177 (broadcastInDim S4194304 ![] bcast_S_S4194304 : (⟨S_, .i32⟩ : BufTy).Contents (Elt F) → (⟨S4194304, .i32⟩ : BufTy).Contents (Elt F)),
    binary main_v1 main_v177 main_v178 (cmpi .slt : (⟨S4194304, .i32⟩ : BufTy).Contents (Elt F) → (⟨S4194304, .i32⟩ : BufTy).Contents (Elt F) → (⟨S4194304, .i1⟩ : BufTy).Contents (Elt F)),
    nullary main_c_32 (constantI S_ 32 131072#32),
    unary main_c_32 main_v179 (broadcastInDim S4194304 ![] bcast_S_S4194304 : (⟨S_, .i32⟩ : BufTy).Contents (Elt F) → (⟨S4194304, .i32⟩ : BufTy).Contents (Elt F)),
    binary main_v1 main_v179 main_v180 (addi : (⟨S4194304, .i32⟩ : BufTy).Contents (Elt F) → (⟨S4194304, .i32⟩ : BufTy).Contents (Elt F) → (⟨S4194304, .i32⟩ : BufTy).Contents (Elt F)),
    ternary main_v178 main_v180 main_v1 main_v181 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v181 main_v182 (broadcastInDim S4194304x1 ![0] bcast_S4194304_S4194304x1_0 : (⟨S4194304, .i32⟩ : BufTy).Contents (Elt F) → (⟨S4194304x1, .i32⟩ : BufTy).Contents (Elt F)),
    binary main_v171 main_v182 main_v183 ((fun x i => Host.gather gather_S131072x8_S4194304x1_S4194304x8_1_0_n_n_0_1_18 x i) : (⟨S131072x8, .f32⟩ : BufTy).Contents (Elt F) → (⟨S4194304x1, .i32⟩ : BufTy).Contents (Elt F) → (⟨S4194304x8, .f32⟩ : BufTy).Contents (Elt F)),
    unary main_v176 main_v184 (broadcastInDim S4194304x8 ![0, 1] bcast_S4194304x1_S4194304x8_0_1 : (⟨S4194304x1, .f32⟩ : BufTy).Contents (Elt F) → (⟨S4194304x8, .f32⟩ : BufTy).Contents (Elt F)),
    binary main_v184 main_v183 main_v185 (mulf : (⟨S4194304x8, .f32⟩ : BufTy).Contents (Elt F) → (⟨S4194304x8, .f32⟩ : BufTy).Contents (Elt F) → (⟨S4194304x8, .f32⟩ : BufTy).Contents (Elt F)),
    nullary main_cst_33 (constant S_ .f32 0x00000000#32),
    unary main_cst_33 main_v186 (broadcastInDim S131072x8 ![] bcast_S_S131072x8 : (⟨S_, .f32⟩ : BufTy).Contents (Elt F) → (⟨S131072x8, .f32⟩ : BufTy).Contents (Elt F)),
    unary main_v3 main_v187 (broadcastInDim S4194304x1 ![0] bcast_S4194304_S4194304x1_0 : (⟨S4194304, .i32⟩ : BufTy).Contents (Elt F) → (⟨S4194304x1, .i32⟩ : BufTy).Contents (Elt F)),
    ternary main_v186 main_v187 main_v185 main_v188 ((fun x i u => Host.scatterAdd scatter_S131072x8_S4194304x1_S4194304x8_1_0_0_1 x i u) : (⟨S131072x8, .f32⟩ : BufTy).Contents (Elt F) → (⟨S4194304x1, .i32⟩ : BufTy).Contents (Elt F) → (⟨S4194304x8, .f32⟩ : BufTy).Contents (Elt F) → (⟨S131072x8, .f32⟩ : BufTy).Contents (Elt F)),
    unary main_v35 main_v189 (id : (⟨S131072x1, .f32⟩ : BufTy).Contents (Elt F) → (⟨S131072x1, .f32⟩ : BufTy).Contents (Elt F)),
    unary main_v189 main_v190 (broadcastInDim S131072x8 ![0, 1] bcast_S131072x1_S131072x8_0_1 : (⟨S131072x1, .f32⟩ : BufTy).Contents (Elt F) → (⟨S131072x8, .f32⟩ : BufTy).Contents (Elt F)),
    binary main_v190 main_v171 main_v191 (mulf : (⟨S131072x8, .f32⟩ : BufTy).Contents (Elt F) → (⟨S131072x8, .f32⟩ : BufTy).Contents (Elt F) → (⟨S131072x8, .f32⟩ : BufTy).Contents (Elt F)),
    binary main_v188 main_v191 main_v192 (addf : (⟨S131072x8, .f32⟩ : BufTy).Contents (Elt F) → (⟨S131072x8, .f32⟩ : BufTy).Contents (Elt F) → (⟨S131072x8, .f32⟩ : BufTy).Contents (Elt F)),
    nullary main_cst_34 (constant S_ .f32 0x40000000#32),
    unary main_cst_34 main_v193 (broadcastInDim S131072x8 ![] bcast_S_S131072x8 : (⟨S_, .f32⟩ : BufTy).Contents (Elt F) → (⟨S131072x8, .f32⟩ : BufTy).Contents (Elt F)),
    binary main_v193 main_v192 main_v194 (mulf : (⟨S131072x8, .f32⟩ : BufTy).Contents (Elt F) → (⟨S131072x8, .f32⟩ : BufTy).Contents (Elt F) → (⟨S131072x8, .f32⟩ : BufTy).Contents (Elt F)),
    binary main_v194 main_v147 main_v195 (subf : (⟨S131072x8, .f32⟩ : BufTy).Contents (Elt F) → (⟨S131072x8, .f32⟩ : BufTy).Contents (Elt F) → (⟨S131072x8, .f32⟩ : BufTy).Contents (Elt F)),
    unary main_arg6 main_v196 ((extractStridedSlice S1x8x8 ![3, 0, 0] · slices_S5x8x8_S1x8x8_3_0_0) : (⟨S5x8x8, .f32⟩ : BufTy).Contents (Elt F) → (⟨S1x8x8, .f32⟩ : BufTy).Contents (Elt F)),
    reshape main_v196 main_v197 rfl shapeCasts_S1x8x8_S8x8,
    binary main_v195 main_v197 main_v198 ((fun l r => Host.dotGeneral dot_S131072x8_S8x8_S131072x8_1_0_0_1_n_n none l r) : (⟨S131072x8, .f32⟩ : BufTy).Contents (Elt F) → (⟨S8x8, .f32⟩ : BufTy).Contents (Elt F) → (⟨S131072x8, .f32⟩ : BufTy).Contents (Elt F)),
    binary main_v175 main_v198 main_v199 (addf : (⟨S131072x8, .f32⟩ : BufTy).Contents (Elt F) → (⟨S131072x8, .f32⟩ : BufTy).Contents (Elt F) → (⟨S131072x8, .f32⟩ : BufTy).Contents (Elt F)),
    unary main_v31 main_v200 (broadcastInDim S4194304x1 ![0] bcast_S4194304_S4194304x1_0 : (⟨S4194304, .f32⟩ : BufTy).Contents (Elt F) → (⟨S4194304x1, .f32⟩ : BufTy).Contents (Elt F)),
    nullary main_c_35 (constantI S_ 32 0#32),
    unary main_c_35 main_v201 (broadcastInDim S4194304 ![] bcast_S_S4194304 : (⟨S_, .i32⟩ : BufTy).Contents (Elt F) → (⟨S4194304, .i32⟩ : BufTy).Contents (Elt F)),
    binary main_v1 main_v201 main_v202 (cmpi .slt : (⟨S4194304, .i32⟩ : BufTy).Contents (Elt F) → (⟨S4194304, .i32⟩ : BufTy).Contents (Elt F) → (⟨S4194304, .i1⟩ : BufTy).Contents (Elt F)),
    nullary main_c_36 (constantI S_ 32 131072#32),
    unary main_c_36 main_v203 (broadcastInDim S4194304 ![] bcast_S_S4194304 : (⟨S_, .i32⟩ : BufTy).Contents (Elt F) → (⟨S4194304, .i32⟩ : BufTy).Contents (Elt F)),
    binary main_v1 main_v203 main_v204 (addi : (⟨S4194304, .i32⟩ : BufTy).Contents (Elt F) → (⟨S4194304, .i32⟩ : BufTy).Contents (Elt F) → (⟨S4194304, .i32⟩ : BufTy).Contents (Elt F)),
    ternary main_v202 main_v204 main_v1 main_v205 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v205 main_v206 (broadcastInDim S4194304x1 ![0] bcast_S4194304_S4194304x1_0 : (⟨S4194304, .i32⟩ : BufTy).Contents (Elt F) → (⟨S4194304x1, .i32⟩ : BufTy).Contents (Elt F)),
    binary main_v195 main_v206 main_v207 ((fun x i => Host.gather gather_S131072x8_S4194304x1_S4194304x8_1_0_n_n_0_1_18 x i) : (⟨S131072x8, .f32⟩ : BufTy).Contents (Elt F) → (⟨S4194304x1, .i32⟩ : BufTy).Contents (Elt F) → (⟨S4194304x8, .f32⟩ : BufTy).Contents (Elt F)),
    unary main_v200 main_v208 (broadcastInDim S4194304x8 ![0, 1] bcast_S4194304x1_S4194304x8_0_1 : (⟨S4194304x1, .f32⟩ : BufTy).Contents (Elt F) → (⟨S4194304x8, .f32⟩ : BufTy).Contents (Elt F)),
    binary main_v208 main_v207 main_v209 (mulf : (⟨S4194304x8, .f32⟩ : BufTy).Contents (Elt F) → (⟨S4194304x8, .f32⟩ : BufTy).Contents (Elt F) → (⟨S4194304x8, .f32⟩ : BufTy).Contents (Elt F)),
    nullary main_cst_37 (constant S_ .f32 0x00000000#32),
    unary main_cst_37 main_v210 (broadcastInDim S131072x8 ![] bcast_S_S131072x8 : (⟨S_, .f32⟩ : BufTy).Contents (Elt F) → (⟨S131072x8, .f32⟩ : BufTy).Contents (Elt F)),
    unary main_v3 main_v211 (broadcastInDim S4194304x1 ![0] bcast_S4194304_S4194304x1_0 : (⟨S4194304, .i32⟩ : BufTy).Contents (Elt F) → (⟨S4194304x1, .i32⟩ : BufTy).Contents (Elt F)),
    ternary main_v210 main_v211 main_v209 main_v212 ((fun x i u => Host.scatterAdd scatter_S131072x8_S4194304x1_S4194304x8_1_0_0_1 x i u) : (⟨S131072x8, .f32⟩ : BufTy).Contents (Elt F) → (⟨S4194304x1, .i32⟩ : BufTy).Contents (Elt F) → (⟨S4194304x8, .f32⟩ : BufTy).Contents (Elt F) → (⟨S131072x8, .f32⟩ : BufTy).Contents (Elt F)),
    unary main_v35 main_v213 (id : (⟨S131072x1, .f32⟩ : BufTy).Contents (Elt F) → (⟨S131072x1, .f32⟩ : BufTy).Contents (Elt F)),
    unary main_v213 main_v214 (broadcastInDim S131072x8 ![0, 1] bcast_S131072x1_S131072x8_0_1 : (⟨S131072x1, .f32⟩ : BufTy).Contents (Elt F) → (⟨S131072x8, .f32⟩ : BufTy).Contents (Elt F)),
    binary main_v214 main_v195 main_v215 (mulf : (⟨S131072x8, .f32⟩ : BufTy).Contents (Elt F) → (⟨S131072x8, .f32⟩ : BufTy).Contents (Elt F) → (⟨S131072x8, .f32⟩ : BufTy).Contents (Elt F)),
    binary main_v212 main_v215 main_v216 (addf : (⟨S131072x8, .f32⟩ : BufTy).Contents (Elt F) → (⟨S131072x8, .f32⟩ : BufTy).Contents (Elt F) → (⟨S131072x8, .f32⟩ : BufTy).Contents (Elt F)),
    nullary main_cst_38 (constant S_ .f32 0x40000000#32),
    unary main_cst_38 main_v217 (broadcastInDim S131072x8 ![] bcast_S_S131072x8 : (⟨S_, .f32⟩ : BufTy).Contents (Elt F) → (⟨S131072x8, .f32⟩ : BufTy).Contents (Elt F)),
    binary main_v217 main_v216 main_v218 (mulf : (⟨S131072x8, .f32⟩ : BufTy).Contents (Elt F) → (⟨S131072x8, .f32⟩ : BufTy).Contents (Elt F) → (⟨S131072x8, .f32⟩ : BufTy).Contents (Elt F)),
    binary main_v218 main_v171 main_v219 (subf : (⟨S131072x8, .f32⟩ : BufTy).Contents (Elt F) → (⟨S131072x8, .f32⟩ : BufTy).Contents (Elt F) → (⟨S131072x8, .f32⟩ : BufTy).Contents (Elt F)),
    unary main_arg6 main_v220 ((extractStridedSlice S1x8x8 ![4, 0, 0] · slices_S5x8x8_S1x8x8_4_0_0) : (⟨S5x8x8, .f32⟩ : BufTy).Contents (Elt F) → (⟨S1x8x8, .f32⟩ : BufTy).Contents (Elt F)),
    reshape main_v220 main_v221 rfl shapeCasts_S1x8x8_S8x8,
    binary main_v219 main_v221 main_v222 ((fun l r => Host.dotGeneral dot_S131072x8_S8x8_S131072x8_1_0_0_1_n_n none l r) : (⟨S131072x8, .f32⟩ : BufTy).Contents (Elt F) → (⟨S8x8, .f32⟩ : BufTy).Contents (Elt F) → (⟨S131072x8, .f32⟩ : BufTy).Contents (Elt F)),
    binary main_v199 main_v222 main_v223 (addf : (⟨S131072x8, .f32⟩ : BufTy).Contents (Elt F) → (⟨S131072x8, .f32⟩ : BufTy).Contents (Elt F) → (⟨S131072x8, .f32⟩ : BufTy).Contents (Elt F)),
    unary main_arg7 main_v224 (broadcastInDim S1x8 ![1] bcast_S8_S1x8_1 : (⟨S8, .f32⟩ : BufTy).Contents (Elt F) → (⟨S1x8, .f32⟩ : BufTy).Contents (Elt F)),
    unary main_v224 main_v225 (broadcastInDim S131072x8 ![0, 1] bcast_S1x8_S131072x8_0_1 : (⟨S1x8, .f32⟩ : BufTy).Contents (Elt F) → (⟨S131072x8, .f32⟩ : BufTy).Contents (Elt F)),
    binary main_v223 main_v225 main_v226 (addf : (⟨S131072x8, .f32⟩ : BufTy).Contents (Elt F) → (⟨S131072x8, .f32⟩ : BufTy).Contents (Elt F) → (⟨S131072x8, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S131072x8, .f32⟩) main_call3_v0) (broadcastInDim S131072x8 ![] bcast_S_S131072x8),
    TRef.binary (TRef.of (T := ⟨S131072x8, .f32⟩) main_v226) (TRef.of (T := ⟨S131072x8, .f32⟩) main_call3_v0) (TRef.of (T := ⟨S131072x8, .f32⟩) main_v227) maximumf,
    reshape main_v227 main_v228 rfl shapeCasts_S131072x8_S16x65536,
    binary main_v228 main_arg8 main_v229 ((fun l r => Host.dotGeneral dot_S16x65536_S65536x1000_S16x1000_1_0_0_1_n_n none l r) : (⟨S16x65536, .f32⟩ : BufTy).Contents (Elt F) → (⟨S65536x1000, .f32⟩ : BufTy).Contents (Elt F) → (⟨S16x1000, .f32⟩ : BufTy).Contents (Elt F)),
    unary main_arg9 main_v230 (broadcastInDim S1x1000 ![1] bcast_S1000_S1x1000_1 : (⟨S1000, .f32⟩ : BufTy).Contents (Elt F) → (⟨S1x1000, .f32⟩ : BufTy).Contents (Elt F)),
    unary main_v230 main_v231 (broadcastInDim S16x1000 ![0, 1] bcast_S1x1000_S16x1000_0_1 : (⟨S1x1000, .f32⟩ : BufTy).Contents (Elt F) → (⟨S16x1000, .f32⟩ : BufTy).Contents (Elt F)),
    binary main_v229 main_v231 main_v232 (addf : (⟨S16x1000, .f32⟩ : BufTy).Contents (Elt F) → (⟨S16x1000, .f32⟩ : BufTy).Contents (Elt F) → (⟨S16x1000, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16x1000, .f32⟩) main_call4_v0) (broadcastInDim S16x1000 ![] bcast_S_S16x1000),
    TRef.binary (TRef.of (T := ⟨S16x1000, .f32⟩) main_v232) (TRef.of (T := ⟨S16x1000, .f32⟩) main_call4_v0) (TRef.of (T := ⟨S16x1000, .f32⟩) main_v233) maximumf,
    binary main_v233 main_arg10 main_v234 ((fun l r => Host.dotGeneral dot_S16x1000_S1000x34_S16x34_1_0_0_1_n_n none l r) : (⟨S16x1000, .f32⟩ : BufTy).Contents (Elt F) → (⟨S1000x34, .f32⟩ : BufTy).Contents (Elt F) → (⟨S16x34, .f32⟩ : BufTy).Contents (Elt F)),
    unary main_arg11 main_v235 (broadcastInDim S1x34 ![1] bcast_S34_S1x34_1 : (⟨S34, .f32⟩ : BufTy).Contents (Elt F) → (⟨S1x34, .f32⟩ : BufTy).Contents (Elt F)),
    unary main_v235 main_v236 (broadcastInDim S16x34 ![0, 1] bcast_S1x34_S16x34_0_1 : (⟨S1x34, .f32⟩ : BufTy).Contents (Elt F) → (⟨S16x34, .f32⟩ : BufTy).Contents (Elt F)),
    binary main_v234 main_v236 main_v237 (addf : (⟨S16x34, .f32⟩ : BufTy).Contents (Elt F) → (⟨S16x34, .f32⟩ : BufTy).Contents (Elt F) → (⟨S16x34, .f32⟩ : BufTy).Contents (Elt F)) ]

/-- The references the operations write, in order: one each, never an argument. -/
abbrev ops_W : List (Ref sig .tc) := [main_v0, main_v1, main_v2, main_v3, main_v4, main_v5, main_cst, main_v6, main_v7, main_v8, main_cst_0, main_v9, main_v10, main_cst_1, main_v11, main_v12, main_v13, main_cst_2, main_call0_v0, main_call0_v1, main_v14, main_c, main_v15, main_v16, main_c_3, main_v17, main_v18, main_v19, main_v20, main_v21, main_v22, main_v23, main_c_4, main_v24, main_v25, main_c_5, main_v26, main_v27, main_v28, main_v29, main_v30, main_v31, main_cst_6, main_v32, main_v33, main_cst_7, main_cst_8, main_call1_v0, main_call1_v1, main_v34, main_v35, main_v36, main_v37, main_v38, main_v39, main_c_9, main_v40, main_v41, main_c_10, main_v42, main_v43, main_v44, main_v45, main_v46, main_v47, main_cst_11, main_v48, main_v49, main_v50, main_v51, main_v52, main_v53, main_v54, main_v55, main_v56, main_v57, main_v58, main_c_12, main_v59, main_v60, main_c_13, main_v61, main_v62, main_v63, main_v64, main_v65, main_v66, main_cst_14, main_v67, main_v68, main_v69, main_v70, main_v71, main_v72, main_cst_15, main_v73, main_v74, main_v75, main_v76, main_v77, main_v78, main_v79, main_v80, main_c_16, main_v81, main_v82, main_c_17, main_v83, main_v84, main_v85, main_v86, main_v87, main_v88, main_cst_18, main_v89, main_v90, main_v91, main_v92, main_v93, main_v94, main_cst_19, main_v95, main_v96, main_v97, main_v98, main_v99, main_v100, main_v101, main_v102, main_c_20, main_v103, main_v104, main_c_21, main_v105, main_v106, main_v107, main_v108, main_v109, main_v110, main_cst_22, main_v111, main_v112, main_v113, main_v114, main_v115, main_v116, main_cst_23, main_v117, main_v118, main_v119, main_v120, main_v121, main_v122, main_v123, main_v124, main_v125, main_v126, main_call2_cst, main_call2_v0, main_v127, main_v128, main_v129, main_v130, main_v131, main_c_24, main_v132, main_v133, main_c_25, main_v134, main_v135, main_v136, main_v137, main_v138, main_v139, main_v140, main_cst_26, main_v141, main_v142, main_v143, main_v144, main_v145, main_v146, main_v147, main_v148, main_v149, main_v150, main_v151, main_v152, main_c_27, main_v153, main_v154, main_c_28, main_v155, main_v156, main_v157, main_v158, main_v159, main_v160, main_v161, main_cst_29, main_v162, main_v163, main_v164, main_v165, main_v166, main_v167, main_v168, main_cst_30, main_v169, main_v170, main_v171, main_v172, main_v173, main_v174, main_v175, main_v176, main_c_31, main_v177, main_v178, main_c_32, main_v179, main_v180, main_v181, main_v182, main_v183, main_v184, main_v185, main_cst_33, main_v186, main_v187, main_v188, main_v189, main_v190, main_v191, main_v192, main_cst_34, main_v193, main_v194, main_v195, main_v196, main_v197, main_v198, main_v199, main_v200, main_c_35, main_v201, main_v202, main_c_36, main_v203, main_v204, main_v205, main_v206, main_v207, main_v208, main_v209, main_cst_37, main_v210, main_v211, main_v212, main_v213, main_v214, main_v215, main_v216, main_cst_38, main_v217, main_v218, main_v219, main_v220, main_v221, main_v222, main_v223, main_v224, main_v225, main_v226, main_call3_cst, main_call3_v0, main_v227, main_v228, main_v229, main_v230, main_v231, main_v232, main_call4_cst, main_call4_v0, main_v233, main_v234, main_v235, main_v236, main_v237]

end Cert.ReferenceIdeal.Hand

end
-- ==== Proof.Ref.RunH.lean ====
/-
  The reference's run: the printed program is the sequence of its listed operations, every operation touches
  TensorCore references only, so from any memory with zero counters every weakly fair execution terminates and each
  buffer ends at the fold of the operations' results over the launch contents; and no operation writes an argument, so
  an argument's buffer ends as launched.
-/
import proofs.«121312_j57732950393207_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The printed program is the sequence of its operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., nullary_bufs_sub .., unary_bufs_sub .., unary_bufs_sub .., ternary_bufs_sub .., unary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 16384 in
set_option maxHeartbeats 40000000 in
/-- Each operation writes its own result reference. -/
theorem ops_writes : (ops : List (HloOp τ sig (Elt F))).Forall fun op => op.writes ⊆ (ops_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

/-- An argument (any reference no operation writes) ends as launched. -/
theorem kept (m : (ℓ : Loc nD τ sig) → Buf (Elt F) ℓ) (d : Dev nD) (r : Ref sig .tc) (hr : r ∉ ops_W) :
    after (ops (F := F)) (launchContents m d) (Proc.devRef .tc r) = m ((d.tc : Thread nD τ).loc r) :=
  (after_of_writes_sub ops _ ops_writes hr).trans rfl

set_option maxRecDepth 8192 in
set_option maxHeartbeats 40000000 in
/-- THE RUN: every weakly fair execution terminates, each buffer at the fold of the operations over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.Hand

end
-- ==== Proof.Ref.ResultVal.lean ====
/-
  What the reference's result buffer holds after its operations: the stage `val_main_v237` of the launch contents of the
  ten arguments it depends on. The program's 289 operations are read sixteen consecutive pieces at a time, each piece
  ending where an outlined function returns or where a stage many later operations read is complete. After each piece the
  buffers' contents are one named valuation; a buffer written in a piece holds the reference's stage of the arguments, by
  rewriting the piece's operations to their functions over what the earlier pieces left; a buffer a piece does not write
  is carried through it.
-/
import proofs.«121312_j57732950393207_1_alg».proof.Proof.Ref.Ops
import proofs.«121312_j57732950393207_1_alg».proof.Proof.Ref.ReadP
import Idealize.ShloMosaic.Lib.Pipeline.Frame

set_option pp.proofs false
set_option pp.maxSteps 2000
set_option pp.deepTerms false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The casts of an outlined function's operations

An outlined function's operations name their buffers through typed references; at a literal reference the transport
of contents along the reference's type is the identity. One such fact per reference, each way. -/
theorem toBuf_cst_2 (v : (⟨S_, .f32⟩ : BufTy).Contents (Elt Ideal)) : (TRef.of main_cst_2 : TRef sig ⟨S_, .f32⟩).toBuf v = v := rfl
theorem ofBuf_cst_2 (v : (⟨S_, .f32⟩ : BufTy).Contents (Elt Ideal)) : (TRef.of main_cst_2 : TRef sig ⟨S_, .f32⟩).ofBuf v = v := rfl
theorem toBuf_call0_v0 (v : (⟨S_, .f32⟩ : BufTy).Contents (Elt Ideal)) : (TRef.of main_call0_v0 : TRef sig ⟨S_, .f32⟩).toBuf v = v := rfl
theorem ofBuf_call0_v0 (v : (⟨S_, .f32⟩ : BufTy).Contents (Elt Ideal)) : (TRef.of main_call0_v0 : TRef sig ⟨S_, .f32⟩).ofBuf v = v := rfl
theorem toBuf_call0_v1 (v : (⟨S131072, .f32⟩ : BufTy).Contents (Elt Ideal)) : (TRef.of main_call0_v1 : TRef sig ⟨S131072, .f32⟩).toBuf v = v := rfl
theorem ofBuf_call0_v1 (v : (⟨S131072, .f32⟩ : BufTy).Contents (Elt Ideal)) : (TRef.of main_call0_v1 : TRef sig ⟨S131072, .f32⟩).ofBuf v = v := rfl
theorem toBuf_v10 (v : (⟨S131072, .i1⟩ : BufTy).Contents (Elt Ideal)) : (TRef.of main_v10 : TRef sig ⟨S131072, .i1⟩).toBuf v = v := rfl
theorem ofBuf_v10 (v : (⟨S131072, .i1⟩ : BufTy).Contents (Elt Ideal)) : (TRef.of main_v10 : TRef sig ⟨S131072, .i1⟩).ofBuf v = v := rfl
theorem toBuf_v13 (v : (⟨S131072, .f32⟩ : BufTy).Contents (Elt Ideal)) : (TRef.of main_v13 : TRef sig ⟨S131072, .f32⟩).toBuf v = v := rfl
theorem ofBuf_v13 (v : (⟨S131072, .f32⟩ : BufTy).Contents (Elt Ideal)) : (TRef.of main_v13 : TRef sig ⟨S131072, .f32⟩).ofBuf v = v := rfl
theorem toBuf_v14 (v : (⟨S131072, .f32⟩ : BufTy).Contents (Elt Ideal)) : (TRef.of main_v14 : TRef sig ⟨S131072, .f32⟩).toBuf v = v := rfl
theorem ofBuf_v14 (v : (⟨S131072, .f32⟩ : BufTy).Contents (Elt Ideal)) : (TRef.of main_v14 : TRef sig ⟨S131072, .f32⟩).ofBuf v = v := rfl
theorem toBuf_cst_7 (v : (⟨S_, .f32⟩ : BufTy).Contents (Elt Ideal)) : (TRef.of main_cst_7 : TRef sig ⟨S_, .f32⟩).toBuf v = v := rfl
theorem ofBuf_cst_7 (v : (⟨S_, .f32⟩ : BufTy).Contents (Elt Ideal)) : (TRef.of main_cst_7 : TRef sig ⟨S_, .f32⟩).ofBuf v = v := rfl
theorem toBuf_call1_v0 (v : (⟨S131072, .f32⟩ : BufTy).Contents (Elt Ideal)) : (TRef.of main_call1_v0 : TRef sig ⟨S131072, .f32⟩).toBuf v = v := rfl
theorem ofBuf_call1_v0 (v : (⟨S131072, .f32⟩ : BufTy).Contents (Elt Ideal)) : (TRef.of main_call1_v0 : TRef sig ⟨S131072, .f32⟩).ofBuf v = v := rfl
theorem toBuf_cst_8 (v : (⟨S_, .f32⟩ : BufTy).Contents (Elt Ideal)) : (TRef.of main_cst_8 : TRef sig ⟨S_, .f32⟩).toBuf v = v := rfl
theorem ofBuf_cst_8 (v : (⟨S_, .f32⟩ : BufTy).Contents (Elt Ideal)) : (TRef.of main_cst_8 : TRef sig ⟨S_, .f32⟩).ofBuf v = v := rfl
theorem toBuf_call1_v1 (v : (⟨S131072, .f32⟩ : BufTy).Contents (Elt Ideal)) : (TRef.of main_call1_v1 : TRef sig ⟨S131072, .f32⟩).toBuf v = v := rfl
theorem ofBuf_call1_v1 (v : (⟨S131072, .f32⟩ : BufTy).Contents (Elt Ideal)) : (TRef.of main_call1_v1 : TRef sig ⟨S131072, .f32⟩).ofBuf v = v := rfl
theorem toBuf_v33 (v : (⟨S131072, .i1⟩ : BufTy).Contents (Elt Ideal)) : (TRef.of main_v33 : TRef sig ⟨S131072, .i1⟩).toBuf v = v := rfl
theorem ofBuf_v33 (v : (⟨S131072, .i1⟩ : BufTy).Contents (Elt Ideal)) : (TRef.of main_v33 : TRef sig ⟨S131072, .i1⟩).ofBuf v = v := rfl
theorem toBuf_v34 (v : (⟨S131072, .f32⟩ : BufTy).Contents (Elt Ideal)) : (TRef.of main_v34 : TRef sig ⟨S131072, .f32⟩).toBuf v = v := rfl
theorem ofBuf_v34 (v : (⟨S131072, .f32⟩ : BufTy).Contents (Elt Ideal)) : (TRef.of main_v34 : TRef sig ⟨S131072, .f32⟩).ofBuf v = v := rfl
theorem toBuf_call2_cst (v : (⟨S_, .f32⟩ : BufTy).Contents (Elt Ideal)) : (TRef.of main_call2_cst : TRef sig ⟨S_, .f32⟩).toBuf v = v := rfl
theorem ofBuf_call2_cst (v : (⟨S_, .f32⟩ : BufTy).Contents (Elt Ideal)) : (TRef.of main_call2_cst : TRef sig ⟨S_, .f32⟩).ofBuf v = v := rfl
theorem toBuf_call2_v0 (v : (⟨S131072x8, .f32⟩ : BufTy).Contents (Elt Ideal)) : (TRef.of main_call2_v0 : TRef sig ⟨S131072x8, .f32⟩).toBuf v = v := rfl
theorem ofBuf_call2_v0 (v : (⟨S131072x8, .f32⟩ : BufTy).Contents (Elt Ideal)) : (TRef.of main_call2_v0 : TRef sig ⟨S131072x8, .f32⟩).ofBuf v = v := rfl
theorem toBuf_v126 (v : (⟨S131072x8, .f32⟩ : BufTy).Contents (Elt Ideal)) : (TRef.of main_v126 : TRef sig ⟨S131072x8, .f32⟩).toBuf v = v := rfl
theorem ofBuf_v126 (v : (⟨S131072x8, .f32⟩ : BufTy).Contents (Elt Ideal)) : (TRef.of main_v126 : TRef sig ⟨S131072x8, .f32⟩).ofBuf v = v := rfl
theorem toBuf_v127 (v : (⟨S131072x8, .f32⟩ : BufTy).Contents (Elt Ideal)) : (TRef.of main_v127 : TRef sig ⟨S131072x8, .f32⟩).toBuf v = v := rfl
theorem ofBuf_v127 (v : (⟨S131072x8, .f32⟩ : BufTy).Contents (Elt Ideal)) : (TRef.of main_v127 : TRef sig ⟨S131072x8, .f32⟩).ofBuf v = v := rfl
theorem toBuf_call3_cst (v : (⟨S_, .f32⟩ : BufTy).Contents (Elt Ideal)) : (TRef.of main_call3_cst : TRef sig ⟨S_, .f32⟩).toBuf v = v := rfl
theorem ofBuf_call3_cst (v : (⟨S_, .f32⟩ : BufTy).Contents (Elt Ideal)) : (TRef.of main_call3_cst : TRef sig ⟨S_, .f32⟩).ofBuf v = v := rfl
theorem toBuf_call3_v0 (v : (⟨S131072x8, .f32⟩ : BufTy).Contents (Elt Ideal)) : (TRef.of main_call3_v0 : TRef sig ⟨S131072x8, .f32⟩).toBuf v = v := rfl
theorem ofBuf_call3_v0 (v : (⟨S131072x8, .f32⟩ : BufTy).Contents (Elt Ideal)) : (TRef.of main_call3_v0 : TRef sig ⟨S131072x8, .f32⟩).ofBuf v = v := rfl
theorem toBuf_v226 (v : (⟨S131072x8, .f32⟩ : BufTy).Contents (Elt Ideal)) : (TRef.of main_v226 : TRef sig ⟨S131072x8, .f32⟩).toBuf v = v := rfl
theorem ofBuf_v226 (v : (⟨S131072x8, .f32⟩ : BufTy).Contents (Elt Ideal)) : (TRef.of main_v226 : TRef sig ⟨S131072x8, .f32⟩).ofBuf v = v := rfl
theorem toBuf_v227 (v : (⟨S131072x8, .f32⟩ : BufTy).Contents (Elt Ideal)) : (TRef.of main_v227 : TRef sig ⟨S131072x8, .f32⟩).toBuf v = v := rfl
theorem ofBuf_v227 (v : (⟨S131072x8, .f32⟩ : BufTy).Contents (Elt Ideal)) : (TRef.of main_v227 : TRef sig ⟨S131072x8, .f32⟩).ofBuf v = v := rfl
theorem toBuf_call4_cst (v : (⟨S_, .f32⟩ : BufTy).Contents (Elt Ideal)) : (TRef.of main_call4_cst : TRef sig ⟨S_, .f32⟩).toBuf v = v := rfl
theorem ofBuf_call4_cst (v : (⟨S_, .f32⟩ : BufTy).Contents (Elt Ideal)) : (TRef.of main_call4_cst : TRef sig ⟨S_, .f32⟩).ofBuf v = v := rfl
theorem toBuf_call4_v0 (v : (⟨S16x1000, .f32⟩ : BufTy).Contents (Elt Ideal)) : (TRef.of main_call4_v0 : TRef sig ⟨S16x1000, .f32⟩).toBuf v = v := rfl
theorem ofBuf_call4_v0 (v : (⟨S16x1000, .f32⟩ : BufTy).Contents (Elt Ideal)) : (TRef.of main_call4_v0 : TRef sig ⟨S16x1000, .f32⟩).ofBuf v = v := rfl
theorem toBuf_v232 (v : (⟨S16x1000, .f32⟩ : BufTy).Contents (Elt Ideal)) : (TRef.of main_v232 : TRef sig ⟨S16x1000, .f32⟩).toBuf v = v := rfl
theorem ofBuf_v232 (v : (⟨S16x1000, .f32⟩ : BufTy).Contents (Elt Ideal)) : (TRef.of main_v232 : TRef sig ⟨S16x1000, .f32⟩).ofBuf v = v := rfl
theorem toBuf_v233 (v : (⟨S16x1000, .f32⟩ : BufTy).Contents (Elt Ideal)) : (TRef.of main_v233 : TRef sig ⟨S16x1000, .f32⟩).toBuf v = v := rfl
theorem ofBuf_v233 (v : (⟨S16x1000, .f32⟩ : BufTy).Contents (Elt Ideal)) : (TRef.of main_v233 : TRef sig ⟨S16x1000, .f32⟩).ofBuf v = v := rfl

/-! ## The program in pieces -/

/-- Operations 1–21 of the program. -/
abbrev piece0 : List (HloOp τ sig (Elt F)) :=
  [ unary main_arg1 main_v0 ((extractStridedSlice S1x4194304 ![0, 0] · slices_S2x4194304_S1x4194304_0_0) : (⟨S2x4194304, .i32⟩ : BufTy).Contents (Elt F) → (⟨S1x4194304, .i32⟩ : BufTy).Contents (Elt F)),
    reshape main_v0 main_v1 rfl shapeCasts_S1x4194304_S4194304,
    unary main_arg1 main_v2 ((extractStridedSlice S1x4194304 ![1, 0] · slices_S2x4194304_S1x4194304_1_0) : (⟨S2x4194304, .i32⟩ : BufTy).Contents (Elt F) → (⟨S1x4194304, .i32⟩ : BufTy).Contents (Elt F)),
    reshape main_v2 main_v3 rfl shapeCasts_S1x4194304_S4194304,
    binary main_v1 main_v3 main_v4 (cmpi .ne : (⟨S4194304, .i32⟩ : BufTy).Contents (Elt F) → (⟨S4194304, .i32⟩ : BufTy).Contents (Elt F) → (⟨S4194304, .i1⟩ : BufTy).Contents (Elt F)),
    unary main_v4 main_v5 (uitofp .f32 : (⟨S4194304, .i1⟩ : BufTy).Contents (Elt F) → (⟨S4194304, .f32⟩ : BufTy).Contents (Elt F)),
    nullary main_cst (constant S_ .f32 0x00000000#32),
    unary main_cst main_v6 (broadcastInDim S131072 ![] bcast_S_S131072 : (⟨S_, .f32⟩ : BufTy).Contents (Elt F) → (⟨S131072, .f32⟩ : BufTy).Contents (Elt F)),
    unary main_v1 main_v7 (broadcastInDim S4194304x1 ![0] bcast_S4194304_S4194304x1_0 : (⟨S4194304, .i32⟩ : BufTy).Contents (Elt F) → (⟨S4194304x1, .i32⟩ : BufTy).Contents (Elt F)),
    ternary main_v6 main_v7 main_v5 main_v8 ((fun x i u => Host.scatterAdd scatter_S131072_S4194304x1_S4194304_n_0_0_1 x i u) : (⟨S131072, .f32⟩ : BufTy).Contents (Elt F) → (⟨S4194304x1, .i32⟩ : BufTy).Contents (Elt F) → (⟨S4194304, .f32⟩ : BufTy).Contents (Elt F) → (⟨S131072, .f32⟩ : BufTy).Contents (Elt F)),
    nullary main_cst_0 (constant S_ .f32 0x00000000#32),
    unary main_cst_0 main_v9 (broadcastInDim S131072 ![] bcast_S_S131072 : (⟨S_, .f32⟩ : BufTy).Contents (Elt F) → (⟨S131072, .f32⟩ : BufTy).Contents (Elt F)),
    binary main_v8 main_v9 main_v10 (cmpf .ogt : (⟨S131072, .f32⟩ : BufTy).Contents (Elt F) → (⟨S131072, .f32⟩ : BufTy).Contents (Elt F) → (⟨S131072, .i1⟩ : BufTy).Contents (Elt F)),
    nullary main_cst_1 (constant S_ .f32 0x3F800000#32),
    unary main_cst_1 main_v11 (broadcastInDim S131072 ![] bcast_S_S131072 : (⟨S_, .f32⟩ : BufTy).Contents (Elt F) → (⟨S131072, .f32⟩ : BufTy).Contents (Elt F)),
    binary main_v8 main_v11 main_v12 (maximumf : (⟨S131072, .f32⟩ : BufTy).Contents (Elt F) → (⟨S131072, .f32⟩ : BufTy).Contents (Elt F) → (⟨S131072, .f32⟩ : BufTy).Contents (Elt F)),
    unary main_v12 main_v13 (Host.rsqrt : (⟨S131072, .f32⟩ : BufTy).Contents (Elt F) → (⟨S131072, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S131072, .f32⟩) main_call0_v1) (broadcastInDim S131072 ![] bcast_S_S131072),
    TRef.ternary (TRef.of (T := ⟨S131072, .i1⟩) main_v10) (TRef.of (T := ⟨S131072, .f32⟩) main_v13) (TRef.of (T := ⟨S131072, .f32⟩) main_call0_v1) (TRef.of (T := ⟨S131072, .f32⟩) main_v14) select ]
/-- The buffers they write. -/
abbrev written0 : List (Ref sig .tc) := [main_v0, main_v1, main_v2, main_v3, main_v4, main_v5, main_cst, main_v6, main_v7, main_v8, main_cst_0, main_v9, main_v10, main_cst_1, main_v11, main_v12, main_v13, main_cst_2, main_call0_v0, main_call0_v1, main_v14]

/-- Operations 22–42 of the program. -/
abbrev piece1 : List (HloOp τ sig (Elt F)) :=
  [ nullary main_c (constantI S_ 32 0#32),
    unary main_c main_v15 (broadcastInDim S4194304 ![] bcast_S_S4194304 : (⟨S_, .i32⟩ : BufTy).Contents (Elt F) → (⟨S4194304, .i32⟩ : BufTy).Contents (Elt F)),
    binary main_v1 main_v15 main_v16 (cmpi .slt : (⟨S4194304, .i32⟩ : BufTy).Contents (Elt F) → (⟨S4194304, .i32⟩ : BufTy).Contents (Elt F) → (⟨S4194304, .i1⟩ : BufTy).Contents (Elt F)),
    nullary main_c_3 (constantI S_ 32 131072#32),
    unary main_c_3 main_v17 (broadcastInDim S4194304 ![] bcast_S_S4194304 : (⟨S_, .i32⟩ : BufTy).Contents (Elt F) → (⟨S4194304, .i32⟩ : BufTy).Contents (Elt F)),
    binary main_v1 main_v17 main_v18 (addi : (⟨S4194304, .i32⟩ : BufTy).Contents (Elt F) → (⟨S4194304, .i32⟩ : BufTy).Contents (Elt F) → (⟨S4194304, .i32⟩ : BufTy).Contents (Elt F)),
    ternary main_v16 main_v18 main_v1 main_v19 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v19 main_v20 (broadcastInDim S4194304x1 ![0] bcast_S4194304_S4194304x1_0 : (⟨S4194304, .i32⟩ : BufTy).Contents (Elt F) → (⟨S4194304x1, .i32⟩ : BufTy).Contents (Elt F)),
    binary main_v14 main_v20 main_v21 ((fun x i => Host.gather gather_S131072_S4194304x1_S4194304_n_0_n_n_0_1_1 x i) : (⟨S131072, .f32⟩ : BufTy).Contents (Elt F) → (⟨S4194304x1, .i32⟩ : BufTy).Contents (Elt F) → (⟨S4194304, .f32⟩ : BufTy).Contents (Elt F)),
    unary main_v21 main_v22 (Host.negf : (⟨S4194304, .f32⟩ : BufTy).Contents (Elt F) → (⟨S4194304, .f32⟩ : BufTy).Contents (Elt F)),
    binary main_v22 main_v5 main_v23 (mulf : (⟨S4194304, .f32⟩ : BufTy).Contents (Elt F) → (⟨S4194304, .f32⟩ : BufTy).Contents (Elt F) → (⟨S4194304, .f32⟩ : BufTy).Contents (Elt F)),
    nullary main_c_4 (constantI S_ 32 0#32),
    unary main_c_4 main_v24 (broadcastInDim S4194304 ![] bcast_S_S4194304 : (⟨S_, .i32⟩ : BufTy).Contents (Elt F) → (⟨S4194304, .i32⟩ : BufTy).Contents (Elt F)),
    binary main_v3 main_v24 main_v25 (cmpi .slt : (⟨S4194304, .i32⟩ : BufTy).Contents (Elt F) → (⟨S4194304, .i32⟩ : BufTy).Contents (Elt F) → (⟨S4194304, .i1⟩ : BufTy).Contents (Elt F)),
    nullary main_c_5 (constantI S_ 32 131072#32),
    unary main_c_5 main_v26 (broadcastInDim S4194304 ![] bcast_S_S4194304 : (⟨S_, .i32⟩ : BufTy).Contents (Elt F) → (⟨S4194304, .i32⟩ : BufTy).Contents (Elt F)),
    binary main_v3 main_v26 main_v27 (addi : (⟨S4194304, .i32⟩ : BufTy).Contents (Elt F) → (⟨S4194304, .i32⟩ : BufTy).Contents (Elt F) → (⟨S4194304, .i32⟩ : BufTy).Contents (Elt F)),
    ternary main_v25 main_v27 main_v3 main_v28 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v28 main_v29 (broadcastInDim S4194304x1 ![0] bcast_S4194304_S4194304x1_0 : (⟨S4194304, .i32⟩ : BufTy).Contents (Elt F) → (⟨S4194304x1, .i32⟩ : BufTy).Contents (Elt F)),
    binary main_v14 main_v29 main_v30 ((fun x i => Host.gather gather_S131072_S4194304x1_S4194304_n_0_n_n_0_1_1 x i) : (⟨S131072, .f32⟩ : BufTy).Contents (Elt F) → (⟨S4194304x1, .i32⟩ : BufTy).Contents (Elt F) → (⟨S4194304, .f32⟩ : BufTy).Contents (Elt F)),
    binary main_v23 main_v30 main_v31 (mulf : (⟨S4194304, .f32⟩ : BufTy).Contents (Elt F) → (⟨S4194304, .f32⟩ : BufTy).Contents (Elt F) → (⟨S4194304, .f32⟩ : BufTy).Contents (Elt F)) ]
/-- The buffers they write. -/
abbrev written1 : List (Ref sig .tc) := [main_c, main_v15, main_v16, main_c_3, main_v17, main_v18, main_v19, main_v20, main_v21, main_v22, main_v23, main_c_4, main_v24, main_v25, main_c_5, main_v26, main_v27, main_v28, main_v29, main_v30, main_v31]

/-- Operations 43–50 of the program. -/
abbrev piece2 : List (HloOp τ sig (Elt F)) :=
  [ nullary main_cst_6 (constant S_ .f32 0x00000000#32),
    unary main_cst_6 main_v32 (broadcastInDim S131072 ![] bcast_S_S131072 : (⟨S_, .f32⟩ : BufTy).Contents (Elt F) → (⟨S131072, .f32⟩ : BufTy).Contents (Elt F)),
    binary main_v8 main_v32 main_v33 (cmpf .ogt : (⟨S131072, .f32⟩ : BufTy).Contents (Elt F) → (⟨S131072, .f32⟩ : BufTy).Contents (Elt F) → (⟨S131072, .i1⟩ : BufTy).Contents (Elt F)),
    nullary main_cst_7 (constant S_ .f32 0x00000000#32),
    nullary main_cst_8 (constant S_ .f32 0xBF800000#32),
    TRef.unary (TRef.of (T := ⟨S_, .f32⟩) main_cst_7) (TRef.of (T := ⟨S131072, .f32⟩) main_call1_v0) (broadcastInDim S131072 ![] bcast_S_S131072),
    TRef.unary (TRef.of (T := ⟨S_, .f32⟩) main_cst_8) (TRef.of (T := ⟨S131072, .f32⟩) main_call1_v1) (broadcastInDim S131072 ![] bcast_S_S131072),
    TRef.ternary (TRef.of (T := ⟨S131072, .i1⟩) main_v33) (TRef.of (T := ⟨S131072, .f32⟩) main_call1_v0) (TRef.of (T := ⟨S131072, .f32⟩) main_call1_v1) (TRef.of (T := ⟨S131072, .f32⟩) main_v34) select ]
/-- The buffers they write. -/
abbrev written2 : List (Ref sig .tc) := [main_cst_6, main_v32, main_v33, main_cst_7, main_cst_8, main_call1_v0, main_call1_v1, main_v34]

/-- Operations 51–51 of the program. -/
abbrev piece3 : List (HloOp τ sig (Elt F)) :=
  [ unary main_v34 main_v35 (broadcastInDim S131072x1 ![0] bcast_S131072_S131072x1_0 : (⟨S131072, .f32⟩ : BufTy).Contents (Elt F) → (⟨S131072x1, .f32⟩ : BufTy).Contents (Elt F)) ]
/-- The buffers they write. -/
abbrev written3 : List (Ref sig .tc) := [main_v35]

/-- Operations 52–72 of the program. -/
abbrev piece4 : List (HloOp τ sig (Elt F)) :=
  [ unary main_arg4 main_v36 ((extractStridedSlice S1x1x8 ![0, 0, 0] · slices_S5x1x8_S1x1x8_0_0_0) : (⟨S5x1x8, .f32⟩ : BufTy).Contents (Elt F) → (⟨S1x1x8, .f32⟩ : BufTy).Contents (Elt F)),
    reshape main_v36 main_v37 rfl shapeCasts_S1x1x8_S1x8,
    binary main_arg0 main_v37 main_v38 ((fun l r => Host.dotGeneral dot_S131072x1_S1x8_S131072x8_1_0_0_1_n_n none l r) : (⟨S131072x1, .f32⟩ : BufTy).Contents (Elt F) → (⟨S1x8, .f32⟩ : BufTy).Contents (Elt F) → (⟨S131072x8, .f32⟩ : BufTy).Contents (Elt F)),
    unary main_v31 main_v39 (broadcastInDim S4194304x1 ![0] bcast_S4194304_S4194304x1_0 : (⟨S4194304, .f32⟩ : BufTy).Contents (Elt F) → (⟨S4194304x1, .f32⟩ : BufTy).Contents (Elt F)),
    nullary main_c_9 (constantI S_ 32 0#32),
    unary main_c_9 main_v40 (broadcastInDim S4194304 ![] bcast_S_S4194304 : (⟨S_, .i32⟩ : BufTy).Contents (Elt F) → (⟨S4194304, .i32⟩ : BufTy).Contents (Elt F)),
    binary main_v1 main_v40 main_v41 (cmpi .slt : (⟨S4194304, .i32⟩ : BufTy).Contents (Elt F) → (⟨S4194304, .i32⟩ : BufTy).Contents (Elt F) → (⟨S4194304, .i1⟩ : BufTy).Contents (Elt F)),
    nullary main_c_10 (constantI S_ 32 131072#32),
    unary main_c_10 main_v42 (broadcastInDim S4194304 ![] bcast_S_S4194304 : (⟨S_, .i32⟩ : BufTy).Contents (Elt F) → (⟨S4194304, .i32⟩ : BufTy).Contents (Elt F)),
    binary main_v1 main_v42 main_v43 (addi : (⟨S4194304, .i32⟩ : BufTy).Contents (Elt F) → (⟨S4194304, .i32⟩ : BufTy).Contents (Elt F) → (⟨S4194304, .i32⟩ : BufTy).Contents (Elt F)),
    ternary main_v41 main_v43 main_v1 main_v44 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v44 main_v45 (broadcastInDim S4194304x1 ![0] bcast_S4194304_S4194304x1_0 : (⟨S4194304, .i32⟩ : BufTy).Contents (Elt F) → (⟨S4194304x1, .i32⟩ : BufTy).Contents (Elt F)),
    binary main_arg0 main_v45 main_v46 ((fun x i => Host.gather gather_S131072x1_S4194304x1_S4194304x1_1_0_n_n_0_1_11 x i) : (⟨S131072x1, .f32⟩ : BufTy).Contents (Elt F) → (⟨S4194304x1, .i32⟩ : BufTy).Contents (Elt F) → (⟨S4194304x1, .f32⟩ : BufTy).Contents (Elt F)),
    binary main_v39 main_v46 main_v47 (mulf : (⟨S4194304x1, .f32⟩ : BufTy).Contents (Elt F) → (⟨S4194304x1, .f32⟩ : BufTy).Contents (Elt F) → (⟨S4194304x1, .f32⟩ : BufTy).Contents (Elt F)),
    nullary main_cst_11 (constant S_ .f32 0x00000000#32),
    unary main_cst_11 main_v48 (broadcastInDim S131072x1 ![] bcast_S_S131072x1 : (⟨S_, .f32⟩ : BufTy).Contents (Elt F) → (⟨S131072x1, .f32⟩ : BufTy).Contents (Elt F)),
    unary main_v3 main_v49 (broadcastInDim S4194304x1 ![0] bcast_S4194304_S4194304x1_0 : (⟨S4194304, .i32⟩ : BufTy).Contents (Elt F) → (⟨S4194304x1, .i32⟩ : BufTy).Contents (Elt F)),
    ternary main_v48 main_v49 main_v47 main_v50 ((fun x i u => Host.scatterAdd scatter_S131072x1_S4194304x1_S4194304x1_1_0_0_1 x i u) : (⟨S131072x1, .f32⟩ : BufTy).Contents (Elt F) → (⟨S4194304x1, .i32⟩ : BufTy).Contents (Elt F) → (⟨S4194304x1, .f32⟩ : BufTy).Contents (Elt F) → (⟨S131072x1, .f32⟩ : BufTy).Contents (Elt F)),
    unary main_v35 main_v51 (id : (⟨S131072x1, .f32⟩ : BufTy).Contents (Elt F) → (⟨S131072x1, .f32⟩ : BufTy).Contents (Elt F)),
    binary main_v51 main_arg0 main_v52 (mulf : (⟨S131072x1, .f32⟩ : BufTy).Contents (Elt F) → (⟨S131072x1, .f32⟩ : BufTy).Contents (Elt F) → (⟨S131072x1, .f32⟩ : BufTy).Contents (Elt F)),
    binary main_v50 main_v52 main_v53 (addf : (⟨S131072x1, .f32⟩ : BufTy).Contents (Elt F) → (⟨S131072x1, .f32⟩ : BufTy).Contents (Elt F) → (⟨S131072x1, .f32⟩ : BufTy).Contents (Elt F)) ]
/-- The buffers they write. -/
abbrev written4 : List (Ref sig .tc) := [main_v36, main_v37, main_v38, main_v39, main_c_9, main_v40, main_v41, main_c_10, main_v42, main_v43, main_v44, main_v45, main_v46, main_v47, main_cst_11, main_v48, main_v49, main_v50, main_v51, main_v52, main_v53]

/-- Operations 73–98 of the program. -/
abbrev piece5 : List (HloOp τ sig (Elt F)) :=
  [ unary main_arg4 main_v54 ((extractStridedSlice S1x1x8 ![1, 0, 0] · slices_S5x1x8_S1x1x8_1_0_0) : (⟨S5x1x8, .f32⟩ : BufTy).Contents (Elt F) → (⟨S1x1x8, .f32⟩ : BufTy).Contents (Elt F)),
    reshape main_v54 main_v55 rfl shapeCasts_S1x1x8_S1x8,
    binary main_v53 main_v55 main_v56 ((fun l r => Host.dotGeneral dot_S131072x1_S1x8_S131072x8_1_0_0_1_n_n none l r) : (⟨S131072x1, .f32⟩ : BufTy).Contents (Elt F) → (⟨S1x8, .f32⟩ : BufTy).Contents (Elt F) → (⟨S131072x8, .f32⟩ : BufTy).Contents (Elt F)),
    binary main_v38 main_v56 main_v57 (addf : (⟨S131072x8, .f32⟩ : BufTy).Contents (Elt F) → (⟨S131072x8, .f32⟩ : BufTy).Contents (Elt F) → (⟨S131072x8, .f32⟩ : BufTy).Contents (Elt F)),
    unary main_v31 main_v58 (broadcastInDim S4194304x1 ![0] bcast_S4194304_S4194304x1_0 : (⟨S4194304, .f32⟩ : BufTy).Contents (Elt F) → (⟨S4194304x1, .f32⟩ : BufTy).Contents (Elt F)),
    nullary main_c_12 (constantI S_ 32 0#32),
    unary main_c_12 main_v59 (broadcastInDim S4194304 ![] bcast_S_S4194304 : (⟨S_, .i32⟩ : BufTy).Contents (Elt F) → (⟨S4194304, .i32⟩ : BufTy).Contents (Elt F)),
    binary main_v1 main_v59 main_v60 (cmpi .slt : (⟨S4194304, .i32⟩ : BufTy).Contents (Elt F) → (⟨S4194304, .i32⟩ : BufTy).Contents (Elt F) → (⟨S4194304, .i1⟩ : BufTy).Contents (Elt F)),
    nullary main_c_13 (constantI S_ 32 131072#32),
    unary main_c_13 main_v61 (broadcastInDim S4194304 ![] bcast_S_S4194304 : (⟨S_, .i32⟩ : BufTy).Contents (Elt F) → (⟨S4194304, .i32⟩ : BufTy).Contents (Elt F)),
    binary main_v1 main_v61 main_v62 (addi : (⟨S4194304, .i32⟩ : BufTy).Contents (Elt F) → (⟨S4194304, .i32⟩ : BufTy).Contents (Elt F) → (⟨S4194304, .i32⟩ : BufTy).Contents (Elt F)),
    ternary main_v60 main_v62 main_v1 main_v63 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v63 main_v64 (broadcastInDim S4194304x1 ![0] bcast_S4194304_S4194304x1_0 : (⟨S4194304, .i32⟩ : BufTy).Contents (Elt F) → (⟨S4194304x1, .i32⟩ : BufTy).Contents (Elt F)),
    binary main_v53 main_v64 main_v65 ((fun x i => Host.gather gather_S131072x1_S4194304x1_S4194304x1_1_0_n_n_0_1_11 x i) : (⟨S131072x1, .f32⟩ : BufTy).Contents (Elt F) → (⟨S4194304x1, .i32⟩ : BufTy).Contents (Elt F) → (⟨S4194304x1, .f32⟩ : BufTy).Contents (Elt F)),
    binary main_v58 main_v65 main_v66 (mulf : (⟨S4194304x1, .f32⟩ : BufTy).Contents (Elt F) → (⟨S4194304x1, .f32⟩ : BufTy).Contents (Elt F) → (⟨S4194304x1, .f32⟩ : BufTy).Contents (Elt F)),
    nullary main_cst_14 (constant S_ .f32 0x00000000#32),
    unary main_cst_14 main_v67 (broadcastInDim S131072x1 ![] bcast_S_S131072x1 : (⟨S_, .f32⟩ : BufTy).Contents (Elt F) → (⟨S131072x1, .f32⟩ : BufTy).Contents (Elt F)),
    unary main_v3 main_v68 (broadcastInDim S4194304x1 ![0] bcast_S4194304_S4194304x1_0 : (⟨S4194304, .i32⟩ : BufTy).Contents (Elt F) → (⟨S4194304x1, .i32⟩ : BufTy).Contents (Elt F)),
    ternary main_v67 main_v68 main_v66 main_v69 ((fun x i u => Host.scatterAdd scatter_S131072x1_S4194304x1_S4194304x1_1_0_0_1 x i u) : (⟨S131072x1, .f32⟩ : BufTy).Contents (Elt F) → (⟨S4194304x1, .i32⟩ : BufTy).Contents (Elt F) → (⟨S4194304x1, .f32⟩ : BufTy).Contents (Elt F) → (⟨S131072x1, .f32⟩ : BufTy).Contents (Elt F)),
    unary main_v35 main_v70 (id : (⟨S131072x1, .f32⟩ : BufTy).Contents (Elt F) → (⟨S131072x1, .f32⟩ : BufTy).Contents (Elt F)),
    binary main_v70 main_v53 main_v71 (mulf : (⟨S131072x1, .f32⟩ : BufTy).Contents (Elt F) → (⟨S131072x1, .f32⟩ : BufTy).Contents (Elt F) → (⟨S131072x1, .f32⟩ : BufTy).Contents (Elt F)),
    binary main_v69 main_v71 main_v72 (addf : (⟨S131072x1, .f32⟩ : BufTy).Contents (Elt F) → (⟨S131072x1, .f32⟩ : BufTy).Contents (Elt F) → (⟨S131072x1, .f32⟩ : BufTy).Contents (Elt F)),
    nullary main_cst_15 (constant S_ .f32 0x40000000#32),
    unary main_cst_15 main_v73 (broadcastInDim S131072x1 ![] bcast_S_S131072x1 : (⟨S_, .f32⟩ : BufTy).Contents (Elt F) → (⟨S131072x1, .f32⟩ : BufTy).Contents (Elt F)),
    binary main_v73 main_v72 main_v74 (mulf : (⟨S131072x1, .f32⟩ : BufTy).Contents (Elt F) → (⟨S131072x1, .f32⟩ : BufTy).Contents (Elt F) → (⟨S131072x1, .f32⟩ : BufTy).Contents (Elt F)),
    binary main_v74 main_arg0 main_v75 (subf : (⟨S131072x1, .f32⟩ : BufTy).Contents (Elt F) → (⟨S131072x1, .f32⟩ : BufTy).Contents (Elt F) → (⟨S131072x1, .f32⟩ : BufTy).Contents (Elt F)) ]
/-- The buffers they write. -/
abbrev written5 : List (Ref sig .tc) := [main_v54, main_v55, main_v56, main_v57, main_v58, main_c_12, main_v59, main_v60, main_c_13, main_v61, main_v62, main_v63, main_v64, main_v65, main_v66, main_cst_14, main_v67, main_v68, main_v69, main_v70, main_v71, main_v72, main_cst_15, main_v73, main_v74, main_v75]

/-- Operations 99–124 of the program. -/
abbrev piece6 : List (HloOp τ sig (Elt F)) :=
  [ unary main_arg4 main_v76 ((extractStridedSlice S1x1x8 ![2, 0, 0] · slices_S5x1x8_S1x1x8_2_0_0) : (⟨S5x1x8, .f32⟩ : BufTy).Contents (Elt F) → (⟨S1x1x8, .f32⟩ : BufTy).Contents (Elt F)),
    reshape main_v76 main_v77 rfl shapeCasts_S1x1x8_S1x8,
    binary main_v75 main_v77 main_v78 ((fun l r => Host.dotGeneral dot_S131072x1_S1x8_S131072x8_1_0_0_1_n_n none l r) : (⟨S131072x1, .f32⟩ : BufTy).Contents (Elt F) → (⟨S1x8, .f32⟩ : BufTy).Contents (Elt F) → (⟨S131072x8, .f32⟩ : BufTy).Contents (Elt F)),
    binary main_v57 main_v78 main_v79 (addf : (⟨S131072x8, .f32⟩ : BufTy).Contents (Elt F) → (⟨S131072x8, .f32⟩ : BufTy).Contents (Elt F) → (⟨S131072x8, .f32⟩ : BufTy).Contents (Elt F)),
    unary main_v31 main_v80 (broadcastInDim S4194304x1 ![0] bcast_S4194304_S4194304x1_0 : (⟨S4194304, .f32⟩ : BufTy).Contents (Elt F) → (⟨S4194304x1, .f32⟩ : BufTy).Contents (Elt F)),
    nullary main_c_16 (constantI S_ 32 0#32),
    unary main_c_16 main_v81 (broadcastInDim S4194304 ![] bcast_S_S4194304 : (⟨S_, .i32⟩ : BufTy).Contents (Elt F) → (⟨S4194304, .i32⟩ : BufTy).Contents (Elt F)),
    binary main_v1 main_v81 main_v82 (cmpi .slt : (⟨S4194304, .i32⟩ : BufTy).Contents (Elt F) → (⟨S4194304, .i32⟩ : BufTy).Contents (Elt F) → (⟨S4194304, .i1⟩ : BufTy).Contents (Elt F)),
    nullary main_c_17 (constantI S_ 32 131072#32),
    unary main_c_17 main_v83 (broadcastInDim S4194304 ![] bcast_S_S4194304 : (⟨S_, .i32⟩ : BufTy).Contents (Elt F) → (⟨S4194304, .i32⟩ : BufTy).Contents (Elt F)),
    binary main_v1 main_v83 main_v84 (addi : (⟨S4194304, .i32⟩ : BufTy).Contents (Elt F) → (⟨S4194304, .i32⟩ : BufTy).Contents (Elt F) → (⟨S4194304, .i32⟩ : BufTy).Contents (Elt F)),
    ternary main_v82 main_v84 main_v1 main_v85 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v85 main_v86 (broadcastInDim S4194304x1 ![0] bcast_S4194304_S4194304x1_0 : (⟨S4194304, .i32⟩ : BufTy).Contents (Elt F) → (⟨S4194304x1, .i32⟩ : BufTy).Contents (Elt F)),
    binary main_v75 main_v86 main_v87 ((fun x i => Host.gather gather_S131072x1_S4194304x1_S4194304x1_1_0_n_n_0_1_11 x i) : (⟨S131072x1, .f32⟩ : BufTy).Contents (Elt F) → (⟨S4194304x1, .i32⟩ : BufTy).Contents (Elt F) → (⟨S4194304x1, .f32⟩ : BufTy).Contents (Elt F)),
    binary main_v80 main_v87 main_v88 (mulf : (⟨S4194304x1, .f32⟩ : BufTy).Contents (Elt F) → (⟨S4194304x1, .f32⟩ : BufTy).Contents (Elt F) → (⟨S4194304x1, .f32⟩ : BufTy).Contents (Elt F)),
    nullary main_cst_18 (constant S_ .f32 0x00000000#32),
    unary main_cst_18 main_v89 (broadcastInDim S131072x1 ![] bcast_S_S131072x1 : (⟨S_, .f32⟩ : BufTy).Contents (Elt F) → (⟨S131072x1, .f32⟩ : BufTy).Contents (Elt F)),
    unary main_v3 main_v90 (broadcastInDim S4194304x1 ![0] bcast_S4194304_S4194304x1_0 : (⟨S4194304, .i32⟩ : BufTy).Contents (Elt F) → (⟨S4194304x1, .i32⟩ : BufTy).Contents (Elt F)),
    ternary main_v89 main_v90 main_v88 main_v91 ((fun x i u => Host.scatterAdd scatter_S131072x1_S4194304x1_S4194304x1_1_0_0_1 x i u) : (⟨S131072x1, .f32⟩ : BufTy).Contents (Elt F) → (⟨S4194304x1, .i32⟩ : BufTy).Contents (Elt F) → (⟨S4194304x1, .f32⟩ : BufTy).Contents (Elt F) → (⟨S131072x1, .f32⟩ : BufTy).Contents (Elt F)),
    unary main_v35 main_v92 (id : (⟨S131072x1, .f32⟩ : BufTy).Contents (Elt F) → (⟨S131072x1, .f32⟩ : BufTy).Contents (Elt F)),
    binary main_v92 main_v75 main_v93 (mulf : (⟨S131072x1, .f32⟩ : BufTy).Contents (Elt F) → (⟨S131072x1, .f32⟩ : BufTy).Contents (Elt F) → (⟨S131072x1, .f32⟩ : BufTy).Contents (Elt F)),
    binary main_v91 main_v93 main_v94 (addf : (⟨S131072x1, .f32⟩ : BufTy).Contents (Elt F) → (⟨S131072x1, .f32⟩ : BufTy).Contents (Elt F) → (⟨S131072x1, .f32⟩ : BufTy).Contents (Elt F)),
    nullary main_cst_19 (constant S_ .f32 0x40000000#32),
    unary main_cst_19 main_v95 (broadcastInDim S131072x1 ![] bcast_S_S131072x1 : (⟨S_, .f32⟩ : BufTy).Contents (Elt F) → (⟨S131072x1, .f32⟩ : BufTy).Contents (Elt F)),
    binary main_v95 main_v94 main_v96 (mulf : (⟨S131072x1, .f32⟩ : BufTy).Contents (Elt F) → (⟨S131072x1, .f32⟩ : BufTy).Contents (Elt F) → (⟨S131072x1, .f32⟩ : BufTy).Contents (Elt F)),
    binary main_v96 main_v53 main_v97 (subf : (⟨S131072x1, .f32⟩ : BufTy).Contents (Elt F) → (⟨S131072x1, .f32⟩ : BufTy).Contents (Elt F) → (⟨S131072x1, .f32⟩ : BufTy).Contents (Elt F)) ]
/-- The buffers they write. -/
abbrev written6 : List (Ref sig .tc) := [main_v76, main_v77, main_v78, main_v79, main_v80, main_c_16, main_v81, main_v82, main_c_17, main_v83, main_v84, main_v85, main_v86, main_v87, main_v88, main_cst_18, main_v89, main_v90, main_v91, main_v92, main_v93, main_v94, main_cst_19, main_v95, main_v96, main_v97]

/-- Operations 125–150 of the program. -/
abbrev piece7 : List (HloOp τ sig (Elt F)) :=
  [ unary main_arg4 main_v98 ((extractStridedSlice S1x1x8 ![3, 0, 0] · slices_S5x1x8_S1x1x8_3_0_0) : (⟨S5x1x8, .f32⟩ : BufTy).Contents (Elt F) → (⟨S1x1x8, .f32⟩ : BufTy).Contents (Elt F)),
    reshape main_v98 main_v99 rfl shapeCasts_S1x1x8_S1x8,
    binary main_v97 main_v99 main_v100 ((fun l r => Host.dotGeneral dot_S131072x1_S1x8_S131072x8_1_0_0_1_n_n none l r) : (⟨S131072x1, .f32⟩ : BufTy).Contents (Elt F) → (⟨S1x8, .f32⟩ : BufTy).Contents (Elt F) → (⟨S131072x8, .f32⟩ : BufTy).Contents (Elt F)),
    binary main_v79 main_v100 main_v101 (addf : (⟨S131072x8, .f32⟩ : BufTy).Contents (Elt F) → (⟨S131072x8, .f32⟩ : BufTy).Contents (Elt F) → (⟨S131072x8, .f32⟩ : BufTy).Contents (Elt F)),
    unary main_v31 main_v102 (broadcastInDim S4194304x1 ![0] bcast_S4194304_S4194304x1_0 : (⟨S4194304, .f32⟩ : BufTy).Contents (Elt F) → (⟨S4194304x1, .f32⟩ : BufTy).Contents (Elt F)),
    nullary main_c_20 (constantI S_ 32 0#32),
    unary main_c_20 main_v103 (broadcastInDim S4194304 ![] bcast_S_S4194304 : (⟨S_, .i32⟩ : BufTy).Contents (Elt F) → (⟨S4194304, .i32⟩ : BufTy).Contents (Elt F)),
    binary main_v1 main_v103 main_v104 (cmpi .slt : (⟨S4194304, .i32⟩ : BufTy).Contents (Elt F) → (⟨S4194304, .i32⟩ : BufTy).Contents (Elt F) → (⟨S4194304, .i1⟩ : BufTy).Contents (Elt F)),
    nullary main_c_21 (constantI S_ 32 131072#32),
    unary main_c_21 main_v105 (broadcastInDim S4194304 ![] bcast_S_S4194304 : (⟨S_, .i32⟩ : BufTy).Contents (Elt F) → (⟨S4194304, .i32⟩ : BufTy).Contents (Elt F)),
    binary main_v1 main_v105 main_v106 (addi : (⟨S4194304, .i32⟩ : BufTy).Contents (Elt F) → (⟨S4194304, .i32⟩ : BufTy).Contents (Elt F) → (⟨S4194304, .i32⟩ : BufTy).Contents (Elt F)),
    ternary main_v104 main_v106 main_v1 main_v107 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v107 main_v108 (broadcastInDim S4194304x1 ![0] bcast_S4194304_S4194304x1_0 : (⟨S4194304, .i32⟩ : BufTy).Contents (Elt F) → (⟨S4194304x1, .i32⟩ : BufTy).Contents (Elt F)),
    binary main_v97 main_v108 main_v109 ((fun x i => Host.gather gather_S131072x1_S4194304x1_S4194304x1_1_0_n_n_0_1_11 x i) : (⟨S131072x1, .f32⟩ : BufTy).Contents (Elt F) → (⟨S4194304x1, .i32⟩ : BufTy).Contents (Elt F) → (⟨S4194304x1, .f32⟩ : BufTy).Contents (Elt F)),
    binary main_v102 main_v109 main_v110 (mulf : (⟨S4194304x1, .f32⟩ : BufTy).Contents (Elt F) → (⟨S4194304x1, .f32⟩ : BufTy).Contents (Elt F) → (⟨S4194304x1, .f32⟩ : BufTy).Contents (Elt F)),
    nullary main_cst_22 (constant S_ .f32 0x00000000#32),
    unary main_cst_22 main_v111 (broadcastInDim S131072x1 ![] bcast_S_S131072x1 : (⟨S_, .f32⟩ : BufTy).Contents (Elt F) → (⟨S131072x1, .f32⟩ : BufTy).Contents (Elt F)),
    unary main_v3 main_v112 (broadcastInDim S4194304x1 ![0] bcast_S4194304_S4194304x1_0 : (⟨S4194304, .i32⟩ : BufTy).Contents (Elt F) → (⟨S4194304x1, .i32⟩ : BufTy).Contents (Elt F)),
    ternary main_v111 main_v112 main_v110 main_v113 ((fun x i u => Host.scatterAdd scatter_S131072x1_S4194304x1_S4194304x1_1_0_0_1 x i u) : (⟨S131072x1, .f32⟩ : BufTy).Contents (Elt F) → (⟨S4194304x1, .i32⟩ : BufTy).Contents (Elt F) → (⟨S4194304x1, .f32⟩ : BufTy).Contents (Elt F) → (⟨S131072x1, .f32⟩ : BufTy).Contents (Elt F)),
    unary main_v35 main_v114 (id : (⟨S131072x1, .f32⟩ : BufTy).Contents (Elt F) → (⟨S131072x1, .f32⟩ : BufTy).Contents (Elt F)),
    binary main_v114 main_v97 main_v115 (mulf : (⟨S131072x1, .f32⟩ : BufTy).Contents (Elt F) → (⟨S131072x1, .f32⟩ : BufTy).Contents (Elt F) → (⟨S131072x1, .f32⟩ : BufTy).Contents (Elt F)),
    binary main_v113 main_v115 main_v116 (addf : (⟨S131072x1, .f32⟩ : BufTy).Contents (Elt F) → (⟨S131072x1, .f32⟩ : BufTy).Contents (Elt F) → (⟨S131072x1, .f32⟩ : BufTy).Contents (Elt F)),
    nullary main_cst_23 (constant S_ .f32 0x40000000#32),
    unary main_cst_23 main_v117 (broadcastInDim S131072x1 ![] bcast_S_S131072x1 : (⟨S_, .f32⟩ : BufTy).Contents (Elt F) → (⟨S131072x1, .f32⟩ : BufTy).Contents (Elt F)),
    binary main_v117 main_v116 main_v118 (mulf : (⟨S131072x1, .f32⟩ : BufTy).Contents (Elt F) → (⟨S131072x1, .f32⟩ : BufTy).Contents (Elt F) → (⟨S131072x1, .f32⟩ : BufTy).Contents (Elt F)),
    binary main_v118 main_v75 main_v119 (subf : (⟨S131072x1, .f32⟩ : BufTy).Contents (Elt F) → (⟨S131072x1, .f32⟩ : BufTy).Contents (Elt F) → (⟨S131072x1, .f32⟩ : BufTy).Contents (Elt F)) ]
/-- The buffers they write. -/
abbrev written7 : List (Ref sig .tc) := [main_v98, main_v99, main_v100, main_v101, main_v102, main_c_20, main_v103, main_v104, main_c_21, main_v105, main_v106, main_v107, main_v108, main_v109, main_v110, main_cst_22, main_v111, main_v112, main_v113, main_v114, main_v115, main_v116, main_cst_23, main_v117, main_v118, main_v119]

/-- Operations 151–160 of the program. -/
abbrev piece8 : List (HloOp τ sig (Elt F)) :=
  [ unary main_arg4 main_v120 ((extractStridedSlice S1x1x8 ![4, 0, 0] · slices_S5x1x8_S1x1x8_4_0_0) : (⟨S5x1x8, .f32⟩ : BufTy).Contents (Elt F) → (⟨S1x1x8, .f32⟩ : BufTy).Contents (Elt F)),
    reshape main_v120 main_v121 rfl shapeCasts_S1x1x8_S1x8,
    binary main_v119 main_v121 main_v122 ((fun l r => Host.dotGeneral dot_S131072x1_S1x8_S131072x8_1_0_0_1_n_n none l r) : (⟨S131072x1, .f32⟩ : BufTy).Contents (Elt F) → (⟨S1x8, .f32⟩ : BufTy).Contents (Elt F) → (⟨S131072x8, .f32⟩ : BufTy).Contents (Elt F)),
    binary main_v101 main_v122 main_v123 (addf : (⟨S131072x8, .f32⟩ : BufTy).Contents (Elt F) → (⟨S131072x8, .f32⟩ : BufTy).Contents (Elt F) → (⟨S131072x8, .f32⟩ : BufTy).Contents (Elt F)),
    unary main_arg5 main_v124 (broadcastInDim S1x8 ![1] bcast_S8_S1x8_1 : (⟨S8, .f32⟩ : BufTy).Contents (Elt F) → (⟨S1x8, .f32⟩ : BufTy).Contents (Elt F)),
    unary main_v124 main_v125 (broadcastInDim S131072x8 ![0, 1] bcast_S1x8_S131072x8_0_1 : (⟨S1x8, .f32⟩ : BufTy).Contents (Elt F) → (⟨S131072x8, .f32⟩ : BufTy).Contents (Elt F)),
    binary main_v123 main_v125 main_v126 (addf : (⟨S131072x8, .f32⟩ : BufTy).Contents (Elt F) → (⟨S131072x8, .f32⟩ : BufTy).Contents (Elt F) → (⟨S131072x8, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S131072x8, .f32⟩) main_call2_v0) (broadcastInDim S131072x8 ![] bcast_S_S131072x8),
    TRef.binary (TRef.of (T := ⟨S131072x8, .f32⟩) main_v126) (TRef.of (T := ⟨S131072x8, .f32⟩) main_call2_v0) (TRef.of (T := ⟨S131072x8, .f32⟩) main_v127) maximumf ]
/-- The buffers they write. -/
abbrev written8 : List (Ref sig .tc) := [main_v120, main_v121, main_v122, main_v123, main_v124, main_v125, main_v126, main_call2_cst, main_call2_v0, main_v127]

/-- Operations 161–183 of the program. -/
abbrev piece9 : List (HloOp τ sig (Elt F)) :=
  [ unary main_arg6 main_v128 ((extractStridedSlice S1x8x8 ![0, 0, 0] · slices_S5x8x8_S1x8x8_0_0_0) : (⟨S5x8x8, .f32⟩ : BufTy).Contents (Elt F) → (⟨S1x8x8, .f32⟩ : BufTy).Contents (Elt F)),
    reshape main_v128 main_v129 rfl shapeCasts_S1x8x8_S8x8,
    binary main_v127 main_v129 main_v130 ((fun l r => Host.dotGeneral dot_S131072x8_S8x8_S131072x8_1_0_0_1_n_n none l r) : (⟨S131072x8, .f32⟩ : BufTy).Contents (Elt F) → (⟨S8x8, .f32⟩ : BufTy).Contents (Elt F) → (⟨S131072x8, .f32⟩ : BufTy).Contents (Elt F)),
    unary main_v31 main_v131 (broadcastInDim S4194304x1 ![0] bcast_S4194304_S4194304x1_0 : (⟨S4194304, .f32⟩ : BufTy).Contents (Elt F) → (⟨S4194304x1, .f32⟩ : BufTy).Contents (Elt F)),
    nullary main_c_24 (constantI S_ 32 0#32),
    unary main_c_24 main_v132 (broadcastInDim S4194304 ![] bcast_S_S4194304 : (⟨S_, .i32⟩ : BufTy).Contents (Elt F) → (⟨S4194304, .i32⟩ : BufTy).Contents (Elt F)),
    binary main_v1 main_v132 main_v133 (cmpi .slt : (⟨S4194304, .i32⟩ : BufTy).Contents (Elt F) → (⟨S4194304, .i32⟩ : BufTy).Contents (Elt F) → (⟨S4194304, .i1⟩ : BufTy).Contents (Elt F)),
    nullary main_c_25 (constantI S_ 32 131072#32),
    unary main_c_25 main_v134 (broadcastInDim S4194304 ![] bcast_S_S4194304 : (⟨S_, .i32⟩ : BufTy).Contents (Elt F) → (⟨S4194304, .i32⟩ : BufTy).Contents (Elt F)),
    binary main_v1 main_v134 main_v135 (addi : (⟨S4194304, .i32⟩ : BufTy).Contents (Elt F) → (⟨S4194304, .i32⟩ : BufTy).Contents (Elt F) → (⟨S4194304, .i32⟩ : BufTy).Contents (Elt F)),
    ternary main_v133 main_v135 main_v1 main_v136 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v136 main_v137 (broadcastInDim S4194304x1 ![0] bcast_S4194304_S4194304x1_0 : (⟨S4194304, .i32⟩ : BufTy).Contents (Elt F) → (⟨S4194304x1, .i32⟩ : BufTy).Contents (Elt F)),
    binary main_v127 main_v137 main_v138 ((fun x i => Host.gather gather_S131072x8_S4194304x1_S4194304x8_1_0_n_n_0_1_18 x i) : (⟨S131072x8, .f32⟩ : BufTy).Contents (Elt F) → (⟨S4194304x1, .i32⟩ : BufTy).Contents (Elt F) → (⟨S4194304x8, .f32⟩ : BufTy).Contents (Elt F)),
    unary main_v131 main_v139 (broadcastInDim S4194304x8 ![0, 1] bcast_S4194304x1_S4194304x8_0_1 : (⟨S4194304x1, .f32⟩ : BufTy).Contents (Elt F) → (⟨S4194304x8, .f32⟩ : BufTy).Contents (Elt F)),
    binary main_v139 main_v138 main_v140 (mulf : (⟨S4194304x8, .f32⟩ : BufTy).Contents (Elt F) → (⟨S4194304x8, .f32⟩ : BufTy).Contents (Elt F) → (⟨S4194304x8, .f32⟩ : BufTy).Contents (Elt F)),
    nullary main_cst_26 (constant S_ .f32 0x00000000#32),
    unary main_cst_26 main_v141 (broadcastInDim S131072x8 ![] bcast_S_S131072x8 : (⟨S_, .f32⟩ : BufTy).Contents (Elt F) → (⟨S131072x8, .f32⟩ : BufTy).Contents (Elt F)),
    unary main_v3 main_v142 (broadcastInDim S4194304x1 ![0] bcast_S4194304_S4194304x1_0 : (⟨S4194304, .i32⟩ : BufTy).Contents (Elt F) → (⟨S4194304x1, .i32⟩ : BufTy).Contents (Elt F)),
    ternary main_v141 main_v142 main_v140 main_v143 ((fun x i u => Host.scatterAdd scatter_S131072x8_S4194304x1_S4194304x8_1_0_0_1 x i u) : (⟨S131072x8, .f32⟩ : BufTy).Contents (Elt F) → (⟨S4194304x1, .i32⟩ : BufTy).Contents (Elt F) → (⟨S4194304x8, .f32⟩ : BufTy).Contents (Elt F) → (⟨S131072x8, .f32⟩ : BufTy).Contents (Elt F)),
    unary main_v35 main_v144 (id : (⟨S131072x1, .f32⟩ : BufTy).Contents (Elt F) → (⟨S131072x1, .f32⟩ : BufTy).Contents (Elt F)),
    unary main_v144 main_v145 (broadcastInDim S131072x8 ![0, 1] bcast_S131072x1_S131072x8_0_1 : (⟨S131072x1, .f32⟩ : BufTy).Contents (Elt F) → (⟨S131072x8, .f32⟩ : BufTy).Contents (Elt F)),
    binary main_v145 main_v127 main_v146 (mulf : (⟨S131072x8, .f32⟩ : BufTy).Contents (Elt F) → (⟨S131072x8, .f32⟩ : BufTy).Contents (Elt F) → (⟨S131072x8, .f32⟩ : BufTy).Contents (Elt F)),
    binary main_v143 main_v146 main_v147 (addf : (⟨S131072x8, .f32⟩ : BufTy).Contents (Elt F) → (⟨S131072x8, .f32⟩ : BufTy).Contents (Elt F) → (⟨S131072x8, .f32⟩ : BufTy).Contents (Elt F)) ]
/-- The buffers they write. -/
abbrev written9 : List (Ref sig .tc) := [main_v128, main_v129, main_v130, main_v131, main_c_24, main_v132, main_v133, main_c_25, main_v134, main_v135, main_v136, main_v137, main_v138, main_v139, main_v140, main_cst_26, main_v141, main_v142, main_v143, main_v144, main_v145, main_v146, main_v147]

/-- Operations 184–211 of the program. -/
abbrev piece10 : List (HloOp τ sig (Elt F)) :=
  [ unary main_arg6 main_v148 ((extractStridedSlice S1x8x8 ![1, 0, 0] · slices_S5x8x8_S1x8x8_1_0_0) : (⟨S5x8x8, .f32⟩ : BufTy).Contents (Elt F) → (⟨S1x8x8, .f32⟩ : BufTy).Contents (Elt F)),
    reshape main_v148 main_v149 rfl shapeCasts_S1x8x8_S8x8,
    binary main_v147 main_v149 main_v150 ((fun l r => Host.dotGeneral dot_S131072x8_S8x8_S131072x8_1_0_0_1_n_n none l r) : (⟨S131072x8, .f32⟩ : BufTy).Contents (Elt F) → (⟨S8x8, .f32⟩ : BufTy).Contents (Elt F) → (⟨S131072x8, .f32⟩ : BufTy).Contents (Elt F)),
    binary main_v130 main_v150 main_v151 (addf : (⟨S131072x8, .f32⟩ : BufTy).Contents (Elt F) → (⟨S131072x8, .f32⟩ : BufTy).Contents (Elt F) → (⟨S131072x8, .f32⟩ : BufTy).Contents (Elt F)),
    unary main_v31 main_v152 (broadcastInDim S4194304x1 ![0] bcast_S4194304_S4194304x1_0 : (⟨S4194304, .f32⟩ : BufTy).Contents (Elt F) → (⟨S4194304x1, .f32⟩ : BufTy).Contents (Elt F)),
    nullary main_c_27 (constantI S_ 32 0#32),
    unary main_c_27 main_v153 (broadcastInDim S4194304 ![] bcast_S_S4194304 : (⟨S_, .i32⟩ : BufTy).Contents (Elt F) → (⟨S4194304, .i32⟩ : BufTy).Contents (Elt F)),
    binary main_v1 main_v153 main_v154 (cmpi .slt : (⟨S4194304, .i32⟩ : BufTy).Contents (Elt F) → (⟨S4194304, .i32⟩ : BufTy).Contents (Elt F) → (⟨S4194304, .i1⟩ : BufTy).Contents (Elt F)),
    nullary main_c_28 (constantI S_ 32 131072#32),
    unary main_c_28 main_v155 (broadcastInDim S4194304 ![] bcast_S_S4194304 : (⟨S_, .i32⟩ : BufTy).Contents (Elt F) → (⟨S4194304, .i32⟩ : BufTy).Contents (Elt F)),
    binary main_v1 main_v155 main_v156 (addi : (⟨S4194304, .i32⟩ : BufTy).Contents (Elt F) → (⟨S4194304, .i32⟩ : BufTy).Contents (Elt F) → (⟨S4194304, .i32⟩ : BufTy).Contents (Elt F)),
    ternary main_v154 main_v156 main_v1 main_v157 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v157 main_v158 (broadcastInDim S4194304x1 ![0] bcast_S4194304_S4194304x1_0 : (⟨S4194304, .i32⟩ : BufTy).Contents (Elt F) → (⟨S4194304x1, .i32⟩ : BufTy).Contents (Elt F)),
    binary main_v147 main_v158 main_v159 ((fun x i => Host.gather gather_S131072x8_S4194304x1_S4194304x8_1_0_n_n_0_1_18 x i) : (⟨S131072x8, .f32⟩ : BufTy).Contents (Elt F) → (⟨S4194304x1, .i32⟩ : BufTy).Contents (Elt F) → (⟨S4194304x8, .f32⟩ : BufTy).Contents (Elt F)),
    unary main_v152 main_v160 (broadcastInDim S4194304x8 ![0, 1] bcast_S4194304x1_S4194304x8_0_1 : (⟨S4194304x1, .f32⟩ : BufTy).Contents (Elt F) → (⟨S4194304x8, .f32⟩ : BufTy).Contents (Elt F)),
    binary main_v160 main_v159 main_v161 (mulf : (⟨S4194304x8, .f32⟩ : BufTy).Contents (Elt F) → (⟨S4194304x8, .f32⟩ : BufTy).Contents (Elt F) → (⟨S4194304x8, .f32⟩ : BufTy).Contents (Elt F)),
    nullary main_cst_29 (constant S_ .f32 0x00000000#32),
    unary main_cst_29 main_v162 (broadcastInDim S131072x8 ![] bcast_S_S131072x8 : (⟨S_, .f32⟩ : BufTy).Contents (Elt F) → (⟨S131072x8, .f32⟩ : BufTy).Contents (Elt F)),
    unary main_v3 main_v163 (broadcastInDim S4194304x1 ![0] bcast_S4194304_S4194304x1_0 : (⟨S4194304, .i32⟩ : BufTy).Contents (Elt F) → (⟨S4194304x1, .i32⟩ : BufTy).Contents (Elt F)),
    ternary main_v162 main_v163 main_v161 main_v164 ((fun x i u => Host.scatterAdd scatter_S131072x8_S4194304x1_S4194304x8_1_0_0_1 x i u) : (⟨S131072x8, .f32⟩ : BufTy).Contents (Elt F) → (⟨S4194304x1, .i32⟩ : BufTy).Contents (Elt F) → (⟨S4194304x8, .f32⟩ : BufTy).Contents (Elt F) → (⟨S131072x8, .f32⟩ : BufTy).Contents (Elt F)),
    unary main_v35 main_v165 (id : (⟨S131072x1, .f32⟩ : BufTy).Contents (Elt F) → (⟨S131072x1, .f32⟩ : BufTy).Contents (Elt F)),
    unary main_v165 main_v166 (broadcastInDim S131072x8 ![0, 1] bcast_S131072x1_S131072x8_0_1 : (⟨S131072x1, .f32⟩ : BufTy).Contents (Elt F) → (⟨S131072x8, .f32⟩ : BufTy).Contents (Elt F)),
    binary main_v166 main_v147 main_v167 (mulf : (⟨S131072x8, .f32⟩ : BufTy).Contents (Elt F) → (⟨S131072x8, .f32⟩ : BufTy).Contents (Elt F) → (⟨S131072x8, .f32⟩ : BufTy).Contents (Elt F)),
    binary main_v164 main_v167 main_v168 (addf : (⟨S131072x8, .f32⟩ : BufTy).Contents (Elt F) → (⟨S131072x8, .f32⟩ : BufTy).Contents (Elt F) → (⟨S131072x8, .f32⟩ : BufTy).Contents (Elt F)),
    nullary main_cst_30 (constant S_ .f32 0x40000000#32),
    unary main_cst_30 main_v169 (broadcastInDim S131072x8 ![] bcast_S_S131072x8 : (⟨S_, .f32⟩ : BufTy).Contents (Elt F) → (⟨S131072x8, .f32⟩ : BufTy).Contents (Elt F)),
    binary main_v169 main_v168 main_v170 (mulf : (⟨S131072x8, .f32⟩ : BufTy).Contents (Elt F) → (⟨S131072x8, .f32⟩ : BufTy).Contents (Elt F) → (⟨S131072x8, .f32⟩ : BufTy).Contents (Elt F)),
    binary main_v170 main_v127 main_v171 (subf : (⟨S131072x8, .f32⟩ : BufTy).Contents (Elt F) → (⟨S131072x8, .f32⟩ : BufTy).Contents (Elt F) → (⟨S131072x8, .f32⟩ : BufTy).Contents (Elt F)) ]
/-- The buffers they write. -/
abbrev written10 : List (Ref sig .tc) := [main_v148, main_v149, main_v150, main_v151, main_v152, main_c_27, main_v153, main_v154, main_c_28, main_v155, main_v156, main_v157, main_v158, main_v159, main_v160, main_v161, main_cst_29, main_v162, main_v163, main_v164, main_v165, main_v166, main_v167, main_v168, main_cst_30, main_v169, main_v170, main_v171]

/-- Operations 212–239 of the program. -/
abbrev piece11 : List (HloOp τ sig (Elt F)) :=
  [ unary main_arg6 main_v172 ((extractStridedSlice S1x8x8 ![2, 0, 0] · slices_S5x8x8_S1x8x8_2_0_0) : (⟨S5x8x8, .f32⟩ : BufTy).Contents (Elt F) → (⟨S1x8x8, .f32⟩ : BufTy).Contents (Elt F)),
    reshape main_v172 main_v173 rfl shapeCasts_S1x8x8_S8x8,
    binary main_v171 main_v173 main_v174 ((fun l r => Host.dotGeneral dot_S131072x8_S8x8_S131072x8_1_0_0_1_n_n none l r) : (⟨S131072x8, .f32⟩ : BufTy).Contents (Elt F) → (⟨S8x8, .f32⟩ : BufTy).Contents (Elt F) → (⟨S131072x8, .f32⟩ : BufTy).Contents (Elt F)),
    binary main_v151 main_v174 main_v175 (addf : (⟨S131072x8, .f32⟩ : BufTy).Contents (Elt F) → (⟨S131072x8, .f32⟩ : BufTy).Contents (Elt F) → (⟨S131072x8, .f32⟩ : BufTy).Contents (Elt F)),
    unary main_v31 main_v176 (broadcastInDim S4194304x1 ![0] bcast_S4194304_S4194304x1_0 : (⟨S4194304, .f32⟩ : BufTy).Contents (Elt F) → (⟨S4194304x1, .f32⟩ : BufTy).Contents (Elt F)),
    nullary main_c_31 (constantI S_ 32 0#32),
    unary main_c_31 main_v177 (broadcastInDim S4194304 ![] bcast_S_S4194304 : (⟨S_, .i32⟩ : BufTy).Contents (Elt F) → (⟨S4194304, .i32⟩ : BufTy).Contents (Elt F)),
    binary main_v1 main_v177 main_v178 (cmpi .slt : (⟨S4194304, .i32⟩ : BufTy).Contents (Elt F) → (⟨S4194304, .i32⟩ : BufTy).Contents (Elt F) → (⟨S4194304, .i1⟩ : BufTy).Contents (Elt F)),
    nullary main_c_32 (constantI S_ 32 131072#32),
    unary main_c_32 main_v179 (broadcastInDim S4194304 ![] bcast_S_S4194304 : (⟨S_, .i32⟩ : BufTy).Contents (Elt F) → (⟨S4194304, .i32⟩ : BufTy).Contents (Elt F)),
    binary main_v1 main_v179 main_v180 (addi : (⟨S4194304, .i32⟩ : BufTy).Contents (Elt F) → (⟨S4194304, .i32⟩ : BufTy).Contents (Elt F) → (⟨S4194304, .i32⟩ : BufTy).Contents (Elt F)),
    ternary main_v178 main_v180 main_v1 main_v181 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v181 main_v182 (broadcastInDim S4194304x1 ![0] bcast_S4194304_S4194304x1_0 : (⟨S4194304, .i32⟩ : BufTy).Contents (Elt F) → (⟨S4194304x1, .i32⟩ : BufTy).Contents (Elt F)),
    binary main_v171 main_v182 main_v183 ((fun x i => Host.gather gather_S131072x8_S4194304x1_S4194304x8_1_0_n_n_0_1_18 x i) : (⟨S131072x8, .f32⟩ : BufTy).Contents (Elt F) → (⟨S4194304x1, .i32⟩ : BufTy).Contents (Elt F) → (⟨S4194304x8, .f32⟩ : BufTy).Contents (Elt F)),
    unary main_v176 main_v184 (broadcastInDim S4194304x8 ![0, 1] bcast_S4194304x1_S4194304x8_0_1 : (⟨S4194304x1, .f32⟩ : BufTy).Contents (Elt F) → (⟨S4194304x8, .f32⟩ : BufTy).Contents (Elt F)),
    binary main_v184 main_v183 main_v185 (mulf : (⟨S4194304x8, .f32⟩ : BufTy).Contents (Elt F) → (⟨S4194304x8, .f32⟩ : BufTy).Contents (Elt F) → (⟨S4194304x8, .f32⟩ : BufTy).Contents (Elt F)),
    nullary main_cst_33 (constant S_ .f32 0x00000000#32),
    unary main_cst_33 main_v186 (broadcastInDim S131072x8 ![] bcast_S_S131072x8 : (⟨S_, .f32⟩ : BufTy).Contents (Elt F) → (⟨S131072x8, .f32⟩ : BufTy).Contents (Elt F)),
    unary main_v3 main_v187 (broadcastInDim S4194304x1 ![0] bcast_S4194304_S4194304x1_0 : (⟨S4194304, .i32⟩ : BufTy).Contents (Elt F) → (⟨S4194304x1, .i32⟩ : BufTy).Contents (Elt F)),
    ternary main_v186 main_v187 main_v185 main_v188 ((fun x i u => Host.scatterAdd scatter_S131072x8_S4194304x1_S4194304x8_1_0_0_1 x i u) : (⟨S131072x8, .f32⟩ : BufTy).Contents (Elt F) → (⟨S4194304x1, .i32⟩ : BufTy).Contents (Elt F) → (⟨S4194304x8, .f32⟩ : BufTy).Contents (Elt F) → (⟨S131072x8, .f32⟩ : BufTy).Contents (Elt F)),
    unary main_v35 main_v189 (id : (⟨S131072x1, .f32⟩ : BufTy).Contents (Elt F) → (⟨S131072x1, .f32⟩ : BufTy).Contents (Elt F)),
    unary main_v189 main_v190 (broadcastInDim S131072x8 ![0, 1] bcast_S131072x1_S131072x8_0_1 : (⟨S131072x1, .f32⟩ : BufTy).Contents (Elt F) → (⟨S131072x8, .f32⟩ : BufTy).Contents (Elt F)),
    binary main_v190 main_v171 main_v191 (mulf : (⟨S131072x8, .f32⟩ : BufTy).Contents (Elt F) → (⟨S131072x8, .f32⟩ : BufTy).Contents (Elt F) → (⟨S131072x8, .f32⟩ : BufTy).Contents (Elt F)),
    binary main_v188 main_v191 main_v192 (addf : (⟨S131072x8, .f32⟩ : BufTy).Contents (Elt F) → (⟨S131072x8, .f32⟩ : BufTy).Contents (Elt F) → (⟨S131072x8, .f32⟩ : BufTy).Contents (Elt F)),
    nullary main_cst_34 (constant S_ .f32 0x40000000#32),
    unary main_cst_34 main_v193 (broadcastInDim S131072x8 ![] bcast_S_S131072x8 : (⟨S_, .f32⟩ : BufTy).Contents (Elt F) → (⟨S131072x8, .f32⟩ : BufTy).Contents (Elt F)),
    binary main_v193 main_v192 main_v194 (mulf : (⟨S131072x8, .f32⟩ : BufTy).Contents (Elt F) → (⟨S131072x8, .f32⟩ : BufTy).Contents (Elt F) → (⟨S131072x8, .f32⟩ : BufTy).Contents (Elt F)),
    binary main_v194 main_v147 main_v195 (subf : (⟨S131072x8, .f32⟩ : BufTy).Contents (Elt F) → (⟨S131072x8, .f32⟩ : BufTy).Contents (Elt F) → (⟨S131072x8, .f32⟩ : BufTy).Contents (Elt F)) ]
/-- The buffers they write. -/
abbrev written11 : List (Ref sig .tc) := [main_v172, main_v173, main_v174, main_v175, main_v176, main_c_31, main_v177, main_v178, main_c_32, main_v179, main_v180, main_v181, main_v182, main_v183, main_v184, main_v185, main_cst_33, main_v186, main_v187, main_v188, main_v189, main_v190, main_v191, main_v192, main_cst_34, main_v193, main_v194, main_v195]

/-- Operations 240–267 of the program. -/
abbrev piece12 : List (HloOp τ sig (Elt F)) :=
  [ unary main_arg6 main_v196 ((extractStridedSlice S1x8x8 ![3, 0, 0] · slices_S5x8x8_S1x8x8_3_0_0) : (⟨S5x8x8, .f32⟩ : BufTy).Contents (Elt F) → (⟨S1x8x8, .f32⟩ : BufTy).Contents (Elt F)),
    reshape main_v196 main_v197 rfl shapeCasts_S1x8x8_S8x8,
    binary main_v195 main_v197 main_v198 ((fun l r => Host.dotGeneral dot_S131072x8_S8x8_S131072x8_1_0_0_1_n_n none l r) : (⟨S131072x8, .f32⟩ : BufTy).Contents (Elt F) → (⟨S8x8, .f32⟩ : BufTy).Contents (Elt F) → (⟨S131072x8, .f32⟩ : BufTy).Contents (Elt F)),
    binary main_v175 main_v198 main_v199 (addf : (⟨S131072x8, .f32⟩ : BufTy).Contents (Elt F) → (⟨S131072x8, .f32⟩ : BufTy).Contents (Elt F) → (⟨S131072x8, .f32⟩ : BufTy).Contents (Elt F)),
    unary main_v31 main_v200 (broadcastInDim S4194304x1 ![0] bcast_S4194304_S4194304x1_0 : (⟨S4194304, .f32⟩ : BufTy).Contents (Elt F) → (⟨S4194304x1, .f32⟩ : BufTy).Contents (Elt F)),
    nullary main_c_35 (constantI S_ 32 0#32),
    unary main_c_35 main_v201 (broadcastInDim S4194304 ![] bcast_S_S4194304 : (⟨S_, .i32⟩ : BufTy).Contents (Elt F) → (⟨S4194304, .i32⟩ : BufTy).Contents (Elt F)),
    binary main_v1 main_v201 main_v202 (cmpi .slt : (⟨S4194304, .i32⟩ : BufTy).Contents (Elt F) → (⟨S4194304, .i32⟩ : BufTy).Contents (Elt F) → (⟨S4194304, .i1⟩ : BufTy).Contents (Elt F)),
    nullary main_c_36 (constantI S_ 32 131072#32),
    unary main_c_36 main_v203 (broadcastInDim S4194304 ![] bcast_S_S4194304 : (⟨S_, .i32⟩ : BufTy).Contents (Elt F) → (⟨S4194304, .i32⟩ : BufTy).Contents (Elt F)),
    binary main_v1 main_v203 main_v204 (addi : (⟨S4194304, .i32⟩ : BufTy).Contents (Elt F) → (⟨S4194304, .i32⟩ : BufTy).Contents (Elt F) → (⟨S4194304, .i32⟩ : BufTy).Contents (Elt F)),
    ternary main_v202 main_v204 main_v1 main_v205 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v205 main_v206 (broadcastInDim S4194304x1 ![0] bcast_S4194304_S4194304x1_0 : (⟨S4194304, .i32⟩ : BufTy).Contents (Elt F) → (⟨S4194304x1, .i32⟩ : BufTy).Contents (Elt F)),
    binary main_v195 main_v206 main_v207 ((fun x i => Host.gather gather_S131072x8_S4194304x1_S4194304x8_1_0_n_n_0_1_18 x i) : (⟨S131072x8, .f32⟩ : BufTy).Contents (Elt F) → (⟨S4194304x1, .i32⟩ : BufTy).Contents (Elt F) → (⟨S4194304x8, .f32⟩ : BufTy).Contents (Elt F)),
    unary main_v200 main_v208 (broadcastInDim S4194304x8 ![0, 1] bcast_S4194304x1_S4194304x8_0_1 : (⟨S4194304x1, .f32⟩ : BufTy).Contents (Elt F) → (⟨S4194304x8, .f32⟩ : BufTy).Contents (Elt F)),
    binary main_v208 main_v207 main_v209 (mulf : (⟨S4194304x8, .f32⟩ : BufTy).Contents (Elt F) → (⟨S4194304x8, .f32⟩ : BufTy).Contents (Elt F) → (⟨S4194304x8, .f32⟩ : BufTy).Contents (Elt F)),
    nullary main_cst_37 (constant S_ .f32 0x00000000#32),
    unary main_cst_37 main_v210 (broadcastInDim S131072x8 ![] bcast_S_S131072x8 : (⟨S_, .f32⟩ : BufTy).Contents (Elt F) → (⟨S131072x8, .f32⟩ : BufTy).Contents (Elt F)),
    unary main_v3 main_v211 (broadcastInDim S4194304x1 ![0] bcast_S4194304_S4194304x1_0 : (⟨S4194304, .i32⟩ : BufTy).Contents (Elt F) → (⟨S4194304x1, .i32⟩ : BufTy).Contents (Elt F)),
    ternary main_v210 main_v211 main_v209 main_v212 ((fun x i u => Host.scatterAdd scatter_S131072x8_S4194304x1_S4194304x8_1_0_0_1 x i u) : (⟨S131072x8, .f32⟩ : BufTy).Contents (Elt F) → (⟨S4194304x1, .i32⟩ : BufTy).Contents (Elt F) → (⟨S4194304x8, .f32⟩ : BufTy).Contents (Elt F) → (⟨S131072x8, .f32⟩ : BufTy).Contents (Elt F)),
    unary main_v35 main_v213 (id : (⟨S131072x1, .f32⟩ : BufTy).Contents (Elt F) → (⟨S131072x1, .f32⟩ : BufTy).Contents (Elt F)),
    unary main_v213 main_v214 (broadcastInDim S131072x8 ![0, 1] bcast_S131072x1_S131072x8_0_1 : (⟨S131072x1, .f32⟩ : BufTy).Contents (Elt F) → (⟨S131072x8, .f32⟩ : BufTy).Contents (Elt F)),
    binary main_v214 main_v195 main_v215 (mulf : (⟨S131072x8, .f32⟩ : BufTy).Contents (Elt F) → (⟨S131072x8, .f32⟩ : BufTy).Contents (Elt F) → (⟨S131072x8, .f32⟩ : BufTy).Contents (Elt F)),
    binary main_v212 main_v215 main_v216 (addf : (⟨S131072x8, .f32⟩ : BufTy).Contents (Elt F) → (⟨S131072x8, .f32⟩ : BufTy).Contents (Elt F) → (⟨S131072x8, .f32⟩ : BufTy).Contents (Elt F)),
    nullary main_cst_38 (constant S_ .f32 0x40000000#32),
    unary main_cst_38 main_v217 (broadcastInDim S131072x8 ![] bcast_S_S131072x8 : (⟨S_, .f32⟩ : BufTy).Contents (Elt F) → (⟨S131072x8, .f32⟩ : BufTy).Contents (Elt F)),
    binary main_v217 main_v216 main_v218 (mulf : (⟨S131072x8, .f32⟩ : BufTy).Contents (Elt F) → (⟨S131072x8, .f32⟩ : BufTy).Contents (Elt F) → (⟨S131072x8, .f32⟩ : BufTy).Contents (Elt F)),
    binary main_v218 main_v171 main_v219 (subf : (⟨S131072x8, .f32⟩ : BufTy).Contents (Elt F) → (⟨S131072x8, .f32⟩ : BufTy).Contents (Elt F) → (⟨S131072x8, .f32⟩ : BufTy).Contents (Elt F)) ]
/-- The buffers they write. -/
abbrev written12 : List (Ref sig .tc) := [main_v196, main_v197, main_v198, main_v199, main_v200, main_c_35, main_v201, main_v202, main_c_36, main_v203, main_v204, main_v205, main_v206, main_v207, main_v208, main_v209, main_cst_37, main_v210, main_v211, main_v212, main_v213, main_v214, main_v215, main_v216, main_cst_38, main_v217, main_v218, main_v219]

/-- Operations 268–277 of the program. -/
abbrev piece13 : List (HloOp τ sig (Elt F)) :=
  [ unary main_arg6 main_v220 ((extractStridedSlice S1x8x8 ![4, 0, 0] · slices_S5x8x8_S1x8x8_4_0_0) : (⟨S5x8x8, .f32⟩ : BufTy).Contents (Elt F) → (⟨S1x8x8, .f32⟩ : BufTy).Contents (Elt F)),
    reshape main_v220 main_v221 rfl shapeCasts_S1x8x8_S8x8,
    binary main_v219 main_v221 main_v222 ((fun l r => Host.dotGeneral dot_S131072x8_S8x8_S131072x8_1_0_0_1_n_n none l r) : (⟨S131072x8, .f32⟩ : BufTy).Contents (Elt F) → (⟨S8x8, .f32⟩ : BufTy).Contents (Elt F) → (⟨S131072x8, .f32⟩ : BufTy).Contents (Elt F)),
    binary main_v199 main_v222 main_v223 (addf : (⟨S131072x8, .f32⟩ : BufTy).Contents (Elt F) → (⟨S131072x8, .f32⟩ : BufTy).Contents (Elt F) → (⟨S131072x8, .f32⟩ : BufTy).Contents (Elt F)),
    unary main_arg7 main_v224 (broadcastInDim S1x8 ![1] bcast_S8_S1x8_1 : (⟨S8, .f32⟩ : BufTy).Contents (Elt F) → (⟨S1x8, .f32⟩ : BufTy).Contents (Elt F)),
    unary main_v224 main_v225 (broadcastInDim S131072x8 ![0, 1] bcast_S1x8_S131072x8_0_1 : (⟨S1x8, .f32⟩ : BufTy).Contents (Elt F) → (⟨S131072x8, .f32⟩ : BufTy).Contents (Elt F)),
    binary main_v223 main_v225 main_v226 (addf : (⟨S131072x8, .f32⟩ : BufTy).Contents (Elt F) → (⟨S131072x8, .f32⟩ : BufTy).Contents (Elt F) → (⟨S131072x8, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S131072x8, .f32⟩) main_call3_v0) (broadcastInDim S131072x8 ![] bcast_S_S131072x8),
    TRef.binary (TRef.of (T := ⟨S131072x8, .f32⟩) main_v226) (TRef.of (T := ⟨S131072x8, .f32⟩) main_call3_v0) (TRef.of (T := ⟨S131072x8, .f32⟩) main_v227) maximumf ]
/-- The buffers they write. -/
abbrev written13 : List (Ref sig .tc) := [main_v220, main_v221, main_v222, main_v223, main_v224, main_v225, main_v226, main_call3_cst, main_call3_v0, main_v227]

/-- Operations 278–285 of the program. -/
abbrev piece14 : List (HloOp τ sig (Elt F)) :=
  [ reshape main_v227 main_v228 rfl shapeCasts_S131072x8_S16x65536,
    binary main_v228 main_arg8 main_v229 ((fun l r => Host.dotGeneral dot_S16x65536_S65536x1000_S16x1000_1_0_0_1_n_n none l r) : (⟨S16x65536, .f32⟩ : BufTy).Contents (Elt F) → (⟨S65536x1000, .f32⟩ : BufTy).Contents (Elt F) → (⟨S16x1000, .f32⟩ : BufTy).Contents (Elt F)),
    unary main_arg9 main_v230 (broadcastInDim S1x1000 ![1] bcast_S1000_S1x1000_1 : (⟨S1000, .f32⟩ : BufTy).Contents (Elt F) → (⟨S1x1000, .f32⟩ : BufTy).Contents (Elt F)),
    unary main_v230 main_v231 (broadcastInDim S16x1000 ![0, 1] bcast_S1x1000_S16x1000_0_1 : (⟨S1x1000, .f32⟩ : BufTy).Contents (Elt F) → (⟨S16x1000, .f32⟩ : BufTy).Contents (Elt F)),
    binary main_v229 main_v231 main_v232 (addf : (⟨S16x1000, .f32⟩ : BufTy).Contents (Elt F) → (⟨S16x1000, .f32⟩ : BufTy).Contents (Elt F) → (⟨S16x1000, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16x1000, .f32⟩) main_call4_v0) (broadcastInDim S16x1000 ![] bcast_S_S16x1000),
    TRef.binary (TRef.of (T := ⟨S16x1000, .f32⟩) main_v232) (TRef.of (T := ⟨S16x1000, .f32⟩) main_call4_v0) (TRef.of (T := ⟨S16x1000, .f32⟩) main_v233) maximumf ]
/-- The buffers they write. -/
abbrev written14 : List (Ref sig .tc) := [main_v228, main_v229, main_v230, main_v231, main_v232, main_call4_cst, main_call4_v0, main_v233]

/-- Operations 286–289 of the program. -/
abbrev piece15 : List (HloOp τ sig (Elt F)) :=
  [ binary main_v233 main_arg10 main_v234 ((fun l r => Host.dotGeneral dot_S16x1000_S1000x34_S16x34_1_0_0_1_n_n none l r) : (⟨S16x1000, .f32⟩ : BufTy).Contents (Elt F) → (⟨S1000x34, .f32⟩ : BufTy).Contents (Elt F) → (⟨S16x34, .f32⟩ : BufTy).Contents (Elt F)),
    unary main_arg11 main_v235 (broadcastInDim S1x34 ![1] bcast_S34_S1x34_1 : (⟨S34, .f32⟩ : BufTy).Contents (Elt F) → (⟨S1x34, .f32⟩ : BufTy).Contents (Elt F)),
    unary main_v235 main_v236 (broadcastInDim S16x34 ![0, 1] bcast_S1x34_S16x34_0_1 : (⟨S1x34, .f32⟩ : BufTy).Contents (Elt F) → (⟨S16x34, .f32⟩ : BufTy).Contents (Elt F)),
    binary main_v234 main_v236 main_v237 (addf : (⟨S16x34, .f32⟩ : BufTy).Contents (Elt F) → (⟨S16x34, .f32⟩ : BufTy).Contents (Elt F) → (⟨S16x34, .f32⟩ : BufTy).Contents (Elt F)) ]
/-- The buffers they write. -/
abbrev written15 : List (Ref sig .tc) := [main_v234, main_v235, main_v236, main_v237]

set_option maxRecDepth 16384 in
set_option maxHeartbeats 40000000 in
/-- The program's list is its pieces, in order. -/
theorem ops_pieces : (ops : List (HloOp τ sig (Elt F))) = piece0 ++ (piece1 ++ (piece2 ++ (piece3 ++ (piece4 ++ (piece5 ++ (piece6 ++ (piece7 ++ (piece8 ++ (piece9 ++ (piece10 ++ (piece11 ++ (piece12 ++ (piece13 ++ (piece14 ++ (piece15))))))))))))))) := rfl

/-- So the fold of the program is the folds of the pieces, one after the other. -/
theorem after_ops (V : Valuation τ sig (Elt F)) : after (ops (F := F)) V = after piece15 (after piece14 (after piece13 (after piece12 (after piece11 (after piece10 (after piece9 (after piece8 (after piece7 (after piece6 (after piece5 (after piece4 (after piece3 (after piece2 (after piece1 (after piece0 (V)))))))))))))))) := by
  rw [ops_pieces]; simp only [StableHlo.after_append]

/-! ## Each piece writes its own results only -/

set_option maxRecDepth 16384 in
set_option maxHeartbeats 40000000 in
theorem piece0_writes : (piece0 : List (HloOp τ sig (Elt F))).Forall fun op => op.writes ⊆ (written0.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece1_writes : (piece1 : List (HloOp τ sig (Elt F))).Forall fun op => op.writes ⊆ (written1.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece2_writes : (piece2 : List (HloOp τ sig (Elt F))).Forall fun op => op.writes ⊆ (written2.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece3_writes : (piece3 : List (HloOp τ sig (Elt F))).Forall fun op => op.writes ⊆ (written3.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece4_writes : (piece4 : List (HloOp τ sig (Elt F))).Forall fun op => op.writes ⊆ (written4.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece5_writes : (piece5 : List (HloOp τ sig (Elt F))).Forall fun op => op.writes ⊆ (written5.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece6_writes : (piece6 : List (HloOp τ sig (Elt F))).Forall fun op => op.writes ⊆ (written6.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece7_writes : (piece7 : List (HloOp τ sig (Elt F))).Forall fun op => op.writes ⊆ (written7.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece8_writes : (piece8 : List (HloOp τ sig (Elt F))).Forall fun op => op.writes ⊆ (written8.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece9_writes : (piece9 : List (HloOp τ sig (Elt F))).Forall fun op => op.writes ⊆ (written9.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece10_writes : (piece10 : List (HloOp τ sig (Elt F))).Forall fun op => op.writes ⊆ (written10.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece11_writes : (piece11 : List (HloOp τ sig (Elt F))).Forall fun op => op.writes ⊆ (written11.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece12_writes : (piece12 : List (HloOp τ sig (Elt F))).Forall fun op => op.writes ⊆ (written12.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece13_writes : (piece13 : List (HloOp τ sig (Elt F))).Forall fun op => op.writes ⊆ (written13.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece14_writes : (piece14 : List (HloOp τ sig (Elt F))).Forall fun op => op.writes ⊆ (written14.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

set_option maxRecDepth 16384 in
set_option maxHeartbeats 40000000 in
theorem piece15_writes : (piece15 : List (HloOp τ sig (Elt F))).Forall fun op => op.writes ⊆ (written15.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

/-! ## The contents after each piece -/

variable (m : (ℓ : Loc nD τ sig) → Buf (Elt Ideal) ℓ)

/-- The buffers' contents after the first 1 pieces, as one named valuation (what the next piece's operations read). -/
def stage0 (c : Dev nD) : Valuation τ sig (Elt Ideal) := after (piece0 (F := Ideal)) (launchContents m c)
/-- A buffer the piece does not write is as before it. -/
theorem carry0 (c : Dev nD) (r : Ref sig .tc) (hr : r ∉ written0) : stage0 m c (Proc.devRef .tc r) = (launchContents m c) (Proc.devRef .tc r) :=
  after_of_writes_sub piece0 _ piece0_writes hr

/-- The buffers' contents after the first 2 pieces, as one named valuation (what the next piece's operations read). -/
def stage1 (c : Dev nD) : Valuation τ sig (Elt Ideal) := after (piece1 (F := Ideal)) (stage0 m c)
/-- A buffer the piece does not write is as before it. -/
theorem carry1 (c : Dev nD) (r : Ref sig .tc) (hr : r ∉ written1) : stage1 m c (Proc.devRef .tc r) = (stage0 m c) (Proc.devRef .tc r) :=
  after_of_writes_sub piece1 _ piece1_writes hr

/-- The buffers' contents after the first 3 pieces, as one named valuation (what the next piece's operations read). -/
def stage2 (c : Dev nD) : Valuation τ sig (Elt Ideal) := after (piece2 (F := Ideal)) (stage1 m c)
/-- A buffer the piece does not write is as before it. -/
theorem carry2 (c : Dev nD) (r : Ref sig .tc) (hr : r ∉ written2) : stage2 m c (Proc.devRef .tc r) = (stage1 m c) (Proc.devRef .tc r) :=
  after_of_writes_sub piece2 _ piece2_writes hr

/-- The buffers' contents after the first 4 pieces, as one named valuation (what the next piece's operations read). -/
def stage3 (c : Dev nD) : Valuation τ sig (Elt Ideal) := after (piece3 (F := Ideal)) (stage2 m c)
/-- A buffer the piece does not write is as before it. -/
theorem carry3 (c : Dev nD) (r : Ref sig .tc) (hr : r ∉ written3) : stage3 m c (Proc.devRef .tc r) = (stage2 m c) (Proc.devRef .tc r) :=
  after_of_writes_sub piece3 _ piece3_writes hr

/-- The buffers' contents after the first 5 pieces, as one named valuation (what the next piece's operations read). -/
def stage4 (c : Dev nD) : Valuation τ sig (Elt Ideal) := after (piece4 (F := Ideal)) (stage3 m c)
/-- A buffer the piece does not write is as before it. -/
theorem carry4 (c : Dev nD) (r : Ref sig .tc) (hr : r ∉ written4) : stage4 m c (Proc.devRef .tc r) = (stage3 m c) (Proc.devRef .tc r) :=
  after_of_writes_sub piece4 _ piece4_writes hr

/-- The buffers' contents after the first 6 pieces, as one named valuation (what the next piece's operations read). -/
def stage5 (c : Dev nD) : Valuation τ sig (Elt Ideal) := after (piece5 (F := Ideal)) (stage4 m c)
/-- A buffer the piece does not write is as before it. -/
theorem carry5 (c : Dev nD) (r : Ref sig .tc) (hr : r ∉ written5) : stage5 m c (Proc.devRef .tc r) = (stage4 m c) (Proc.devRef .tc r) :=
  after_of_writes_sub piece5 _ piece5_writes hr

/-- The buffers' contents after the first 7 pieces, as one named valuation (what the next piece's operations read). -/
def stage6 (c : Dev nD) : Valuation τ sig (Elt Ideal) := after (piece6 (F := Ideal)) (stage5 m c)
/-- A buffer the piece does not write is as before it. -/
theorem carry6 (c : Dev nD) (r : Ref sig .tc) (hr : r ∉ written6) : stage6 m c (Proc.devRef .tc r) = (stage5 m c) (Proc.devRef .tc r) :=
  after_of_writes_sub piece6 _ piece6_writes hr

/-- The buffers' contents after the first 8 pieces, as one named valuation (what the next piece's operations read). -/
def stage7 (c : Dev nD) : Valuation τ sig (Elt Ideal) := after (piece7 (F := Ideal)) (stage6 m c)
/-- A buffer the piece does not write is as before it. -/
theorem carry7 (c : Dev nD) (r : Ref sig .tc) (hr : r ∉ written7) : stage7 m c (Proc.devRef .tc r) = (stage6 m c) (Proc.devRef .tc r) :=
  after_of_writes_sub piece7 _ piece7_writes hr

/-- The buffers' contents after the first 9 pieces, as one named valuation (what the next piece's operations read). -/
def stage8 (c : Dev nD) : Valuation τ sig (Elt Ideal) := after (piece8 (F := Ideal)) (stage7 m c)
/-- A buffer the piece does not write is as before it. -/
theorem carry8 (c : Dev nD) (r : Ref sig .tc) (hr : r ∉ written8) : stage8 m c (Proc.devRef .tc r) = (stage7 m c) (Proc.devRef .tc r) :=
  after_of_writes_sub piece8 _ piece8_writes hr

/-- The buffers' contents after the first 10 pieces, as one named valuation (what the next piece's operations read). -/
def stage9 (c : Dev nD) : Valuation τ sig (Elt Ideal) := after (piece9 (F := Ideal)) (stage8 m c)
/-- A buffer the piece does not write is as before it. -/
theorem carry9 (c : Dev nD) (r : Ref sig .tc) (hr : r ∉ written9) : stage9 m c (Proc.devRef .tc r) = (stage8 m c) (Proc.devRef .tc r) :=
  after_of_writes_sub piece9 _ piece9_writes hr

/-- The buffers' contents after the first 11 pieces, as one named valuation (what the next piece's operations read). -/
def stage10 (c : Dev nD) : Valuation τ sig (Elt Ideal) := after (piece10 (F := Ideal)) (stage9 m c)
/-- A buffer the piece does not write is as before it. -/
theorem carry10 (c : Dev nD) (r : Ref sig .tc) (hr : r ∉ written10) : stage10 m c (Proc.devRef .tc r) = (stage9 m c) (Proc.devRef .tc r) :=
  after_of_writes_sub piece10 _ piece10_writes hr

/-- The buffers' contents after the first 12 pieces, as one named valuation (what the next piece's operations read). -/
def stage11 (c : Dev nD) : Valuation τ sig (Elt Ideal) := after (piece11 (F := Ideal)) (stage10 m c)
/-- A buffer the piece does not write is as before it. -/
theorem carry11 (c : Dev nD) (r : Ref sig .tc) (hr : r ∉ written11) : stage11 m c (Proc.devRef .tc r) = (stage10 m c) (Proc.devRef .tc r) :=
  after_of_writes_sub piece11 _ piece11_writes hr

/-- The buffers' contents after the first 13 pieces, as one named valuation (what the next piece's operations read). -/
def stage12 (c : Dev nD) : Valuation τ sig (Elt Ideal) := after (piece12 (F := Ideal)) (stage11 m c)
/-- A buffer the piece does not write is as before it. -/
theorem carry12 (c : Dev nD) (r : Ref sig .tc) (hr : r ∉ written12) : stage12 m c (Proc.devRef .tc r) = (stage11 m c) (Proc.devRef .tc r) :=
  after_of_writes_sub piece12 _ piece12_writes hr

/-- The buffers' contents after the first 14 pieces, as one named valuation (what the next piece's operations read). -/
def stage13 (c : Dev nD) : Valuation τ sig (Elt Ideal) := after (piece13 (F := Ideal)) (stage12 m c)
/-- A buffer the piece does not write is as before it. -/
theorem carry13 (c : Dev nD) (r : Ref sig .tc) (hr : r ∉ written13) : stage13 m c (Proc.devRef .tc r) = (stage12 m c) (Proc.devRef .tc r) :=
  after_of_writes_sub piece13 _ piece13_writes hr

/-- The buffers' contents after the first 15 pieces, as one named valuation (what the next piece's operations read). -/
def stage14 (c : Dev nD) : Valuation τ sig (Elt Ideal) := after (piece14 (F := Ideal)) (stage13 m c)
/-- A buffer the piece does not write is as before it. -/
theorem carry14 (c : Dev nD) (r : Ref sig .tc) (hr : r ∉ written14) : stage14 m c (Proc.devRef .tc r) = (stage13 m c) (Proc.devRef .tc r) :=
  after_of_writes_sub piece14 _ piece14_writes hr

/-- The buffers' contents after the first 16 pieces, as one named valuation (what the next piece's operations read). -/
def stage15 (c : Dev nD) : Valuation τ sig (Elt Ideal) := after (piece15 (F := Ideal)) (stage14 m c)
/-- A buffer the piece does not write is as before it. -/
theorem carry15 (c : Dev nD) (r : Ref sig .tc) (hr : r ∉ written15) : stage15 m c (Proc.devRef .tc r) = (stage14 m c) (Proc.devRef .tc r) :=
  after_of_writes_sub piece15 _ piece15_writes hr

/-! ## What each piece leaves in the buffers later pieces read -/

set_option maxHeartbeats 40000000 in
theorem at0_v1 (c : Dev nD) :
    stage0 m c (Proc.devRef .tc main_v1) = Cert.ReferenceIdeal.Read.val_main_v1 (F := Ideal) (m ((c.tc : Thread nD τ).loc main_arg1)) := by
  show after (piece0 (F := Ideal)) (launchContents m c) (Proc.devRef .tc main_v1) = _
  simp only [piece0]
  after_results_simp
  first | rfl | fail "closing rfl fails at at0_v1"

set_option maxHeartbeats 40000000 in
theorem at0_v3 (c : Dev nD) :
    stage0 m c (Proc.devRef .tc main_v3) = Cert.ReferenceIdeal.Read.val_main_v3 (F := Ideal) (m ((c.tc : Thread nD τ).loc main_arg1)) := by
  show after (piece0 (F := Ideal)) (launchContents m c) (Proc.devRef .tc main_v3) = _
  simp only [piece0]
  after_results_simp
  first | rfl | fail "closing rfl fails at at0_v3"

set_option maxHeartbeats 40000000 in
theorem at0_v5 (c : Dev nD) :
    stage0 m c (Proc.devRef .tc main_v5) = Cert.ReferenceIdeal.Read.val_main_v5 (F := Ideal) (m ((c.tc : Thread nD τ).loc main_arg1)) := by
  show after (piece0 (F := Ideal)) (launchContents m c) (Proc.devRef .tc main_v5) = _
  simp only [piece0]
  after_results_simp
  first | rfl | fail "closing rfl fails at at0_v5"

set_option maxHeartbeats 40000000 in
theorem at0_v8 (c : Dev nD) :
    stage0 m c (Proc.devRef .tc main_v8) = Cert.ReferenceIdeal.Read.val_main_v8 (F := Ideal) (m ((c.tc : Thread nD τ).loc main_arg1)) := by
  show after (piece0 (F := Ideal)) (launchContents m c) (Proc.devRef .tc main_v8) = _
  simp only [piece0]
  after_results_simp
  first | rfl | fail "closing rfl fails at at0_v8"

set_option maxHeartbeats 40000000 in
theorem at0_v14 (c : Dev nD) :
    stage0 m c (Proc.devRef .tc main_v14) = Cert.ReferenceIdeal.Read.val_main_v14 (F := Ideal) (m ((c.tc : Thread nD τ).loc main_arg1)) := by
  show after (piece0 (F := Ideal)) (launchContents m c) (Proc.devRef .tc main_v14) = _
  simp only [piece0]
  after_results_simp
  rw [toBuf_v14, ofBuf_v10, ofBuf_v13, ofBuf_call0_v1, toBuf_call0_v1, ofBuf_call0_v0, toBuf_call0_v0, ofBuf_cst_2]
  first | rfl | fail "closing rfl fails at at0_v14"

set_option maxHeartbeats 40000000 in
theorem at1_v31 (c : Dev nD) :
    stage1 m c (Proc.devRef .tc main_v31) = Cert.ReferenceIdeal.Read.val_main_v31 (F := Ideal) (m ((c.tc : Thread nD τ).loc main_arg1)) := by
  show after (piece1 (F := Ideal)) (stage0 m c) (Proc.devRef .tc main_v31) = _
  simp only [piece1]
  after_results_simp
  rw [show (stage0 m c) (Proc.devRef .tc main_v14) = Cert.ReferenceIdeal.Read.val_main_v14 (F := Ideal) (m ((c.tc : Thread nD τ).loc main_arg1)) from at0_v14 m c,
    show (stage0 m c) (Proc.devRef .tc main_v1) = Cert.ReferenceIdeal.Read.val_main_v1 (F := Ideal) (m ((c.tc : Thread nD τ).loc main_arg1)) from at0_v1 m c,
    show (stage0 m c) (Proc.devRef .tc main_v5) = Cert.ReferenceIdeal.Read.val_main_v5 (F := Ideal) (m ((c.tc : Thread nD τ).loc main_arg1)) from at0_v5 m c,
    show (stage0 m c) (Proc.devRef .tc main_v3) = Cert.ReferenceIdeal.Read.val_main_v3 (F := Ideal) (m ((c.tc : Thread nD τ).loc main_arg1)) from at0_v3 m c]
  first | rfl | fail "closing rfl fails at at1_v31"

set_option maxHeartbeats 40000000 in
theorem at2_v34 (c : Dev nD) :
    stage2 m c (Proc.devRef .tc main_v34) = Cert.ReferenceIdeal.Read.val_main_v34 (F := Ideal) (m ((c.tc : Thread nD τ).loc main_arg1)) := by
  show after (piece2 (F := Ideal)) (stage1 m c) (Proc.devRef .tc main_v34) = _
  simp only [piece2]
  after_results_simp
  rw [toBuf_v34, ofBuf_v33, ofBuf_call1_v0, ofBuf_call1_v1, toBuf_call1_v1, ofBuf_cst_8, toBuf_call1_v0, ofBuf_cst_7]
  rw [show (stage1 m c) (Proc.devRef .tc main_v8) = Cert.ReferenceIdeal.Read.val_main_v8 (F := Ideal) (m ((c.tc : Thread nD τ).loc main_arg1)) from (carry1 m c main_v8 (by decide)).trans (at0_v8 m c)]
  first | rfl | fail "closing rfl fails at at2_v34"

set_option maxHeartbeats 40000000 in
theorem at3_v35 (c : Dev nD) :
    stage3 m c (Proc.devRef .tc main_v35) = Cert.ReferenceIdeal.Read.val_main_v35 (F := Ideal) (m ((c.tc : Thread nD τ).loc main_arg1)) := by
  show after (piece3 (F := Ideal)) (stage2 m c) (Proc.devRef .tc main_v35) = _
  simp only [piece3]
  after_results_simp
  rw [show (stage2 m c) (Proc.devRef .tc main_v34) = Cert.ReferenceIdeal.Read.val_main_v34 (F := Ideal) (m ((c.tc : Thread nD τ).loc main_arg1)) from at2_v34 m c]
  first | rfl | fail "closing rfl fails at at3_v35"

set_option maxHeartbeats 40000000 in
theorem at4_v38 (c : Dev nD) :
    stage4 m c (Proc.devRef .tc main_v38) = Cert.ReferenceIdeal.Read.val_main_v38 (F := Ideal) (m ((c.tc : Thread nD τ).loc main_arg0)) (m ((c.tc : Thread nD τ).loc main_arg4)) := by
  show after (piece4 (F := Ideal)) (stage3 m c) (Proc.devRef .tc main_v38) = _
  simp only [piece4]
  after_results_simp
  rw [show (stage3 m c) (Proc.devRef .tc main_arg0) = m ((c.tc : Thread nD τ).loc main_arg0) from (carry3 m c main_arg0 (by decide)).trans ((carry2 m c main_arg0 (by decide)).trans ((carry1 m c main_arg0 (by decide)).trans ((carry0 m c main_arg0 (by decide)).trans (rfl)))),
    show (stage3 m c) (Proc.devRef .tc main_arg4) = m ((c.tc : Thread nD τ).loc main_arg4) from (carry3 m c main_arg4 (by decide)).trans ((carry2 m c main_arg4 (by decide)).trans ((carry1 m c main_arg4 (by decide)).trans ((carry0 m c main_arg4 (by decide)).trans (rfl))))]
  first | rfl | fail "closing rfl fails at at4_v38"

set_option maxHeartbeats 40000000 in
theorem at4_v53 (c : Dev nD) :
    stage4 m c (Proc.devRef .tc main_v53) = Cert.ReferenceIdeal.Read.val_main_v53 (F := Ideal) (m ((c.tc : Thread nD τ).loc main_arg0)) (m ((c.tc : Thread nD τ).loc main_arg1)) := by
  show after (piece4 (F := Ideal)) (stage3 m c) (Proc.devRef .tc main_v53) = _
  simp only [piece4]
  after_results_simp
  rw [show (stage3 m c) (Proc.devRef .tc main_v3) = Cert.ReferenceIdeal.Read.val_main_v3 (F := Ideal) (m ((c.tc : Thread nD τ).loc main_arg1)) from (carry3 m c main_v3 (by decide)).trans ((carry2 m c main_v3 (by decide)).trans ((carry1 m c main_v3 (by decide)).trans (at0_v3 m c))),
    show (stage3 m c) (Proc.devRef .tc main_v31) = Cert.ReferenceIdeal.Read.val_main_v31 (F := Ideal) (m ((c.tc : Thread nD τ).loc main_arg1)) from (carry3 m c main_v31 (by decide)).trans ((carry2 m c main_v31 (by decide)).trans (at1_v31 m c)),
    show (stage3 m c) (Proc.devRef .tc main_arg0) = m ((c.tc : Thread nD τ).loc main_arg0) from (carry3 m c main_arg0 (by decide)).trans ((carry2 m c main_arg0 (by decide)).trans ((carry1 m c main_arg0 (by decide)).trans ((carry0 m c main_arg0 (by decide)).trans (rfl)))),
    show (stage3 m c) (Proc.devRef .tc main_v1) = Cert.ReferenceIdeal.Read.val_main_v1 (F := Ideal) (m ((c.tc : Thread nD τ).loc main_arg1)) from (carry3 m c main_v1 (by decide)).trans ((carry2 m c main_v1 (by decide)).trans ((carry1 m c main_v1 (by decide)).trans (at0_v1 m c))),
    show (stage3 m c) (Proc.devRef .tc main_v35) = Cert.ReferenceIdeal.Read.val_main_v35 (F := Ideal) (m ((c.tc : Thread nD τ).loc main_arg1)) from at3_v35 m c]
  first | rfl | fail "closing rfl fails at at4_v53"

set_option maxHeartbeats 40000000 in
theorem at5_v57 (c : Dev nD) :
    stage5 m c (Proc.devRef .tc main_v57) = Cert.ReferenceIdeal.Read.val_main_v57 (F := Ideal) (m ((c.tc : Thread nD τ).loc main_arg0)) (m ((c.tc : Thread nD τ).loc main_arg1)) (m ((c.tc : Thread nD τ).loc main_arg4)) := by
  show after (piece5 (F := Ideal)) (stage4 m c) (Proc.devRef .tc main_v57) = _
  simp only [piece5]
  after_results_simp
  rw [show (stage4 m c) (Proc.devRef .tc main_v38) = Cert.ReferenceIdeal.Read.val_main_v38 (F := Ideal) (m ((c.tc : Thread nD τ).loc main_arg0)) (m ((c.tc : Thread nD τ).loc main_arg4)) from at4_v38 m c,
    show (stage4 m c) (Proc.devRef .tc main_v53) = Cert.ReferenceIdeal.Read.val_main_v53 (F := Ideal) (m ((c.tc : Thread nD τ).loc main_arg0)) (m ((c.tc : Thread nD τ).loc main_arg1)) from at4_v53 m c,
    show (stage4 m c) (Proc.devRef .tc main_arg4) = m ((c.tc : Thread nD τ).loc main_arg4) from (carry4 m c main_arg4 (by decide)).trans ((carry3 m c main_arg4 (by decide)).trans ((carry2 m c main_arg4 (by decide)).trans ((carry1 m c main_arg4 (by decide)).trans ((carry0 m c main_arg4 (by decide)).trans (rfl)))))]
  first | rfl | fail "closing rfl fails at at5_v57"

set_option maxHeartbeats 40000000 in
theorem at5_v75 (c : Dev nD) :
    stage5 m c (Proc.devRef .tc main_v75) = Cert.ReferenceIdeal.Read.val_main_v75 (F := Ideal) (m ((c.tc : Thread nD τ).loc main_arg0)) (m ((c.tc : Thread nD τ).loc main_arg1)) := by
  show after (piece5 (F := Ideal)) (stage4 m c) (Proc.devRef .tc main_v75) = _
  simp only [piece5]
  after_results_simp
  rw [show (stage4 m c) (Proc.devRef .tc main_v3) = Cert.ReferenceIdeal.Read.val_main_v3 (F := Ideal) (m ((c.tc : Thread nD τ).loc main_arg1)) from (carry4 m c main_v3 (by decide)).trans ((carry3 m c main_v3 (by decide)).trans ((carry2 m c main_v3 (by decide)).trans ((carry1 m c main_v3 (by decide)).trans (at0_v3 m c)))),
    show (stage4 m c) (Proc.devRef .tc main_v31) = Cert.ReferenceIdeal.Read.val_main_v31 (F := Ideal) (m ((c.tc : Thread nD τ).loc main_arg1)) from (carry4 m c main_v31 (by decide)).trans ((carry3 m c main_v31 (by decide)).trans ((carry2 m c main_v31 (by decide)).trans (at1_v31 m c))),
    show (stage4 m c) (Proc.devRef .tc main_v53) = Cert.ReferenceIdeal.Read.val_main_v53 (F := Ideal) (m ((c.tc : Thread nD τ).loc main_arg0)) (m ((c.tc : Thread nD τ).loc main_arg1)) from at4_v53 m c,
    show (stage4 m c) (Proc.devRef .tc main_v1) = Cert.ReferenceIdeal.Read.val_main_v1 (F := Ideal) (m ((c.tc : Thread nD τ).loc main_arg1)) from (carry4 m c main_v1 (by decide)).trans ((carry3 m c main_v1 (by decide)).trans ((carry2 m c main_v1 (by decide)).trans ((carry1 m c main_v1 (by decide)).trans (at0_v1 m c)))),
    show (stage4 m c) (Proc.devRef .tc main_v35) = Cert.ReferenceIdeal.Read.val_main_v35 (F := Ideal) (m ((c.tc : Thread nD τ).loc main_arg1)) from (carry4 m c main_v35 (by decide)).trans (at3_v35 m c),
    show (stage4 m c) (Proc.devRef .tc main_arg0) = m ((c.tc : Thread nD τ).loc main_arg0) from (carry4 m c main_arg0 (by decide)).trans ((carry3 m c main_arg0 (by decide)).trans ((carry2 m c main_arg0 (by decide)).trans ((carry1 m c main_arg0 (by decide)).trans ((carry0 m c main_arg0 (by decide)).trans (rfl)))))]
  first | rfl | fail "closing rfl fails at at5_v75"

set_option maxHeartbeats 40000000 in
theorem at6_v79 (c : Dev nD) :
    stage6 m c (Proc.devRef .tc main_v79) = Cert.ReferenceIdeal.Read.val_main_v79 (F := Ideal) (m ((c.tc : Thread nD τ).loc main_arg0)) (m ((c.tc : Thread nD τ).loc main_arg1)) (m ((c.tc : Thread nD τ).loc main_arg4)) := by
  show after (piece6 (F := Ideal)) (stage5 m c) (Proc.devRef .tc main_v79) = _
  simp only [piece6]
  after_results_simp
  rw [show (stage5 m c) (Proc.devRef .tc main_v57) = Cert.ReferenceIdeal.Read.val_main_v57 (F := Ideal) (m ((c.tc : Thread nD τ).loc main_arg0)) (m ((c.tc : Thread nD τ).loc main_arg1)) (m ((c.tc : Thread nD τ).loc main_arg4)) from at5_v57 m c,
    show (stage5 m c) (Proc.devRef .tc main_v75) = Cert.ReferenceIdeal.Read.val_main_v75 (F := Ideal) (m ((c.tc : Thread nD τ).loc main_arg0)) (m ((c.tc : Thread nD τ).loc main_arg1)) from at5_v75 m c,
    show (stage5 m c) (Proc.devRef .tc main_arg4) = m ((c.tc : Thread nD τ).loc main_arg4) from (carry5 m c main_arg4 (by decide)).trans ((carry4 m c main_arg4 (by decide)).trans ((carry3 m c main_arg4 (by decide)).trans ((carry2 m c main_arg4 (by decide)).trans ((carry1 m c main_arg4 (by decide)).trans ((carry0 m c main_arg4 (by decide)).trans (rfl))))))]
  first | rfl | fail "closing rfl fails at at6_v79"

set_option maxHeartbeats 40000000 in
theorem at6_v97 (c : Dev nD) :
    stage6 m c (Proc.devRef .tc main_v97) = Cert.ReferenceIdeal.Read.val_main_v97 (F := Ideal) (m ((c.tc : Thread nD τ).loc main_arg0)) (m ((c.tc : Thread nD τ).loc main_arg1)) := by
  show after (piece6 (F := Ideal)) (stage5 m c) (Proc.devRef .tc main_v97) = _
  simp only [piece6]
  after_results_simp
  rw [show (stage5 m c) (Proc.devRef .tc main_v3) = Cert.ReferenceIdeal.Read.val_main_v3 (F := Ideal) (m ((c.tc : Thread nD τ).loc main_arg1)) from (carry5 m c main_v3 (by decide)).trans ((carry4 m c main_v3 (by decide)).trans ((carry3 m c main_v3 (by decide)).trans ((carry2 m c main_v3 (by decide)).trans ((carry1 m c main_v3 (by decide)).trans (at0_v3 m c))))),
    show (stage5 m c) (Proc.devRef .tc main_v31) = Cert.ReferenceIdeal.Read.val_main_v31 (F := Ideal) (m ((c.tc : Thread nD τ).loc main_arg1)) from (carry5 m c main_v31 (by decide)).trans ((carry4 m c main_v31 (by decide)).trans ((carry3 m c main_v31 (by decide)).trans ((carry2 m c main_v31 (by decide)).trans (at1_v31 m c)))),
    show (stage5 m c) (Proc.devRef .tc main_v75) = Cert.ReferenceIdeal.Read.val_main_v75 (F := Ideal) (m ((c.tc : Thread nD τ).loc main_arg0)) (m ((c.tc : Thread nD τ).loc main_arg1)) from at5_v75 m c,
    show (stage5 m c) (Proc.devRef .tc main_v1) = Cert.ReferenceIdeal.Read.val_main_v1 (F := Ideal) (m ((c.tc : Thread nD τ).loc main_arg1)) from (carry5 m c main_v1 (by decide)).trans ((carry4 m c main_v1 (by decide)).trans ((carry3 m c main_v1 (by decide)).trans ((carry2 m c main_v1 (by decide)).trans ((carry1 m c main_v1 (by decide)).trans (at0_v1 m c))))),
    show (stage5 m c) (Proc.devRef .tc main_v35) = Cert.ReferenceIdeal.Read.val_main_v35 (F := Ideal) (m ((c.tc : Thread nD τ).loc main_arg1)) from (carry5 m c main_v35 (by decide)).trans ((carry4 m c main_v35 (by decide)).trans (at3_v35 m c)),
    show (stage5 m c) (Proc.devRef .tc main_v53) = Cert.ReferenceIdeal.Read.val_main_v53 (F := Ideal) (m ((c.tc : Thread nD τ).loc main_arg0)) (m ((c.tc : Thread nD τ).loc main_arg1)) from (carry5 m c main_v53 (by decide)).trans (at4_v53 m c)]
  first | rfl | fail "closing rfl fails at at6_v97"

set_option maxHeartbeats 40000000 in
theorem at7_v101 (c : Dev nD) :
    stage7 m c (Proc.devRef .tc main_v101) = Cert.ReferenceIdeal.Read.val_main_v101 (F := Ideal) (m ((c.tc : Thread nD τ).loc main_arg0)) (m ((c.tc : Thread nD τ).loc main_arg1)) (m ((c.tc : Thread nD τ).loc main_arg4)) := by
  show after (piece7 (F := Ideal)) (stage6 m c) (Proc.devRef .tc main_v101) = _
  simp only [piece7]
  after_results_simp
  rw [show (stage6 m c) (Proc.devRef .tc main_v79) = Cert.ReferenceIdeal.Read.val_main_v79 (F := Ideal) (m ((c.tc : Thread nD τ).loc main_arg0)) (m ((c.tc : Thread nD τ).loc main_arg1)) (m ((c.tc : Thread nD τ).loc main_arg4)) from at6_v79 m c,
    show (stage6 m c) (Proc.devRef .tc main_v97) = Cert.ReferenceIdeal.Read.val_main_v97 (F := Ideal) (m ((c.tc : Thread nD τ).loc main_arg0)) (m ((c.tc : Thread nD τ).loc main_arg1)) from at6_v97 m c,
    show (stage6 m c) (Proc.devRef .tc main_arg4) = m ((c.tc : Thread nD τ).loc main_arg4) from (carry6 m c main_arg4 (by decide)).trans ((carry5 m c main_arg4 (by decide)).trans ((carry4 m c main_arg4 (by decide)).trans ((carry3 m c main_arg4 (by decide)).trans ((carry2 m c main_arg4 (by decide)).trans ((carry1 m c main_arg4 (by decide)).trans ((carry0 m c main_arg4 (by decide)).trans (rfl)))))))]
  first | rfl | fail "closing rfl fails at at7_v101"

set_option maxHeartbeats 40000000 in
theorem at7_v119 (c : Dev nD) :
    stage7 m c (Proc.devRef .tc main_v119) = Cert.ReferenceIdeal.Read.val_main_v119 (F := Ideal) (m ((c.tc : Thread nD τ).loc main_arg0)) (m ((c.tc : Thread nD τ).loc main_arg1)) := by
  show after (piece7 (F := Ideal)) (stage6 m c) (Proc.devRef .tc main_v119) = _
  simp only [piece7]
  after_results_simp
  rw [show (stage6 m c) (Proc.devRef .tc main_v3) = Cert.ReferenceIdeal.Read.val_main_v3 (F := Ideal) (m ((c.tc : Thread nD τ).loc main_arg1)) from (carry6 m c main_v3 (by decide)).trans ((carry5 m c main_v3 (by decide)).trans ((carry4 m c main_v3 (by decide)).trans ((carry3 m c main_v3 (by decide)).trans ((carry2 m c main_v3 (by decide)).trans ((carry1 m c main_v3 (by decide)).trans (at0_v3 m c)))))),
    show (stage6 m c) (Proc.devRef .tc main_v31) = Cert.ReferenceIdeal.Read.val_main_v31 (F := Ideal) (m ((c.tc : Thread nD τ).loc main_arg1)) from (carry6 m c main_v31 (by decide)).trans ((carry5 m c main_v31 (by decide)).trans ((carry4 m c main_v31 (by decide)).trans ((carry3 m c main_v31 (by decide)).trans ((carry2 m c main_v31 (by decide)).trans (at1_v31 m c))))),
    show (stage6 m c) (Proc.devRef .tc main_v97) = Cert.ReferenceIdeal.Read.val_main_v97 (F := Ideal) (m ((c.tc : Thread nD τ).loc main_arg0)) (m ((c.tc : Thread nD τ).loc main_arg1)) from at6_v97 m c,
    show (stage6 m c) (Proc.devRef .tc main_v1) = Cert.ReferenceIdeal.Read.val_main_v1 (F := Ideal) (m ((c.tc : Thread nD τ).loc main_arg1)) from (carry6 m c main_v1 (by decide)).trans ((carry5 m c main_v1 (by decide)).trans ((carry4 m c main_v1 (by decide)).trans ((carry3 m c main_v1 (by decide)).trans ((carry2 m c main_v1 (by decide)).trans ((carry1 m c main_v1 (by decide)).trans (at0_v1 m c)))))),
    show (stage6 m c) (Proc.devRef .tc main_v35) = Cert.ReferenceIdeal.Read.val_main_v35 (F := Ideal) (m ((c.tc : Thread nD τ).loc main_arg1)) from (carry6 m c main_v35 (by decide)).trans ((carry5 m c main_v35 (by decide)).trans ((carry4 m c main_v35 (by decide)).trans (at3_v35 m c))),
    show (stage6 m c) (Proc.devRef .tc main_v75) = Cert.ReferenceIdeal.Read.val_main_v75 (F := Ideal) (m ((c.tc : Thread nD τ).loc main_arg0)) (m ((c.tc : Thread nD τ).loc main_arg1)) from (carry6 m c main_v75 (by decide)).trans (at5_v75 m c)]
  first | rfl | fail "closing rfl fails at at7_v119"

set_option maxHeartbeats 40000000 in
theorem at8_v127 (c : Dev nD) :
    stage8 m c (Proc.devRef .tc main_v127) = Cert.ReferenceIdeal.Read.val_main_v127 (F := Ideal) (m ((c.tc : Thread nD τ).loc main_arg0)) (m ((c.tc : Thread nD τ).loc main_arg1)) (m ((c.tc : Thread nD τ).loc main_arg4)) (m ((c.tc : Thread nD τ).loc main_arg5)) := by
  show after (piece8 (F := Ideal)) (stage7 m c) (Proc.devRef .tc main_v127) = _
  simp only [piece8]
  after_results_simp
  rw [toBuf_v127, ofBuf_v126, ofBuf_call2_v0, toBuf_call2_v0, ofBuf_call2_cst, toBuf_call2_cst]
  rw [show (stage7 m c) (Proc.devRef .tc main_v101) = Cert.ReferenceIdeal.Read.val_main_v101 (F := Ideal) (m ((c.tc : Thread nD τ).loc main_arg0)) (m ((c.tc : Thread nD τ).loc main_arg1)) (m ((c.tc : Thread nD τ).loc main_arg4)) from at7_v101 m c,
    show (stage7 m c) (Proc.devRef .tc main_v119) = Cert.ReferenceIdeal.Read.val_main_v119 (F := Ideal) (m ((c.tc : Thread nD τ).loc main_arg0)) (m ((c.tc : Thread nD τ).loc main_arg1)) from at7_v119 m c,
    show (stage7 m c) (Proc.devRef .tc main_arg4) = m ((c.tc : Thread nD τ).loc main_arg4) from (carry7 m c main_arg4 (by decide)).trans ((carry6 m c main_arg4 (by decide)).trans ((carry5 m c main_arg4 (by decide)).trans ((carry4 m c main_arg4 (by decide)).trans ((carry3 m c main_arg4 (by decide)).trans ((carry2 m c main_arg4 (by decide)).trans ((carry1 m c main_arg4 (by decide)).trans ((carry0 m c main_arg4 (by decide)).trans (rfl)))))))),
    show (stage7 m c) (Proc.devRef .tc main_arg5) = m ((c.tc : Thread nD τ).loc main_arg5) from (carry7 m c main_arg5 (by decide)).trans ((carry6 m c main_arg5 (by decide)).trans ((carry5 m c main_arg5 (by decide)).trans ((carry4 m c main_arg5 (by decide)).trans ((carry3 m c main_arg5 (by decide)).trans ((carry2 m c main_arg5 (by decide)).trans ((carry1 m c main_arg5 (by decide)).trans ((carry0 m c main_arg5 (by decide)).trans (rfl))))))))]
  first | rfl | fail "closing rfl fails at at8_v127"

set_option maxHeartbeats 40000000 in
theorem at9_v130 (c : Dev nD) :
    stage9 m c (Proc.devRef .tc main_v130) = Cert.ReferenceIdeal.Read.val_main_v130 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  show after (piece9 (F := Ideal)) (stage8 m c) (Proc.devRef .tc main_v130) = _
  simp only [piece9]
  after_results_simp
  rw [show (stage8 m c) (Proc.devRef .tc main_v127) = Cert.ReferenceIdeal.Read.val_main_v127 (F := Ideal) (m ((c.tc : Thread nD τ).loc main_arg0)) (m ((c.tc : Thread nD τ).loc main_arg1)) (m ((c.tc : Thread nD τ).loc main_arg4)) (m ((c.tc : Thread nD τ).loc main_arg5)) from at8_v127 m c,
    show (stage8 m c) (Proc.devRef .tc main_arg6) = m ((c.tc : Thread nD τ).loc main_arg6) from (carry8 m c main_arg6 (by decide)).trans ((carry7 m c main_arg6 (by decide)).trans ((carry6 m c main_arg6 (by decide)).trans ((carry5 m c main_arg6 (by decide)).trans ((carry4 m c main_arg6 (by decide)).trans ((carry3 m c main_arg6 (by decide)).trans ((carry2 m c main_arg6 (by decide)).trans ((carry1 m c main_arg6 (by decide)).trans ((carry0 m c main_arg6 (by decide)).trans (rfl)))))))))]
  first | rfl | fail "closing rfl fails at at9_v130"

set_option maxHeartbeats 40000000 in
theorem at9_v147 (c : Dev nD) :
    stage9 m c (Proc.devRef .tc main_v147) = Cert.ReferenceIdeal.Read.val_main_v147 (F := Ideal) (m ((c.tc : Thread nD τ).loc main_arg0)) (m ((c.tc : Thread nD τ).loc main_arg1)) (m ((c.tc : Thread nD τ).loc main_arg4)) (m ((c.tc : Thread nD τ).loc main_arg5)) := by
  show after (piece9 (F := Ideal)) (stage8 m c) (Proc.devRef .tc main_v147) = _
  simp only [piece9]
  after_results_simp
  rw [show (stage8 m c) (Proc.devRef .tc main_v3) = Cert.ReferenceIdeal.Read.val_main_v3 (F := Ideal) (m ((c.tc : Thread nD τ).loc main_arg1)) from (carry8 m c main_v3 (by decide)).trans ((carry7 m c main_v3 (by decide)).trans ((carry6 m c main_v3 (by decide)).trans ((carry5 m c main_v3 (by decide)).trans ((carry4 m c main_v3 (by decide)).trans ((carry3 m c main_v3 (by decide)).trans ((carry2 m c main_v3 (by decide)).trans ((carry1 m c main_v3 (by decide)).trans (at0_v3 m c)))))))),
    show (stage8 m c) (Proc.devRef .tc main_v31) = Cert.ReferenceIdeal.Read.val_main_v31 (F := Ideal) (m ((c.tc : Thread nD τ).loc main_arg1)) from (carry8 m c main_v31 (by decide)).trans ((carry7 m c main_v31 (by decide)).trans ((carry6 m c main_v31 (by decide)).trans ((carry5 m c main_v31 (by decide)).trans ((carry4 m c main_v31 (by decide)).trans ((carry3 m c main_v31 (by decide)).trans ((carry2 m c main_v31 (by decide)).trans (at1_v31 m c))))))),
    show (stage8 m c) (Proc.devRef .tc main_v127) = Cert.ReferenceIdeal.Read.val_main_v127 (F := Ideal) (m ((c.tc : Thread nD τ).loc main_arg0)) (m ((c.tc : Thread nD τ).loc main_arg1)) (m ((c.tc : Thread nD τ).loc main_arg4)) (m ((c.tc : Thread nD τ).loc main_arg5)) from at8_v127 m c,
    show (stage8 m c) (Proc.devRef .tc main_v1) = Cert.ReferenceIdeal.Read.val_main_v1 (F := Ideal) (m ((c.tc : Thread nD τ).loc main_arg1)) from (carry8 m c main_v1 (by decide)).trans ((carry7 m c main_v1 (by decide)).trans ((carry6 m c main_v1 (by decide)).trans ((carry5 m c main_v1 (by decide)).trans ((carry4 m c main_v1 (by decide)).trans ((carry3 m c main_v1 (by decide)).trans ((carry2 m c main_v1 (by decide)).trans ((carry1 m c main_v1 (by decide)).trans (at0_v1 m c)))))))),
    show (stage8 m c) (Proc.devRef .tc main_v35) = Cert.ReferenceIdeal.Read.val_main_v35 (F := Ideal) (m ((c.tc : Thread nD τ).loc main_arg1)) from (carry8 m c main_v35 (by decide)).trans ((carry7 m c main_v35 (by decide)).trans ((carry6 m c main_v35 (by decide)).trans ((carry5 m c main_v35 (by decide)).trans ((carry4 m c main_v35 (by decide)).trans (at3_v35 m c)))))]
  first | rfl | fail "closing rfl fails at at9_v147"

set_option maxHeartbeats 40000000 in
theorem at10_v151 (c : Dev nD) :
    stage10 m c (Proc.devRef .tc main_v151) = Cert.ReferenceIdeal.Read.val_main_v151 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  show after (piece10 (F := Ideal)) (stage9 m c) (Proc.devRef .tc main_v151) = _
  simp only [piece10]
  after_results_simp
  rw [show (stage9 m c) (Proc.devRef .tc main_v130) = Cert.ReferenceIdeal.Read.val_main_v130 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) from at9_v130 m c,
    show (stage9 m c) (Proc.devRef .tc main_v147) = Cert.ReferenceIdeal.Read.val_main_v147 (F := Ideal) (m ((c.tc : Thread nD τ).loc main_arg0)) (m ((c.tc : Thread nD τ).loc main_arg1)) (m ((c.tc : Thread nD τ).loc main_arg4)) (m ((c.tc : Thread nD τ).loc main_arg5)) from at9_v147 m c,
    show (stage9 m c) (Proc.devRef .tc main_arg6) = m ((c.tc : Thread nD τ).loc main_arg6) from (carry9 m c main_arg6 (by decide)).trans ((carry8 m c main_arg6 (by decide)).trans ((carry7 m c main_arg6 (by decide)).trans ((carry6 m c main_arg6 (by decide)).trans ((carry5 m c main_arg6 (by decide)).trans ((carry4 m c main_arg6 (by decide)).trans ((carry3 m c main_arg6 (by decide)).trans ((carry2 m c main_arg6 (by decide)).trans ((carry1 m c main_arg6 (by decide)).trans ((carry0 m c main_arg6 (by decide)).trans (rfl))))))))))]
  first | rfl | fail "closing rfl fails at at10_v151"

set_option maxHeartbeats 40000000 in
theorem at10_v171 (c : Dev nD) :
    stage10 m c (Proc.devRef .tc main_v171) = Cert.ReferenceIdeal.Read.val_main_v171 (F := Ideal) (m ((c.tc : Thread nD τ).loc main_arg0)) (m ((c.tc : Thread nD τ).loc main_arg1)) (m ((c.tc : Thread nD τ).loc main_arg4)) (m ((c.tc : Thread nD τ).loc main_arg5)) := by
  show after (piece10 (F := Ideal)) (stage9 m c) (Proc.devRef .tc main_v171) = _
  simp only [piece10]
  after_results_simp
  rw [show (stage9 m c) (Proc.devRef .tc main_v3) = Cert.ReferenceIdeal.Read.val_main_v3 (F := Ideal) (m ((c.tc : Thread nD τ).loc main_arg1)) from (carry9 m c main_v3 (by decide)).trans ((carry8 m c main_v3 (by decide)).trans ((carry7 m c main_v3 (by decide)).trans ((carry6 m c main_v3 (by decide)).trans ((carry5 m c main_v3 (by decide)).trans ((carry4 m c main_v3 (by decide)).trans ((carry3 m c main_v3 (by decide)).trans ((carry2 m c main_v3 (by decide)).trans ((carry1 m c main_v3 (by decide)).trans (at0_v3 m c))))))))),
    show (stage9 m c) (Proc.devRef .tc main_v31) = Cert.ReferenceIdeal.Read.val_main_v31 (F := Ideal) (m ((c.tc : Thread nD τ).loc main_arg1)) from (carry9 m c main_v31 (by decide)).trans ((carry8 m c main_v31 (by decide)).trans ((carry7 m c main_v31 (by decide)).trans ((carry6 m c main_v31 (by decide)).trans ((carry5 m c main_v31 (by decide)).trans ((carry4 m c main_v31 (by decide)).trans ((carry3 m c main_v31 (by decide)).trans ((carry2 m c main_v31 (by decide)).trans (at1_v31 m c)))))))),
    show (stage9 m c) (Proc.devRef .tc main_v147) = Cert.ReferenceIdeal.Read.val_main_v147 (F := Ideal) (m ((c.tc : Thread nD τ).loc main_arg0)) (m ((c.tc : Thread nD τ).loc main_arg1)) (m ((c.tc : Thread nD τ).loc main_arg4)) (m ((c.tc : Thread nD τ).loc main_arg5)) from at9_v147 m c,
    show (stage9 m c) (Proc.devRef .tc main_v1) = Cert.ReferenceIdeal.Read.val_main_v1 (F := Ideal) (m ((c.tc : Thread nD τ).loc main_arg1)) from (carry9 m c main_v1 (by decide)).trans ((carry8 m c main_v1 (by decide)).trans ((carry7 m c main_v1 (by decide)).trans ((carry6 m c main_v1 (by decide)).trans ((carry5 m c main_v1 (by decide)).trans ((carry4 m c main_v1 (by decide)).trans ((carry3 m c main_v1 (by decide)).trans ((carry2 m c main_v1 (by decide)).trans ((carry1 m c main_v1 (by decide)).trans (at0_v1 m c))))))))),
    show (stage9 m c) (Proc.devRef .tc main_v35) = Cert.ReferenceIdeal.Read.val_main_v35 (F := Ideal) (m ((c.tc : Thread nD τ).loc main_arg1)) from (carry9 m c main_v35 (by decide)).trans ((carry8 m c main_v35 (by decide)).trans ((carry7 m c main_v35 (by decide)).trans ((carry6 m c main_v35 (by decide)).trans ((carry5 m c main_v35 (by decide)).trans ((carry4 m c main_v35 (by decide)).trans (at3_v35 m c)))))),
    show (stage9 m c) (Proc.devRef .tc main_v127) = Cert.ReferenceIdeal.Read.val_main_v127 (F := Ideal) (m ((c.tc : Thread nD τ).loc main_arg0)) (m ((c.tc : Thread nD τ).loc main_arg1)) (m ((c.tc : Thread nD τ).loc main_arg4)) (m ((c.tc : Thread nD τ).loc main_arg5)) from (carry9 m c main_v127 (by decide)).trans (at8_v127 m c)]
  first | rfl | fail "closing rfl fails at at10_v171"

set_option maxHeartbeats 40000000 in
theorem at11_v175 (c : Dev nD) :
    stage11 m c (Proc.devRef .tc main_v175) = Cert.ReferenceIdeal.Read.val_main_v175 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  show after (piece11 (F := Ideal)) (stage10 m c) (Proc.devRef .tc main_v175) = _
  simp only [piece11]
  after_results_simp
  rw [show (stage10 m c) (Proc.devRef .tc main_v151) = Cert.ReferenceIdeal.Read.val_main_v151 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) from at10_v151 m c,
    show (stage10 m c) (Proc.devRef .tc main_v171) = Cert.ReferenceIdeal.Read.val_main_v171 (F := Ideal) (m ((c.tc : Thread nD τ).loc main_arg0)) (m ((c.tc : Thread nD τ).loc main_arg1)) (m ((c.tc : Thread nD τ).loc main_arg4)) (m ((c.tc : Thread nD τ).loc main_arg5)) from at10_v171 m c,
    show (stage10 m c) (Proc.devRef .tc main_arg6) = m ((c.tc : Thread nD τ).loc main_arg6) from (carry10 m c main_arg6 (by decide)).trans ((carry9 m c main_arg6 (by decide)).trans ((carry8 m c main_arg6 (by decide)).trans ((carry7 m c main_arg6 (by decide)).trans ((carry6 m c main_arg6 (by decide)).trans ((carry5 m c main_arg6 (by decide)).trans ((carry4 m c main_arg6 (by decide)).trans ((carry3 m c main_arg6 (by decide)).trans ((carry2 m c main_arg6 (by decide)).trans ((carry1 m c main_arg6 (by decide)).trans ((carry0 m c main_arg6 (by decide)).trans (rfl)))))))))))]
  first | rfl | fail "closing rfl fails at at11_v175"

set_option maxHeartbeats 40000000 in
theorem at11_v195 (c : Dev nD) :
    stage11 m c (Proc.devRef .tc main_v195) = Cert.ReferenceIdeal.Read.val_main_v195 (F := Ideal) (m ((c.tc : Thread nD τ).loc main_arg0)) (m ((c.tc : Thread nD τ).loc main_arg1)) (m ((c.tc : Thread nD τ).loc main_arg4)) (m ((c.tc : Thread nD τ).loc main_arg5)) := by
  show after (piece11 (F := Ideal)) (stage10 m c) (Proc.devRef .tc main_v195) = _
  simp only [piece11]
  after_results_simp
  rw [show (stage10 m c) (Proc.devRef .tc main_v3) = Cert.ReferenceIdeal.Read.val_main_v3 (F := Ideal) (m ((c.tc : Thread nD τ).loc main_arg1)) from (carry10 m c main_v3 (by decide)).trans ((carry9 m c main_v3 (by decide)).trans ((carry8 m c main_v3 (by decide)).trans ((carry7 m c main_v3 (by decide)).trans ((carry6 m c main_v3 (by decide)).trans ((carry5 m c main_v3 (by decide)).trans ((carry4 m c main_v3 (by decide)).trans ((carry3 m c main_v3 (by decide)).trans ((carry2 m c main_v3 (by decide)).trans ((carry1 m c main_v3 (by decide)).trans (at0_v3 m c)))))))))),
    show (stage10 m c) (Proc.devRef .tc main_v31) = Cert.ReferenceIdeal.Read.val_main_v31 (F := Ideal) (m ((c.tc : Thread nD τ).loc main_arg1)) from (carry10 m c main_v31 (by decide)).trans ((carry9 m c main_v31 (by decide)).trans ((carry8 m c main_v31 (by decide)).trans ((carry7 m c main_v31 (by decide)).trans ((carry6 m c main_v31 (by decide)).trans ((carry5 m c main_v31 (by decide)).trans ((carry4 m c main_v31 (by decide)).trans ((carry3 m c main_v31 (by decide)).trans ((carry2 m c main_v31 (by decide)).trans (at1_v31 m c))))))))),
    show (stage10 m c) (Proc.devRef .tc main_v171) = Cert.ReferenceIdeal.Read.val_main_v171 (F := Ideal) (m ((c.tc : Thread nD τ).loc main_arg0)) (m ((c.tc : Thread nD τ).loc main_arg1)) (m ((c.tc : Thread nD τ).loc main_arg4)) (m ((c.tc : Thread nD τ).loc main_arg5)) from at10_v171 m c,
    show (stage10 m c) (Proc.devRef .tc main_v1) = Cert.ReferenceIdeal.Read.val_main_v1 (F := Ideal) (m ((c.tc : Thread nD τ).loc main_arg1)) from (carry10 m c main_v1 (by decide)).trans ((carry9 m c main_v1 (by decide)).trans ((carry8 m c main_v1 (by decide)).trans ((carry7 m c main_v1 (by decide)).trans ((carry6 m c main_v1 (by decide)).trans ((carry5 m c main_v1 (by decide)).trans ((carry4 m c main_v1 (by decide)).trans ((carry3 m c main_v1 (by decide)).trans ((carry2 m c main_v1 (by decide)).trans ((carry1 m c main_v1 (by decide)).trans (at0_v1 m c)))))))))),
    show (stage10 m c) (Proc.devRef .tc main_v35) = Cert.ReferenceIdeal.Read.val_main_v35 (F := Ideal) (m ((c.tc : Thread nD τ).loc main_arg1)) from (carry10 m c main_v35 (by decide)).trans ((carry9 m c main_v35 (by decide)).trans ((carry8 m c main_v35 (by decide)).trans ((carry7 m c main_v35 (by decide)).trans ((carry6 m c main_v35 (by decide)).trans ((carry5 m c main_v35 (by decide)).trans ((carry4 m c main_v35 (by decide)).trans (at3_v35 m c))))))),
    show (stage10 m c) (Proc.devRef .tc main_v147) = Cert.ReferenceIdeal.Read.val_main_v147 (F := Ideal) (m ((c.tc : Thread nD τ).loc main_arg0)) (m ((c.tc : Thread nD τ).loc main_arg1)) (m ((c.tc : Thread nD τ).loc main_arg4)) (m ((c.tc : Thread nD τ).loc main_arg5)) from (carry10 m c main_v147 (by decide)).trans (at9_v147 m c)]
  first | rfl | fail "closing rfl fails at at11_v195"

set_option maxHeartbeats 40000000 in
theorem at12_v199 (c : Dev nD) :
    stage12 m c (Proc.devRef .tc main_v199) = Cert.ReferenceIdeal.Read.val_main_v199 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  show after (piece12 (F := Ideal)) (stage11 m c) (Proc.devRef .tc main_v199) = _
  simp only [piece12]
  after_results_simp
  rw [show (stage11 m c) (Proc.devRef .tc main_v175) = Cert.ReferenceIdeal.Read.val_main_v175 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) from at11_v175 m c,
    show (stage11 m c) (Proc.devRef .tc main_v195) = Cert.ReferenceIdeal.Read.val_main_v195 (F := Ideal) (m ((c.tc : Thread nD τ).loc main_arg0)) (m ((c.tc : Thread nD τ).loc main_arg1)) (m ((c.tc : Thread nD τ).loc main_arg4)) (m ((c.tc : Thread nD τ).loc main_arg5)) from at11_v195 m c,
    show (stage11 m c) (Proc.devRef .tc main_arg6) = m ((c.tc : Thread nD τ).loc main_arg6) from (carry11 m c main_arg6 (by decide)).trans ((carry10 m c main_arg6 (by decide)).trans ((carry9 m c main_arg6 (by decide)).trans ((carry8 m c main_arg6 (by decide)).trans ((carry7 m c main_arg6 (by decide)).trans ((carry6 m c main_arg6 (by decide)).trans ((carry5 m c main_arg6 (by decide)).trans ((carry4 m c main_arg6 (by decide)).trans ((carry3 m c main_arg6 (by decide)).trans ((carry2 m c main_arg6 (by decide)).trans ((carry1 m c main_arg6 (by decide)).trans ((carry0 m c main_arg6 (by decide)).trans (rfl))))))))))))]
  first | rfl | fail "closing rfl fails at at12_v199"

set_option maxHeartbeats 40000000 in
theorem at12_v219 (c : Dev nD) :
    stage12 m c (Proc.devRef .tc main_v219) = Cert.ReferenceIdeal.Read.val_main_v219 (F := Ideal) (m ((c.tc : Thread nD τ).loc main_arg0)) (m ((c.tc : Thread nD τ).loc main_arg1)) (m ((c.tc : Thread nD τ).loc main_arg4)) (m ((c.tc : Thread nD τ).loc main_arg5)) := by
  show after (piece12 (F := Ideal)) (stage11 m c) (Proc.devRef .tc main_v219) = _
  simp only [piece12]
  after_results_simp
  rw [show (stage11 m c) (Proc.devRef .tc main_v3) = Cert.ReferenceIdeal.Read.val_main_v3 (F := Ideal) (m ((c.tc : Thread nD τ).loc main_arg1)) from (carry11 m c main_v3 (by decide)).trans ((carry10 m c main_v3 (by decide)).trans ((carry9 m c main_v3 (by decide)).trans ((carry8 m c main_v3 (by decide)).trans ((carry7 m c main_v3 (by decide)).trans ((carry6 m c main_v3 (by decide)).trans ((carry5 m c main_v3 (by decide)).trans ((carry4 m c main_v3 (by decide)).trans ((carry3 m c main_v3 (by decide)).trans ((carry2 m c main_v3 (by decide)).trans ((carry1 m c main_v3 (by decide)).trans (at0_v3 m c))))))))))),
    show (stage11 m c) (Proc.devRef .tc main_v31) = Cert.ReferenceIdeal.Read.val_main_v31 (F := Ideal) (m ((c.tc : Thread nD τ).loc main_arg1)) from (carry11 m c main_v31 (by decide)).trans ((carry10 m c main_v31 (by decide)).trans ((carry9 m c main_v31 (by decide)).trans ((carry8 m c main_v31 (by decide)).trans ((carry7 m c main_v31 (by decide)).trans ((carry6 m c main_v31 (by decide)).trans ((carry5 m c main_v31 (by decide)).trans ((carry4 m c main_v31 (by decide)).trans ((carry3 m c main_v31 (by decide)).trans ((carry2 m c main_v31 (by decide)).trans (at1_v31 m c)))))))))),
    show (stage11 m c) (Proc.devRef .tc main_v195) = Cert.ReferenceIdeal.Read.val_main_v195 (F := Ideal) (m ((c.tc : Thread nD τ).loc main_arg0)) (m ((c.tc : Thread nD τ).loc main_arg1)) (m ((c.tc : Thread nD τ).loc main_arg4)) (m ((c.tc : Thread nD τ).loc main_arg5)) from at11_v195 m c,
    show (stage11 m c) (Proc.devRef .tc main_v1) = Cert.ReferenceIdeal.Read.val_main_v1 (F := Ideal) (m ((c.tc : Thread nD τ).loc main_arg1)) from (carry11 m c main_v1 (by decide)).trans ((carry10 m c main_v1 (by decide)).trans ((carry9 m c main_v1 (by decide)).trans ((carry8 m c main_v1 (by decide)).trans ((carry7 m c main_v1 (by decide)).trans ((carry6 m c main_v1 (by decide)).trans ((carry5 m c main_v1 (by decide)).trans ((carry4 m c main_v1 (by decide)).trans ((carry3 m c main_v1 (by decide)).trans ((carry2 m c main_v1 (by decide)).trans ((carry1 m c main_v1 (by decide)).trans (at0_v1 m c))))))))))),
    show (stage11 m c) (Proc.devRef .tc main_v35) = Cert.ReferenceIdeal.Read.val_main_v35 (F := Ideal) (m ((c.tc : Thread nD τ).loc main_arg1)) from (carry11 m c main_v35 (by decide)).trans ((carry10 m c main_v35 (by decide)).trans ((carry9 m c main_v35 (by decide)).trans ((carry8 m c main_v35 (by decide)).trans ((carry7 m c main_v35 (by decide)).trans ((carry6 m c main_v35 (by decide)).trans ((carry5 m c main_v35 (by decide)).trans ((carry4 m c main_v35 (by decide)).trans (at3_v35 m c)))))))),
    show (stage11 m c) (Proc.devRef .tc main_v171) = Cert.ReferenceIdeal.Read.val_main_v171 (F := Ideal) (m ((c.tc : Thread nD τ).loc main_arg0)) (m ((c.tc : Thread nD τ).loc main_arg1)) (m ((c.tc : Thread nD τ).loc main_arg4)) (m ((c.tc : Thread nD τ).loc main_arg5)) from (carry11 m c main_v171 (by decide)).trans (at10_v171 m c)]
  first | rfl | fail "closing rfl fails at at12_v219"

set_option maxHeartbeats 40000000 in
theorem at13_v227 (c : Dev nD) :
    stage13 m c (Proc.devRef .tc main_v227) = Cert.ReferenceIdeal.Read.val_main_v227 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  show after (piece13 (F := Ideal)) (stage12 m c) (Proc.devRef .tc main_v227) = _
  simp only [piece13]
  after_results_simp
  rw [toBuf_v227, ofBuf_v226, ofBuf_call3_v0, toBuf_call3_v0, ofBuf_call3_cst, toBuf_call3_cst]
  rw [show (stage12 m c) (Proc.devRef .tc main_v199) = Cert.ReferenceIdeal.Read.val_main_v199 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) from at12_v199 m c,
    show (stage12 m c) (Proc.devRef .tc main_v219) = Cert.ReferenceIdeal.Read.val_main_v219 (F := Ideal) (m ((c.tc : Thread nD τ).loc main_arg0)) (m ((c.tc : Thread nD τ).loc main_arg1)) (m ((c.tc : Thread nD τ).loc main_arg4)) (m ((c.tc : Thread nD τ).loc main_arg5)) from at12_v219 m c,
    show (stage12 m c) (Proc.devRef .tc main_arg6) = m ((c.tc : Thread nD τ).loc main_arg6) from (carry12 m c main_arg6 (by decide)).trans ((carry11 m c main_arg6 (by decide)).trans ((carry10 m c main_arg6 (by decide)).trans ((carry9 m c main_arg6 (by decide)).trans ((carry8 m c main_arg6 (by decide)).trans ((carry7 m c main_arg6 (by decide)).trans ((carry6 m c main_arg6 (by decide)).trans ((carry5 m c main_arg6 (by decide)).trans ((carry4 m c main_arg6 (by decide)).trans ((carry3 m c main_arg6 (by decide)).trans ((carry2 m c main_arg6 (by decide)).trans ((carry1 m c main_arg6 (by decide)).trans ((carry0 m c main_arg6 (by decide)).trans (rfl))))))))))))),
    show (stage12 m c) (Proc.devRef .tc main_arg7) = m ((c.tc : Thread nD τ).loc main_arg7) from (carry12 m c main_arg7 (by decide)).trans ((carry11 m c main_arg7 (by decide)).trans ((carry10 m c main_arg7 (by decide)).trans ((carry9 m c main_arg7 (by decide)).trans ((carry8 m c main_arg7 (by decide)).trans ((carry7 m c main_arg7 (by decide)).trans ((carry6 m c main_arg7 (by decide)).trans ((carry5 m c main_arg7 (by decide)).trans ((carry4 m c main_arg7 (by decide)).trans ((carry3 m c main_arg7 (by decide)).trans ((carry2 m c main_arg7 (by decide)).trans ((carry1 m c main_arg7 (by decide)).trans ((carry0 m c main_arg7 (by decide)).trans (rfl)))))))))))))]
  first | rfl | fail "closing rfl fails at at13_v227"

set_option maxHeartbeats 40000000 in
theorem at14_v233 (c : Dev nD) :
    stage14 m c (Proc.devRef .tc main_v233) = Cert.ReferenceIdeal.Read.val_main_v233 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show after (piece14 (F := Ideal)) (stage13 m c) (Proc.devRef .tc main_v233) = _
  simp only [piece14]
  after_results_simp
  rw [toBuf_v233, ofBuf_v232, ofBuf_call4_v0, toBuf_call4_v0, ofBuf_call4_cst, toBuf_call4_cst]
  rw [show (stage13 m c) (Proc.devRef .tc main_v227) = Cert.ReferenceIdeal.Read.val_main_v227 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) from at13_v227 m c,
    show (stage13 m c) (Proc.devRef .tc main_arg8) = m ((c.tc : Thread nD τ).loc main_arg8) from (carry13 m c main_arg8 (by decide)).trans ((carry12 m c main_arg8 (by decide)).trans ((carry11 m c main_arg8 (by decide)).trans ((carry10 m c main_arg8 (by decide)).trans ((carry9 m c main_arg8 (by decide)).trans ((carry8 m c main_arg8 (by decide)).trans ((carry7 m c main_arg8 (by decide)).trans ((carry6 m c main_arg8 (by decide)).trans ((carry5 m c main_arg8 (by decide)).trans ((carry4 m c main_arg8 (by decide)).trans ((carry3 m c main_arg8 (by decide)).trans ((carry2 m c main_arg8 (by decide)).trans ((carry1 m c main_arg8 (by decide)).trans ((carry0 m c main_arg8 (by decide)).trans (rfl)))))))))))))),
    show (stage13 m c) (Proc.devRef .tc main_arg9) = m ((c.tc : Thread nD τ).loc main_arg9) from (carry13 m c main_arg9 (by decide)).trans ((carry12 m c main_arg9 (by decide)).trans ((carry11 m c main_arg9 (by decide)).trans ((carry10 m c main_arg9 (by decide)).trans ((carry9 m c main_arg9 (by decide)).trans ((carry8 m c main_arg9 (by decide)).trans ((carry7 m c main_arg9 (by decide)).trans ((carry6 m c main_arg9 (by decide)).trans ((carry5 m c main_arg9 (by decide)).trans ((carry4 m c main_arg9 (by decide)).trans ((carry3 m c main_arg9 (by decide)).trans ((carry2 m c main_arg9 (by decide)).trans ((carry1 m c main_arg9 (by decide)).trans ((carry0 m c main_arg9 (by decide)).trans (rfl))))))))))))))]
  first | rfl | fail "closing rfl fails at at14_v233"

set_option maxHeartbeats 40000000 in
theorem at15_v237 (c : Dev nD) :
    stage15 m c (Proc.devRef .tc main_v237) = Cert.ReferenceIdeal.Read.val_main_v237 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show after (piece15 (F := Ideal)) (stage14 m c) (Proc.devRef .tc main_v237) = _
  simp only [piece15]
  after_results_simp
  rw [show (stage14 m c) (Proc.devRef .tc main_v233) = Cert.ReferenceIdeal.Read.val_main_v233 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) from at14_v233 m c,
    show (stage14 m c) (Proc.devRef .tc main_arg10) = m ((c.tc : Thread nD τ).loc main_arg10) from (carry14 m c main_arg10 (by decide)).trans ((carry13 m c main_arg10 (by decide)).trans ((carry12 m c main_arg10 (by decide)).trans ((carry11 m c main_arg10 (by decide)).trans ((carry10 m c main_arg10 (by decide)).trans ((carry9 m c main_arg10 (by decide)).trans ((carry8 m c main_arg10 (by decide)).trans ((carry7 m c main_arg10 (by decide)).trans ((carry6 m c main_arg10 (by decide)).trans ((carry5 m c main_arg10 (by decide)).trans ((carry4 m c main_arg10 (by decide)).trans ((carry3 m c main_arg10 (by decide)).trans ((carry2 m c main_arg10 (by decide)).trans ((carry1 m c main_arg10 (by decide)).trans ((carry0 m c main_arg10 (by decide)).trans (rfl))))))))))))))),
    show (stage14 m c) (Proc.devRef .tc main_arg11) = m ((c.tc : Thread nD τ).loc main_arg11) from (carry14 m c main_arg11 (by decide)).trans ((carry13 m c main_arg11 (by decide)).trans ((carry12 m c main_arg11 (by decide)).trans ((carry11 m c main_arg11 (by decide)).trans ((carry10 m c main_arg11 (by decide)).trans ((carry9 m c main_arg11 (by decide)).trans ((carry8 m c main_arg11 (by decide)).trans ((carry7 m c main_arg11 (by decide)).trans ((carry6 m c main_arg11 (by decide)).trans ((carry5 m c main_arg11 (by decide)).trans ((carry4 m c main_arg11 (by decide)).trans ((carry3 m c main_arg11 (by decide)).trans ((carry2 m c main_arg11 (by decide)).trans ((carry1 m c main_arg11 (by decide)).trans ((carry0 m c main_arg11 (by decide)).trans (rfl)))))))))))))))]
  first | rfl | fail "closing rfl fails at at15_v237"

/-! ## The result -/

/-- THE RESULT BUFFER after the program's operations is the reference's last stage of the launch contents of its arguments. -/
theorem result_val (c : Dev nD) :
    after (ops (F := Ideal)) (launchContents m c) (Proc.devRef .tc main_v237)
      = Cert.ReferenceIdeal.Read.val_main_v237 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_ops]
  exact at15_v237 m c

end Cert.ReferenceIdeal.Hand

end
-- ==== Proof.Ref.RunV.lean ====
/-
  The reference's run, read: it terminates with its result array at the stage `val_main_v237` of its arguments, and its
  arguments unchanged.
-/
import proofs.«121312_j57732950393207_1_alg».proof.Proof.Ref.RunH
import proofs.«121312_j57732950393207_1_alg».proof.Proof.Ref.ResultVal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v237)
        = Cert.ReferenceIdeal.Read.val_main_v237 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v237).trans (result_val m c),
      (h c main_arg0).trans (kept m c main_arg0 (by decide)),
      (h c main_arg1).trans (kept m c main_arg1 (by decide)),
      (h c main_arg2).trans (kept m c main_arg2 (by decide)),
      (h c main_arg3).trans (kept m c main_arg3 (by decide)),
      (h c main_arg4).trans (kept m c main_arg4 (by decide)),
      (h c main_arg5).trans (kept m c main_arg5 (by decide)),
      (h c main_arg6).trans (kept m c main_arg6 (by decide)),
      (h c main_arg7).trans (kept m c main_arg7 (by decide)),
      (h c main_arg8).trans (kept m c main_arg8 (by decide)),
      (h c main_arg9).trans (kept m c main_arg9 (by decide)),
      (h c main_arg10).trans (kept m c main_arg10 (by decide)),
      (h c main_arg11).trans (kept m c main_arg11 (by decide))⟩)
    (run_after m ρ)

end Cert.ReferenceIdeal.Hand

end
-- ==== Proof.K.Run.lean ====
/-
  The run of the whole program, from the launch to the return, as ten segments: five stretches of host operations
  (the graph normalisation: degrees by a scatter-add, their inverse square roots, the edge weights, and the Chebyshev
  recurrence's five terms), the first combining kernel, one stretch (the second layer's five terms), the second combining
  kernel, a reshape, and the dense head. Between two segments a core holds every unscoped buffer whole at known contents:
  the launch memory folded through the host operations, and at a kernel's exit its arrays at what the pipeline's
  write-backs leave. Everything is parametric in the three kernels' proof data (one family per kernel over the contents the
  kernel is entered from), of which only the facts bundled as `Half0`, `Half1`, `Half2` are used; and generic in the
  float instance, so the same text gives the word-level program's frame and the idealized program's run.
-/
import proofs.«121312_j57732950393207_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core. -/
abbrev Entry : Type := (c : Dev nD) → (b : Ref sig .tc) → Buf (Elt F) ((c : Thread nD τ).loc b)

/-- No kernel of this program has a prefetched table. -/
abbrev adm : (p : Fin 3) → (pcfgs (F := F) p).Adm := fun p => (cfgs p).toPCfg_adm

/-- What the run needs of region 0's proof data, given as a family over the contents `V` the region is entered
    from: its arrays are `V`'s, every window is held at the full share, the body owes nothing, the body obligation
    holds at every point, and the invariant is made from (and gives back) the generator register and the scoped
    buffers no window stages. -/
structure Half0 (D : Entry (F := F) → (c : Dev nD) → Dat τ (Elt F) Unit ℕ (UR sig nD τ) ℕ cfg0 c) : Prop where
  A_eq : ∀ V c (w : Fin cfg0.W), (D V c).A w = V c (Pipeline.arrRef spec0 w)
  q_eq : ∀ V c (w : Fin cfg0.W), (D V c).q w = fullShare
  owed_eq : ∀ V c t, (D V c).owed t = 0
  recorded_eq : ∀ V c t, (D V c).recorded t = Set.univ
  body : ∀ V c, BodyObligation (D V c) (defs₀ (F := F)) Variants.none () Set.univ
  hin : ∀ V c, (iprop((∃ r, prngReg c r) ∗ Pipeline.prefHeld (pcfgs (F := F) 0).pre c (fun _ => fullShare) (adm (F := F) 0).1 ∗ Pipeline.scopedRest spec0 c) : sProp 𝕄) ⊢ (D V c).Φ 0
  hout : ∀ V c, (D V c).Φ (Fin.last cfg0.N) ⊢ (iprop((∃ r, prngReg c r) ∗ Pipeline.ownSems0 (fun k : PEmpty => k.elim) c ∗ Pipeline.scopedRest spec0 c) : sProp 𝕄)

/-- What the run needs of region 1's proof data, given as a family over the contents `V` the region is entered
    from: its arrays are `V`'s, every window is held at the full share, the body owes nothing, the body obligation
    holds at every point, and the invariant is made from (and gives back) the generator register and the scoped
    buffers no window stages. -/
structure Half1 (D : Entry (F := F) → (c : Dev nD) → Dat τ (Elt F) Unit ℕ (UR sig nD τ) ℕ cfg1 c) : Prop where
  A_eq : ∀ V c (w : Fin cfg1.W), (D V c).A w = V c (Pipeline.arrRef spec1 w)
  q_eq : ∀ V c (w : Fin cfg1.W), (D V c).q w = fullShare
  owed_eq : ∀ V c t, (D V c).owed t = 0
  recorded_eq : ∀ V c t, (D V c).recorded t = Set.univ
  body : ∀ V c, BodyObligation (D V c) (defs₀ (F := F)) Variants.none () Set.univ
  hin : ∀ V c, (iprop((∃ r, prngReg c r) ∗ Pipeline.prefHeld (pcfgs (F := F) 1).pre c (fun _ => fullShare) (adm (F := F) 1).1 ∗ Pipeline.scopedRest spec1 c) : sProp 𝕄) ⊢ (D V c).Φ 0
  hout : ∀ V c, (D V c).Φ (Fin.last cfg1.N) ⊢ (iprop((∃ r, prngReg c r) ∗ Pipeline.ownSems0 (fun k : PEmpty => k.elim) c ∗ Pipeline.scopedRest spec1 c) : sProp 𝕄)

/-- What the run needs of region 2's proof data, given as a family over the contents `V` the region is entered
    from: its arrays are `V`'s, every window is held at the full share, the body owes nothing, the body obligation
    holds at every point, and the invariant is made from (and gives back) the generator register and the scoped
    buffers no window stages. -/
structure Half2 (D : Entry (F := F) → (c : Dev nD) → Dat τ (Elt F) Unit ℕ (UR sig nD τ) ℕ cfg2 c) : Prop where
  A_eq : ∀ V c (w : Fin cfg2.W), (D V c).A w = V c (Pipeline.arrRef spec2 w)
  q_eq : ∀ V c (w : Fin cfg2.W), (D V c).q w = fullShare
  owed_eq : ∀ V c t, (D V c).owed t = 0
  recorded_eq : ∀ V c t, (D V c).recorded t = Set.univ
  body : ∀ V c, BodyObligation (D V c) (defs₀ (F := F)) Variants.none () Set.univ
  hin : ∀ V c, (iprop((∃ r, prngReg c r) ∗ Pipeline.prefHeld (pcfgs (F := F) 2).pre c (fun _ => fullShare) (adm (F := F) 2).1 ∗ Pipeline.scopedRest spec2 c) : sProp 𝕄) ⊢ (D V c).Φ 0
  hout : ∀ V c, (D V c).Φ (Fin.last cfg2.N) ⊢ (iprop((∃ r, prngReg c r) ∗ Pipeline.ownSems0 (fun k : PEmpty => k.elim) c ∗ Pipeline.scopedRest spec2 c) : sProp 𝕄)

section Run

variable (D0 : Entry (F := F) → (c : Dev nD) → Dat τ (Elt F) Unit ℕ (UR sig nD τ) ℕ cfg0 c)
variable (D1 : Entry (F := F) → (c : Dev nD) → Dat τ (Elt F) Unit ℕ (UR sig nD τ) ℕ cfg1 c)
variable (D2 : Entry (F := F) → (c : Dev nD) → Dat τ (Elt F) Unit ℕ (UR sig nD τ) ℕ cfg2 c)
variable (h0 : Half0 D0) (h1 : Half1 D1) (h2 : Half2 D2)
variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
/-- After the host stretch `hostOps0_1`. -/
abbrev W2 : Dev nD → Valuation τ sig (Elt F) := fun c => StableHlo.after hostOps0_1 (W1 m ρ c)
/-- After the host stretch `hostOps0_2`. -/
abbrev W3 : Dev nD → Valuation τ sig (Elt F) := fun c => StableHlo.after hostOps0_2 (W2 m ρ c)
/-- After the host stretch `hostOps0_3`. -/
abbrev W4 : Dev nD → Valuation τ sig (Elt F) := fun c => StableHlo.after hostOps0_3 (W3 m ρ c)
/-- After the host stretch `hostOps0_4`. -/
abbrev W5 : Dev nD → Valuation τ sig (Elt F) := fun c => StableHlo.after hostOps0_4 (W4 m ρ c)
/-- The same read at the TensorCore's references (what the next region's proof data take). -/
abbrev V5 : Entry (F := F) := fun c b => W5 m ρ c b
/-- At region 0's exit: its arrays at what the pipeline leaves (an input as entered, the output's write-backs folded),
    every other buffer as entered. -/
def W6 (c : Dev nD) : Valuation τ sig (Elt F) :=
  Pipeline.withArrays spec0 c (W5 m ρ c) fun w => (D0 (V5 m ρ) c).arrAt w cfg0.N
theorem W6_arr (c : Dev nD) (w : Fin cfg0.W) :
    W6 D0 m ρ c (Proc.devRef .tc (Pipeline.arrRef spec0 w)) = (D0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 D0 m ρ c (Proc.devRef .tc b) = W5 m ρ c (Proc.devRef .tc b) := by
  unfold W6; exact Pipeline.withArrays_of_ne spec0 c _ _ b hb
/-- The same read at the TensorCore's references. -/
abbrev V6 : Entry (F := F) := fun c b => W6 D0 m ρ c b
theorem hF0 (c : Dev nD) (w : Fin cfg0.W) : (D0 (V5 m ρ) c).arrAt w cfg0.N = V6 D0 m ρ c (Pipeline.arrRef spec0 w) :=
  (W6_arr D0 m ρ c w).symm
theorem hrest0 (c : Dev nD) : ∀ b, b ∉ Finset.univ.image (Pipeline.arrRef spec0) → V6 D0 m ρ c b = V5 m ρ c b :=
  fun b hb => W6_of_ne D0 m ρ c b fun w e => hb (Finset.mem_image.mpr ⟨w, Finset.mem_univ _, e⟩)

/-- After the host stretch `hostOps1`. -/
abbrev W7 : Dev nD → Valuation τ sig (Elt F) := fun c => StableHlo.after hostOps1 (W6 D0 m ρ c)
/-- The same read at the TensorCore's references (what the next region's proof data take). -/
abbrev V7 : Entry (F := F) := fun c b => W7 D0 m ρ c b
/-- At region 1's exit: its arrays at what the pipeline leaves (an input as entered, the output's write-backs folded),
    every other buffer as entered. -/
def W8 (c : Dev nD) : Valuation τ sig (Elt F) :=
  Pipeline.withArrays spec1 c (W7 D0 m ρ c) fun w => (D1 (V7 D0 m ρ) c).arrAt w cfg1.N
theorem W8_arr (c : Dev nD) (w : Fin cfg1.W) :
    W8 D0 D1 m ρ c (Proc.devRef .tc (Pipeline.arrRef spec1 w)) = (D1 (V7 D0 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 D0 D1 m ρ c (Proc.devRef .tc b) = W7 D0 m ρ c (Proc.devRef .tc b) := by
  unfold W8; exact Pipeline.withArrays_of_ne spec1 c _ _ b hb
/-- The same read at the TensorCore's references. -/
abbrev V8 : Entry (F := F) := fun c b => W8 D0 D1 m ρ c b
theorem hF1 (c : Dev nD) (w : Fin cfg1.W) : (D1 (V7 D0 m ρ) c).arrAt w cfg1.N = V8 D0 D1 m ρ c (Pipeline.arrRef spec1 w) :=
  (W8_arr D0 D1 m ρ c w).symm
theorem hrest1 (c : Dev nD) : ∀ b, b ∉ Finset.univ.image (Pipeline.arrRef spec1) → V8 D0 D1 m ρ c b = V7 D0 m ρ c b :=
  fun b hb => W8_of_ne D0 D1 m ρ c b fun w e => hb (Finset.mem_image.mpr ⟨w, Finset.mem_univ _, e⟩)

/-- After the host stretch `hostOps2`. -/
abbrev W9 : Dev nD → Valuation τ sig (Elt F) := fun c => StableHlo.after hostOps2 (W8 D0 D1 m ρ c)
/-- The same read at the TensorCore's references (what the next region's proof data take). -/
abbrev V9 : Entry (F := F) := fun c b => W9 D0 D1 m ρ c b
/-- At region 2's exit: its arrays at what the pipeline leaves (an input as entered, the output's write-backs folded),
    every other buffer as entered. -/
def W10 (c : Dev nD) : Valuation τ sig (Elt F) :=
  Pipeline.withArrays spec2 c (W9 D0 D1 m ρ c) fun w => (D2 (V9 D0 D1 m ρ) c).arrAt w cfg2.N
theorem W10_arr (c : Dev nD) (w : Fin cfg2.W) :
    W10 D0 D1 D2 m ρ c (Proc.devRef .tc (Pipeline.arrRef spec2 w)) = (D2 (V9 D0 D1 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 D0 D1 D2 m ρ c (Proc.devRef .tc b) = W9 D0 D1 m ρ c (Proc.devRef .tc b) := by
  unfold W10; exact Pipeline.withArrays_of_ne spec2 c _ _ b hb
/-- The same read at the TensorCore's references. -/
abbrev V10 : Entry (F := F) := fun c b => W10 D0 D1 D2 m ρ c b
theorem hF2 (c : Dev nD) (w : Fin cfg2.W) : (D2 (V9 D0 D1 m ρ) c).arrAt w cfg2.N = V10 D0 D1 D2 m ρ c (Pipeline.arrRef spec2 w) :=
  (W10_arr D0 D1 D2 m ρ c w).symm
theorem hrest2 (c : Dev nD) : ∀ b, b ∉ Finset.univ.image (Pipeline.arrRef spec2) → V10 D0 D1 D2 m ρ c b = V9 D0 D1 m ρ c b :=
  fun b hb => W10_of_ne D0 D1 D2 m ρ c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_v5, main_cst, main_v6, main_v7, main_v8, main_cst_0, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

theorem hostOps0_1_fresh : (hostOps0_1 : List (HloOp τ sig (Elt F))).Forall fun op => op.fresh = ∅ := by
  simp only [List.Forall]; repeat' constructor
/-- The references `hostOps0_1`'s operations write. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

theorem hostOps0_2_fresh : (hostOps0_2 : List (HloOp τ sig (Elt F))).Forall fun op => op.fresh = ∅ := by
  simp only [List.Forall]; repeat' constructor
/-- The references `hostOps0_2`'s operations write. -/
abbrev hostOps0_2_W : List (Ref sig .tc) := [main_c, main_v15, main_v16, main_c_3, main_v17, main_v18, main_v19, main_v20, main_v21, main_v22, main_v23, main_c_4, main_v24, main_v25, main_c_5, main_v26, main_v27, main_v28, main_v29, main_v30, main_v31, main_cst_6, main_v32, main_v33, main_cst_7, main_cst_8]
theorem hostOps0_2_writes : (hostOps0_2 : List (HloOp τ sig (Elt F))).Forall fun op => op.writes ⊆ (hostOps0_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

theorem hostOps0_3_fresh : (hostOps0_3 : List (HloOp τ sig (Elt F))).Forall fun op => op.fresh = ∅ := by
  simp only [List.Forall]; repeat' constructor
/-- The references `hostOps0_3`'s operations write. -/
abbrev hostOps0_3_W : List (Ref sig .tc) := [main_call1_v0, main_call1_v1, main_v34]
theorem hostOps0_3_writes : (hostOps0_3 : List (HloOp τ sig (Elt F))).Forall fun op => op.writes ⊆ (hostOps0_3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

theorem hostOps0_4_fresh : (hostOps0_4 : List (HloOp τ sig (Elt F))).Forall fun op => op.fresh = ∅ := by
  simp only [List.Forall]; repeat' constructor
/-- The references `hostOps0_4`'s operations write. -/
abbrev hostOps0_4_W : List (Ref sig .tc) := [main_v35, main_v36, main_c_9, main_v37, main_v38, main_c_10, main_v39, main_v40, main_v41, main_v42, main_v43, main_v44, main_cst_11, main_v45, main_v46, main_v47, main_v48, main_v49, main_v50, main_v51, main_c_12, main_v52, main_v53, main_c_13, main_v54, main_v55, main_v56, main_v57, main_v58, main_v59, main_cst_14, main_v60, main_v61, main_v62, main_v63, main_v64, main_v65, main_cst_15, main_v66, main_v67, main_v68, main_v69, main_c_16, main_v70, main_v71, main_c_17, main_v72, main_v73, main_v74, main_v75, main_v76, main_v77, main_cst_18, main_v78, main_v79, main_v80, main_v81, main_v82, main_v83, main_cst_19, main_v84, main_v85, main_v86, main_v87, main_c_20, main_v88, main_v89, main_c_21, main_v90, main_v91, main_v92, main_v93, main_v94, main_v95, main_cst_22, main_v96, main_v97, main_v98, main_v99, main_v100, main_v101, main_cst_23, main_v102, main_v103, main_v104]
theorem hostOps0_4_writes : (hostOps0_4 : List (HloOp τ sig (Elt F))).Forall fun op => op.writes ⊆ (hostOps0_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v106, main_c_24, main_v107, main_v108, main_c_25, main_v109, main_v110, main_v111, main_v112, main_v113, main_v114, main_v115, main_cst_26, main_v116, main_v117, main_v118, main_v119, main_v120, main_v121, main_v122, main_v123, main_c_27, main_v124, main_v125, main_c_28, main_v126, main_v127, main_v128, main_v129, main_v130, main_v131, main_v132, main_cst_29, main_v133, main_v134, main_v135, main_v136, main_v137, main_v138, main_v139, main_cst_30, main_v140, main_v141, main_v142, main_v143, main_c_31, main_v144, main_v145, main_c_32, main_v146, main_v147, main_v148, main_v149, main_v150, main_v151, main_v152, main_cst_33, main_v153, main_v154, main_v155, main_v156, main_v157, main_v158, main_v159, main_cst_34, main_v160, main_v161, main_v162, main_v163, main_c_35, main_v164, main_v165, main_c_36, main_v166, main_v167, main_v168, main_v169, main_v170, main_v171, main_v172, main_cst_37, main_v173, main_v174, main_v175, main_v176, main_v177, main_v178, main_v179, main_cst_38, main_v180, main_v181, main_v182]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v184]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

/-! ## A buffer no segment writes keeps its launch contents -/

include h0 in
/-- Region 0 changes only its output window's array: an input window's array is never written back, and a buffer
    that is no window's array bypasses the region. -/
theorem W6_kept (c : Dev nD) (r : Ref sig .tc) (hr : r ≠ main_v105) :
    W6 D0 m ρ c (Proc.devRef .tc r) = W5 m ρ c (Proc.devRef .tc r) := by
  by_cases h : ∃ w, Pipeline.arrRef spec0 w = r
  · obtain ⟨w, rfl⟩ := h
    have key : ∀ w : Fin cfg0.W, Pipeline.arrRef spec0 w ≠ main_v105 → (cfg0.win w).isOut = false := by decide
    rw [W6_arr]
    exact ((D0 (V5 m ρ) c).arrAt_in w (key w hr) _).trans (h0.A_eq _ c w)
  · exact W6_of_ne D0 m ρ c r fun w e => h ⟨w, e⟩

include h1 in
/-- Region 1 changes only its output window's array: an input window's array is never written back, and a buffer
    that is no window's array bypasses the region. -/
theorem W8_kept (c : Dev nD) (r : Ref sig .tc) (hr : r ≠ main_v183) :
    W8 D0 D1 m ρ c (Proc.devRef .tc r) = W7 D0 m ρ c (Proc.devRef .tc r) := by
  by_cases h : ∃ w, Pipeline.arrRef spec1 w = r
  · obtain ⟨w, rfl⟩ := h
    have key : ∀ w : Fin cfg1.W, Pipeline.arrRef spec1 w ≠ main_v183 → (cfg1.win w).isOut = false := by decide
    rw [W8_arr]
    exact ((D1 (V7 D0 m ρ) c).arrAt_in w (key w hr) _).trans (h1.A_eq _ c w)
  · exact W8_of_ne D0 D1 m ρ c r fun w e => h ⟨w, e⟩

include h2 in
/-- Region 2 changes only its output window's array: an input window's array is never written back, and a buffer
    that is no window's array bypasses the region. -/
theorem W10_kept (c : Dev nD) (r : Ref sig .tc) (hr : r ≠ main_v185) :
    W10 D0 D1 D2 m ρ c (Proc.devRef .tc r) = W9 D0 D1 m ρ c (Proc.devRef .tc r) := by
  by_cases h : ∃ w, Pipeline.arrRef spec2 w = r
  · obtain ⟨w, rfl⟩ := h
    have key : ∀ w : Fin cfg2.W, Pipeline.arrRef spec2 w ≠ main_v185 → (cfg2.win w).isOut = false := by decide
    rw [W10_arr]
    exact ((D2 (V9 D0 D1 m ρ) c).arrAt_in w (key w hr) _).trans (h2.A_eq _ c w)
  · exact W10_of_ne D0 D1 D2 m ρ c r fun w e => h ⟨w, e⟩

include h0 h1 h2 in
/-- A reference that no host stretch writes and that is no kernel's output array holds its launch contents at the end. -/
theorem kept (c : Dev nD) (r : Ref sig .tc)
    (hr0 : r ∉ hostOps0_W) (hr1 : r ∉ hostOps0_1_W) (hr2 : r ∉ hostOps0_2_W) (hr3 : r ∉ hostOps0_3_W) (hr4 : r ∉ hostOps0_4_W)
    (hr5 : r ∉ hostOps1_W) (hr6 : r ∉ hostOps2_W) (ho0 : r ≠ main_v105) (ho1 : r ≠ main_v183) (ho2 : r ≠ main_v185) :
    W10 D0 D1 D2 m ρ c (Proc.devRef .tc r) = m ((c : Thread nD τ).loc r) :=
  (W10_kept D0 D1 D2 h2 m ρ c r ho2).trans <|
  (StableHlo.after_of_writes_sub hostOps2 _ hostOps2_writes hr6).trans <|
  (W8_kept D0 D1 h1 m ρ c r ho1).trans <|
  (StableHlo.after_of_writes_sub hostOps1 _ hostOps1_writes hr5).trans <|
  (W6_kept D0 h0 m ρ c r ho0).trans <|
  (StableHlo.after_of_writes_sub hostOps0_4 _ hostOps0_4_writes hr4).trans <|
  (StableHlo.after_of_writes_sub hostOps0_3 _ hostOps0_3_writes hr3).trans <|
  (StableHlo.after_of_writes_sub hostOps0_2 _ hostOps0_2_writes hr2).trans <|
  (StableHlo.after_of_writes_sub hostOps0_1 _ hostOps0_1_writes hr1).trans <|
  (StableHlo.after_of_writes_sub hostOps0 _ hostOps0_writes hr0).trans rfl

include h0 h1 h2 in
/-- Argument 0 ends as launched. -/
theorem W10_main_arg0 (c : Dev nD) : W10 D0 D1 D2 m ρ c (Proc.devRef .tc main_arg0) = m ((c : Thread nD τ).loc main_arg0) :=
  kept D0 D1 D2 h0 h1 h2 m ρ c main_arg0 (by decide) (by decide) (by decide) (by decide) (by decide) (by decide) (by decide) (by decide) (by decide) (by decide)

include h0 h1 h2 in
/-- Argument 1 ends as launched. -/
theorem W10_main_arg1 (c : Dev nD) : W10 D0 D1 D2 m ρ c (Proc.devRef .tc main_arg1) = m ((c : Thread nD τ).loc main_arg1) :=
  kept D0 D1 D2 h0 h1 h2 m ρ c main_arg1 (by decide) (by decide) (by decide) (by decide) (by decide) (by decide) (by decide) (by decide) (by decide) (by decide)

include h0 h1 h2 in
/-- Argument 2 ends as launched. -/
theorem W10_main_arg2 (c : Dev nD) : W10 D0 D1 D2 m ρ c (Proc.devRef .tc main_arg2) = m ((c : Thread nD τ).loc main_arg2) :=
  kept D0 D1 D2 h0 h1 h2 m ρ c main_arg2 (by decide) (by decide) (by decide) (by decide) (by decide) (by decide) (by decide) (by decide) (by decide) (by decide)

include h0 h1 h2 in
/-- Argument 3 ends as launched. -/
theorem W10_main_arg3 (c : Dev nD) : W10 D0 D1 D2 m ρ c (Proc.devRef .tc main_arg3) = m ((c : Thread nD τ).loc main_arg3) :=
  kept D0 D1 D2 h0 h1 h2 m ρ c main_arg3 (by decide) (by decide) (by decide) (by decide) (by decide) (by decide) (by decide) (by decide) (by decide) (by decide)

include h0 h1 h2 in
/-- Argument 4 ends as launched. -/
theorem W10_main_arg4 (c : Dev nD) : W10 D0 D1 D2 m ρ c (Proc.devRef .tc main_arg4) = m ((c : Thread nD τ).loc main_arg4) :=
  kept D0 D1 D2 h0 h1 h2 m ρ c main_arg4 (by decide) (by decide) (by decide) (by decide) (by decide) (by decide) (by decide) (by decide) (by decide) (by decide)

include h0 h1 h2 in
/-- Argument 5 ends as launched. -/
theorem W10_main_arg5 (c : Dev nD) : W10 D0 D1 D2 m ρ c (Proc.devRef .tc main_arg5) = m ((c : Thread nD τ).loc main_arg5) :=
  kept D0 D1 D2 h0 h1 h2 m ρ c main_arg5 (by decide) (by decide) (by decide) (by decide) (by decide) (by decide) (by decide) (by decide) (by decide) (by decide)

include h0 h1 h2 in
/-- Argument 6 ends as launched. -/
theorem W10_main_arg6 (c : Dev nD) : W10 D0 D1 D2 m ρ c (Proc.devRef .tc main_arg6) = m ((c : Thread nD τ).loc main_arg6) :=
  kept D0 D1 D2 h0 h1 h2 m ρ c main_arg6 (by decide) (by decide) (by decide) (by decide) (by decide) (by decide) (by decide) (by decide) (by decide) (by decide)

include h0 h1 h2 in
/-- Argument 7 ends as launched. -/
theorem W10_main_arg7 (c : Dev nD) : W10 D0 D1 D2 m ρ c (Proc.devRef .tc main_arg7) = m ((c : Thread nD τ).loc main_arg7) :=
  kept D0 D1 D2 h0 h1 h2 m ρ c main_arg7 (by decide) (by decide) (by decide) (by decide) (by decide) (by decide) (by decide) (by decide) (by decide) (by decide)

include h0 h1 h2 in
/-- Argument 8 ends as launched. -/
theorem W10_main_arg8 (c : Dev nD) : W10 D0 D1 D2 m ρ c (Proc.devRef .tc main_arg8) = m ((c : Thread nD τ).loc main_arg8) :=
  kept D0 D1 D2 h0 h1 h2 m ρ c main_arg8 (by decide) (by decide) (by decide) (by decide) (by decide) (by decide) (by decide) (by decide) (by decide) (by decide)

include h0 h1 h2 in
/-- Argument 9 ends as launched. -/
theorem W10_main_arg9 (c : Dev nD) : W10 D0 D1 D2 m ρ c (Proc.devRef .tc main_arg9) = m ((c : Thread nD τ).loc main_arg9) :=
  kept D0 D1 D2 h0 h1 h2 m ρ c main_arg9 (by decide) (by decide) (by decide) (by decide) (by decide) (by decide) (by decide) (by decide) (by decide) (by decide)

include h0 h1 h2 in
/-- Argument 10 ends as launched. -/
theorem W10_main_arg10 (c : Dev nD) : W10 D0 D1 D2 m ρ c (Proc.devRef .tc main_arg10) = m ((c : Thread nD τ).loc main_arg10) :=
  kept D0 D1 D2 h0 h1 h2 m ρ c main_arg10 (by decide) (by decide) (by decide) (by decide) (by decide) (by decide) (by decide) (by decide) (by decide) (by decide)

include h0 h1 h2 in
/-- Argument 11 ends as launched. -/
theorem W10_main_arg11 (c : Dev nD) : W10 D0 D1 D2 m ρ c (Proc.devRef .tc main_arg11) = m ((c : Thread nD τ).loc main_arg11) :=
  kept D0 D1 D2 h0 h1 h2 m ρ c main_arg11 (by decide) (by decide) (by decide) (by decide) (by decide) (by decide) (by decide) (by decide) (by decide) (by decide)

/-- The result array is what the last kernel's write-backs leave in its output window's array. -/
theorem W10_result (c : Dev nD) :
    W10 D0 D1 D2 m ρ c (Proc.devRef .tc main_v185) = (D2 (V9 D0 D1 m ρ) c).arrAt 5 cfg2.N :=
  W10_arr D0 D1 D2 m ρ c 5

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => D0 (V5 m ρ) c
  | ⟨1, _⟩ => fun c => D1 (V7 D0 m ρ) c
  | ⟨2, _⟩ => fun c => D2 (V9 D0 D1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W10 D0 D1 D2 m ρ c) ∗ ∃ r, prngReg c r)

/-! ## The regions as segments -/

include h0 in
/-- Region 0's body owes nothing at any point, and records every cell. -/
theorem pd_owed0 (c : Dev nD) (t) : (pdats D0 D1 D2 m ρ 0 c).owed t = 0 := h0.owed_eq (V5 m ρ) c t
include h0 in
theorem pd_rec0 (c : Dev nD) (t) : (pdats D0 D1 D2 m ρ 0 c).recorded t = Set.univ := h0.recorded_eq (V5 m ρ) c t

set_option backward.isDefEq.respectTransparency.types false in
/-- Region 0 as a segment: entered from every unscoped buffer at `W5`, left at `W6`. Its arrays are split out of
    the unscoped buffers and put back at the exit contents; the generator register goes into the region's invariant and
    comes back; nothing is owed; the kernel has no semaphore of its own. -/
def reg0 : Pipeline.RegionSeg (pcfgs (F := F)) adm (pdats D0 D1 D2 m ρ) () defs₀ 𝒱₀ L lv 0 where
  win := launch0.win.to₀
  block_pos := launch0.block_pos
  stage_whole := launch0.stage_whole
  K := PEmpty
  osem k := k.elim
  ho := Pipeline.OwnSemFacts.none _
  hbody c := (h0.body (V5 m ρ) c).loose
  hwaits := Pipeline.hwaits_of_owed_zero _ _ _ _ L lv 0 fun c t => h0.owed_eq (V5 m ρ) c t
  pre c := iprop(StableHlo.held (c : Thread nD τ) (Pipeline.ucRefs τ sig) (W5 m ρ c) ∗ R c)
  post c := iprop(StableHlo.held (c : Thread nD τ) (Pipeline.ucRefs τ sig) (W6 D0 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats D0 D1 D2 m ρ) launch0.win launch0.arr_whole c
      ((pdats D0 D1 D2 m ρ 0 c).share_full fun w => h0.q_eq (V5 m ρ) c w) (V5 m ρ c) fun w => h0.A_eq (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd_owed0 D0 D1 D2 h0 m ρ c]
      icases HO with ⟨%W, HO⟩; iexists W; isplitr; · ipureintro; exact fun x _ => Or.inl ((pd_rec0 D0 D1 D2 h0 m ρ c 0).symm ▸ Set.mem_univ x)
      iexact HO
    isplitl [Hp]; · iexact Hp
    iexact Hrest
  hin c := h0.hin (V5 m ρ) c
  hout c := h0.hout (V5 m ρ) c
  hexit c := by
    have hjoin := Pipeline.unscopedBufs_of_arrays (p := 0) (pcfgs (F := F)) adm (Ix := Unit) (Name := ℕ) (U := UR sig nD τ) (Lvl := ℕ)
      launch0.win launch0.arr_whole c (pdats D0 D1 D2 m ρ) ((pdats D0 D1 D2 m ρ 0 c).share_full fun w => h0.q_eq (V5 m ρ) c w)
      (V5 m ρ c) (V6 D0 m ρ c) ((pdats D0 D1 D2 m ρ 0 c).arrAt · cfg0.N) (hF0 D0 m ρ c) (hrest0 D0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd_owed0 D0 D1 D2 h0 m ρ c]
    icases HO with ⟨%W, -, HO⟩; iexists W; iexact HO

include h1 in
/-- Region 1's body owes nothing at any point, and records every cell. -/
theorem pd_owed1 (c : Dev nD) (t) : (pdats D0 D1 D2 m ρ 1 c).owed t = 0 := h1.owed_eq (V7 D0 m ρ) c t
include h1 in
theorem pd_rec1 (c : Dev nD) (t) : (pdats D0 D1 D2 m ρ 1 c).recorded t = Set.univ := h1.recorded_eq (V7 D0 m ρ) c t

set_option backward.isDefEq.respectTransparency.types false in
/-- Region 1 as a segment: entered from every unscoped buffer at `W7`, left at `W8`. Its arrays are split out of
    the unscoped buffers and put back at the exit contents; the generator register goes into the region's invariant and
    comes back; nothing is owed; the kernel has no semaphore of its own. -/
def reg1 : Pipeline.RegionSeg (pcfgs (F := F)) adm (pdats D0 D1 D2 m ρ) () defs₀ 𝒱₀ L lv 1 where
  win := launch1.win.to₀
  block_pos := launch1.block_pos
  stage_whole := launch1.stage_whole
  K := PEmpty
  osem k := k.elim
  ho := Pipeline.OwnSemFacts.none _
  hbody c := (h1.body (V7 D0 m ρ) c).loose
  hwaits := Pipeline.hwaits_of_owed_zero _ _ _ _ L lv 1 fun c t => h1.owed_eq (V7 D0 m ρ) c t
  pre c := iprop(StableHlo.held (c : Thread nD τ) (Pipeline.ucRefs τ sig) (W7 D0 m ρ c) ∗ R c)
  post c := iprop(StableHlo.held (c : Thread nD τ) (Pipeline.ucRefs τ sig) (W8 D0 D1 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 D0 m ρ c)
  hentry c := by
    rw [Pipeline.ownSems0_none]
    have hsplit := Pipeline.arrays_of_unscopedBufs (p := 1) (pcfgs (F := F)) adm (pdats D0 D1 D2 m ρ) launch1.win launch1.arr_whole c
      ((pdats D0 D1 D2 m ρ 1 c).share_full fun w => h1.q_eq (V7 D0 m ρ) c w) (V7 D0 m ρ c) fun w => h1.A_eq (V7 D0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd_owed1 D0 D1 D2 h1 m ρ c]
      icases HO with ⟨%W, HO⟩; iexists W; isplitr; · ipureintro; exact fun x _ => Or.inl ((pd_rec1 D0 D1 D2 h1 m ρ c 0).symm ▸ Set.mem_univ x)
      iexact HO
    isplitl [Hp]; · iexact Hp
    iexact Hrest
  hin c := h1.hin (V7 D0 m ρ) c
  hout c := h1.hout (V7 D0 m ρ) c
  hexit c := by
    have hjoin := Pipeline.unscopedBufs_of_arrays (p := 1) (pcfgs (F := F)) adm (Ix := Unit) (Name := ℕ) (U := UR sig nD τ) (Lvl := ℕ)
      launch1.win launch1.arr_whole c (pdats D0 D1 D2 m ρ) ((pdats D0 D1 D2 m ρ 1 c).share_full fun w => h1.q_eq (V7 D0 m ρ) c w)
      (V7 D0 m ρ c) (V8 D0 D1 m ρ c) ((pdats D0 D1 D2 m ρ 1 c).arrAt · cfg1.N) (hF1 D0 D1 m ρ c) (hrest1 D0 D1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd_owed1 D0 D1 D2 h1 m ρ c]
    icases HO with ⟨%W, -, HO⟩; iexists W; iexact HO

include h2 in
/-- Region 2's body owes nothing at any point, and records every cell. -/
theorem pd_owed2 (c : Dev nD) (t) : (pdats D0 D1 D2 m ρ 2 c).owed t = 0 := h2.owed_eq (V9 D0 D1 m ρ) c t
include h2 in
theorem pd_rec2 (c : Dev nD) (t) : (pdats D0 D1 D2 m ρ 2 c).recorded t = Set.univ := h2.recorded_eq (V9 D0 D1 m ρ) c t

set_option backward.isDefEq.respectTransparency.types false in
/-- Region 2 as a segment: entered from every unscoped buffer at `W9`, left at `W10`. Its arrays are split out of
    the unscoped buffers and put back at the exit contents; the generator register goes into the region's invariant and
    comes back; nothing is owed; the kernel has no semaphore of its own. -/
def reg2 : Pipeline.RegionSeg (pcfgs (F := F)) adm (pdats D0 D1 D2 m ρ) () defs₀ 𝒱₀ L lv 2 where
  win := launch2.win.to₀
  block_pos := launch2.block_pos
  stage_whole := launch2.stage_whole
  K := PEmpty
  osem k := k.elim
  ho := Pipeline.OwnSemFacts.none _
  hbody c := (h2.body (V9 D0 D1 m ρ) c).loose
  hwaits := Pipeline.hwaits_of_owed_zero _ _ _ _ L lv 2 fun c t => h2.owed_eq (V9 D0 D1 m ρ) c t
  pre c := iprop(StableHlo.held (c : Thread nD τ) (Pipeline.ucRefs τ sig) (W9 D0 D1 m ρ c) ∗ R c)
  post c := iprop(Tₙ D0 D1 D2 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 D0 D1 m ρ c)
  hentry c := by
    rw [Pipeline.ownSems0_none]
    have hsplit := Pipeline.arrays_of_unscopedBufs (p := 2) (pcfgs (F := F)) adm (pdats D0 D1 D2 m ρ) launch2.win launch2.arr_whole c
      ((pdats D0 D1 D2 m ρ 2 c).share_full fun w => h2.q_eq (V9 D0 D1 m ρ) c w) (V9 D0 D1 m ρ c) fun w => h2.A_eq (V9 D0 D1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd_owed2 D0 D1 D2 h2 m ρ c]
      icases HO with ⟨%W, HO⟩; iexists W; isplitr; · ipureintro; exact fun x _ => Or.inl ((pd_rec2 D0 D1 D2 h2 m ρ c 0).symm ▸ Set.mem_univ x)
      iexact HO
    isplitl [Hp]; · iexact Hp
    iexact Hrest
  hin c := h2.hin (V9 D0 D1 m ρ) c
  hout c := h2.hout (V9 D0 D1 m ρ) c
  hexit c := by
    have hjoin := Pipeline.unscopedBufs_of_arrays (p := 2) (pcfgs (F := F)) adm (Ix := Unit) (Name := ℕ) (U := UR sig nD τ) (Lvl := ℕ)
      launch2.win launch2.arr_whole c (pdats D0 D1 D2 m ρ) ((pdats D0 D1 D2 m ρ 2 c).share_full fun w => h2.q_eq (V9 D0 D1 m ρ) c w)
      (V9 D0 D1 m ρ c) (V10 D0 D1 D2 m ρ c) ((pdats D0 D1 D2 m ρ 2 c).arrAt · cfg2.N) (hF2 D0 D1 D2 m ρ c) (hrest2 D0 D1 D2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [pd_owed2 D0 D1 D2 h2 m ρ c]
    icases HO with ⟨%W, -, HO⟩; iexists W; iexact HO

/-! ## The program as segments, and the launch -/

/-- The ten segments in order. -/
abbrev segs : List (Pipeline.Seg (pcfgs (F := F)) adm (pdats D0 D1 D2 m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 D0 D1 D2 h0 m ρ),
    .host (hseg hostOps1 hostOps1_sub hostOps1_fresh (W6 D0 m ρ)),
    .region (reg1 D0 D1 D2 h1 m ρ),
    .host (hseg hostOps2 hostOps2_sub hostOps2_fresh (W8 D0 D1 m ρ)),
    .region (reg2 D0 D1 D2 h2 m ρ) ]
/-- The program IS the run of the segments. -/
theorem main_run (c : Dev nD) : main (F := F) c = Pipeline.Seg.run (segs D0 D1 D2 h0 h1 h2 m ρ) := (main_chain c).trans (by chain_rfl)

set_option backward.isDefEq.respectTransparency.types false in
include h0 h1 h2 in
/-- THE RUN: from any memory with zero counters, every weakly fair execution of the program on the TensorCores
    terminates, nothing faulting, and in every final state each core's unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 D0 D1 D2 m ρ c b) :=
  Pipeline.θ_run_regions_kit (pcfgs (F := F)) adm (pdats D0 D1 D2 m ρ) () cellOf_inj emb₁ defs₀ 𝒱₀ L lv m ρ main (segs D0 D1 D2 h0 h1 h2 m ρ)
    (fun c Q => by rw [main_run D0 D1 D2 h0 h1 h2 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ D0 D1 D2 m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 D0 D1 D2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 D0 D1 D2 m ρ c) s')
      isplitl [Hh] <;> iassumption)
    (hQ := fun s h => h)

end Run

end Cert.Kernel.Hand

end
-- ==== Proof.K.Region0.lean ====
import proofs.«121312_j57732950393207_1_alg».proof.Proof.Gen.Kernel.Launch
import proofs.«121312_j57732950393207_1_alg».proof.Proof.Gen.Kernel.Skeleton
import proofs.«121312_j57732950393207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The region half of pallas_call 0 (a Chebyshev combination: five term blocks, each multiplied by its
    coefficient slab and summed, plus a bias, clamped below at zero), stated at a parameter `V`: the TensorCore's
    buffer contents when the region is entered. Each window's block at a point, what the body leaves in the
    output window's buffer as the canon of its one store, the body's triple, the proof data and the body
    obligation. -/

-- membership in a rectangle of 2048 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved, so the block the buffer still holds is this point's. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index
    has not moved, so the block the buffer still holds is this point's. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block index
    has not moved, so the block the buffer still holds is this point's. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block index
    has not moved, so the block the buffer still holds is this point's. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block index
    has not moved, so the block the buffer still holds is this point's. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block index
    has not moved, so the block the buffer still holds is this point's. The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): unfetched, the block index
    has not moved, so the block the buffer still holds is this point's. The window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A whole term block; -/
abbrev r0_x : Rect S2048x1 := Rect.unit (s := S2048x1) ![0, 0] S2048x1.size inb_S2048x1_S2048x1_0_0
/-- the five coefficient slabs of window 5, one per Chebyshev term; -/
abbrev r0_c0 : Rect S5x1x8 := Rect.unit (s := S5x1x8) ![0, 0, 0] S1x1x8.size inb_S5x1x8_S1x1x8_0_0_0
abbrev r0_c1 : Rect S5x1x8 := Rect.unit (s := S5x1x8) ![1, 0, 0] S1x1x8.size inb_S5x1x8_S1x1x8_1_0_0
abbrev r0_c2 : Rect S5x1x8 := Rect.unit (s := S5x1x8) ![2, 0, 0] S1x1x8.size inb_S5x1x8_S1x1x8_2_0_0
abbrev r0_c3 : Rect S5x1x8 := Rect.unit (s := S5x1x8) ![3, 0, 0] S1x1x8.size inb_S5x1x8_S1x1x8_3_0_0
abbrev r0_c4 : Rect S5x1x8 := Rect.unit (s := S5x1x8) ![4, 0, 0] S1x1x8.size inb_S5x1x8_S1x1x8_4_0_0
/-- the bias; -/
abbrev r0_b : Rect S8 := Rect.unit (s := S8) ![0] S8.size inb_S8_S8_0
/-- the whole output block. -/
abbrev r0_y : Rect S2048x8 := Rect.unit (s := S2048x8) ![0, 0] S2048x8.size inb_S2048x8_S2048x8_0_0

/-! ## What the body leaves in the output window's buffer -/

/-- Window 7's staging buffer after the body, from the input windows' blocks: its one store as a piece. The stored
    value is the sum over the five terms of (term block) · (coefficient slab), plus the bias, clamped below at zero:
    the first four products are the part's payload, the fifth product, the bias and the clamp the kernel's own. -/
def out0_7 (x0 : Vec F S2048x1 .f32) (x1 : Vec F S2048x1 .f32) (x2 : Vec F S2048x1 .f32) (x3 : Vec F S2048x1 .f32) (x4 : Vec F S2048x1 .f32) (x5 : Vec F S5x1x8 .f32) (x6 : Vec F S8 .f32) : Vec F S2048x8 .f32 :=
  View.canon [⟨r0_y, k0_pay1 (k0_pay2 (View.ld x0 r0_x) (View.ld x5 r0_c0) (View.ld x1 r0_x) (View.ld x5 r0_c1) (View.ld x2 r0_x) (View.ld x5 r0_c2) (View.ld x3 r0_x) (View.ld x5 r0_c3)) (View.ld x4 r0_x) (View.ld x5 r0_c4) (View.ld x6 r0_b)⟩]

/-- The one store is of the whole block (checked by evaluation), so it covers it. -/
theorem cover0_7 (p0 : Vec F S2048x8 .f32) (y : S2048x8.Idx) :
    ∃ pc ∈ ([⟨r0_y, p0⟩] : List (View.Piece (Elt F) S2048x8 .f32)), y ∈ pc.1.set :=
  View.cover_of_tiled [⟨r0_y, p0⟩] S2048x8.size (by rfl) y

/-! ## The body's triple -/

set_option maxHeartbeats 1000000 in
/-- The kernel body on whole staging memrefs, the inputs' at read contents `xW` and the output's at anything, runs to
    the continuation holding the inputs' as they were and the output's at `out0_7` of the inputs': the printed
    functions are their skeletons, which are run statement by statement, through the part call. The load of the
    output buffer just before the store reads whatever the buffer held and is used by nothing. -/
theorem sound_kernel0 (c : Dev nD) (E : Set ℕ) (i : grid0.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S5x1x8 .f32) (harg6 : arg6.IsWhole) (arg7 : Memref sig .tc .vmem S8 .f32) (harg7 : arg7.IsWhole) (arg8 : Memref sig .tc .vmem S2048x8 .f32) (harg8 : arg8.IsWhole)
    (x0 : Vec F S2048x1 .f32) (x1 : Vec F S2048x1 .f32) (x2 : Vec F S2048x1 .f32) (x3 : Vec F S2048x1 .f32) (x4 : Vec F S2048x1 .f32) (x5 : Vec F S5x1x8 .f32) (x6 : Vec F S8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- The proof data of pipeline 0 on core `c`: the arrays as the region finds them (`V`); after the body at
    point `t` each input's buffer at its block and the output's at `out0_7` of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## What the run's assembly takes of the proof data -/

/-- Every window is held at the full share; -/
theorem q_eq0 (c : Dev nD) (w : Fin cfg0.W) : (dat0 V c).q w = fullShare := rfl
/-- nothing is owed at any point; -/
theorem owed_eq0 (c : Dev nD) (t : Fin (cfg0.N + 1)) : (dat0 V c).owed t = 0 := rfl
/-- no bound is put on the pairs the core's waits have recorded. -/
theorem recorded_eq0 (c : Dev nD) (t : Fin (cfg0.N + 1)) : (dat0 V c).recorded t = Set.univ := rfl

/-- The invariant at the first point is made of the generator register and the scoped buffers no window stages: the
    pipeline has no prefetched table, so that conjunct is dropped. -/
theorem hin0 (c : Dev nD) :
    (iprop((∃ r, prngReg c r) ∗ Pipeline.prefHeld (pcfgs (F := F) 0).pre c (fun _ => fullShare) ((cfgs 0).toPCfg_adm : (pcfgs (F := F) 0).Adm).1
      ∗ Pipeline.scopedRest spec0 c) : sProp 𝕄) ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

/-- The invariant at the last point gives them back; the kernel has no semaphore of its own, so none is held at
    zero. -/
theorem hout0 (c : Dev nD) :
    (dat0 V c).Φ (Fin.last cfg0.N) ⊢ (iprop((∃ r, prngReg c r) ∗ Pipeline.ownSems0 (fun k : PEmpty => k.elim) c
      ∗ Pipeline.scopedRest spec0 c) : sProp 𝕄) := by
  rw [Pipeline.ownSems0_none, show (dat0 V c).Φ (Fin.last _) = Pipeline.ΦA spec0 c from rfl]; unfold Pipeline.ΦA
  iintro ⟨Hr, Hp⟩
  isplitl [Hp]; · iexact Hp
  isplitr; · iempintro
  iexact Hr

end Cert.Kernel.Hand

end
-- ==== Proof.K.Region1.lean ====
import proofs.«121312_j57732950393207_1_alg».proof.Proof.Gen.Kernel.Launch
import proofs.«121312_j57732950393207_1_alg».proof.Proof.Gen.Kernel.Skeleton
import proofs.«121312_j57732950393207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The region half of pallas_call 1 (a Chebyshev combination: five term blocks, each multiplied by its
    coefficient slab and summed, plus a bias, clamped below at zero), stated at a parameter `V`: the TensorCore's
    buffer contents when the region is entered. Each window's block at a point, what the body leaves in the
    output window's buffer as the canon of its one store, the body's triple, the proof data and the body
    obligation. -/

-- membership in a rectangle of 2048 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved, so the block the buffer still holds is this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved, so the block the buffer still holds is this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved, so the block the buffer still holds is this point's. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved, so the block the buffer still holds is this point's. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block index
    has not moved, so the block the buffer still holds is this point's. The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block index
    has not moved, so the block the buffer still holds is this point's. The window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): unfetched, the block index
    has not moved, so the block the buffer still holds is this point's. The window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- A whole term block; -/
abbrev r1_x : Rect S2048x8 := Rect.unit (s := S2048x8) ![0, 0] S2048x8.size inb_S2048x8_S2048x8_0_0
/-- the five coefficient slabs of window 5, one per Chebyshev term; -/
abbrev r1_c0 : Rect S5x8x8 := Rect.unit (s := S5x8x8) ![0, 0, 0] S1x8x8.size inb_S5x8x8_S1x8x8_0_0_0
abbrev r1_c1 : Rect S5x8x8 := Rect.unit (s := S5x8x8) ![1, 0, 0] S1x8x8.size inb_S5x8x8_S1x8x8_1_0_0
abbrev r1_c2 : Rect S5x8x8 := Rect.unit (s := S5x8x8) ![2, 0, 0] S1x8x8.size inb_S5x8x8_S1x8x8_2_0_0
abbrev r1_c3 : Rect S5x8x8 := Rect.unit (s := S5x8x8) ![3, 0, 0] S1x8x8.size inb_S5x8x8_S1x8x8_3_0_0
abbrev r1_c4 : Rect S5x8x8 := Rect.unit (s := S5x8x8) ![4, 0, 0] S1x8x8.size inb_S5x8x8_S1x8x8_4_0_0
/-- the bias; -/
abbrev r1_b : Rect S8 := Rect.unit (s := S8) ![0] S8.size inb_S8_S8_0
/-- the whole output block. -/
abbrev r1_y : Rect S2048x8 := Rect.unit (s := S2048x8) ![0, 0] S2048x8.size inb_S2048x8_S2048x8_0_0

/-! ## What the body leaves in the output window's buffer -/

/-- Window 7's staging buffer after the body, from the input windows' blocks: its one store as a piece. The stored
    value is the sum over the five terms of (term block) · (coefficient slab), plus the bias, clamped below at zero:
    the first four products are the part's payload, the fifth product, the bias and the clamp the kernel's own. -/
def out1_7 (x0 : Vec F S2048x8 .f32) (x1 : Vec F S2048x8 .f32) (x2 : Vec F S2048x8 .f32) (x3 : Vec F S2048x8 .f32) (x4 : Vec F S2048x8 .f32) (x5 : Vec F S5x8x8 .f32) (x6 : Vec F S8 .f32) : Vec F S2048x8 .f32 :=
  View.canon [⟨r1_y, k1_pay1 (k1_pay2 (View.ld x0 r1_x) (View.ld x5 r1_c0) (View.ld x1 r1_x) (View.ld x5 r1_c1) (View.ld x2 r1_x) (View.ld x5 r1_c2) (View.ld x3 r1_x) (View.ld x5 r1_c3)) (View.ld x4 r1_x) (View.ld x5 r1_c4) (View.ld x6 r1_b)⟩]

/-- The one store is of the whole block (checked by evaluation), so it covers it. -/
theorem cover1_7 (p0 : Vec F S2048x8 .f32) (y : S2048x8.Idx) :
    ∃ pc ∈ ([⟨r1_y, p0⟩] : List (View.Piece (Elt F) S2048x8 .f32)), y ∈ pc.1.set :=
  View.cover_of_tiled [⟨r1_y, p0⟩] S2048x8.size (by rfl) y

/-! ## The body's triple -/

set_option maxHeartbeats 1000000 in
/-- The kernel body on whole staging memrefs, the inputs' at read contents `xW` and the output's at anything, runs to
    the continuation holding the inputs' as they were and the output's at `out1_7` of the inputs': the printed
    functions are their skeletons, which are run statement by statement, through the part call. The load of the
    output buffer just before the store reads whatever the buffer held and is used by nothing. -/
theorem sound_kernel1 (c : Dev nD) (E : Set ℕ) (i : grid1.Coords) (arg1 : Memref sig .tc .vmem S2048x8 .f32) (harg1 : arg1.IsWhole) (arg2 : Memref sig .tc .vmem S2048x8 .f32) (harg2 : arg2.IsWhole) (arg3 : Memref sig .tc .vmem S2048x8 .f32) (harg3 : arg3.IsWhole) (arg4 : Memref sig .tc .vmem S2048x8 .f32) (harg4 : arg4.IsWhole) (arg5 : Memref sig .tc .vmem S2048x8 .f32) (harg5 : arg5.IsWhole) (arg6 : Memref sig .tc .vmem S5x8x8 .f32) (harg6 : arg6.IsWhole) (arg7 : Memref sig .tc .vmem S8 .f32) (harg7 : arg7.IsWhole) (arg8 : Memref sig .tc .vmem S2048x8 .f32) (harg8 : arg8.IsWhole)
    (x0 : Vec F S2048x8 .f32) (x1 : Vec F S2048x8 .f32) (x2 : Vec F S2048x8 .f32) (x3 : Vec F S2048x8 .f32) (x4 : Vec F S2048x8 .f32) (x5 : Vec F S5x8x8 .f32) (x6 : Vec F S8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The proof data of pipeline 1 on core `c`: the arrays as the region finds them (`V`); after the body at
    point `t` each input's buffer at its block and the output's at `out1_7` of the input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## What the run's assembly takes of the proof data -/

/-- Every window is held at the full share; -/
theorem q_eq1 (c : Dev nD) (w : Fin cfg1.W) : (dat1 V c).q w = fullShare := rfl
/-- nothing is owed at any point; -/
theorem owed_eq1 (c : Dev nD) (t : Fin (cfg1.N + 1)) : (dat1 V c).owed t = 0 := rfl
/-- no bound is put on the pairs the core's waits have recorded. -/
theorem recorded_eq1 (c : Dev nD) (t : Fin (cfg1.N + 1)) : (dat1 V c).recorded t = Set.univ := rfl

/-- The invariant at the first point is made of the generator register and the scoped buffers no window stages: the
    pipeline has no prefetched table, so that conjunct is dropped. -/
theorem hin1 (c : Dev nD) :
    (iprop((∃ r, prngReg c r) ∗ Pipeline.prefHeld (pcfgs (F := F) 1).pre c (fun _ => fullShare) ((cfgs 1).toPCfg_adm : (pcfgs (F := F) 1).Adm).1
      ∗ Pipeline.scopedRest spec1 c) : sProp 𝕄) ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

/-- The invariant at the last point gives them back; the kernel has no semaphore of its own, so none is held at
    zero. -/
theorem hout1 (c : Dev nD) :
    (dat1 V c).Φ (Fin.last cfg1.N) ⊢ (iprop((∃ r, prngReg c r) ∗ Pipeline.ownSems0 (fun k : PEmpty => k.elim) c
      ∗ Pipeline.scopedRest spec1 c) : sProp 𝕄) := by
  rw [Pipeline.ownSems0_none, show (dat1 V c).Φ (Fin.last _) = Pipeline.ΦA spec1 c from rfl]; unfold Pipeline.ΦA
  iintro ⟨Hr, Hp⟩
  isplitl [Hp]; · iexact Hp
  isplitr; · iempintro
  iexact Hr

end Cert.Kernel.Hand

end
-- ==== Proof.K.Region2Defs.lean ====
import proofs.«121312_j57732950393207_1_alg».proof.Proof.Gen.Kernel.Launch
import proofs.«121312_j57732950393207_1_alg».proof.Proof.Gen.Kernel.Skeleton
import proofs.«121312_j57732950393207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2 of @main: the MLP head `cc2_kernel` (pipeline 2), at the entry contents `V`

The grid has 32 points along the contraction axis. Windows 0 and 1 (a column block of the activations and the
matching row block of the first weight matrix) move at every point; windows 2, 3 and 4 (first bias, second weight
matrix, second bias) are fetched once; window 5 (the result) keeps block (0, 0) and is written back after the last
point only. A scratch accumulator is carried from point to point: zeroed at the first point, increased at every
point by the product of the two moving blocks, and read at the last point to form the result. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: an input not fetched at a point kept its
    block index, and the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: an input not fetched at a point kept its
    block index, and the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: an input not fetched at a point kept its
    block index, and the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: an input not fetched at a point kept its
    block index, and the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: an input not fetched at a point kept its
    block index, and the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_h : Rect S16x2048 := Rect.unit (s := S16x2048) ![0, 0] S16x2048.size inb_S16x2048_S16x2048_0_0
abbrev r2_w1 : Rect S2048x1000 := Rect.unit (s := S2048x1000) ![0, 0] S2048x1000.size inb_S2048x1000_S2048x1000_0_0
abbrev r2_b1 : Rect S1000 := Rect.unit (s := S1000) ![0] S1000.size inb_S1000_S1000_0
abbrev r2_w2 : Rect S1000x34 := Rect.unit (s := S1000x34) ![0, 0] S1000x34.size inb_S1000x34_S1000x34_0_0
abbrev r2_b2 : Rect S34 := Rect.unit (s := S34) ![0] S34.size inb_S34_S34_0
abbrev r2_o : Rect S16x34 := Rect.unit (s := S16x34) ![0, 0] S16x34.size inb_S16x34_S16x34_0_0
abbrev r2_s : Rect S16x1000 := Rect.unit (s := S16x1000) ![0, 0] S16x1000.size inb_S16x1000_S16x1000_0_0

/-! ## What the body leaves in the accumulator and in the result's buffer -/

/-- The accumulator after the first point's reset: its one store of zeros. -/
def zero2 : Vec F S16x1000 .f32 :=
  View.canon [⟨r2_s, k2_pay1 (F := F)⟩]

/-- The accumulator after a point's update, from the two moving blocks and what it held: its one store. -/
def step2 (h : Vec F S16x2048 .f32) (w1 : Vec F S2048x1000 .f32) (a : Vec F S16x1000 .f32) : Vec F S16x1000 .f32 :=
  View.canon [⟨r2_s, k2_pay2 (View.ld h r2_h) (View.ld w1 r2_w1) (View.ld a r2_s)⟩]

/-- The result's staging buffer after the last point, from the accumulator, the first bias, the second weight matrix
    and the second bias: its one store. -/
def out2_5 (a : Vec F S16x1000 .f32) (b1 : Vec F S1000 .f32) (w2 : Vec F S1000x34 .f32) (b2 : Vec F S34 .f32) : Vec F S16x34 .f32 :=
  View.canon [⟨r2_o, k2_pay3 (View.ld a r2_s) (View.ld b1 r2_b1) (View.ld w2 r2_w2) (View.ld b2 r2_b2)⟩]

/-- A store of the whole accumulator covers it (checked by evaluation). -/
theorem cover2_s (p0 : Vec F S16x1000 .f32) (y : S16x1000.Idx) :
    ∃ pc ∈ ([⟨r2_s, p0⟩] : List (View.Piece (Elt F) S16x1000 .f32)), y ∈ pc.1.set :=
  View.cover_of_tiled [⟨r2_s, p0⟩] S16x1000.size (by rfl) y

/-- A store of the whole result buffer covers it (checked by evaluation). -/
theorem cover2_5 (p0 : Vec F S16x34 .f32) (y : S16x34.Idx) :
    ∃ pc ∈ ([⟨r2_o, p0⟩] : List (View.Piece (Elt F) S16x34 .f32)), y ∈ pc.1.set :=
  View.cover_of_tiled [⟨r2_o, p0⟩] S16x34.size (by rfl) y

/-- THE ACCUMULATION. The accumulator after `k` points: zeros after the reset (which the first point makes before its
    own update), then one update per point over that point's blocks. -/
def acc2 (c : Dev nD) : ℕ → Vec F S16x1000 .f32
  | 0 => zero2
  | k + 1 => if h : k < cfg2.N then step2 (iblk2 V c 0 ⟨k, h⟩) (iblk2 V c 1 ⟨k, h⟩) (acc2 c k) else acc2 c k

theorem acc2_zero (c : Dev nD) : acc2 V c 0 = zero2 := rfl

/-- One more point: the update over that point's blocks. -/
theorem acc2_succ (c : Dev nD) (t : Fin cfg2.N) :
    acc2 V c (t.val + 1) = step2 (iblk2 V c 0 t) (iblk2 V c 1 t) (acc2 V c t.val) := by
  obtain ⟨k, h⟩ := t
  simp only [acc2, dif_pos h]

/-! ## The body's two branch conditions, in closed form over the grid -/

/-- The condition of the reset (`k == 0`), from the grid coordinates. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 32 = 0 :=
  (by decide +kernel : ∀ t : Fin grid2.N, cond2_0 (grid2.coords t) ↔ t.val % 32 = 0)

/-- The condition of the epilogue (`k == 31`), from the grid coordinates. -/
abbrev cond2_1 (i : grid2.Coords) : Prop := k2_cond2 i = 1#1
/-- It holds at the last point only. -/
theorem hcond2_1 : ∀ t : Fin cfg2.N, cond2_1 (grid2.coords t) ↔ t.val % 32 = 31 :=
  (by decide +kernel : ∀ t : Fin grid2.N, cond2_1 (grid2.coords t) ↔ t.val % 32 = 31)

/-! ## Where the result window is idle -/

/-- Away from the last point the result window is idle (the body stores nothing into it) -/
theorem idleAt2_5 : ∀ t : Fin cfg2.N, ¬cond2_1 (grid2.coords t) → cfg2.idle 5 (grid2.coords t) = true := by decide +kernel
/-- and is not written back; -/
theorem noFlush2_5 : ∀ t : Fin cfg2.N, ¬cond2_1 (grid2.coords t) → (cfg2.win 5).flush t = false := by decide +kernel
/-- at the last point it is live. -/
theorem liveAt2_5 : ∀ t : Fin cfg2.N, cond2_1 (grid2.coords t) → cfg2.idle 5 (grid2.coords t) = false := by decide +kernel

/-! ## The invariant: the accumulator's contents, point by point -/

/-- The scratch operand: a whole scoped buffer of the kernel's own, passed beside the windows. -/
abbrev scM2 : Memref sig .tc .vmem S16x1000 .f32 := Memref.whole cc2_scratch0

/-- The region invariant before position `n`: the accumulator — at anything before the first point, afterwards at what
    `n` points leave in it —, every other scoped buffer that is no staging buffer of this call at some contents, and
    the generator register at some state. -/
def Phi2 (c : Dev nD) : ℕ → sProp 𝕄
  | 0 => iprop((∃ d, owns (c : Thread nD τ) scM2 fullShare d)
      ∗ Pipeline.scopedRestBut (Ix := Unit) (Name := ℕ) (U := UR sig nD τ) (Lvl := ℕ) (Val := Elt F) spec2 c [cc2_scratch0]
      ∗ (∃ r, prngReg c r))
  | n + 1 => iprop(owns (c : Thread nD τ) scM2 fullShare (acc2 V c (n + 1))
      ∗ Pipeline.scopedRestBut (Ix := Unit) (Name := ℕ) (U := UR sig nD τ) (Lvl := ℕ) (Val := Elt F) spec2 c [cc2_scratch0]
      ∗ (∃ r, prngReg c r))

theorem Phi2_zero (c : Dev nD) : Phi2 V c 0 = iprop((∃ d, owns (c : Thread nD τ) scM2 fullShare d)
      ∗ Pipeline.scopedRestBut (Ix := Unit) (Name := ℕ) (U := UR sig nD τ) (Lvl := ℕ) (Val := Elt F) spec2 c [cc2_scratch0]
      ∗ (∃ r, prngReg c r)) := rfl

theorem Phi2_succ (c : Dev nD) (n : ℕ) : Phi2 V c (n + 1) = iprop(owns (c : Thread nD τ) scM2 fullShare (acc2 V c (n + 1))
      ∗ Pipeline.scopedRestBut (Ix := Unit) (Name := ℕ) (U := UR sig nD τ) (Lvl := ℕ) (Val := Elt F) spec2 c [cc2_scratch0]
      ∗ (∃ r, prngReg c r)) := rfl

/-- Before a point that is not the first: the accumulator at what the points before left. -/
theorem Phi2_pos (c : Dev nD) (n : ℕ) (hz : n ≠ 0) : Phi2 V c n = iprop(owns (c : Thread nD τ) scM2 fullShare (acc2 V c n)
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, and the result's at the epilogue's store over the accumulator after all 32 points
    (consulted at the last point only: elsewhere the window is idle and not written back); the invariant `Phi2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (acc2 V c 32) (iblk2 V c 2 t) (iblk2 V c 3 t) (iblk2 V c 4 t)
  Φ t := Phi2 V c t.val
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (acc2 V c 32) (iblk2 V c 2 t) (iblk2 V c 3 t) (iblk2 V c 4 t) := by dsimp only [dat2]

/-- The result's buffer after the last point: the epilogue over the accumulator after all 32 points. -/
theorem after2_5_last (c : Dev nD) :
    (dat2 V c).after 5 ⟨31, by decide⟩ = out2_5 (acc2 V c 32) (iblk2 V c 2 ⟨31, by decide⟩) (iblk2 V c 3 ⟨31, by decide⟩) (iblk2 V c 4 ⟨31, by decide⟩) :=
  after2_5 V c _

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

end Cert.Kernel.Hand

end
-- ==== Proof.K.Region2.lean ====
import proofs.«121312_j57732950393207_1_alg».proof.Proof.Gen.Kernel.Launch
import proofs.«121312_j57732950393207_1_alg».proof.Proof.Gen.Kernel.Skeleton
import proofs.«121312_j57732950393207_1_alg».proof.Proof.Gen.Kernel.Points
import proofs.«121312_j57732950393207_1_alg».proof.Proof.K.Region2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The rectangle of a whole-accumulator store holds every index. -/
theorem whole2_s (p0 : Vec F S16x1000 .f32) (y : S16x1000.Idx) :
    y ∈ (⟨r2_s, p0⟩ : View.Piece (Elt F) S16x1000 .f32).1.set := by
  obtain ⟨pc, hm, hy⟩ := cover2_s p0 y
  rw [List.mem_singleton] at hm; subst hm; exact hy

/-! ## The body's triple, case by case -/

set_option maxHeartbeats 1000000 in
/-- A MIDDLE point (neither condition holds): on whole memrefs, the two moving blocks at their contents and the
    accumulator at `a`, the body runs to the continuation holding the blocks as they were and the accumulator updated
    over them; the other operands are not touched. -/
theorem sound_kernel2_mid (c : Dev nD) (E : Set ℕ) (i : grid2.Coords) (hc0 : ¬cond2_0 i) (hc1 : ¬cond2_1 i)
    (arg1 : Memref sig .tc .vmem S16x2048 .f32) (harg1 : arg1.IsWhole) (arg2 : Memref sig .tc .vmem S2048x1000 .f32) (harg2 : arg2.IsWhole) (arg3 : Memref sig .tc .vmem S1000 .f32) (harg3 : arg3.IsWhole) (arg4 : Memref sig .tc .vmem S1000x34 .f32) (harg4 : arg4.IsWhole) (arg5 : Memref sig .tc .vmem S34 .f32) (harg5 : arg5.IsWhole) (arg6 : Memref sig .tc .vmem S16x34 .f32) (harg6 : arg6.IsWhole) (arg7 : Memref sig .tc .vmem S16x1000 .f32) (harg7 : arg7.IsWhole)
    (x0 : Vec F S16x2048 .f32) (x1 : Vec F S2048x1000 .f32) (a : Vec F S16x1000 .f32) (K : PUnit → sProp 𝕄) :
    iprop(owns (c : Thread nD τ) arg1 fullShare x0 ∗ owns (c : Thread nD τ) arg2 fullShare x1 ∗ owns (c : Thread nD τ) arg7 fullShare a
        ∗ (iprop(owns (c : Thread nD τ) arg1 fullShare x0 ∗ owns (c : Thread nD τ) arg2 fullShare x1
            ∗ owns (c : Thread nD τ) arg7 fullShare (step2 x0 x1 a)) -∗ K ⟨⟩))
      ⊢ wp frame (wpE (defs₀ (F := F)) Variants.none c none) E (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f7, %hf7, H7⟩, Hk⟩
  subst hf0; subst hf1; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  exact View.read_writes_eq_canon _ _ _ (cover2_s _)

set_option maxHeartbeats 1000000 in
theorem sound_kernel2_first (c : Dev nD) (E : Set ℕ) (i : grid2.Coords) (hc0 : cond2_0 i) (hc1 : ¬cond2_1 i)
    (arg1 : Memref sig .tc .vmem S16x2048 .f32) (harg1 : arg1.IsWhole) (arg2 : Memref sig .tc .vmem S2048x1000 .f32) (harg2 : arg2.IsWhole) (arg3 : Memref sig .tc .vmem S1000 .f32) (harg3 : arg3.IsWhole) (arg4 : Memref sig .tc .vmem S1000x34 .f32) (harg4 : arg4.IsWhole) (arg5 : Memref sig .tc .vmem S34 .f32) (harg5 : arg5.IsWhole) (arg6 : Memref sig .tc .vmem S16x34 .f32) (harg6 : arg6.IsWhole) (arg7 : Memref sig .tc .vmem S16x1000 .f32) (harg7 : arg7.IsWhole)
    (x0 : Vec F S16x2048 .f32) (x1 : Vec F S2048x1000 .f32) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1
            ∗ owns (c : Thread nD τ) arg7 fullShare (step2 x0 x1 zero2)) -∗ K ⟨⟩))
      ⊢ wp frame (wpE (defs₀ (F := F)) Variants.none c none) E (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%d7, %f7, -, H7⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  unfold sound_kernel2_first.sl.v8 sound_kernel2_first.sl.H7_1
  refine (View.read_writes_of_cover_last _ _ arg7.view f7 _ _ [] (whole2_s _)).trans ?_
  refine (View.read_writes_eq_canon _ _ _ (cover2_s _)).trans ?_
  rw [View.readCov_eq_canon_ld _ _ _ (cover2_s _)]
  rfl

set_option maxHeartbeats 1000000 in
theorem sound_kernel2_last (c : Dev nD) (E : Set ℕ) (i : grid2.Coords) (hc0 : ¬cond2_0 i) (hc1 : cond2_1 i)
    (arg1 : Memref sig .tc .vmem S16x2048 .f32) (harg1 : arg1.IsWhole) (arg2 : Memref sig .tc .vmem S2048x1000 .f32) (harg2 : arg2.IsWhole) (arg3 : Memref sig .tc .vmem S1000 .f32) (harg3 : arg3.IsWhole) (arg4 : Memref sig .tc .vmem S1000x34 .f32) (harg4 : arg4.IsWhole) (arg5 : Memref sig .tc .vmem S34 .f32) (harg5 : arg5.IsWhole) (arg6 : Memref sig .tc .vmem S16x34 .f32) (harg6 : arg6.IsWhole) (arg7 : Memref sig .tc .vmem S16x1000 .f32) (harg7 : arg7.IsWhole)
    (x0 : Vec F S16x2048 .f32) (x1 : Vec F S2048x1000 .f32) (x2 : Vec F S1000 .f32) (x3 : Vec F S1000x34 .f32) (x4 : Vec F S34 .f32)
    (a : Vec F S16x1000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 (step2 x0 x1 a) x2 x3 x4)
            ∗ owns (c : Thread nD τ) arg7 fullShare (step2 x0 x1 a)) -∗ K ⟨⟩))
      ⊢ wp frame (wpE (defs₀ (F := F)) Variants.none c none) E (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  subst hf0; subst hf1; subst hf2; subst hf3; subst hf4; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    unfold sound_kernel2_last.sl.v17 sound_kernel2_last.sl.H7_1
    refine (View.read_writes_eq_canon _ _ _ (cover2_5 _)).trans ?_
    rw [View.readCov_eq_canon_ld _ _ _ (cover2_s _)]
    rfl
  iexists _; isplitr
  swap; · iexact H7
  ipureintro
  exact View.read_writes_eq_canon _ _ _ (cover2_s _)

/-! ## The body obligation, at a generic point -/

/-- The inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl

/-- Before the first point the accumulator holds anything. -/
theorem Phi2_of_zero (c : Dev nD) (n : ℕ) (hz : n = 0) : Phi2 V c n = iprop((∃ d, owns (c : Thread nD τ) scM2 fullShare d)
      ∗ Pipeline.scopedRestBut (Ix := Unit) (Name := ℕ) (U := UR sig nD τ) (Lvl := ℕ) (Val := Elt F) spec2 c [cc2_scratch0]
      ∗ (∃ r, prngReg c r)) := by
  subst hz; rfl

theorem acc2_of_zero (c : Dev nD) (n : ℕ) (hz : n = 0) : acc2 V c n = zero2 := by
  subst hz; rfl

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4000000 in
/-- The body at any point. The inputs' memrefs hold their blocks; the closed forms of the two conditions say which of
    the three cases the point is in. The invariant hands the body the accumulator — at anything at the first point, at
    what the points before left otherwise — and takes it back updated over this point's blocks. Away from the last point
    the result's buffer is handed back untouched; at the last point it is stored, from the accumulator after all 32
    points. The other scoped buffers, the generator register and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) from rfl, Phi2_succ,
    show (dat2 V c).Φ t.castSucc = Phi2 V c t.val from rfl]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [acc2_succ V c t]
  have hN : t.val < 32 := lt_of_lt_of_eq t.isLt (show cfg2.N = 32 from N_2)
  by_cases h0 : t.val % 32 = 0
  · -- the first point: the reset, then the update
    have hz : t.val = 0 := by omega
    have h1 : ¬t.val % 32 = 31 := by omega
    rw [Dat.leavesExact_idle (dat2 V c) 5 t (idleAt2_5 t (fun h => h1 ((hcond2_1 t).mp h))) (noFlush2_5 t (fun h => h1 ((hcond2_1 t).mp h)))]
    rw [Phi2_of_zero V c _ hz, acc2_of_zero V c _ hz]
    iintro ⟨⟨⟨%d7, HS⟩, Hrest, Hg⟩, Ho, ⟨%d0, H0⟩, ⟨%d1, H1⟩, ⟨%d2, H2⟩, ⟨%d3, H3⟩, ⟨%d4, H4⟩, ⟨%d5, H5⟩⟩
    iapply (sound_kernel2_first c Set.univ (grid2.coords t) ((hcond2_0 t).mpr h0) (fun h => h1 ((hcond2_1 t).mp h))
      _ _ _ _ _ _ _ _ _ _ _ _ _ _ (iblk2 V c 0 t) (iblk2 V c 1 t) _)
    isplitl [H0]; · iexact H0
    isplitl [H1]; · iexact H1
    isplitl [HS]; · iexists _; iexact HS
    iintro ⟨H0, H1, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    rw [Phi2_pos V c _ hz]
    by_cases h1 : t.val % 32 = 31
    · -- the last point: the update, then the epilogue's store of the result
      have h32 : acc2 V c 32 = step2 (iblk2 V c 0 t) (iblk2 V c 1 t) (acc2 V c t.val) :=
        (congrArg (acc2 V c) (by omega : 32 = t.val + 1)).trans (acc2_succ V c t)
      rw [show (dat2 V c).leavesExact 5 t = owns (c : Thread nD τ) (st2_5 t) fullShare ((dat2 V c).after 5 t) from by
        unfold Dat.leavesExact; rw [liveAt2_5 t ((hcond2_1 t).mpr h1)], after2_5, h32]
      iintro ⟨⟨HS, Hrest, Hg⟩, Ho, ⟨%d0, H0⟩, ⟨%d1, H1⟩, ⟨%d2, H2⟩, ⟨%d3, H3⟩, ⟨%d4, H4⟩, ⟨%d5, H5⟩⟩
      iapply (sound_kernel2_last c Set.univ (grid2.coords t) (fun h => h0 ((hcond2_0 t).mp h)) ((hcond2_1 t).mpr h1)
        _ _ _ _ _ _ _ _ _ _ _ _ _ _ (iblk2 V c 0 t) (iblk2 V c 1 t) (iblk2 V c 2 t) (iblk2 V c 3 t) (iblk2 V c 4 t) (acc2 V c t.val) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point: the update only
      rw [Dat.leavesExact_idle (dat2 V c) 5 t (idleAt2_5 t (fun h => h1 ((hcond2_1 t).mp h))) (noFlush2_5 t (fun h => h1 ((hcond2_1 t).mp h)))]
      iintro ⟨⟨HS, Hrest, Hg⟩, Ho, ⟨%d0, H0⟩, ⟨%d1, H1⟩, ⟨%d2, H2⟩, ⟨%d3, H3⟩, ⟨%d4, H4⟩, ⟨%d5, H5⟩⟩
      iapply (sound_kernel2_mid c Set.univ (grid2.coords t) (fun h => h0 ((hcond2_0 t).mp h)) (fun h => h1 ((hcond2_1 t).mp h))
        _ _ _ _ _ _ _ _ _ _ _ _ _ _ (iblk2 V c 0 t) (iblk2 V c 1 t) (acc2 V c t.val) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The proof data's plain fields, and the invariant's two ends -/

theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]
theorem recorded_eq2 (c : Dev nD) (t : Fin (cfg2.N + 1)) : (dat2 V c).recorded t = Set.univ := by dsimp only [dat2]

/-- What the launch hands the region — the generator register, no prefetched table, every scoped buffer that is no
    staging buffer of this call at some contents — is the invariant before the first point: the accumulator is split
    out of the scoped buffers, at whatever it holds. -/
theorem hin2 (c : Dev nD) :
    (iprop((∃ r, prngReg c r) ∗ Pipeline.prefHeld (pcfgs (F := F) 2).pre c (fun _ => fullShare) ((cfgs 2).toPCfg_adm : (pcfgs (F := F) 2).Adm).1
      ∗ Pipeline.scopedRest (Ix := Unit) (Name := ℕ) (U := UR sig nD τ) (Lvl := ℕ) (Val := Elt F) spec2 c) : sProp 𝕄)
      ⊢ (dat2 V c).Φ 0 := by
  rw [show (dat2 V c).Φ 0 = Phi2 V c 0 from rfl, Phi2_zero, scopedRest2_split]
  simp only [scM2, owns_whole]
  iintro ⟨Hp, -, ⟨HS, Hrest⟩⟩
  isplitl [HS]; · iexact HS
  isplitl [Hrest]; · iexact Hrest
  iexact Hp

/-- After the last point the invariant gives the same back: the accumulator's named contents are forgotten. -/
theorem hout2 (c : Dev nD) :
    (dat2 V c).Φ (Fin.last cfg2.N)
      ⊢ (iprop((∃ r, prngReg c r) ∗ Pipeline.ownSems0 (fun k : PEmpty => k.elim) c
        ∗ Pipeline.scopedRest (Ix := Unit) (Name := ℕ) (U := UR sig nD τ) (Lvl := ℕ) (Val := Elt F) spec2 c) : sProp 𝕄) := by
  rw [Pipeline.ownSems0_none, show (dat2 V c).Φ (Fin.last cfg2.N) = Phi2 V c (31 + 1) from rfl, Phi2_succ, scopedRest2_split]
  iintro ⟨HS, Hrest, Hg⟩
  isplitl [Hg]; · iexact Hg
  isplitr; · iempintro
  isplitl [HS]
  · iexists (acc2 V c (31 + 1))
    rw [← owns_whole (c : Thread nD τ) cc2_scratch0 fullShare (acc2 V c (31 + 1))]
    iexact HS
  iexact Hrest

end Cert.Kernel.Hand

end
-- ==== Proof.K.Frame.lean ====
/-
  The three kernels' proof data put into the program's run: the run of the whole program with every buffer's final
  contents named, and from it the frame (every argument array ends holding what it was launched with).
-/
import proofs.«121312_j57732950393207_1_alg».proof.Proof.K.Run
import proofs.«121312_j57732950393207_1_alg».proof.Proof.K.Region0
import proofs.«121312_j57732950393207_1_alg».proof.Proof.K.Region1
import proofs.«121312_j57732950393207_1_alg».proof.Proof.K.Region2

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-- Kernel 0's proof data has what the run asks of a region. -/
theorem half0 : Half0 (F := F) dat0 where
  A_eq V c w := A_eq0 V c w
  q_eq V c w := q_eq0 V c w
  owed_eq V c t := owed_eq0 V c t
  recorded_eq V c t := recorded_eq0 V c t
  body V c := body_obligation0 V c
  hin V c := hin0 V c
  hout V c := hout0 V c

/-- Kernel 1's proof data has what the run asks of a region. -/
theorem half1 : Half1 (F := F) dat1 where
  A_eq V c w := A_eq1 V c w
  q_eq V c w := q_eq1 V c w
  owed_eq V c t := owed_eq1 V c t
  recorded_eq V c t := recorded_eq1 V c t
  body V c := body_obligation1 V c
  hin V c := hin1 V c
  hout V c := hout1 V c

/-- Kernel 2's proof data has what the run asks of a region. -/
theorem half2 : Half2 (F := F) dat2 where
  A_eq V c w := A_eq2 V c w
  q_eq V c w := q_eq2 V c w
  owed_eq V c t := owed_eq2 V c t
  recorded_eq V c t := recorded_eq2 V c t
  body V c := body_obligation2 V c
  hin V c := hin2 V c
  hout V c := hout2 V c

variable (m : (ℓ : Loc nD τ sig) → Buf (Elt F) ℓ) (ρ : Dev nD → PrngReg)

/-- Core `c`'s unscoped buffers when the program returns. -/
abbrev Wend (c : Dev nD) : Valuation τ sig (Elt F) := W10 dat0 dat1 dat2 m ρ c

/-- THE RUN of the whole program: it terminates, nothing faults, and every unscoped buffer ends at `Wend`. -/
theorem run : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  run_all dat0 dat1 dat2 half0 half1 half2 m ρ

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W10_main_arg0 dat0 dat1 dat2 half0 half1 half2 m ρ c),
      (h c _ (mem_uc main_arg1 (by decide))).trans (W10_main_arg1 dat0 dat1 dat2 half0 half1 half2 m ρ c),
      (h c _ (mem_uc main_arg2 (by decide))).trans (W10_main_arg2 dat0 dat1 dat2 half0 half1 half2 m ρ c),
      (h c _ (mem_uc main_arg3 (by decide))).trans (W10_main_arg3 dat0 dat1 dat2 half0 half1 half2 m ρ c),
      (h c _ (mem_uc main_arg4 (by decide))).trans (W10_main_arg4 dat0 dat1 dat2 half0 half1 half2 m ρ c),
      (h c _ (mem_uc main_arg5 (by decide))).trans (W10_main_arg5 dat0 dat1 dat2 half0 half1 half2 m ρ c),
      (h c _ (mem_uc main_arg6 (by decide))).trans (W10_main_arg6 dat0 dat1 dat2 half0 half1 half2 m ρ c),
      (h c _ (mem_uc main_arg7 (by decide))).trans (W10_main_arg7 dat0 dat1 dat2 half0 half1 half2 m ρ c),
      (h c _ (mem_uc main_arg8 (by decide))).trans (W10_main_arg8 dat0 dat1 dat2 half0 half1 half2 m ρ c),
      (h c _ (mem_uc main_arg9 (by decide))).trans (W10_main_arg9 dat0 dat1 dat2 half0 half1 half2 m ρ c),
      (h c _ (mem_uc main_arg10 (by decide))).trans (W10_main_arg10 dat0 dat1 dat2 half0 half1 half2 m ρ c),
      (h c _ (mem_uc main_arg11 (by decide))).trans (W10_main_arg11 dat0 dat1 dat2 half0 half1 half2 m ρ c)⟩)
    (run m ρ)

end Cert.Kernel.Hand

end
-- ==== Proof.KI.Run.lean ====
/-
  The run of the whole program, from the launch to the return, as ten segments: five stretches of host operations
  (the graph normalisation: degrees by a scatter-add, their inverse square roots, the edge weights, and the Chebyshev
  recurrence's five terms), the first combining kernel, one stretch (the second layer's five terms), the second combining
  kernel, a reshape, and the dense head. Between two segments a core holds every unscoped buffer whole at known contents:
  the launch memory folded through the host operations, and at a kernel's exit its arrays at what the pipeline's
  write-backs leave. Everything is parametric in the three kernels' proof data (one family per kernel over the contents the
  kernel is entered from), of which only the facts bundled as `Half0`, `Half1`, `Half2` are used; and generic in the
  float instance, so the same text gives the word-level program's frame and the idealized program's run.
-/
import proofs.«121312_j57732950393207_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core. -/
abbrev Entry : Type := (c : Dev nD) → (b : Ref sig .tc) → Buf (Elt F) ((c : Thread nD τ).loc b)

/-- No kernel of this program has a prefetched table. -/
abbrev adm : (p : Fin 3) → (pcfgs (F := F) p).Adm := fun p => (cfgs p).toPCfg_adm

/-- What the run needs of region 0's proof data, given as a family over the contents `V` the region is entered
    from: its arrays are `V`'s, every window is held at the full share, the body owes nothing, the body obligation
    holds at every point, and the invariant is made from (and gives back) the generator register and the scoped
    buffers no window stages. -/
structure Half0 (D : Entry (F := F) → (c : Dev nD) → Dat τ (Elt F) Unit ℕ (UR sig nD τ) ℕ cfg0 c) : Prop where
  A_eq : ∀ V c (w : Fin cfg0.W), (D V c).A w = V c (Pipeline.arrRef spec0 w)
  q_eq : ∀ V c (w : Fin cfg0.W), (D V c).q w = fullShare
  owed_eq : ∀ V c t, (D V c).owed t = 0
  recorded_eq : ∀ V c t, (D V c).recorded t = Set.univ
  body : ∀ V c, BodyObligation (D V c) (defs₀ (F := F)) Variants.none () Set.univ
  hin : ∀ V c, (iprop((∃ r, prngReg c r) ∗ Pipeline.prefHeld (pcfgs (F := F) 0).pre c (fun _ => fullShare) (adm (F := F) 0).1 ∗ Pipeline.scopedRest spec0 c) : sProp 𝕄) ⊢ (D V c).Φ 0
  hout : ∀ V c, (D V c).Φ (Fin.last cfg0.N) ⊢ (iprop((∃ r, prngReg c r) ∗ Pipeline.ownSems0 (fun k : PEmpty => k.elim) c ∗ Pipeline.scopedRest spec0 c) : sProp 𝕄)

/-- What the run needs of region 1's proof data, given as a family over the contents `V` the region is entered
    from: its arrays are `V`'s, every window is held at the full share, the body owes nothing, the body obligation
    holds at every point, and the invariant is made from (and gives back) the generator register and the scoped
    buffers no window stages. -/
structure Half1 (D : Entry (F := F) → (c : Dev nD) → Dat τ (Elt F) Unit ℕ (UR sig nD τ) ℕ cfg1 c) : Prop where
  A_eq : ∀ V c (w : Fin cfg1.W), (D V c).A w = V c (Pipeline.arrRef spec1 w)
  q_eq : ∀ V c (w : Fin cfg1.W), (D V c).q w = fullShare
  owed_eq : ∀ V c t, (D V c).owed t = 0
  recorded_eq : ∀ V c t, (D V c).recorded t = Set.univ
  body : ∀ V c, BodyObligation (D V c) (defs₀ (F := F)) Variants.none () Set.univ
  hin : ∀ V c, (iprop((∃ r, prngReg c r) ∗ Pipeline.prefHeld (pcfgs (F := F) 1).pre c (fun _ => fullShare) (adm (F := F) 1).1 ∗ Pipeline.scopedRest spec1 c) : sProp 𝕄) ⊢ (D V c).Φ 0
  hout : ∀ V c, (D V c).Φ (Fin.last cfg1.N) ⊢ (iprop((∃ r, prngReg c r) ∗ Pipeline.ownSems0 (fun k : PEmpty => k.elim) c ∗ Pipeline.scopedRest spec1 c) : sProp 𝕄)

/-- What the run needs of region 2's proof data, given as a family over the contents `V` the region is entered
    from: its arrays are `V`'s, every window is held at the full share, the body owes nothing, the body obligation
    holds at every point, and the invariant is made from (and gives back) the generator register and the scoped
    buffers no window stages. -/
structure Half2 (D : Entry (F := F) → (c : Dev nD) → Dat τ (Elt F) Unit ℕ (UR sig nD τ) ℕ cfg2 c) : Prop where
  A_eq : ∀ V c (w : Fin cfg2.W), (D V c).A w = V c (Pipeline.arrRef spec2 w)
  q_eq : ∀ V c (w : Fin cfg2.W), (D V c).q w = fullShare
  owed_eq : ∀ V c t, (D V c).owed t = 0
  recorded_eq : ∀ V c t, (D V c).recorded t = Set.univ
  body : ∀ V c, BodyObligation (D V c) (defs₀ (F := F)) Variants.none () Set.univ
  hin : ∀ V c, (iprop((∃ r, prngReg c r) ∗ Pipeline.prefHeld (pcfgs (F := F) 2).pre c (fun _ => fullShare) (adm (F := F) 2).1 ∗ Pipeline.scopedRest spec2 c) : sProp 𝕄) ⊢ (D V c).Φ 0
  hout : ∀ V c, (D V c).Φ (Fin.last cfg2.N) ⊢ (iprop((∃ r, prngReg c r) ∗ Pipeline.ownSems0 (fun k : PEmpty => k.elim) c ∗ Pipeline.scopedRest spec2 c) : sProp 𝕄)

section Run

variable (D0 : Entry (F := F) → (c : Dev nD) → Dat τ (Elt F) Unit ℕ (UR sig nD τ) ℕ cfg0 c)
variable (D1 : Entry (F := F) → (c : Dev nD) → Dat τ (Elt F) Unit ℕ (UR sig nD τ) ℕ cfg1 c)
variable (D2 : Entry (F := F) → (c : Dev nD) → Dat τ (Elt F) Unit ℕ (UR sig nD τ) ℕ cfg2 c)
variable (h0 : Half0 D0) (h1 : Half1 D1) (h2 : Half2 D2)
variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
/-- After the host stretch `hostOps0_1`. -/
abbrev W2 : Dev nD → Valuation τ sig (Elt F) := fun c => StableHlo.after hostOps0_1 (W1 m ρ c)
/-- After the host stretch `hostOps0_2`. -/
abbrev W3 : Dev nD → Valuation τ sig (Elt F) := fun c => StableHlo.after hostOps0_2 (W2 m ρ c)
/-- After the host stretch `hostOps0_3`. -/
abbrev W4 : Dev nD → Valuation τ sig (Elt F) := fun c => StableHlo.after hostOps0_3 (W3 m ρ c)
/-- After the host stretch `hostOps0_4`. -/
abbrev W5 : Dev nD → Valuation τ sig (Elt F) := fun c => StableHlo.after hostOps0_4 (W4 m ρ c)
/-- The same read at the TensorCore's references (what the next region's proof data take). -/
abbrev V5 : Entry (F := F) := fun c b => W5 m ρ c b
/-- At region 0's exit: its arrays at what the pipeline leaves (an input as entered, the output's write-backs folded),
    every other buffer as entered. -/
def W6 (c : Dev nD) : Valuation τ sig (Elt F) :=
  Pipeline.withArrays spec0 c (W5 m ρ c) fun w => (D0 (V5 m ρ) c).arrAt w cfg0.N
theorem W6_arr (c : Dev nD) (w : Fin cfg0.W) :
    W6 D0 m ρ c (Proc.devRef .tc (Pipeline.arrRef spec0 w)) = (D0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 D0 m ρ c (Proc.devRef .tc b) = W5 m ρ c (Proc.devRef .tc b) := by
  unfold W6; exact Pipeline.withArrays_of_ne spec0 c _ _ b hb
/-- The same read at the TensorCore's references. -/
abbrev V6 : Entry (F := F) := fun c b => W6 D0 m ρ c b
theorem hF0 (c : Dev nD) (w : Fin cfg0.W) : (D0 (V5 m ρ) c).arrAt w cfg0.N = V6 D0 m ρ c (Pipeline.arrRef spec0 w) :=
  (W6_arr D0 m ρ c w).symm
theorem hrest0 (c : Dev nD) : ∀ b, b ∉ Finset.univ.image (Pipeline.arrRef spec0) → V6 D0 m ρ c b = V5 m ρ c b :=
  fun b hb => W6_of_ne D0 m ρ c b fun w e => hb (Finset.mem_image.mpr ⟨w, Finset.mem_univ _, e⟩)

/-- After the host stretch `hostOps1`. -/
abbrev W7 : Dev nD → Valuation τ sig (Elt F) := fun c => StableHlo.after hostOps1 (W6 D0 m ρ c)
/-- The same read at the TensorCore's references (what the next region's proof data take). -/
abbrev V7 : Entry (F := F) := fun c b => W7 D0 m ρ c b
/-- At region 1's exit: its arrays at what the pipeline leaves (an input as entered, the output's write-backs folded),
    every other buffer as entered. -/
def W8 (c : Dev nD) : Valuation τ sig (Elt F) :=
  Pipeline.withArrays spec1 c (W7 D0 m ρ c) fun w => (D1 (V7 D0 m ρ) c).arrAt w cfg1.N
theorem W8_arr (c : Dev nD) (w : Fin cfg1.W) :
    W8 D0 D1 m ρ c (Proc.devRef .tc (Pipeline.arrRef spec1 w)) = (D1 (V7 D0 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 D0 D1 m ρ c (Proc.devRef .tc b) = W7 D0 m ρ c (Proc.devRef .tc b) := by
  unfold W8; exact Pipeline.withArrays_of_ne spec1 c _ _ b hb
/-- The same read at the TensorCore's references. -/
abbrev V8 : Entry (F := F) := fun c b => W8 D0 D1 m ρ c b
theorem hF1 (c : Dev nD) (w : Fin cfg1.W) : (D1 (V7 D0 m ρ) c).arrAt w cfg1.N = V8 D0 D1 m ρ c (Pipeline.arrRef spec1 w) :=
  (W8_arr D0 D1 m ρ c w).symm
theorem hrest1 (c : Dev nD) : ∀ b, b ∉ Finset.univ.image (Pipeline.arrRef spec1) → V8 D0 D1 m ρ c b = V7 D0 m ρ c b :=
  fun b hb => W8_of_ne D0 D1 m ρ c b fun w e => hb (Finset.mem_image.mpr ⟨w, Finset.mem_univ _, e⟩)

/-- After the host stretch `hostOps2`. -/
abbrev W9 : Dev nD → Valuation τ sig (Elt F) := fun c => StableHlo.after hostOps2 (W8 D0 D1 m ρ c)
/-- The same read at the TensorCore's references (what the next region's proof data take). -/
abbrev V9 : Entry (F := F) := fun c b => W9 D0 D1 m ρ c b
/-- At region 2's exit: its arrays at what the pipeline leaves (an input as entered, the output's write-backs folded),
    every other buffer as entered. -/
def W10 (c : Dev nD) : Valuation τ sig (Elt F) :=
  Pipeline.withArrays spec2 c (W9 D0 D1 m ρ c) fun w => (D2 (V9 D0 D1 m ρ) c).arrAt w cfg2.N
theorem W10_arr (c : Dev nD) (w : Fin cfg2.W) :
    W10 D0 D1 D2 m ρ c (Proc.devRef .tc (Pipeline.arrRef spec2 w)) = (D2 (V9 D0 D1 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 D0 D1 D2 m ρ c (Proc.devRef .tc b) = W9 D0 D1 m ρ c (Proc.devRef .tc b) := by
  unfold W10; exact Pipeline.withArrays_of_ne spec2 c _ _ b hb
/-- The same read at the TensorCore's references. -/
abbrev V10 : Entry (F := F) := fun c b => W10 D0 D1 D2 m ρ c b
theorem hF2 (c : Dev nD) (w : Fin cfg2.W) : (D2 (V9 D0 D1 m ρ) c).arrAt w cfg2.N = V10 D0 D1 D2 m ρ c (Pipeline.arrRef spec2 w) :=
  (W10_arr D0 D1 D2 m ρ c w).symm
theorem hrest2 (c : Dev nD) : ∀ b, b ∉ Finset.univ.image (Pipeline.arrRef spec2) → V10 D0 D1 D2 m ρ c b = V9 D0 D1 m ρ c b :=
  fun b hb => W10_of_ne D0 D1 D2 m ρ c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_v5, main_cst, main_v6, main_v7, main_v8, main_cst_0, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

theorem hostOps0_1_fresh : (hostOps0_1 : List (HloOp τ sig (Elt F))).Forall fun op => op.fresh = ∅ := by
  simp only [List.Forall]; repeat' constructor
/-- The references `hostOps0_1`'s operations write. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

theorem hostOps0_2_fresh : (hostOps0_2 : List (HloOp τ sig (Elt F))).Forall fun op => op.fresh = ∅ := by
  simp only [List.Forall]; repeat' constructor
/-- The references `hostOps0_2`'s operations write. -/
abbrev hostOps0_2_W : List (Ref sig .tc) := [main_c, main_v15, main_v16, main_c_3, main_v17, main_v18, main_v19, main_v20, main_v21, main_v22, main_v23, main_c_4, main_v24, main_v25, main_c_5, main_v26, main_v27, main_v28, main_v29, main_v30, main_v31, main_cst_6, main_v32, main_v33, main_cst_7, main_cst_8]
theorem hostOps0_2_writes : (hostOps0_2 : List (HloOp τ sig (Elt F))).Forall fun op => op.writes ⊆ (hostOps0_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

theorem hostOps0_3_fresh : (hostOps0_3 : List (HloOp τ sig (Elt F))).Forall fun op => op.fresh = ∅ := by
  simp only [List.Forall]; repeat' constructor
/-- The references `hostOps0_3`'s operations write. -/
abbrev hostOps0_3_W : List (Ref sig .tc) := [main_call1_v0, main_call1_v1, main_v34]
theorem hostOps0_3_writes : (hostOps0_3 : List (HloOp τ sig (Elt F))).Forall fun op => op.writes ⊆ (hostOps0_3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

theorem hostOps0_4_fresh : (hostOps0_4 : List (HloOp τ sig (Elt F))).Forall fun op => op.fresh = ∅ := by
  simp only [List.Forall]; repeat' constructor
/-- The references `hostOps0_4`'s operations write. -/
abbrev hostOps0_4_W : List (Ref sig .tc) := [main_v35, main_v36, main_c_9, main_v37, main_v38, main_c_10, main_v39, main_v40, main_v41, main_v42, main_v43, main_v44, main_cst_11, main_v45, main_v46, main_v47, main_v48, main_v49, main_v50, main_v51, main_c_12, main_v52, main_v53, main_c_13, main_v54, main_v55, main_v56, main_v57, main_v58, main_v59, main_cst_14, main_v60, main_v61, main_v62, main_v63, main_v64, main_v65, main_cst_15, main_v66, main_v67, main_v68, main_v69, main_c_16, main_v70, main_v71, main_c_17, main_v72, main_v73, main_v74, main_v75, main_v76, main_v77, main_cst_18, main_v78, main_v79, main_v80, main_v81, main_v82, main_v83, main_cst_19, main_v84, main_v85, main_v86, main_v87, main_c_20, main_v88, main_v89, main_c_21, main_v90, main_v91, main_v92, main_v93, main_v94, main_v95, main_cst_22, main_v96, main_v97, main_v98, main_v99, main_v100, main_v101, main_cst_23, main_v102, main_v103, main_v104]
theorem hostOps0_4_writes : (hostOps0_4 : List (HloOp τ sig (Elt F))).Forall fun op => op.writes ⊆ (hostOps0_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v106, main_c_24, main_v107, main_v108, main_c_25, main_v109, main_v110, main_v111, main_v112, main_v113, main_v114, main_v115, main_cst_26, main_v116, main_v117, main_v118, main_v119, main_v120, main_v121, main_v122, main_v123, main_c_27, main_v124, main_v125, main_c_28, main_v126, main_v127, main_v128, main_v129, main_v130, main_v131, main_v132, main_cst_29, main_v133, main_v134, main_v135, main_v136, main_v137, main_v138, main_v139, main_cst_30, main_v140, main_v141, main_v142, main_v143, main_c_31, main_v144, main_v145, main_c_32, main_v146, main_v147, main_v148, main_v149, main_v150, main_v151, main_v152, main_cst_33, main_v153, main_v154, main_v155, main_v156, main_v157, main_v158, main_v159, main_cst_34, main_v160, main_v161, main_v162, main_v163, main_c_35, main_v164, main_v165, main_c_36, main_v166, main_v167, main_v168, main_v169, main_v170, main_v171, main_v172, main_cst_37, main_v173, main_v174, main_v175, main_v176, main_v177, main_v178, main_v179, main_cst_38, main_v180, main_v181, main_v182]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v184]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

/-! ## A buffer no segment writes keeps its launch contents -/

include h0 in
/-- Region 0 changes only its output window's array: an input window's array is never written back, and a buffer
    that is no window's array bypasses the region. -/
theorem W6_kept (c : Dev nD) (r : Ref sig .tc) (hr : r ≠ main_v105) :
    W6 D0 m ρ c (Proc.devRef .tc r) = W5 m ρ c (Proc.devRef .tc r) := by
  by_cases h : ∃ w, Pipeline.arrRef spec0 w = r
  · obtain ⟨w, rfl⟩ := h
    have key : ∀ w : Fin cfg0.W, Pipeline.arrRef spec0 w ≠ main_v105 → (cfg0.win w).isOut = false := by decide
    rw [W6_arr]
    exact ((D0 (V5 m ρ) c).arrAt_in w (key w hr) _).trans (h0.A_eq _ c w)
  · exact W6_of_ne D0 m ρ c r fun w e => h ⟨w, e⟩

include h1 in
/-- Region 1 changes only its output window's array: an input window's array is never written back, and a buffer
    that is no window's array bypasses the region. -/
theorem W8_kept (c : Dev nD) (r : Ref sig .tc) (hr : r ≠ main_v183) :
    W8 D0 D1 m ρ c (Proc.devRef .tc r) = W7 D0 m ρ c (Proc.devRef .tc r) := by
  by_cases h : ∃ w, Pipeline.arrRef spec1 w = r
  · obtain ⟨w, rfl⟩ := h
    have key : ∀ w : Fin cfg1.W, Pipeline.arrRef spec1 w ≠ main_v183 → (cfg1.win w).isOut = false := by decide
    rw [W8_arr]
    exact ((D1 (V7 D0 m ρ) c).arrAt_in w (key w hr) _).trans (h1.A_eq _ c w)
  · exact W8_of_ne D0 D1 m ρ c r fun w e => h ⟨w, e⟩

include h2 in
/-- Region 2 changes only its output window's array: an input window's array is never written back, and a buffer
    that is no window's array bypasses the region. -/
theorem W10_kept (c : Dev nD) (r : Ref sig .tc) (hr : r ≠ main_v185) :
    W10 D0 D1 D2 m ρ c (Proc.devRef .tc r) = W9 D0 D1 m ρ c (Proc.devRef .tc r) := by
  by_cases h : ∃ w, Pipeline.arrRef spec2 w = r
  · obtain ⟨w, rfl⟩ := h
    have key : ∀ w : Fin cfg2.W, Pipeline.arrRef spec2 w ≠ main_v185 → (cfg2.win w).isOut = false := by decide
    rw [W10_arr]
    exact ((D2 (V9 D0 D1 m ρ) c).arrAt_in w (key w hr) _).trans (h2.A_eq _ c w)
  · exact W10_of_ne D0 D1 D2 m ρ c r fun w e => h ⟨w, e⟩

include h0 h1 h2 in
/-- A reference that no host stretch writes and that is no kernel's output array holds its launch contents at the end. -/
theorem kept (c : Dev nD) (r : Ref sig .tc)
    (hr0 : r ∉ hostOps0_W) (hr1 : r ∉ hostOps0_1_W) (hr2 : r ∉ hostOps0_2_W) (hr3 : r ∉ hostOps0_3_W) (hr4 : r ∉ hostOps0_4_W)
    (hr5 : r ∉ hostOps1_W) (hr6 : r ∉ hostOps2_W) (ho0 : r ≠ main_v105) (ho1 : r ≠ main_v183) (ho2 : r ≠ main_v185) :
    W10 D0 D1 D2 m ρ c (Proc.devRef .tc r) = m ((c : Thread nD τ).loc r) :=
  (W10_kept D0 D1 D2 h2 m ρ c r ho2).trans <|
  (StableHlo.after_of_writes_sub hostOps2 _ hostOps2_writes hr6).trans <|
  (W8_kept D0 D1 h1 m ρ c r ho1).trans <|
  (StableHlo.after_of_writes_sub hostOps1 _ hostOps1_writes hr5).trans <|
  (W6_kept D0 h0 m ρ c r ho0).trans <|
  (StableHlo.after_of_writes_sub hostOps0_4 _ hostOps0_4_writes hr4).trans <|
  (StableHlo.after_of_writes_sub hostOps0_3 _ hostOps0_3_writes hr3).trans <|
  (StableHlo.after_of_writes_sub hostOps0_2 _ hostOps0_2_writes hr2).trans <|
  (StableHlo.after_of_writes_sub hostOps0_1 _ hostOps0_1_writes hr1).trans <|
  (StableHlo.after_of_writes_sub hostOps0 _ hostOps0_writes hr0).trans rfl

include h0 h1 h2 in
/-- Argument 0 ends as launched. -/
theorem W10_main_arg0 (c : Dev nD) : W10 D0 D1 D2 m ρ c (Proc.devRef .tc main_arg0) = m ((c : Thread nD τ).loc main_arg0) :=
  kept D0 D1 D2 h0 h1 h2 m ρ c main_arg0 (by decide) (by decide) (by decide) (by decide) (by decide) (by decide) (by decide) (by decide) (by decide) (by decide)

include h0 h1 h2 in
/-- Argument 1 ends as launched. -/
theorem W10_main_arg1 (c : Dev nD) : W10 D0 D1 D2 m ρ c (Proc.devRef .tc main_arg1) = m ((c : Thread nD τ).loc main_arg1) :=
  kept D0 D1 D2 h0 h1 h2 m ρ c main_arg1 (by decide) (by decide) (by decide) (by decide) (by decide) (by decide) (by decide) (by decide) (by decide) (by decide)

include h0 h1 h2 in
/-- Argument 2 ends as launched. -/
theorem W10_main_arg2 (c : Dev nD) : W10 D0 D1 D2 m ρ c (Proc.devRef .tc main_arg2) = m ((c : Thread nD τ).loc main_arg2) :=
  kept D0 D1 D2 h0 h1 h2 m ρ c main_arg2 (by decide) (by decide) (by decide) (by decide) (by decide) (by decide) (by decide) (by decide) (by decide) (by decide)

include h0 h1 h2 in
/-- Argument 3 ends as launched. -/
theorem W10_main_arg3 (c : Dev nD) : W10 D0 D1 D2 m ρ c (Proc.devRef .tc main_arg3) = m ((c : Thread nD τ).loc main_arg3) :=
  kept D0 D1 D2 h0 h1 h2 m ρ c main_arg3 (by decide) (by decide) (by decide) (by decide) (by decide) (by decide) (by decide) (by decide) (by decide) (by decide)

include h0 h1 h2 in
/-- Argument 4 ends as launched. -/
theorem W10_main_arg4 (c : Dev nD) : W10 D0 D1 D2 m ρ c (Proc.devRef .tc main_arg4) = m ((c : Thread nD τ).loc main_arg4) :=
  kept D0 D1 D2 h0 h1 h2 m ρ c main_arg4 (by decide) (by decide) (by decide) (by decide) (by decide) (by decide) (by decide) (by decide) (by decide) (by decide)

include h0 h1 h2 in
/-- Argument 5 ends as launched. -/
theorem W10_main_arg5 (c : Dev nD) : W10 D0 D1 D2 m ρ c (Proc.devRef .tc main_arg5) = m ((c : Thread nD τ).loc main_arg5) :=
  kept D0 D1 D2 h0 h1 h2 m ρ c main_arg5 (by decide) (by decide) (by decide) (by decide) (by decide) (by decide) (by decide) (by decide) (by decide) (by decide)

include h0 h1 h2 in
/-- Argument 6 ends as launched. -/
theorem W10_main_arg6 (c : Dev nD) : W10 D0 D1 D2 m ρ c (Proc.devRef .tc main_arg6) = m ((c : Thread nD τ).loc main_arg6) :=
  kept D0 D1 D2 h0 h1 h2 m ρ c main_arg6 (by decide) (by decide) (by decide) (by decide) (by decide) (by decide) (by decide) (by decide) (by decide) (by decide)

include h0 h1 h2 in
/-- Argument 7 ends as launched. -/
theorem W10_main_arg7 (c : Dev nD) : W10 D0 D1 D2 m ρ c (Proc.devRef .tc main_arg7) = m ((c : Thread nD τ).loc main_arg7) :=
  kept D0 D1 D2 h0 h1 h2 m ρ c main_arg7 (by decide) (by decide) (by decide) (by decide) (by decide) (by decide) (by decide) (by decide) (by decide) (by decide)

include h0 h1 h2 in
/-- Argument 8 ends as launched. -/
theorem W10_main_arg8 (c : Dev nD) : W10 D0 D1 D2 m ρ c (Proc.devRef .tc main_arg8) = m ((c : Thread nD τ).loc main_arg8) :=
  kept D0 D1 D2 h0 h1 h2 m ρ c main_arg8 (by decide) (by decide) (by decide) (by decide) (by decide) (by decide) (by decide) (by decide) (by decide) (by decide)

include h0 h1 h2 in
/-- Argument 9 ends as launched. -/
theorem W10_main_arg9 (c : Dev nD) : W10 D0 D1 D2 m ρ c (Proc.devRef .tc main_arg9) = m ((c : Thread nD τ).loc main_arg9) :=
  kept D0 D1 D2 h0 h1 h2 m ρ c main_arg9 (by decide) (by decide) (by decide) (by decide) (by decide) (by decide) (by decide) (by decide) (by decide) (by decide)

include h0 h1 h2 in
/-- Argument 10 ends as launched. -/
theorem W10_main_arg10 (c : Dev nD) : W10 D0 D1 D2 m ρ c (Proc.devRef .tc main_arg10) = m ((c : Thread nD τ).loc main_arg10) :=
  kept D0 D1 D2 h0 h1 h2 m ρ c main_arg10 (by decide) (by decide) (by decide) (by decide) (by decide) (by decide) (by decide) (by decide) (by decide) (by decide)

include h0 h1 h2 in
/-- Argument 11 ends as launched. -/
theorem W10_main_arg11 (c : Dev nD) : W10 D0 D1 D2 m ρ c (Proc.devRef .tc main_arg11) = m ((c : Thread nD τ).loc main_arg11) :=
  kept D0 D1 D2 h0 h1 h2 m ρ c main_arg11 (by decide) (by decide) (by decide) (by decide) (by decide) (by decide) (by decide) (by decide) (by decide) (by decide)

/-- The result array is what the last kernel's write-backs leave in its output window's array. -/
theorem W10_result (c : Dev nD) :
    W10 D0 D1 D2 m ρ c (Proc.devRef .tc main_v185) = (D2 (V9 D0 D1 m ρ) c).arrAt 5 cfg2.N :=
  W10_arr D0 D1 D2 m ρ c 5

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => D0 (V5 m ρ) c
  | ⟨1, _⟩ => fun c => D1 (V7 D0 m ρ) c
  | ⟨2, _⟩ => fun c => D2 (V9 D0 D1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W10 D0 D1 D2 m ρ c) ∗ ∃ r, prngReg c r)

/-! ## The regions as segments -/

include h0 in
/-- Region 0's body owes nothing at any point, and records every cell. -/
theorem pd_owed0 (c : Dev nD) (t) : (pdats D0 D1 D2 m ρ 0 c).owed t = 0 := h0.owed_eq (V5 m ρ) c t
include h0 in
theorem pd_rec0 (c : Dev nD) (t) : (pdats D0 D1 D2 m ρ 0 c).recorded t = Set.univ := h0.recorded_eq (V5 m ρ) c t

set_option backward.isDefEq.respectTransparency.types false in
/-- Region 0 as a segment: entered from every unscoped buffer at `W5`, left at `W6`. Its arrays are split out of
    the unscoped buffers and put back at the exit contents; the generator register goes into the region's invariant and
    comes back; nothing is owed; the kernel has no semaphore of its own. -/
def reg0 : Pipeline.RegionSeg (pcfgs (F := F)) adm (pdats D0 D1 D2 m ρ) () defs₀ 𝒱₀ L lv 0 where
  win := launch0.win.to₀
  block_pos := launch0.block_pos
  stage_whole := launch0.stage_whole
  K := PEmpty
  osem k := k.elim
  ho := Pipeline.OwnSemFacts.none _
  hbody c := (h0.body (V5 m ρ) c).loose
  hwaits := Pipeline.hwaits_of_owed_zero _ _ _ _ L lv 0 fun c t => h0.owed_eq (V5 m ρ) c t
  pre c := iprop(StableHlo.held (c : Thread nD τ) (Pipeline.ucRefs τ sig) (W5 m ρ c) ∗ R c)
  post c := iprop(StableHlo.held (c : Thread nD τ) (Pipeline.ucRefs τ sig) (W6 D0 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats D0 D1 D2 m ρ) launch0.win launch0.arr_whole c
      ((pdats D0 D1 D2 m ρ 0 c).share_full fun w => h0.q_eq (V5 m ρ) c w) (V5 m ρ c) fun w => h0.A_eq (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd_owed0 D0 D1 D2 h0 m ρ c]
      icases HO with ⟨%W, HO⟩; iexists W; isplitr; · ipureintro; exact fun x _ => Or.inl ((pd_rec0 D0 D1 D2 h0 m ρ c 0).symm ▸ Set.mem_univ x)
      iexact HO
    isplitl [Hp]; · iexact Hp
    iexact Hrest
  hin c := h0.hin (V5 m ρ) c
  hout c := h0.hout (V5 m ρ) c
  hexit c := by
    have hjoin := Pipeline.unscopedBufs_of_arrays (p := 0) (pcfgs (F := F)) adm (Ix := Unit) (Name := ℕ) (U := UR sig nD τ) (Lvl := ℕ)
      launch0.win launch0.arr_whole c (pdats D0 D1 D2 m ρ) ((pdats D0 D1 D2 m ρ 0 c).share_full fun w => h0.q_eq (V5 m ρ) c w)
      (V5 m ρ c) (V6 D0 m ρ c) ((pdats D0 D1 D2 m ρ 0 c).arrAt · cfg0.N) (hF0 D0 m ρ c) (hrest0 D0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd_owed0 D0 D1 D2 h0 m ρ c]
    icases HO with ⟨%W, -, HO⟩; iexists W; iexact HO

include h1 in
/-- Region 1's body owes nothing at any point, and records every cell. -/
theorem pd_owed1 (c : Dev nD) (t) : (pdats D0 D1 D2 m ρ 1 c).owed t = 0 := h1.owed_eq (V7 D0 m ρ) c t
include h1 in
theorem pd_rec1 (c : Dev nD) (t) : (pdats D0 D1 D2 m ρ 1 c).recorded t = Set.univ := h1.recorded_eq (V7 D0 m ρ) c t

set_option backward.isDefEq.respectTransparency.types false in
/-- Region 1 as a segment: entered from every unscoped buffer at `W7`, left at `W8`. Its arrays are split out of
    the unscoped buffers and put back at the exit contents; the generator register goes into the region's invariant and
    comes back; nothing is owed; the kernel has no semaphore of its own. -/
def reg1 : Pipeline.RegionSeg (pcfgs (F := F)) adm (pdats D0 D1 D2 m ρ) () defs₀ 𝒱₀ L lv 1 where
  win := launch1.win.to₀
  block_pos := launch1.block_pos
  stage_whole := launch1.stage_whole
  K := PEmpty
  osem k := k.elim
  ho := Pipeline.OwnSemFacts.none _
  hbody c := (h1.body (V7 D0 m ρ) c).loose
  hwaits := Pipeline.hwaits_of_owed_zero _ _ _ _ L lv 1 fun c t => h1.owed_eq (V7 D0 m ρ) c t
  pre c := iprop(StableHlo.held (c : Thread nD τ) (Pipeline.ucRefs τ sig) (W7 D0 m ρ c) ∗ R c)
  post c := iprop(StableHlo.held (c : Thread nD τ) (Pipeline.ucRefs τ sig) (W8 D0 D1 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 D0 m ρ c)
  hentry c := by
    rw [Pipeline.ownSems0_none]
    have hsplit := Pipeline.arrays_of_unscopedBufs (p := 1) (pcfgs (F := F)) adm (pdats D0 D1 D2 m ρ) launch1.win launch1.arr_whole c
      ((pdats D0 D1 D2 m ρ 1 c).share_full fun w => h1.q_eq (V7 D0 m ρ) c w) (V7 D0 m ρ c) fun w => h1.A_eq (V7 D0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd_owed1 D0 D1 D2 h1 m ρ c]
      icases HO with ⟨%W, HO⟩; iexists W; isplitr; · ipureintro; exact fun x _ => Or.inl ((pd_rec1 D0 D1 D2 h1 m ρ c 0).symm ▸ Set.mem_univ x)
      iexact HO
    isplitl [Hp]; · iexact Hp
    iexact Hrest
  hin c := h1.hin (V7 D0 m ρ) c
  hout c := h1.hout (V7 D0 m ρ) c
  hexit c := by
    have hjoin := Pipeline.unscopedBufs_of_arrays (p := 1) (pcfgs (F := F)) adm (Ix := Unit) (Name := ℕ) (U := UR sig nD τ) (Lvl := ℕ)
      launch1.win launch1.arr_whole c (pdats D0 D1 D2 m ρ) ((pdats D0 D1 D2 m ρ 1 c).share_full fun w => h1.q_eq (V7 D0 m ρ) c w)
      (V7 D0 m ρ c) (V8 D0 D1 m ρ c) ((pdats D0 D1 D2 m ρ 1 c).arrAt · cfg1.N) (hF1 D0 D1 m ρ c) (hrest1 D0 D1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd_owed1 D0 D1 D2 h1 m ρ c]
    icases HO with ⟨%W, -, HO⟩; iexists W; iexact HO

include h2 in
/-- Region 2's body owes nothing at any point, and records every cell. -/
theorem pd_owed2 (c : Dev nD) (t) : (pdats D0 D1 D2 m ρ 2 c).owed t = 0 := h2.owed_eq (V9 D0 D1 m ρ) c t
include h2 in
theorem pd_rec2 (c : Dev nD) (t) : (pdats D0 D1 D2 m ρ 2 c).recorded t = Set.univ := h2.recorded_eq (V9 D0 D1 m ρ) c t

set_option backward.isDefEq.respectTransparency.types false in
/-- Region 2 as a segment: entered from every unscoped buffer at `W9`, left at `W10`. Its arrays are split out of
    the unscoped buffers and put back at the exit contents; the generator register goes into the region's invariant and
    comes back; nothing is owed; the kernel has no semaphore of its own. -/
def reg2 : Pipeline.RegionSeg (pcfgs (F := F)) adm (pdats D0 D1 D2 m ρ) () defs₀ 𝒱₀ L lv 2 where
  win := launch2.win.to₀
  block_pos := launch2.block_pos
  stage_whole := launch2.stage_whole
  K := PEmpty
  osem k := k.elim
  ho := Pipeline.OwnSemFacts.none _
  hbody c := (h2.body (V9 D0 D1 m ρ) c).loose
  hwaits := Pipeline.hwaits_of_owed_zero _ _ _ _ L lv 2 fun c t => h2.owed_eq (V9 D0 D1 m ρ) c t
  pre c := iprop(StableHlo.held (c : Thread nD τ) (Pipeline.ucRefs τ sig) (W9 D0 D1 m ρ c) ∗ R c)
  post c := iprop(Tₙ D0 D1 D2 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 D0 D1 m ρ c)
  hentry c := by
    rw [Pipeline.ownSems0_none]
    have hsplit := Pipeline.arrays_of_unscopedBufs (p := 2) (pcfgs (F := F)) adm (pdats D0 D1 D2 m ρ) launch2.win launch2.arr_whole c
      ((pdats D0 D1 D2 m ρ 2 c).share_full fun w => h2.q_eq (V9 D0 D1 m ρ) c w) (V9 D0 D1 m ρ c) fun w => h2.A_eq (V9 D0 D1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd_owed2 D0 D1 D2 h2 m ρ c]
      icases HO with ⟨%W, HO⟩; iexists W; isplitr; · ipureintro; exact fun x _ => Or.inl ((pd_rec2 D0 D1 D2 h2 m ρ c 0).symm ▸ Set.mem_univ x)
      iexact HO
    isplitl [Hp]; · iexact Hp
    iexact Hrest
  hin c := h2.hin (V9 D0 D1 m ρ) c
  hout c := h2.hout (V9 D0 D1 m ρ) c
  hexit c := by
    have hjoin := Pipeline.unscopedBufs_of_arrays (p := 2) (pcfgs (F := F)) adm (Ix := Unit) (Name := ℕ) (U := UR sig nD τ) (Lvl := ℕ)
      launch2.win launch2.arr_whole c (pdats D0 D1 D2 m ρ) ((pdats D0 D1 D2 m ρ 2 c).share_full fun w => h2.q_eq (V9 D0 D1 m ρ) c w)
      (V9 D0 D1 m ρ c) (V10 D0 D1 D2 m ρ c) ((pdats D0 D1 D2 m ρ 2 c).arrAt · cfg2.N) (hF2 D0 D1 D2 m ρ c) (hrest2 D0 D1 D2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [pd_owed2 D0 D1 D2 h2 m ρ c]
    icases HO with ⟨%W, -, HO⟩; iexists W; iexact HO

/-! ## The program as segments, and the launch -/

/-- The ten segments in order. -/
abbrev segs : List (Pipeline.Seg (pcfgs (F := F)) adm (pdats D0 D1 D2 m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 D0 D1 D2 h0 m ρ),
    .host (hseg hostOps1 hostOps1_sub hostOps1_fresh (W6 D0 m ρ)),
    .region (reg1 D0 D1 D2 h1 m ρ),
    .host (hseg hostOps2 hostOps2_sub hostOps2_fresh (W8 D0 D1 m ρ)),
    .region (reg2 D0 D1 D2 h2 m ρ) ]
/-- The program IS the run of the segments. -/
theorem main_run (c : Dev nD) : main (F := F) c = Pipeline.Seg.run (segs D0 D1 D2 h0 h1 h2 m ρ) := (main_chain c).trans (by chain_rfl)

set_option backward.isDefEq.respectTransparency.types false in
include h0 h1 h2 in
/-- THE RUN: from any memory with zero counters, every weakly fair execution of the program on the TensorCores
    terminates, nothing faulting, and in every final state each core's unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 D0 D1 D2 m ρ c b) :=
  Pipeline.θ_run_regions_kit (pcfgs (F := F)) adm (pdats D0 D1 D2 m ρ) () cellOf_inj emb₁ defs₀ 𝒱₀ L lv m ρ main (segs D0 D1 D2 h0 h1 h2 m ρ)
    (fun c Q => by rw [main_run D0 D1 D2 h0 h1 h2 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ D0 D1 D2 m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 D0 D1 D2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 D0 D1 D2 m ρ c) s')
      isplitl [Hh] <;> iassumption)
    (hQ := fun s h => h)

end Run

end Cert.KernelIdeal.Hand

end
-- ==== Proof.KI.Region0.lean ====
import proofs.«121312_j57732950393207_1_alg».proof.Proof.Gen.KernelIdeal.Launch
import proofs.«121312_j57732950393207_1_alg».proof.Proof.Gen.KernelIdeal.Skeleton
import proofs.«121312_j57732950393207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The region half of pallas_call 0 (a Chebyshev combination: five term blocks, each multiplied by its
    coefficient slab and summed, plus a bias, clamped below at zero), stated at a parameter `V`: the TensorCore's
    buffer contents when the region is entered. Each window's block at a point, what the body leaves in the
    output window's buffer as the canon of its one store, the body's triple, the proof data and the body
    obligation. -/

-- membership in a rectangle of 2048 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved, so the block the buffer still holds is this point's. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index
    has not moved, so the block the buffer still holds is this point's. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block index
    has not moved, so the block the buffer still holds is this point's. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block index
    has not moved, so the block the buffer still holds is this point's. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block index
    has not moved, so the block the buffer still holds is this point's. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block index
    has not moved, so the block the buffer still holds is this point's. The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): unfetched, the block index
    has not moved, so the block the buffer still holds is this point's. The window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A whole term block; -/
abbrev r0_x : Rect S2048x1 := Rect.unit (s := S2048x1) ![0, 0] S2048x1.size inb_S2048x1_S2048x1_0_0
/-- the five coefficient slabs of window 5, one per Chebyshev term; -/
abbrev r0_c0 : Rect S5x1x8 := Rect.unit (s := S5x1x8) ![0, 0, 0] S1x1x8.size inb_S5x1x8_S1x1x8_0_0_0
abbrev r0_c1 : Rect S5x1x8 := Rect.unit (s := S5x1x8) ![1, 0, 0] S1x1x8.size inb_S5x1x8_S1x1x8_1_0_0
abbrev r0_c2 : Rect S5x1x8 := Rect.unit (s := S5x1x8) ![2, 0, 0] S1x1x8.size inb_S5x1x8_S1x1x8_2_0_0
abbrev r0_c3 : Rect S5x1x8 := Rect.unit (s := S5x1x8) ![3, 0, 0] S1x1x8.size inb_S5x1x8_S1x1x8_3_0_0
abbrev r0_c4 : Rect S5x1x8 := Rect.unit (s := S5x1x8) ![4, 0, 0] S1x1x8.size inb_S5x1x8_S1x1x8_4_0_0
/-- the bias; -/
abbrev r0_b : Rect S8 := Rect.unit (s := S8) ![0] S8.size inb_S8_S8_0
/-- the whole output block. -/
abbrev r0_y : Rect S2048x8 := Rect.unit (s := S2048x8) ![0, 0] S2048x8.size inb_S2048x8_S2048x8_0_0

/-! ## What the body leaves in the output window's buffer -/

/-- Window 7's staging buffer after the body, from the input windows' blocks: its one store as a piece. The stored
    value is the sum over the five terms of (term block) · (coefficient slab), plus the bias, clamped below at zero:
    the first four products are the part's payload, the fifth product, the bias and the clamp the kernel's own. -/
def out0_7 (x0 : Vec F S2048x1 .f32) (x1 : Vec F S2048x1 .f32) (x2 : Vec F S2048x1 .f32) (x3 : Vec F S2048x1 .f32) (x4 : Vec F S2048x1 .f32) (x5 : Vec F S5x1x8 .f32) (x6 : Vec F S8 .f32) : Vec F S2048x8 .f32 :=
  View.canon [⟨r0_y, k0_pay1 (k0_pay2 (View.ld x0 r0_x) (View.ld x5 r0_c0) (View.ld x1 r0_x) (View.ld x5 r0_c1) (View.ld x2 r0_x) (View.ld x5 r0_c2) (View.ld x3 r0_x) (View.ld x5 r0_c3)) (View.ld x4 r0_x) (View.ld x5 r0_c4) (View.ld x6 r0_b)⟩]

/-- The one store is of the whole block (checked by evaluation), so it covers it. -/
theorem cover0_7 (p0 : Vec F S2048x8 .f32) (y : S2048x8.Idx) :
    ∃ pc ∈ ([⟨r0_y, p0⟩] : List (View.Piece (Elt F) S2048x8 .f32)), y ∈ pc.1.set :=
  View.cover_of_tiled [⟨r0_y, p0⟩] S2048x8.size (by rfl) y

/-! ## The body's triple -/

set_option maxHeartbeats 1000000 in
/-- The kernel body on whole staging memrefs, the inputs' at read contents `xW` and the output's at anything, runs to
    the continuation holding the inputs' as they were and the output's at `out0_7` of the inputs': the printed
    functions are their skeletons, which are run statement by statement, through the part call. The load of the
    output buffer just before the store reads whatever the buffer held and is used by nothing. -/
theorem sound_kernel0 (c : Dev nD) (E : Set ℕ) (i : grid0.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S5x1x8 .f32) (harg6 : arg6.IsWhole) (arg7 : Memref sig .tc .vmem S8 .f32) (harg7 : arg7.IsWhole) (arg8 : Memref sig .tc .vmem S2048x8 .f32) (harg8 : arg8.IsWhole)
    (x0 : Vec F S2048x1 .f32) (x1 : Vec F S2048x1 .f32) (x2 : Vec F S2048x1 .f32) (x3 : Vec F S2048x1 .f32) (x4 : Vec F S2048x1 .f32) (x5 : Vec F S5x1x8 .f32) (x6 : Vec F S8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- The proof data of pipeline 0 on core `c`: the arrays as the region finds them (`V`); after the body at
    point `t` each input's buffer at its block and the output's at `out0_7` of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## What the run's assembly takes of the proof data -/

/-- Every window is held at the full share; -/
theorem q_eq0 (c : Dev nD) (w : Fin cfg0.W) : (dat0 V c).q w = fullShare := rfl
/-- nothing is owed at any point; -/
theorem owed_eq0 (c : Dev nD) (t : Fin (cfg0.N + 1)) : (dat0 V c).owed t = 0 := rfl
/-- no bound is put on the pairs the core's waits have recorded. -/
theorem recorded_eq0 (c : Dev nD) (t : Fin (cfg0.N + 1)) : (dat0 V c).recorded t = Set.univ := rfl

/-- The invariant at the first point is made of the generator register and the scoped buffers no window stages: the
    pipeline has no prefetched table, so that conjunct is dropped. -/
theorem hin0 (c : Dev nD) :
    (iprop((∃ r, prngReg c r) ∗ Pipeline.prefHeld (pcfgs (F := F) 0).pre c (fun _ => fullShare) ((cfgs 0).toPCfg_adm : (pcfgs (F := F) 0).Adm).1
      ∗ Pipeline.scopedRest spec0 c) : sProp 𝕄) ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

/-- The invariant at the last point gives them back; the kernel has no semaphore of its own, so none is held at
    zero. -/
theorem hout0 (c : Dev nD) :
    (dat0 V c).Φ (Fin.last cfg0.N) ⊢ (iprop((∃ r, prngReg c r) ∗ Pipeline.ownSems0 (fun k : PEmpty => k.elim) c
      ∗ Pipeline.scopedRest spec0 c) : sProp 𝕄) := by
  rw [Pipeline.ownSems0_none, show (dat0 V c).Φ (Fin.last _) = Pipeline.ΦA spec0 c from rfl]; unfold Pipeline.ΦA
  iintro ⟨Hr, Hp⟩
  isplitl [Hp]; · iexact Hp
  isplitr; · iempintro
  iexact Hr

end Cert.KernelIdeal.Hand

end
-- ==== Proof.KI.Region1.lean ====
import proofs.«121312_j57732950393207_1_alg».proof.Proof.Gen.KernelIdeal.Launch
import proofs.«121312_j57732950393207_1_alg».proof.Proof.Gen.KernelIdeal.Skeleton
import proofs.«121312_j57732950393207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The region half of pallas_call 1 (a Chebyshev combination: five term blocks, each multiplied by its
    coefficient slab and summed, plus a bias, clamped below at zero), stated at a parameter `V`: the TensorCore's
    buffer contents when the region is entered. Each window's block at a point, what the body leaves in the
    output window's buffer as the canon of its one store, the body's triple, the proof data and the body
    obligation. -/

-- membership in a rectangle of 2048 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved, so the block the buffer still holds is this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved, so the block the buffer still holds is this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved, so the block the buffer still holds is this point's. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved, so the block the buffer still holds is this point's. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block index
    has not moved, so the block the buffer still holds is this point's. The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block index
    has not moved, so the block the buffer still holds is this point's. The window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): unfetched, the block index
    has not moved, so the block the buffer still holds is this point's. The window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- A whole term block; -/
abbrev r1_x : Rect S2048x8 := Rect.unit (s := S2048x8) ![0, 0] S2048x8.size inb_S2048x8_S2048x8_0_0
/-- the five coefficient slabs of window 5, one per Chebyshev term; -/
abbrev r1_c0 : Rect S5x8x8 := Rect.unit (s := S5x8x8) ![0, 0, 0] S1x8x8.size inb_S5x8x8_S1x8x8_0_0_0
abbrev r1_c1 : Rect S5x8x8 := Rect.unit (s := S5x8x8) ![1, 0, 0] S1x8x8.size inb_S5x8x8_S1x8x8_1_0_0
abbrev r1_c2 : Rect S5x8x8 := Rect.unit (s := S5x8x8) ![2, 0, 0] S1x8x8.size inb_S5x8x8_S1x8x8_2_0_0
abbrev r1_c3 : Rect S5x8x8 := Rect.unit (s := S5x8x8) ![3, 0, 0] S1x8x8.size inb_S5x8x8_S1x8x8_3_0_0
abbrev r1_c4 : Rect S5x8x8 := Rect.unit (s := S5x8x8) ![4, 0, 0] S1x8x8.size inb_S5x8x8_S1x8x8_4_0_0
/-- the bias; -/
abbrev r1_b : Rect S8 := Rect.unit (s := S8) ![0] S8.size inb_S8_S8_0
/-- the whole output block. -/
abbrev r1_y : Rect S2048x8 := Rect.unit (s := S2048x8) ![0, 0] S2048x8.size inb_S2048x8_S2048x8_0_0

/-! ## What the body leaves in the output window's buffer -/

/-- Window 7's staging buffer after the body, from the input windows' blocks: its one store as a piece. The stored
    value is the sum over the five terms of (term block) · (coefficient slab), plus the bias, clamped below at zero:
    the first four products are the part's payload, the fifth product, the bias and the clamp the kernel's own. -/
def out1_7 (x0 : Vec F S2048x8 .f32) (x1 : Vec F S2048x8 .f32) (x2 : Vec F S2048x8 .f32) (x3 : Vec F S2048x8 .f32) (x4 : Vec F S2048x8 .f32) (x5 : Vec F S5x8x8 .f32) (x6 : Vec F S8 .f32) : Vec F S2048x8 .f32 :=
  View.canon [⟨r1_y, k1_pay1 (k1_pay2 (View.ld x0 r1_x) (View.ld x5 r1_c0) (View.ld x1 r1_x) (View.ld x5 r1_c1) (View.ld x2 r1_x) (View.ld x5 r1_c2) (View.ld x3 r1_x) (View.ld x5 r1_c3)) (View.ld x4 r1_x) (View.ld x5 r1_c4) (View.ld x6 r1_b)⟩]

/-- The one store is of the whole block (checked by evaluation), so it covers it. -/
theorem cover1_7 (p0 : Vec F S2048x8 .f32) (y : S2048x8.Idx) :
    ∃ pc ∈ ([⟨r1_y, p0⟩] : List (View.Piece (Elt F) S2048x8 .f32)), y ∈ pc.1.set :=
  View.cover_of_tiled [⟨r1_y, p0⟩] S2048x8.size (by rfl) y

/-! ## The body's triple -/

set_option maxHeartbeats 1000000 in
/-- The kernel body on whole staging memrefs, the inputs' at read contents `xW` and the output's at anything, runs to
    the continuation holding the inputs' as they were and the output's at `out1_7` of the inputs': the printed
    functions are their skeletons, which are run statement by statement, through the part call. The load of the
    output buffer just before the store reads whatever the buffer held and is used by nothing. -/
theorem sound_kernel1 (c : Dev nD) (E : Set ℕ) (i : grid1.Coords) (arg1 : Memref sig .tc .vmem S2048x8 .f32) (harg1 : arg1.IsWhole) (arg2 : Memref sig .tc .vmem S2048x8 .f32) (harg2 : arg2.IsWhole) (arg3 : Memref sig .tc .vmem S2048x8 .f32) (harg3 : arg3.IsWhole) (arg4 : Memref sig .tc .vmem S2048x8 .f32) (harg4 : arg4.IsWhole) (arg5 : Memref sig .tc .vmem S2048x8 .f32) (harg5 : arg5.IsWhole) (arg6 : Memref sig .tc .vmem S5x8x8 .f32) (harg6 : arg6.IsWhole) (arg7 : Memref sig .tc .vmem S8 .f32) (harg7 : arg7.IsWhole) (arg8 : Memref sig .tc .vmem S2048x8 .f32) (harg8 : arg8.IsWhole)
    (x0 : Vec F S2048x8 .f32) (x1 : Vec F S2048x8 .f32) (x2 : Vec F S2048x8 .f32) (x3 : Vec F S2048x8 .f32) (x4 : Vec F S2048x8 .f32) (x5 : Vec F S5x8x8 .f32) (x6 : Vec F S8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The proof data of pipeline 1 on core `c`: the arrays as the region finds them (`V`); after the body at
    point `t` each input's buffer at its block and the output's at `out1_7` of the input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## What the run's assembly takes of the proof data -/

/-- Every window is held at the full share; -/
theorem q_eq1 (c : Dev nD) (w : Fin cfg1.W) : (dat1 V c).q w = fullShare := rfl
/-- nothing is owed at any point; -/
theorem owed_eq1 (c : Dev nD) (t : Fin (cfg1.N + 1)) : (dat1 V c).owed t = 0 := rfl
/-- no bound is put on the pairs the core's waits have recorded. -/
theorem recorded_eq1 (c : Dev nD) (t : Fin (cfg1.N + 1)) : (dat1 V c).recorded t = Set.univ := rfl

/-- The invariant at the first point is made of the generator register and the scoped buffers no window stages: the
    pipeline has no prefetched table, so that conjunct is dropped. -/
theorem hin1 (c : Dev nD) :
    (iprop((∃ r, prngReg c r) ∗ Pipeline.prefHeld (pcfgs (F := F) 1).pre c (fun _ => fullShare) ((cfgs 1).toPCfg_adm : (pcfgs (F := F) 1).Adm).1
      ∗ Pipeline.scopedRest spec1 c) : sProp 𝕄) ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

/-- The invariant at the last point gives them back; the kernel has no semaphore of its own, so none is held at
    zero. -/
theorem hout1 (c : Dev nD) :
    (dat1 V c).Φ (Fin.last cfg1.N) ⊢ (iprop((∃ r, prngReg c r) ∗ Pipeline.ownSems0 (fun k : PEmpty => k.elim) c
      ∗ Pipeline.scopedRest spec1 c) : sProp 𝕄) := by
  rw [Pipeline.ownSems0_none, show (dat1 V c).Φ (Fin.last _) = Pipeline.ΦA spec1 c from rfl]; unfold Pipeline.ΦA
  iintro ⟨Hr, Hp⟩
  isplitl [Hp]; · iexact Hp
  isplitr; · iempintro
  iexact Hr

end Cert.KernelIdeal.Hand

end
-- ==== Proof.KI.Region2Defs.lean ====
import proofs.«121312_j57732950393207_1_alg».proof.Proof.Gen.KernelIdeal.Launch
import proofs.«121312_j57732950393207_1_alg».proof.Proof.Gen.KernelIdeal.Skeleton
import proofs.«121312_j57732950393207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2 of @main: the MLP head `cc2_kernel` (pipeline 2), at the entry contents `V`

The grid has 32 points along the contraction axis. Windows 0 and 1 (a column block of the activations and the
matching row block of the first weight matrix) move at every point; windows 2, 3 and 4 (first bias, second weight
matrix, second bias) are fetched once; window 5 (the result) keeps block (0, 0) and is written back after the last
point only. A scratch accumulator is carried from point to point: zeroed at the first point, increased at every
point by the product of the two moving blocks, and read at the last point to form the result. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: an input not fetched at a point kept its
    block index, and the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: an input not fetched at a point kept its
    block index, and the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: an input not fetched at a point kept its
    block index, and the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: an input not fetched at a point kept its
    block index, and the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: an input not fetched at a point kept its
    block index, and the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_h : Rect S16x2048 := Rect.unit (s := S16x2048) ![0, 0] S16x2048.size inb_S16x2048_S16x2048_0_0
abbrev r2_w1 : Rect S2048x1000 := Rect.unit (s := S2048x1000) ![0, 0] S2048x1000.size inb_S2048x1000_S2048x1000_0_0
abbrev r2_b1 : Rect S1000 := Rect.unit (s := S1000) ![0] S1000.size inb_S1000_S1000_0
abbrev r2_w2 : Rect S1000x34 := Rect.unit (s := S1000x34) ![0, 0] S1000x34.size inb_S1000x34_S1000x34_0_0
abbrev r2_b2 : Rect S34 := Rect.unit (s := S34) ![0] S34.size inb_S34_S34_0
abbrev r2_o : Rect S16x34 := Rect.unit (s := S16x34) ![0, 0] S16x34.size inb_S16x34_S16x34_0_0
abbrev r2_s : Rect S16x1000 := Rect.unit (s := S16x1000) ![0, 0] S16x1000.size inb_S16x1000_S16x1000_0_0

/-! ## What the body leaves in the accumulator and in the result's buffer -/

/-- The accumulator after the first point's reset: its one store of zeros. -/
def zero2 : Vec F S16x1000 .f32 :=
  View.canon [⟨r2_s, k2_pay1 (F := F)⟩]

/-- The accumulator after a point's update, from the two moving blocks and what it held: its one store. -/
def step2 (h : Vec F S16x2048 .f32) (w1 : Vec F S2048x1000 .f32) (a : Vec F S16x1000 .f32) : Vec F S16x1000 .f32 :=
  View.canon [⟨r2_s, k2_pay2 (View.ld h r2_h) (View.ld w1 r2_w1) (View.ld a r2_s)⟩]

/-- The result's staging buffer after the last point, from the accumulator, the first bias, the second weight matrix
    and the second bias: its one store. -/
def out2_5 (a : Vec F S16x1000 .f32) (b1 : Vec F S1000 .f32) (w2 : Vec F S1000x34 .f32) (b2 : Vec F S34 .f32) : Vec F S16x34 .f32 :=
  View.canon [⟨r2_o, k2_pay3 (View.ld a r2_s) (View.ld b1 r2_b1) (View.ld w2 r2_w2) (View.ld b2 r2_b2)⟩]

/-- A store of the whole accumulator covers it (checked by evaluation). -/
theorem cover2_s (p0 : Vec F S16x1000 .f32) (y : S16x1000.Idx) :
    ∃ pc ∈ ([⟨r2_s, p0⟩] : List (View.Piece (Elt F) S16x1000 .f32)), y ∈ pc.1.set :=
  View.cover_of_tiled [⟨r2_s, p0⟩] S16x1000.size (by rfl) y

/-- A store of the whole result buffer covers it (checked by evaluation). -/
theorem cover2_5 (p0 : Vec F S16x34 .f32) (y : S16x34.Idx) :
    ∃ pc ∈ ([⟨r2_o, p0⟩] : List (View.Piece (Elt F) S16x34 .f32)), y ∈ pc.1.set :=
  View.cover_of_tiled [⟨r2_o, p0⟩] S16x34.size (by rfl) y

/-- THE ACCUMULATION. The accumulator after `k` points: zeros after the reset (which the first point makes before its
    own update), then one update per point over that point's blocks. -/
def acc2 (c : Dev nD) : ℕ → Vec F S16x1000 .f32
  | 0 => zero2
  | k + 1 => if h : k < cfg2.N then step2 (iblk2 V c 0 ⟨k, h⟩) (iblk2 V c 1 ⟨k, h⟩) (acc2 c k) else acc2 c k

theorem acc2_zero (c : Dev nD) : acc2 V c 0 = zero2 := rfl

/-- One more point: the update over that point's blocks. -/
theorem acc2_succ (c : Dev nD) (t : Fin cfg2.N) :
    acc2 V c (t.val + 1) = step2 (iblk2 V c 0 t) (iblk2 V c 1 t) (acc2 V c t.val) := by
  obtain ⟨k, h⟩ := t
  simp only [acc2, dif_pos h]

/-! ## The body's two branch conditions, in closed form over the grid -/

/-- The condition of the reset (`k == 0`), from the grid coordinates. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 32 = 0 :=
  (by decide +kernel : ∀ t : Fin grid2.N, cond2_0 (grid2.coords t) ↔ t.val % 32 = 0)

/-- The condition of the epilogue (`k == 31`), from the grid coordinates. -/
abbrev cond2_1 (i : grid2.Coords) : Prop := k2_cond2 i = 1#1
/-- It holds at the last point only. -/
theorem hcond2_1 : ∀ t : Fin cfg2.N, cond2_1 (grid2.coords t) ↔ t.val % 32 = 31 :=
  (by decide +kernel : ∀ t : Fin grid2.N, cond2_1 (grid2.coords t) ↔ t.val % 32 = 31)

/-! ## Where the result window is idle -/

/-- Away from the last point the result window is idle (the body stores nothing into it) -/
theorem idleAt2_5 : ∀ t : Fin cfg2.N, ¬cond2_1 (grid2.coords t) → cfg2.idle 5 (grid2.coords t) = true := by decide +kernel
/-- and is not written back; -/
theorem noFlush2_5 : ∀ t : Fin cfg2.N, ¬cond2_1 (grid2.coords t) → (cfg2.win 5).flush t = false := by decide +kernel
/-- at the last point it is live. -/
theorem liveAt2_5 : ∀ t : Fin cfg2.N, cond2_1 (grid2.coords t) → cfg2.idle 5 (grid2.coords t) = false := by decide +kernel

/-! ## The invariant: the accumulator's contents, point by point -/

/-- The scratch operand: a whole scoped buffer of the kernel's own, passed beside the windows. -/
abbrev scM2 : Memref sig .tc .vmem S16x1000 .f32 := Memref.whole cc2_scratch0

/-- The region invariant before position `n`: the accumulator — at anything before the first point, afterwards at what
    `n` points leave in it —, every other scoped buffer that is no staging buffer of this call at some contents, and
    the generator register at some state. -/
def Phi2 (c : Dev nD) : ℕ → sProp 𝕄
  | 0 => iprop((∃ d, owns (c : Thread nD τ) scM2 fullShare d)
      ∗ Pipeline.scopedRestBut (Ix := Unit) (Name := ℕ) (U := UR sig nD τ) (Lvl := ℕ) (Val := Elt F) spec2 c [cc2_scratch0]
      ∗ (∃ r, prngReg c r))
  | n + 1 => iprop(owns (c : Thread nD τ) scM2 fullShare (acc2 V c (n + 1))
      ∗ Pipeline.scopedRestBut (Ix := Unit) (Name := ℕ) (U := UR sig nD τ) (Lvl := ℕ) (Val := Elt F) spec2 c [cc2_scratch0]
      ∗ (∃ r, prngReg c r))

theorem Phi2_zero (c : Dev nD) : Phi2 V c 0 = iprop((∃ d, owns (c : Thread nD τ) scM2 fullShare d)
      ∗ Pipeline.scopedRestBut (Ix := Unit) (Name := ℕ) (U := UR sig nD τ) (Lvl := ℕ) (Val := Elt F) spec2 c [cc2_scratch0]
      ∗ (∃ r, prngReg c r)) := rfl

theorem Phi2_succ (c : Dev nD) (n : ℕ) : Phi2 V c (n + 1) = iprop(owns (c : Thread nD τ) scM2 fullShare (acc2 V c (n + 1))
      ∗ Pipeline.scopedRestBut (Ix := Unit) (Name := ℕ) (U := UR sig nD τ) (Lvl := ℕ) (Val := Elt F) spec2 c [cc2_scratch0]
      ∗ (∃ r, prngReg c r)) := rfl

/-- Before a point that is not the first: the accumulator at what the points before left. -/
theorem Phi2_pos (c : Dev nD) (n : ℕ) (hz : n ≠ 0) : Phi2 V c n = iprop(owns (c : Thread nD τ) scM2 fullShare (acc2 V c n)
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, and the result's at the epilogue's store over the accumulator after all 32 points
    (consulted at the last point only: elsewhere the window is idle and not written back); the invariant `Phi2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (acc2 V c 32) (iblk2 V c 2 t) (iblk2 V c 3 t) (iblk2 V c 4 t)
  Φ t := Phi2 V c t.val
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (acc2 V c 32) (iblk2 V c 2 t) (iblk2 V c 3 t) (iblk2 V c 4 t) := by dsimp only [dat2]

/-- The result's buffer after the last point: the epilogue over the accumulator after all 32 points. -/
theorem after2_5_last (c : Dev nD) :
    (dat2 V c).after 5 ⟨31, by decide⟩ = out2_5 (acc2 V c 32) (iblk2 V c 2 ⟨31, by decide⟩) (iblk2 V c 3 ⟨31, by decide⟩) (iblk2 V c 4 ⟨31, by decide⟩) :=
  after2_5 V c _

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

end Cert.KernelIdeal.Hand

end
-- ==== Proof.KI.Region2.lean ====
import proofs.«121312_j57732950393207_1_alg».proof.Proof.Gen.KernelIdeal.Launch
import proofs.«121312_j57732950393207_1_alg».proof.Proof.Gen.KernelIdeal.Skeleton
import proofs.«121312_j57732950393207_1_alg».proof.Proof.Gen.KernelIdeal.Points
import proofs.«121312_j57732950393207_1_alg».proof.Proof.KI.Region2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The rectangle of a whole-accumulator store holds every index. -/
theorem whole2_s (p0 : Vec F S16x1000 .f32) (y : S16x1000.Idx) :
    y ∈ (⟨r2_s, p0⟩ : View.Piece (Elt F) S16x1000 .f32).1.set := by
  obtain ⟨pc, hm, hy⟩ := cover2_s p0 y
  rw [List.mem_singleton] at hm; subst hm; exact hy

/-! ## The body's triple, case by case -/

set_option maxHeartbeats 1000000 in
/-- A MIDDLE point (neither condition holds): on whole memrefs, the two moving blocks at their contents and the
    accumulator at `a`, the body runs to the continuation holding the blocks as they were and the accumulator updated
    over them; the other operands are not touched. -/
theorem sound_kernel2_mid (c : Dev nD) (E : Set ℕ) (i : grid2.Coords) (hc0 : ¬cond2_0 i) (hc1 : ¬cond2_1 i)
    (arg1 : Memref sig .tc .vmem S16x2048 .f32) (harg1 : arg1.IsWhole) (arg2 : Memref sig .tc .vmem S2048x1000 .f32) (harg2 : arg2.IsWhole) (arg3 : Memref sig .tc .vmem S1000 .f32) (harg3 : arg3.IsWhole) (arg4 : Memref sig .tc .vmem S1000x34 .f32) (harg4 : arg4.IsWhole) (arg5 : Memref sig .tc .vmem S34 .f32) (harg5 : arg5.IsWhole) (arg6 : Memref sig .tc .vmem S16x34 .f32) (harg6 : arg6.IsWhole) (arg7 : Memref sig .tc .vmem S16x1000 .f32) (harg7 : arg7.IsWhole)
    (x0 : Vec F S16x2048 .f32) (x1 : Vec F S2048x1000 .f32) (a : Vec F S16x1000 .f32) (K : PUnit → sProp 𝕄) :
    iprop(owns (c : Thread nD τ) arg1 fullShare x0 ∗ owns (c : Thread nD τ) arg2 fullShare x1 ∗ owns (c : Thread nD τ) arg7 fullShare a
        ∗ (iprop(owns (c : Thread nD τ) arg1 fullShare x0 ∗ owns (c : Thread nD τ) arg2 fullShare x1
            ∗ owns (c : Thread nD τ) arg7 fullShare (step2 x0 x1 a)) -∗ K ⟨⟩))
      ⊢ wp frame (wpE (defs₀ (F := F)) Variants.none c none) E (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f7, %hf7, H7⟩, Hk⟩
  subst hf0; subst hf1; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  exact View.read_writes_eq_canon _ _ _ (cover2_s _)

set_option maxHeartbeats 1000000 in
theorem sound_kernel2_first (c : Dev nD) (E : Set ℕ) (i : grid2.Coords) (hc0 : cond2_0 i) (hc1 : ¬cond2_1 i)
    (arg1 : Memref sig .tc .vmem S16x2048 .f32) (harg1 : arg1.IsWhole) (arg2 : Memref sig .tc .vmem S2048x1000 .f32) (harg2 : arg2.IsWhole) (arg3 : Memref sig .tc .vmem S1000 .f32) (harg3 : arg3.IsWhole) (arg4 : Memref sig .tc .vmem S1000x34 .f32) (harg4 : arg4.IsWhole) (arg5 : Memref sig .tc .vmem S34 .f32) (harg5 : arg5.IsWhole) (arg6 : Memref sig .tc .vmem S16x34 .f32) (harg6 : arg6.IsWhole) (arg7 : Memref sig .tc .vmem S16x1000 .f32) (harg7 : arg7.IsWhole)
    (x0 : Vec F S16x2048 .f32) (x1 : Vec F S2048x1000 .f32) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1
            ∗ owns (c : Thread nD τ) arg7 fullShare (step2 x0 x1 zero2)) -∗ K ⟨⟩))
      ⊢ wp frame (wpE (defs₀ (F := F)) Variants.none c none) E (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%d7, %f7, -, H7⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  unfold sound_kernel2_first.sl.v8 sound_kernel2_first.sl.H7_1
  refine (View.read_writes_of_cover_last _ _ arg7.view f7 _ _ [] (whole2_s _)).trans ?_
  refine (View.read_writes_eq_canon _ _ _ (cover2_s _)).trans ?_
  rw [View.readCov_eq_canon_ld _ _ _ (cover2_s _)]
  rfl

set_option maxHeartbeats 1000000 in
theorem sound_kernel2_last (c : Dev nD) (E : Set ℕ) (i : grid2.Coords) (hc0 : ¬cond2_0 i) (hc1 : cond2_1 i)
    (arg1 : Memref sig .tc .vmem S16x2048 .f32) (harg1 : arg1.IsWhole) (arg2 : Memref sig .tc .vmem S2048x1000 .f32) (harg2 : arg2.IsWhole) (arg3 : Memref sig .tc .vmem S1000 .f32) (harg3 : arg3.IsWhole) (arg4 : Memref sig .tc .vmem S1000x34 .f32) (harg4 : arg4.IsWhole) (arg5 : Memref sig .tc .vmem S34 .f32) (harg5 : arg5.IsWhole) (arg6 : Memref sig .tc .vmem S16x34 .f32) (harg6 : arg6.IsWhole) (arg7 : Memref sig .tc .vmem S16x1000 .f32) (harg7 : arg7.IsWhole)
    (x0 : Vec F S16x2048 .f32) (x1 : Vec F S2048x1000 .f32) (x2 : Vec F S1000 .f32) (x3 : Vec F S1000x34 .f32) (x4 : Vec F S34 .f32)
    (a : Vec F S16x1000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 (step2 x0 x1 a) x2 x3 x4)
            ∗ owns (c : Thread nD τ) arg7 fullShare (step2 x0 x1 a)) -∗ K ⟨⟩))
      ⊢ wp frame (wpE (defs₀ (F := F)) Variants.none c none) E (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  subst hf0; subst hf1; subst hf2; subst hf3; subst hf4; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    unfold sound_kernel2_last.sl.v17 sound_kernel2_last.sl.H7_1
    refine (View.read_writes_eq_canon _ _ _ (cover2_5 _)).trans ?_
    rw [View.readCov_eq_canon_ld _ _ _ (cover2_s _)]
    rfl
  iexists _; isplitr
  swap; · iexact H7
  ipureintro
  exact View.read_writes_eq_canon _ _ _ (cover2_s _)

/-! ## The body obligation, at a generic point -/

/-- The inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl

/-- Before the first point the accumulator holds anything. -/
theorem Phi2_of_zero (c : Dev nD) (n : ℕ) (hz : n = 0) : Phi2 V c n = iprop((∃ d, owns (c : Thread nD τ) scM2 fullShare d)
      ∗ Pipeline.scopedRestBut (Ix := Unit) (Name := ℕ) (U := UR sig nD τ) (Lvl := ℕ) (Val := Elt F) spec2 c [cc2_scratch0]
      ∗ (∃ r, prngReg c r)) := by
  subst hz; rfl

theorem acc2_of_zero (c : Dev nD) (n : ℕ) (hz : n = 0) : acc2 V c n = zero2 := by
  subst hz; rfl

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4000000 in
/-- The body at any point. The inputs' memrefs hold their blocks; the closed forms of the two conditions say which of
    the three cases the point is in. The invariant hands the body the accumulator — at anything at the first point, at
    what the points before left otherwise — and takes it back updated over this point's blocks. Away from the last point
    the result's buffer is handed back untouched; at the last point it is stored, from the accumulator after all 32
    points. The other scoped buffers, the generator register and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) from rfl, Phi2_succ,
    show (dat2 V c).Φ t.castSucc = Phi2 V c t.val from rfl]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [acc2_succ V c t]
  have hN : t.val < 32 := lt_of_lt_of_eq t.isLt (show cfg2.N = 32 from N_2)
  by_cases h0 : t.val % 32 = 0
  · -- the first point: the reset, then the update
    have hz : t.val = 0 := by omega
    have h1 : ¬t.val % 32 = 31 := by omega
    rw [Dat.leavesExact_idle (dat2 V c) 5 t (idleAt2_5 t (fun h => h1 ((hcond2_1 t).mp h))) (noFlush2_5 t (fun h => h1 ((hcond2_1 t).mp h)))]
    rw [Phi2_of_zero V c _ hz, acc2_of_zero V c _ hz]
    iintro ⟨⟨⟨%d7, HS⟩, Hrest, Hg⟩, Ho, ⟨%d0, H0⟩, ⟨%d1, H1⟩, ⟨%d2, H2⟩, ⟨%d3, H3⟩, ⟨%d4, H4⟩, ⟨%d5, H5⟩⟩
    iapply (sound_kernel2_first c Set.univ (grid2.coords t) ((hcond2_0 t).mpr h0) (fun h => h1 ((hcond2_1 t).mp h))
      _ _ _ _ _ _ _ _ _ _ _ _ _ _ (iblk2 V c 0 t) (iblk2 V c 1 t) _)
    isplitl [H0]; · iexact H0
    isplitl [H1]; · iexact H1
    isplitl [HS]; · iexists _; iexact HS
    iintro ⟨H0, H1, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    rw [Phi2_pos V c _ hz]
    by_cases h1 : t.val % 32 = 31
    · -- the last point: the update, then the epilogue's store of the result
      have h32 : acc2 V c 32 = step2 (iblk2 V c 0 t) (iblk2 V c 1 t) (acc2 V c t.val) :=
        (congrArg (acc2 V c) (by omega : 32 = t.val + 1)).trans (acc2_succ V c t)
      rw [show (dat2 V c).leavesExact 5 t = owns (c : Thread nD τ) (st2_5 t) fullShare ((dat2 V c).after 5 t) from by
        unfold Dat.leavesExact; rw [liveAt2_5 t ((hcond2_1 t).mpr h1)], after2_5, h32]
      iintro ⟨⟨HS, Hrest, Hg⟩, Ho, ⟨%d0, H0⟩, ⟨%d1, H1⟩, ⟨%d2, H2⟩, ⟨%d3, H3⟩, ⟨%d4, H4⟩, ⟨%d5, H5⟩⟩
      iapply (sound_kernel2_last c Set.univ (grid2.coords t) (fun h => h0 ((hcond2_0 t).mp h)) ((hcond2_1 t).mpr h1)
        _ _ _ _ _ _ _ _ _ _ _ _ _ _ (iblk2 V c 0 t) (iblk2 V c 1 t) (iblk2 V c 2 t) (iblk2 V c 3 t) (iblk2 V c 4 t) (acc2 V c t.val) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point: the update only
      rw [Dat.leavesExact_idle (dat2 V c) 5 t (idleAt2_5 t (fun h => h1 ((hcond2_1 t).mp h))) (noFlush2_5 t (fun h => h1 ((hcond2_1 t).mp h)))]
      iintro ⟨⟨HS, Hrest, Hg⟩, Ho, ⟨%d0, H0⟩, ⟨%d1, H1⟩, ⟨%d2, H2⟩, ⟨%d3, H3⟩, ⟨%d4, H4⟩, ⟨%d5, H5⟩⟩
      iapply (sound_kernel2_mid c Set.univ (grid2.coords t) (fun h => h0 ((hcond2_0 t).mp h)) (fun h => h1 ((hcond2_1 t).mp h))
        _ _ _ _ _ _ _ _ _ _ _ _ _ _ (iblk2 V c 0 t) (iblk2 V c 1 t) (acc2 V c t.val) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The proof data's plain fields, and the invariant's two ends -/

theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]
theorem recorded_eq2 (c : Dev nD) (t : Fin (cfg2.N + 1)) : (dat2 V c).recorded t = Set.univ := by dsimp only [dat2]

/-- What the launch hands the region — the generator register, no prefetched table, every scoped buffer that is no
    staging buffer of this call at some contents — is the invariant before the first point: the accumulator is split
    out of the scoped buffers, at whatever it holds. -/
theorem hin2 (c : Dev nD) :
    (iprop((∃ r, prngReg c r) ∗ Pipeline.prefHeld (pcfgs (F := F) 2).pre c (fun _ => fullShare) ((cfgs 2).toPCfg_adm : (pcfgs (F := F) 2).Adm).1
      ∗ Pipeline.scopedRest (Ix := Unit) (Name := ℕ) (U := UR sig nD τ) (Lvl := ℕ) (Val := Elt F) spec2 c) : sProp 𝕄)
      ⊢ (dat2 V c).Φ 0 := by
  rw [show (dat2 V c).Φ 0 = Phi2 V c 0 from rfl, Phi2_zero, scopedRest2_split]
  simp only [scM2, owns_whole]
  iintro ⟨Hp, -, ⟨HS, Hrest⟩⟩
  isplitl [HS]; · iexact HS
  isplitl [Hrest]; · iexact Hrest
  iexact Hp

/-- After the last point the invariant gives the same back: the accumulator's named contents are forgotten. -/
theorem hout2 (c : Dev nD) :
    (dat2 V c).Φ (Fin.last cfg2.N)
      ⊢ (iprop((∃ r, prngReg c r) ∗ Pipeline.ownSems0 (fun k : PEmpty => k.elim) c
        ∗ Pipeline.scopedRest (Ix := Unit) (Name := ℕ) (U := UR sig nD τ) (Lvl := ℕ) (Val := Elt F) spec2 c) : sProp 𝕄) := by
  rw [Pipeline.ownSems0_none, show (dat2 V c).Φ (Fin.last cfg2.N) = Phi2 V c (31 + 1) from rfl, Phi2_succ, scopedRest2_split]
  iintro ⟨HS, Hrest, Hg⟩
  isplitl [Hg]; · iexact Hg
  isplitr; · iempintro
  isplitl [HS]
  · iexists (acc2 V c (31 + 1))
    rw [← owns_whole (c : Thread nD τ) cc2_scratch0 fullShare (acc2 V c (31 + 1))]
    iexact HS
  iexact Hrest

end Cert.KernelIdeal.Hand

end
-- ==== Proof.KI.Frame.lean ====
/-
  The three kernels' proof data put into the program's run: the run of the whole program with every buffer's final
  contents named, and from it the frame (every argument array ends holding what it was launched with).
-/
import proofs.«121312_j57732950393207_1_alg».proof.Proof.KI.Run
import proofs.«121312_j57732950393207_1_alg».proof.Proof.KI.Region0
import proofs.«121312_j57732950393207_1_alg».proof.Proof.KI.Region1
import proofs.«121312_j57732950393207_1_alg».proof.Proof.KI.Region2

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- Kernel 0's proof data has what the run asks of a region. -/
theorem half0 : Half0 (F := F) dat0 where
  A_eq V c w := A_eq0 V c w
  q_eq V c w := q_eq0 V c w
  owed_eq V c t := owed_eq0 V c t
  recorded_eq V c t := recorded_eq0 V c t
  body V c := body_obligation0 V c
  hin V c := hin0 V c
  hout V c := hout0 V c

/-- Kernel 1's proof data has what the run asks of a region. -/
theorem half1 : Half1 (F := F) dat1 where
  A_eq V c w := A_eq1 V c w
  q_eq V c w := q_eq1 V c w
  owed_eq V c t := owed_eq1 V c t
  recorded_eq V c t := recorded_eq1 V c t
  body V c := body_obligation1 V c
  hin V c := hin1 V c
  hout V c := hout1 V c

/-- Kernel 2's proof data has what the run asks of a region. -/
theorem half2 : Half2 (F := F) dat2 where
  A_eq V c w := A_eq2 V c w
  q_eq V c w := q_eq2 V c w
  owed_eq V c t := owed_eq2 V c t
  recorded_eq V c t := recorded_eq2 V c t
  body V c := body_obligation2 V c
  hin V c := hin2 V c
  hout V c := hout2 V c

variable (m : (ℓ : Loc nD τ sig) → Buf (Elt F) ℓ) (ρ : Dev nD → PrngReg)

/-- Core `c`'s unscoped buffers when the program returns. -/
abbrev Wend (c : Dev nD) : Valuation τ sig (Elt F) := W10 dat0 dat1 dat2 m ρ c

/-- THE RUN of the whole program: it terminates, nothing faults, and every unscoped buffer ends at `Wend`. -/
theorem run : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  run_all dat0 dat1 dat2 half0 half1 half2 m ρ

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W10_main_arg0 dat0 dat1 dat2 half0 half1 half2 m ρ c),
      (h c _ (mem_uc main_arg1 (by decide))).trans (W10_main_arg1 dat0 dat1 dat2 half0 half1 half2 m ρ c),
      (h c _ (mem_uc main_arg2 (by decide))).trans (W10_main_arg2 dat0 dat1 dat2 half0 half1 half2 m ρ c),
      (h c _ (mem_uc main_arg3 (by decide))).trans (W10_main_arg3 dat0 dat1 dat2 half0 half1 half2 m ρ c),
      (h c _ (mem_uc main_arg4 (by decide))).trans (W10_main_arg4 dat0 dat1 dat2 half0 half1 half2 m ρ c),
      (h c _ (mem_uc main_arg5 (by decide))).trans (W10_main_arg5 dat0 dat1 dat2 half0 half1 half2 m ρ c),
      (h c _ (mem_uc main_arg6 (by decide))).trans (W10_main_arg6 dat0 dat1 dat2 half0 half1 half2 m ρ c),
      (h c _ (mem_uc main_arg7 (by decide))).trans (W10_main_arg7 dat0 dat1 dat2 half0 half1 half2 m ρ c),
      (h c _ (mem_uc main_arg8 (by decide))).trans (W10_main_arg8 dat0 dat1 dat2 half0 half1 half2 m ρ c),
      (h c _ (mem_uc main_arg9 (by decide))).trans (W10_main_arg9 dat0 dat1 dat2 half0 half1 half2 m ρ c),
      (h c _ (mem_uc main_arg10 (by decide))).trans (W10_main_arg10 dat0 dat1 dat2 half0 half1 half2 m ρ c),
      (h c _ (mem_uc main_arg11 (by decide))).trans (W10_main_arg11 dat0 dat1 dat2 half0 half1 half2 m ρ c)⟩)
    (run m ρ)

end Cert.KernelIdeal.Hand

end
-- ==== Proof.LibChebLayer.lean ====
/-
  One Chebyshev layer as ONE function of its arrays, index by index, over the extended reals.

  The layer takes five arrays `T0 … T4` of `N` rows and `H` features (the Chebyshev terms of the input under the graph
  operator), a weight array of five `H × 8` slices and a bias of eight entries. Entry `(r, q)` of the result is
    max (Σₖ T0(r,k)·W(0,k,q) + Σₖ T1(r,k)·W(1,k,q) + Σₖ T2(r,k)·W(2,k,q) + Σₖ T3(r,k)·W(3,k,q) + Σₖ T4(r,k)·W(4,k,q) + b(q)) 0,
  the five sums added from the left. Row `r` of the result depends on row `r` of each term only, so the result of a block of
  rows is the block of the result; this is what lets a kernel compute it 2048 rows at a time.
-/
import Idealize.ShloMosaic.PureOps.Ideal.Laws
import Idealize.ShloMosaic.Lib.ValueIdx

noncomputable section

open Idealize.ShloMosaic Idealize.ShloMosaic.ValueIdx

namespace ChebLayer

/-- One term's contribution: row `r` of `T` against column `q` of slice `s` of the weights. -/
def term (N H : Nat) (T : FVec Ideal ⟨2, ![N, H]⟩ .f32) (W : FVec Ideal ⟨3, ![5, H, 8]⟩ .f32) (s : Fin 5) (r : Fin N) (q : Fin 8) : EReal :=
  ∑ k : Fin H, T (ix2 r k) * W (ix3 s k q)

/-- The layer before its rectification, at row `r` and column `q`: the five terms added from the left, then the bias. -/
def pre (N H : Nat) (T0 T1 T2 T3 T4 : FVec Ideal ⟨2, ![N, H]⟩ .f32) (W : FVec Ideal ⟨3, ![5, H, 8]⟩ .f32)
    (b : FVec Ideal ⟨1, ![8]⟩ .f32) (r : Fin N) (q : Fin 8) : EReal :=
  ((((term N H T0 W 0 r q + term N H T1 W 1 r q) + term N H T2 W 2 r q) + term N H T3 W 3 r q) + term N H T4 W 4 r q) + b (ix1 q)

/-- The layer: its maximum with zero, entry by entry. -/
def layer (N H : Nat) (T0 T1 T2 T3 T4 : FVec Ideal ⟨2, ![N, H]⟩ .f32) (W : FVec Ideal ⟨3, ![5, H, 8]⟩ .f32)
    (b : FVec Ideal ⟨1, ![8]⟩ .f32) : FVec Ideal ⟨2, ![N, 8]⟩ .f32 :=
  fun i => max (pre N H T0 T1 T2 T3 T4 W b (i 0) (i 1)) (Ideal.ofBits .f32 0x00000000#32)

theorem layer_apply (N H : Nat) (T0 T1 T2 T3 T4 : FVec Ideal ⟨2, ![N, H]⟩ .f32) (W : FVec Ideal ⟨3, ![5, H, 8]⟩ .f32)
    (b : FVec Ideal ⟨1, ![8]⟩ .f32) (r : Fin N) (q : Fin 8) :
    layer N H T0 T1 T2 T3 T4 W b (ix2 r q) = max (pre N H T0 T1 T2 T3 T4 W b r q) (Ideal.ofBits .f32 0x00000000#32) := rfl

/-- A sum started from the zero word is the sum. -/
theorem zero_word_add (x : EReal) : Ideal.ofBits .f32 0x00000000#32 + x = x := by
  rw [Ideal.ofBits_zero_f32, zero_add]

end ChebLayer

end
-- ==== Proof.KI.Pay0.lean ====
/-
  The first combining kernel's arithmetic on one block of 2048 rows, read at an index at the ideal values:
  the block of the layer's result is the layer of the blocks. A change of float format and a cast of a shape to itself are
  the identity there, the matrix unit's product into a zero accumulator is the plain sum of products over the one inner index,
  and the accumulator started from a splat of zero adds nothing.
-/
import proofs.«121312_j57732950393207_1_alg».proof.Proof.Gen.KernelIdeal.Skeleton
import proofs.«121312_j57732950393207_1_alg».proof.Proof.LibChebLayer
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The product's dimension numbers: rows of the left operand against columns of the right, one contracted axis. -/
abbrev D0 := dot_S2048x1_S1x8_S2048x8_1_0_0_1_n_n

theorem lhs0_0 (i : S2048x8.Idx) (q : D0.contr.Idx) : (D0.lhsIdx i q 0).val = (i 0).val := by
  unfold DotDims.lhsIdx
  rw [dif_neg (show ¬(0 : Fin S2048x1.rank) ∈ D0.lhsBatch by decide), dif_pos (show (0 : Fin S2048x1.rank) ∈ D0.lhsNonContracting by decide)]
  rfl
theorem lhs0_1 (i : S2048x8.Idx) (q : D0.contr.Idx) : (D0.lhsIdx i q 1).val = (q ⟨0, by decide⟩).val :=
  D0.lhsIdx_val_of_single rfl i q
theorem rhs0_0 (i : S2048x8.Idx) (q : D0.contr.Idx) : (D0.rhsIdx i q 0).val = (q ⟨0, by decide⟩).val :=
  D0.rhsIdx_val_of_single rfl i q
theorem rhs0_1 (i : S2048x8.Idx) (q : D0.contr.Idx) : (D0.rhsIdx i q 1).val = (i 1).val := by
  unfold DotDims.rhsIdx
  rw [dif_neg (show ¬(1 : Fin S1x8.rank) ∈ D0.rhsBatch by decide), dif_pos (show (1 : Fin S1x8.rank) ∈ D0.rhsNonContracting by decide)]
  rfl

/-- The matrix unit's product of a block with a weight slice, into zeros, at row `p` and column `q`: the sum of products
    over the inner index. -/
theorem mm0_apply (x : FVec Ideal S2048x1 .bf16) (w : FVec Ideal S1x8 .bf16) (p : Fin 2048) (q : Fin 8) :
    (matmul D0 none x w (constant S2048x8 .f32 0x00000000#32) : FVec Ideal S2048x8 .f32) (ix2 p q)
      = ∑ k : Fin 1, x (ix2 p k) * w (ix2 k q) := by
  simp only [matmul]
  rw [Ideal.matmul_constant_zero_apply, ← Equiv.sum_comp (contrEquiv1 D0 1 rfl rfl).symm]
  refine Finset.sum_congr rfl fun k _ => ?_
  have hk := contrEquiv1_symm_val D0 1 rfl rfl k
  have el : D0.lhsIdx (ix2 p q) ((contrEquiv1 D0 1 rfl rfl).symm k) = ix2 p k := funext fun a => Fin.ext (by
    match a with
    | ⟨0, _⟩ => exact lhs0_0 _ _
    | ⟨1, _⟩ => exact (lhs0_1 _ _).trans hk)
  have er : D0.rhsIdx (ix2 p q) ((contrEquiv1 D0 1 rfl rfl).symm k) = ix2 k q := funext fun a => Fin.ext (by
    match a with
    | ⟨0, _⟩ => exact (rhs0_0 _ _).trans hk
    | ⟨1, _⟩ => exact rhs0_1 _ _)
  rw [el, er]

/-- One term of the block: the block narrowed (the identity) against the weight slice cast from `1 × 1 × 8` to `1 × 8` and
    narrowed, read at `(p, q)`. -/
theorem term0_apply (x : FVec Ideal S2048x1 .f32) (w : Vec Ideal S1x1x8 .f32) (p : Fin 2048) (q : Fin 8) :
    (matmul D0 none (truncf .bf16 x bitsLt_bf16_f32) (truncf .bf16 (shapeCast S1x8 w shapeCasts_S1x1x8_S1x8) bitsLt_bf16_f32)
        (constant S2048x8 .f32 0x00000000#32) : FVec Ideal S2048x8 .f32) (ix2 p q)
      = ∑ k : Fin 1, x (ix2 p k) * w (ix3 (0 : Fin 1) k q) := by
  rw [mm0_apply]
  refine Finset.sum_congr rfl fun k _ => ?_
  rw [truncf_apply, truncf_apply, shapeCast_1ab_ab_apply]

/-- The bias laid along every row of the block, read at `(p, q)`. -/
theorem bias0_apply (b : Vec Ideal S8 .f32) (p : Fin 2048) (q : Fin 8) :
    (broadcastTo S2048x8 (shapeCast S1x8 b shapeCasts_S8_S1x8) broadcasts_S1x8_S2048x8 : FVec Ideal S2048x8 .f32) (ix2 p q) = b (ix1 q) := by
  rw [broadcastTo_1b_ab_apply, shapeCast_a_1a_apply]

/-- THE BLOCK'S ARITHMETIC at row `p` and column `q`: the rectified sum of the five terms and the bias, the terms' weight
    slices given one by one (each a `1 × 1 × 8` array). -/
theorem pay0_apply (x0 x1 x2 x3 x4 : Vec Ideal S2048x1 .f32) (w0 w1 w2 w3 w4 : Vec Ideal S1x1x8 .f32) (b : Vec Ideal S8 .f32)
    (p : Fin 2048) (q : Fin 8) :
    k0_pay1 (k0_pay2 x0 w0 x1 w1 x2 w2 x3 w3) x4 w4 b (ix2 p q)
      = max ((((((∑ k : Fin 1, x0 (ix2 p k) * w0 (ix3 (0 : Fin 1) k q)) + ∑ k : Fin 1, x1 (ix2 p k) * w1 (ix3 (0 : Fin 1) k q))
            + ∑ k : Fin 1, x2 (ix2 p k) * w2 (ix3 (0 : Fin 1) k q)) + ∑ k : Fin 1, x3 (ix2 p k) * w3 (ix3 (0 : Fin 1) k q))
            + ∑ k : Fin 1, x4 (ix2 p k) * w4 (ix3 (0 : Fin 1) k q)) + b (ix1 q)) (Ideal.ofBits .f32 0x00000000#32) := by
  unfold k0_pay1 k0_pay2
  simp only [shapeCast_self]
  simp only [maximumf_apply, addf_apply, broadcast_apply, term0_apply, bias0_apply]
  rw [show (Scalar.ofBits .f32 0x00000000#32 : Ideal .f32) = Ideal.ofBits .f32 0x00000000#32 from rfl, ChebLayer.zero_word_add]

end Cert.KernelIdeal.Hand

end
-- ==== Proof.KI.Val0.lean ====
/-
  What the first combining kernel leaves in its output array, at the ideal values: the Chebyshev layer of the seven
  arrays it is entered with. Point `t` of the grid is handed rows `2048·t … 2048·t + 2047` of the five term arrays (and the
  whole weights and bias), and writes back the same rows of the output; its arithmetic on the block is the layer of the
  block's rows, and a row of the layer depends on the same row of the terms only. The 64 blocks tile the array.
-/
import proofs.«121312_j57732950393207_1_alg».proof.Proof.KI.Region0
import proofs.«121312_j57732950393207_1_alg».proof.Proof.KI.Pay0

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem zero_off0_2 : (![0, 0] : Fin 2 → Nat) = fun _ => 0 := funext fun a => by fin_cases a <;> rfl
theorem zero_off0_1 : (![0] : Fin 1 → Nat) = fun _ => 0 := funext fun a => by fin_cases a <;> rfl

/-- Slab `s` of the weights, read at `(0, k, q)`, is the weights at `(s, k, q)`. -/
theorem slab0_apply (W : Vec Ideal S5x1x8 .f32) (s : Fin 5) (off : Fin 3 → Nat) (hoff : off = ![s.val, 0, 0])
    (inb : ∀ a, off a + S1x1x8.size a ≤ S5x1x8.size a) (k : Fin 1) (q : Fin 8) :
    View.ld W (Rect.unit (s := S5x1x8) off S1x1x8.size inb) (ix3 (0 : Fin 1) k q) = W (ix3 s k q) := by
  subst hoff
  show W ((Rect.unit (s := S5x1x8) ![s.val, 0, 0] S1x1x8.size inb).emb (ix3 (0 : Fin 1) k q)) = W (ix3 s k q)
  refine congrArg W (funext fun a => Fin.ext ?_)
  match a with
  | ⟨0, _⟩ => show s.val + 1 * 0 = s.val; omega
  | ⟨1, _⟩ => show 0 + 1 * k.val = k.val; omega
  | ⟨2, _⟩ => show 0 + 1 * q.val = q.val; omega

/-- THE BLOCK IS THE LAYER'S BLOCK. If row `p` of each of the five term blocks is row `r` of its array, and the weight
    and bias blocks are the whole weights and bias, then the kernel's arithmetic on the blocks, at `(p, q)`, is the
    layer of the arrays at `(r, q)`. -/
theorem block_layer0 (T0 T1 T2 T3 T4 : FVec Ideal ⟨2, ![131072, 1]⟩ .f32) (W : FVec Ideal ⟨3, ![5, 1, 8]⟩ .f32) (b : FVec Ideal ⟨1, ![8]⟩ .f32)
    (x0 x1 x2 x3 x4 : Vec Ideal S2048x1 .f32) (x5 : Vec Ideal S5x1x8 .f32) (x6 : Vec Ideal S8 .f32) (r : Fin 131072) (p : Fin 2048) (q : Fin 8)
    (h0 : ∀ k : Fin 1, x0 (ix2 p k) = T0 (ix2 r k)) (h1 : ∀ k : Fin 1, x1 (ix2 p k) = T1 (ix2 r k))
    (h2 : ∀ k : Fin 1, x2 (ix2 p k) = T2 (ix2 r k)) (h3 : ∀ k : Fin 1, x3 (ix2 p k) = T3 (ix2 r k))
    (h4 : ∀ k : Fin 1, x4 (ix2 p k) = T4 (ix2 r k))
    (h5 : ∀ (s : Fin 5) (k : Fin 1), x5 (ix3 s k q) = W (ix3 s k q)) (h6 : x6 (ix1 q) = b (ix1 q)) :
    k0_pay1 (k0_pay2 x0 (View.ld x5 r0_c0) x1 (View.ld x5 r0_c1) x2 (View.ld x5 r0_c2) x3 (View.ld x5 r0_c3)) x4 (View.ld x5 r0_c4) x6 (ix2 p q)
      = ChebLayer.layer 131072 1 T0 T1 T2 T3 T4 W b (ix2 r q) := by
  rw [pay0_apply, ChebLayer.layer_apply]
  unfold ChebLayer.pre ChebLayer.term
  have c0 : ∀ k : Fin 1, View.ld x5 r0_c0 (ix3 (0 : Fin 1) k q) = x5 (ix3 (0 : Fin 5) k q) := fun k => slab0_apply x5 0 _ rfl _ k q
  have c1 : ∀ k : Fin 1, View.ld x5 r0_c1 (ix3 (0 : Fin 1) k q) = x5 (ix3 (1 : Fin 5) k q) := fun k => slab0_apply x5 1 _ rfl _ k q
  have c2 : ∀ k : Fin 1, View.ld x5 r0_c2 (ix3 (0 : Fin 1) k q) = x5 (ix3 (2 : Fin 5) k q) := fun k => slab0_apply x5 2 _ rfl _ k q
  have c3 : ∀ k : Fin 1, View.ld x5 r0_c3 (ix3 (0 : Fin 1) k q) = x5 (ix3 (3 : Fin 5) k q) := fun k => slab0_apply x5 3 _ rfl _ k q
  have c4 : ∀ k : Fin 1, View.ld x5 r0_c4 (ix3 (0 : Fin 1) k q) = x5 (ix3 (4 : Fin 5) k q) := fun k => slab0_apply x5 4 _ rfl _ k q
  simp only [c0, c1, c2, c3, c4, h0, h1, h2, h3, h4, h5, h6]

variable (V : (c : Dev nD) → (b : Ref sig .tc) → Buf (Elt Ideal) ((c : Thread nD τ).loc b))

/-- The layer of the arrays the kernel is entered with. -/
abbrev G0 (c : Dev nD) : S131072x8.Idx → Elt Ideal .f32 :=
  ChebLayer.layer 131072 1 (V c main_arg0) (V c main_v50) (V c main_v68) (V c main_v86) (V c main_v104) (V c main_arg4) (V c main_arg5)

/-- The printed index maps, decided over the grid: the five term windows and the output window sit at block row `t`,
    block column 0; the weights and the bias at their one block. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 3) = 0 ∧ win0_5.index t (1 : Fin 3) = 0 ∧ win0_5.index t (2 : Fin 3) = 0
    ∧ win0_6.index t (0 : Fin 1) = 0
    ∧ win0_7.index t (0 : Fin 2) = t.val ∧ win0_7.index t (1 : Fin 2) = 0 :=
  (by decide +kernel : ∀ t : Fin grid0.N, _)

/-- Row `p` of term window 0's block at point `t` is row `2048·t + p` of its array. -/
theorem term_rows0_0 (c : Dev nD) (t : Fin cfg0.N) (p : Fin 2048) (r : Fin 131072) (hr : r.val = 2048 * t.val + p.val) (k : Fin 1) :
    iblk0 V c 0 t (ix2 p k) = V c main_arg0 (ix2 r k) := by
  obtain ⟨e00, e01, e10, e11, e20, e21, e30, e31, e40, e41, e50, e51, e52, e60, e70, e71⟩ := block_index0 t
  show (V c main_arg0 : S131072x1.Idx → Elt Ideal .f32) (((cfg0.win 0).blk t).view.emb (ix2 p k)) = V c main_arg0 (ix2 r k)
  refine congrArg (V c main_arg0) (funext fun a => Fin.ext ?_)
  match a with
  | ⟨0, _⟩ => show win0_0.index t (0 : Fin 2) * 2048 + 1 * p.val = r.val; omega
  | ⟨1, _⟩ => show win0_0.index t (1 : Fin 2) * 1 + 1 * k.val = k.val; omega

/-- Row `p` of term window 1's block at point `t` is row `2048·t + p` of its array. -/
theorem term_rows0_1 (c : Dev nD) (t : Fin cfg0.N) (p : Fin 2048) (r : Fin 131072) (hr : r.val = 2048 * t.val + p.val) (k : Fin 1) :
    iblk0 V c 1 t (ix2 p k) = V c main_v50 (ix2 r k) := by
  obtain ⟨e00, e01, e10, e11, e20, e21, e30, e31, e40, e41, e50, e51, e52, e60, e70, e71⟩ := block_index0 t
  show (V c main_v50 : S131072x1.Idx → Elt Ideal .f32) (((cfg0.win 1).blk t).view.emb (ix2 p k)) = V c main_v50 (ix2 r k)
  refine congrArg (V c main_v50) (funext fun a => Fin.ext ?_)
  match a with
  | ⟨0, _⟩ => show win0_1.index t (0 : Fin 2) * 2048 + 1 * p.val = r.val; omega
  | ⟨1, _⟩ => show win0_1.index t (1 : Fin 2) * 1 + 1 * k.val = k.val; omega

/-- Row `p` of term window 2's block at point `t` is row `2048·t + p` of its array. -/
theorem term_rows0_2 (c : Dev nD) (t : Fin cfg0.N) (p : Fin 2048) (r : Fin 131072) (hr : r.val = 2048 * t.val + p.val) (k : Fin 1) :
    iblk0 V c 2 t (ix2 p k) = V c main_v68 (ix2 r k) := by
  obtain ⟨e00, e01, e10, e11, e20, e21, e30, e31, e40, e41, e50, e51, e52, e60, e70, e71⟩ := block_index0 t
  show (V c main_v68 : S131072x1.Idx → Elt Ideal .f32) (((cfg0.win 2).blk t).view.emb (ix2 p k)) = V c main_v68 (ix2 r k)
  refine congrArg (V c main_v68) (funext fun a => Fin.ext ?_)
  match a with
  | ⟨0, _⟩ => show win0_2.index t (0 : Fin 2) * 2048 + 1 * p.val = r.val; omega
  | ⟨1, _⟩ => show win0_2.index t (1 : Fin 2) * 1 + 1 * k.val = k.val; omega

/-- Row `p` of term window 3's block at point `t` is row `2048·t + p` of its array. -/
theorem term_rows0_3 (c : Dev nD) (t : Fin cfg0.N) (p : Fin 2048) (r : Fin 131072) (hr : r.val = 2048 * t.val + p.val) (k : Fin 1) :
    iblk0 V c 3 t (ix2 p k) = V c main_v86 (ix2 r k) := by
  obtain ⟨e00, e01, e10, e11, e20, e21, e30, e31, e40, e41, e50, e51, e52, e60, e70, e71⟩ := block_index0 t
  show (V c main_v86 : S131072x1.Idx → Elt Ideal .f32) (((cfg0.win 3).blk t).view.emb (ix2 p k)) = V c main_v86 (ix2 r k)
  refine congrArg (V c main_v86) (funext fun a => Fin.ext ?_)
  match a with
  | ⟨0, _⟩ => show win0_3.index t (0 : Fin 2) * 2048 + 1 * p.val = r.val; omega
  | ⟨1, _⟩ => show win0_3.index t (1 : Fin 2) * 1 + 1 * k.val = k.val; omega

/-- Row `p` of term window 4's block at point `t` is row `2048·t + p` of its array. -/
theorem term_rows0_4 (c : Dev nD) (t : Fin cfg0.N) (p : Fin 2048) (r : Fin 131072) (hr : r.val = 2048 * t.val + p.val) (k : Fin 1) :
    iblk0 V c 4 t (ix2 p k) = V c main_v104 (ix2 r k) := by
  obtain ⟨e00, e01, e10, e11, e20, e21, e30, e31, e40, e41, e50, e51, e52, e60, e70, e71⟩ := block_index0 t
  show (V c main_v104 : S131072x1.Idx → Elt Ideal .f32) (((cfg0.win 4).blk t).view.emb (ix2 p k)) = V c main_v104 (ix2 r k)
  refine congrArg (V c main_v104) (funext fun a => Fin.ext ?_)
  match a with
  | ⟨0, _⟩ => show win0_4.index t (0 : Fin 2) * 2048 + 1 * p.val = r.val; omega
  | ⟨1, _⟩ => show win0_4.index t (1 : Fin 2) * 1 + 1 * k.val = k.val; omega

/-- The weights' block at any point is the whole weights. -/
theorem weights_block0 (c : Dev nD) (t : Fin cfg0.N) (s : Fin 5) (k : Fin 1) (q : Fin 8) :
    iblk0 V c 5 t (ix3 s k q) = V c main_arg4 (ix3 s k q) := by
  obtain ⟨e00, e01, e10, e11, e20, e21, e30, e31, e40, e41, e50, e51, e52, e60, e70, e71⟩ := block_index0 t
  show (V c main_arg4 : S5x1x8.Idx → Elt Ideal .f32) (((cfg0.win 5).blk t).view.emb (ix3 s k q)) = V c main_arg4 (ix3 s k q)
  refine congrArg (V c main_arg4) (funext fun a => Fin.ext ?_)
  match a with
  | ⟨0, _⟩ => show win0_5.index t (0 : Fin 3) * 5 + 1 * s.val = s.val; omega
  | ⟨1, _⟩ => show win0_5.index t (1 : Fin 3) * 1 + 1 * k.val = k.val; omega
  | ⟨2, _⟩ => show win0_5.index t (2 : Fin 3) * 8 + 1 * q.val = q.val; omega

/-- The bias's block at any point is the whole bias. -/
theorem bias_block0 (c : Dev nD) (t : Fin cfg0.N) (q : Fin 8) : iblk0 V c 6 t (ix1 q) = V c main_arg5 (ix1 q) := by
  obtain ⟨e00, e01, e10, e11, e20, e21, e30, e31, e40, e41, e50, e51, e52, e60, e70, e71⟩ := block_index0 t
  show (V c main_arg5 : S8.Idx → Elt Ideal .f32) (((cfg0.win 6).blk t).view.emb (ix1 q)) = V c main_arg5 (ix1 q)
  refine congrArg (V c main_arg5) (funext fun a => Fin.ext ?_)
  match a with
  | ⟨0, _⟩ => show win0_6.index t (0 : Fin 1) * 8 + 1 * q.val = q.val; omega

/-- Row `p` of the output window's block at point `t` is row `2048·t + p` of the output array. -/
theorem out_rows0 (t : Fin cfg0.N) (p : Fin 2048) (q : Fin 8) (r : Fin 131072) (hr : r.val = 2048 * t.val + p.val) :
    ((cfg0.win 7).blk t).view.emb (ix2 p q) = (ix2 r q : S131072x8.Idx) := by
  obtain ⟨e00, e01, e10, e11, e20, e21, e30, e31, e40, e41, e50, e51, e52, e60, e70, e71⟩ := block_index0 t
  refine funext fun a => Fin.ext ?_
  match a with
  | ⟨0, _⟩ => show win0_7.index t (0 : Fin 2) * 2048 + 1 * p.val = r.val; omega
  | ⟨1, _⟩ => show win0_7.index t (1 : Fin 2) * 8 + 1 * q.val = q.val; omega

/-- WHAT POINT `t` WRITES BACK is block `t` of the layer of the arrays as the region finds them. -/
theorem flushed0_eq (c : Dev nD) (t : Fin cfg0.N) :
    (dat0 (F := Ideal) V c).flushed 7 t = ((cfg0.win 7).blk t).view.read (Elt Ideal) (G0 V c) := by
  show (cfg0.win 7).cut (grid0.coords t) ((dat0 V c).after 7 t) = _
  rw [after0_7]
  unfold out0_7
  rw [View.canon_unit_zero zero_off0_2]
  simp only [View.ld_unit_zero (S := S2048x1) zero_off0_2, View.ld_unit_zero (S := S8) zero_off0_1]
  funext j
  obtain ⟨p, q, rfl⟩ : ∃ (p : Fin 2048) (q : Fin 8), j = ix2 p q := ⟨j 0, j 1, ValueIdx.eq_ix2 (n0 := 2048) (n1 := 8) j⟩
  have hN : cfg0.N = 64 := N_0
  have hr : 2048 * t.val + p.val < 131072 := by have := t.isLt; omega
  refine (block_layer0 (V c main_arg0) (V c main_v50) (V c main_v68) (V c main_v86) (V c main_v104) (V c main_arg4) (V c main_arg5)
    (iblk0 V c 0 t) (iblk0 V c 1 t) (iblk0 V c 2 t) (iblk0 V c 3 t) (iblk0 V c 4 t) (iblk0 V c 5 t) (iblk0 V c 6 t) ⟨2048 * t.val + p.val, hr⟩ p q
    (term_rows0_0 V c t p _ rfl) (term_rows0_1 V c t p _ rfl) (term_rows0_2 V c t p _ rfl) (term_rows0_3 V c t p _ rfl) (term_rows0_4 V c t p _ rfl)
    (fun s k => weights_block0 V c t s k q) (bias_block0 V c t q)).trans ?_
  show G0 V c (ix2 ⟨2048 * t.val + p.val, hr⟩ q) = G0 V c (((cfg0.win 7).blk t).view.emb (ix2 p q))
  rw [out_rows0 t p q ⟨2048 * t.val + p.val, hr⟩ rfl]

/-- An index of the output array is in point `t`'s block iff each coordinate is in the block's range on its axis. -/
theorem mem_blk0 (t : Fin cfg0.N) (i : S131072x8.Idx) :
    i ∈ ((cfg0.win 7).blk t).view.set ↔ ∀ a : Fin 2, win0_7.index t a * S2048x8.size a ≤ (i a).val ∧ (i a).val < win0_7.index t a * S2048x8.size a + S2048x8.size a := by
  show i ∈ ((View.whole main_v105).slice (win0_7.rect t)).set ↔ _
  rw [View.set_slice_whole, Rect.mem_set_unit]
  exact Iff.rfl

/-- Every row of the output array is in some point's block: row `r` in that of point `r / 2048`, and every point writes
    its block back. -/
theorem covered0 (i : S131072x8.Idx) : ∃ t : Fin cfg0.N, (cfg0.win 7).flush t = true ∧ i ∈ ((cfg0.win 7).blk t).view.set := by
  have hN : cfg0.N = 64 := N_0
  have hi0 : (i 0).val < 131072 := (i 0).isLt
  have hi1 : (i 1).val < 8 := (i 1).isLt
  let t : Fin cfg0.N := ⟨(i 0).val / 2048, by omega⟩
  have ht : t.val = (i 0).val / 2048 := rfl
  obtain ⟨e00, e01, e10, e11, e20, e21, e30, e31, e40, e41, e50, e51, e52, e60, e70, e71⟩ := block_index0 t
  refine ⟨t, flush0_7 t, ?_⟩
  rw [mem_blk0]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 8 ≤ (i 1).val ∧ (i 1).val < win0_7.index t (1 : Fin 2) * 8 + 8; omega

/-- THE OUTPUT ARRAY after the region: the layer of the arrays the region is entered with. -/
theorem final0 (c : Dev nD) : (dat0 (F := Ideal) V c).arrAt 7 cfg0.N = G0 V c :=
  (dat0 (F := Ideal) V c).arrAt_eq_of_cover 7 (G0 V c) (fun t _ => flushed0_eq V c t) (covered0)

end Cert.KernelIdeal.Hand

end
-- ==== Proof.KI.Pay1.lean ====
/-
  The second combining kernel's arithmetic on one block of 2048 rows, read at an index at the ideal values:
  the block of the layer's result is the layer of the blocks. A change of float format and a cast of a shape to itself are
  the identity there, the matrix unit's product into a zero accumulator is the plain sum of products over the eight inner indices,
  and the accumulator started from a splat of zero adds nothing.
-/
import proofs.«121312_j57732950393207_1_alg».proof.Proof.Gen.KernelIdeal.Skeleton
import proofs.«121312_j57732950393207_1_alg».proof.Proof.LibChebLayer
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The product's dimension numbers: rows of the left operand against columns of the right, one contracted axis. -/
abbrev D1 := dot_S2048x8_S8x8_S2048x8_1_0_0_1_n_n

theorem lhs1_0 (i : S2048x8.Idx) (q : D1.contr.Idx) : (D1.lhsIdx i q 0).val = (i 0).val := by
  unfold DotDims.lhsIdx
  rw [dif_neg (show ¬(0 : Fin S2048x8.rank) ∈ D1.lhsBatch by decide), dif_pos (show (0 : Fin S2048x8.rank) ∈ D1.lhsNonContracting by decide)]
  rfl
theorem lhs1_1 (i : S2048x8.Idx) (q : D1.contr.Idx) : (D1.lhsIdx i q 1).val = (q ⟨0, by decide⟩).val :=
  D1.lhsIdx_val_of_single rfl i q
theorem rhs1_0 (i : S2048x8.Idx) (q : D1.contr.Idx) : (D1.rhsIdx i q 0).val = (q ⟨0, by decide⟩).val :=
  D1.rhsIdx_val_of_single rfl i q
theorem rhs1_1 (i : S2048x8.Idx) (q : D1.contr.Idx) : (D1.rhsIdx i q 1).val = (i 1).val := by
  unfold DotDims.rhsIdx
  rw [dif_neg (show ¬(1 : Fin S8x8.rank) ∈ D1.rhsBatch by decide), dif_pos (show (1 : Fin S8x8.rank) ∈ D1.rhsNonContracting by decide)]
  rfl

/-- The matrix unit's product of a block with a weight slice, into zeros, at row `p` and column `q`: the sum of products
    over the inner index. -/
theorem mm1_apply (x : FVec Ideal S2048x8 .bf16) (w : FVec Ideal S8x8 .bf16) (p : Fin 2048) (q : Fin 8) :
    (matmul D1 none x w (constant S2048x8 .f32 0x00000000#32) : FVec Ideal S2048x8 .f32) (ix2 p q)
      = ∑ k : Fin 8, x (ix2 p k) * w (ix2 k q) := by
  simp only [matmul]
  rw [Ideal.matmul_constant_zero_apply, ← Equiv.sum_comp (contrEquiv1 D1 8 rfl rfl).symm]
  refine Finset.sum_congr rfl fun k _ => ?_
  have hk := contrEquiv1_symm_val D1 8 rfl rfl k
  have el : D1.lhsIdx (ix2 p q) ((contrEquiv1 D1 8 rfl rfl).symm k) = ix2 p k := funext fun a => Fin.ext (by
    match a with
    | ⟨0, _⟩ => exact lhs1_0 _ _
    | ⟨1, _⟩ => exact (lhs1_1 _ _).trans hk)
  have er : D1.rhsIdx (ix2 p q) ((contrEquiv1 D1 8 rfl rfl).symm k) = ix2 k q := funext fun a => Fin.ext (by
    match a with
    | ⟨0, _⟩ => exact (rhs1_0 _ _).trans hk
    | ⟨1, _⟩ => exact rhs1_1 _ _)
  rw [el, er]

/-- One term of the block: the block narrowed (the identity) against the weight slice cast from `1 × 8 × 8` to `8 × 8` and
    narrowed, read at `(p, q)`. -/
theorem term1_apply (x : FVec Ideal S2048x8 .f32) (w : Vec Ideal S1x8x8 .f32) (p : Fin 2048) (q : Fin 8) :
    (matmul D1 none (truncf .bf16 x bitsLt_bf16_f32) (truncf .bf16 (shapeCast S8x8 w shapeCasts_S1x8x8_S8x8) bitsLt_bf16_f32)
        (constant S2048x8 .f32 0x00000000#32) : FVec Ideal S2048x8 .f32) (ix2 p q)
      = ∑ k : Fin 8, x (ix2 p k) * w (ix3 (0 : Fin 1) k q) := by
  rw [mm1_apply]
  refine Finset.sum_congr rfl fun k _ => ?_
  rw [truncf_apply, truncf_apply, shapeCast_1ab_ab_apply]

/-- The bias laid along every row of the block, read at `(p, q)`. -/
theorem bias1_apply (b : Vec Ideal S8 .f32) (p : Fin 2048) (q : Fin 8) :
    (broadcastTo S2048x8 (shapeCast S1x8 b shapeCasts_S8_S1x8) broadcasts_S1x8_S2048x8 : FVec Ideal S2048x8 .f32) (ix2 p q) = b (ix1 q) := by
  rw [broadcastTo_1b_ab_apply, shapeCast_a_1a_apply]

/-- THE BLOCK'S ARITHMETIC at row `p` and column `q`: the rectified sum of the five terms and the bias, the terms' weight
    slices given one by one (each a `1 × 8 × 8` array). -/
theorem pay1_apply (x0 x1 x2 x3 x4 : Vec Ideal S2048x8 .f32) (w0 w1 w2 w3 w4 : Vec Ideal S1x8x8 .f32) (b : Vec Ideal S8 .f32)
    (p : Fin 2048) (q : Fin 8) :
    k1_pay1 (k1_pay2 x0 w0 x1 w1 x2 w2 x3 w3) x4 w4 b (ix2 p q)
      = max ((((((∑ k : Fin 8, x0 (ix2 p k) * w0 (ix3 (0 : Fin 1) k q)) + ∑ k : Fin 8, x1 (ix2 p k) * w1 (ix3 (0 : Fin 1) k q))
            + ∑ k : Fin 8, x2 (ix2 p k) * w2 (ix3 (0 : Fin 1) k q)) + ∑ k : Fin 8, x3 (ix2 p k) * w3 (ix3 (0 : Fin 1) k q))
            + ∑ k : Fin 8, x4 (ix2 p k) * w4 (ix3 (0 : Fin 1) k q)) + b (ix1 q)) (Ideal.ofBits .f32 0x00000000#32) := by
  unfold k1_pay1 k1_pay2
  simp only [shapeCast_self]
  simp only [maximumf_apply, addf_apply, broadcast_apply, term1_apply, bias1_apply]
  rw [show (Scalar.ofBits .f32 0x00000000#32 : Ideal .f32) = Ideal.ofBits .f32 0x00000000#32 from rfl, ChebLayer.zero_word_add]

end Cert.KernelIdeal.Hand

end
-- ==== Proof.KI.Val1.lean ====
/-
  What the second combining kernel leaves in its output array, at the ideal values: the Chebyshev layer of the seven
  arrays it is entered with. Point `t` of the grid is handed rows `2048·t … 2048·t + 2047` of the five term arrays (and the
  whole weights and bias), and writes back the same rows of the output; its arithmetic on the block is the layer of the
  block's rows, and a row of the layer depends on the same row of the terms only. The 64 blocks tile the array.
-/
import proofs.«121312_j57732950393207_1_alg».proof.Proof.KI.Region1
import proofs.«121312_j57732950393207_1_alg».proof.Proof.KI.Pay1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem zero_off1_2 : (![0, 0] : Fin 2 → Nat) = fun _ => 0 := funext fun a => by fin_cases a <;> rfl
theorem zero_off1_1 : (![0] : Fin 1 → Nat) = fun _ => 0 := funext fun a => by fin_cases a <;> rfl

/-- Slab `s` of the weights, read at `(0, k, q)`, is the weights at `(s, k, q)`. -/
theorem slab1_apply (W : Vec Ideal S5x8x8 .f32) (s : Fin 5) (off : Fin 3 → Nat) (hoff : off = ![s.val, 0, 0])
    (inb : ∀ a, off a + S1x8x8.size a ≤ S5x8x8.size a) (k : Fin 8) (q : Fin 8) :
    View.ld W (Rect.unit (s := S5x8x8) off S1x8x8.size inb) (ix3 (0 : Fin 1) k q) = W (ix3 s k q) := by
  subst hoff
  show W ((Rect.unit (s := S5x8x8) ![s.val, 0, 0] S1x8x8.size inb).emb (ix3 (0 : Fin 1) k q)) = W (ix3 s k q)
  refine congrArg W (funext fun a => Fin.ext ?_)
  match a with
  | ⟨0, _⟩ => show s.val + 1 * 0 = s.val; omega
  | ⟨1, _⟩ => show 0 + 1 * k.val = k.val; omega
  | ⟨2, _⟩ => show 0 + 1 * q.val = q.val; omega

/-- THE BLOCK IS THE LAYER'S BLOCK. If row `p` of each of the five term blocks is row `r` of its array, and the weight
    and bias blocks are the whole weights and bias, then the kernel's arithmetic on the blocks, at `(p, q)`, is the
    layer of the arrays at `(r, q)`. -/
theorem block_layer1 (T0 T1 T2 T3 T4 : FVec Ideal ⟨2, ![131072, 8]⟩ .f32) (W : FVec Ideal ⟨3, ![5, 8, 8]⟩ .f32) (b : FVec Ideal ⟨1, ![8]⟩ .f32)
    (x0 x1 x2 x3 x4 : Vec Ideal S2048x8 .f32) (x5 : Vec Ideal S5x8x8 .f32) (x6 : Vec Ideal S8 .f32) (r : Fin 131072) (p : Fin 2048) (q : Fin 8)
    (h0 : ∀ k : Fin 8, x0 (ix2 p k) = T0 (ix2 r k)) (h1 : ∀ k : Fin 8, x1 (ix2 p k) = T1 (ix2 r k))
    (h2 : ∀ k : Fin 8, x2 (ix2 p k) = T2 (ix2 r k)) (h3 : ∀ k : Fin 8, x3 (ix2 p k) = T3 (ix2 r k))
    (h4 : ∀ k : Fin 8, x4 (ix2 p k) = T4 (ix2 r k))
    (h5 : ∀ (s : Fin 5) (k : Fin 8), x5 (ix3 s k q) = W (ix3 s k q)) (h6 : x6 (ix1 q) = b (ix1 q)) :
    k1_pay1 (k1_pay2 x0 (View.ld x5 r1_c0) x1 (View.ld x5 r1_c1) x2 (View.ld x5 r1_c2) x3 (View.ld x5 r1_c3)) x4 (View.ld x5 r1_c4) x6 (ix2 p q)
      = ChebLayer.layer 131072 8 T0 T1 T2 T3 T4 W b (ix2 r q) := by
  rw [pay1_apply, ChebLayer.layer_apply]
  unfold ChebLayer.pre ChebLayer.term
  have c0 : ∀ k : Fin 8, View.ld x5 r1_c0 (ix3 (0 : Fin 1) k q) = x5 (ix3 (0 : Fin 5) k q) := fun k => slab1_apply x5 0 _ rfl _ k q
  have c1 : ∀ k : Fin 8, View.ld x5 r1_c1 (ix3 (0 : Fin 1) k q) = x5 (ix3 (1 : Fin 5) k q) := fun k => slab1_apply x5 1 _ rfl _ k q
  have c2 : ∀ k : Fin 8, View.ld x5 r1_c2 (ix3 (0 : Fin 1) k q) = x5 (ix3 (2 : Fin 5) k q) := fun k => slab1_apply x5 2 _ rfl _ k q
  have c3 : ∀ k : Fin 8, View.ld x5 r1_c3 (ix3 (0 : Fin 1) k q) = x5 (ix3 (3 : Fin 5) k q) := fun k => slab1_apply x5 3 _ rfl _ k q
  have c4 : ∀ k : Fin 8, View.ld x5 r1_c4 (ix3 (0 : Fin 1) k q) = x5 (ix3 (4 : Fin 5) k q) := fun k => slab1_apply x5 4 _ rfl _ k q
  simp only [c0, c1, c2, c3, c4, h0, h1, h2, h3, h4, h5, h6]

variable (V : (c : Dev nD) → (b : Ref sig .tc) → Buf (Elt Ideal) ((c : Thread nD τ).loc b))

/-- The layer of the arrays the kernel is entered with. -/
abbrev G1 (c : Dev nD) : S131072x8.Idx → Elt Ideal .f32 :=
  ChebLayer.layer 131072 8 (V c main_v105) (V c main_v122) (V c main_v142) (V c main_v162) (V c main_v182) (V c main_arg6) (V c main_arg7)

/-- The printed index maps, decided over the grid: the five term windows and the output window sit at block row `t`,
    block column 0; the weights and the bias at their one block. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 3) = 0 ∧ win1_5.index t (1 : Fin 3) = 0 ∧ win1_5.index t (2 : Fin 3) = 0
    ∧ win1_6.index t (0 : Fin 1) = 0
    ∧ win1_7.index t (0 : Fin 2) = t.val ∧ win1_7.index t (1 : Fin 2) = 0 :=
  (by decide +kernel : ∀ t : Fin grid1.N, _)

/-- Row `p` of term window 0's block at point `t` is row `2048·t + p` of its array. -/
theorem term_rows1_0 (c : Dev nD) (t : Fin cfg1.N) (p : Fin 2048) (r : Fin 131072) (hr : r.val = 2048 * t.val + p.val) (k : Fin 8) :
    iblk1 V c 0 t (ix2 p k) = V c main_v105 (ix2 r k) := by
  obtain ⟨e00, e01, e10, e11, e20, e21, e30, e31, e40, e41, e50, e51, e52, e60, e70, e71⟩ := block_index1 t
  show (V c main_v105 : S131072x8.Idx → Elt Ideal .f32) (((cfg1.win 0).blk t).view.emb (ix2 p k)) = V c main_v105 (ix2 r k)
  refine congrArg (V c main_v105) (funext fun a => Fin.ext ?_)
  match a with
  | ⟨0, _⟩ => show win1_0.index t (0 : Fin 2) * 2048 + 1 * p.val = r.val; omega
  | ⟨1, _⟩ => show win1_0.index t (1 : Fin 2) * 8 + 1 * k.val = k.val; omega

/-- Row `p` of term window 1's block at point `t` is row `2048·t + p` of its array. -/
theorem term_rows1_1 (c : Dev nD) (t : Fin cfg1.N) (p : Fin 2048) (r : Fin 131072) (hr : r.val = 2048 * t.val + p.val) (k : Fin 8) :
    iblk1 V c 1 t (ix2 p k) = V c main_v122 (ix2 r k) := by
  obtain ⟨e00, e01, e10, e11, e20, e21, e30, e31, e40, e41, e50, e51, e52, e60, e70, e71⟩ := block_index1 t
  show (V c main_v122 : S131072x8.Idx → Elt Ideal .f32) (((cfg1.win 1).blk t).view.emb (ix2 p k)) = V c main_v122 (ix2 r k)
  refine congrArg (V c main_v122) (funext fun a => Fin.ext ?_)
  match a with
  | ⟨0, _⟩ => show win1_1.index t (0 : Fin 2) * 2048 + 1 * p.val = r.val; omega
  | ⟨1, _⟩ => show win1_1.index t (1 : Fin 2) * 8 + 1 * k.val = k.val; omega

/-- Row `p` of term window 2's block at point `t` is row `2048·t + p` of its array. -/
theorem term_rows1_2 (c : Dev nD) (t : Fin cfg1.N) (p : Fin 2048) (r : Fin 131072) (hr : r.val = 2048 * t.val + p.val) (k : Fin 8) :
    iblk1 V c 2 t (ix2 p k) = V c main_v142 (ix2 r k) := by
  obtain ⟨e00, e01, e10, e11, e20, e21, e30, e31, e40, e41, e50, e51, e52, e60, e70, e71⟩ := block_index1 t
  show (V c main_v142 : S131072x8.Idx → Elt Ideal .f32) (((cfg1.win 2).blk t).view.emb (ix2 p k)) = V c main_v142 (ix2 r k)
  refine congrArg (V c main_v142) (funext fun a => Fin.ext ?_)
  match a with
  | ⟨0, _⟩ => show win1_2.index t (0 : Fin 2) * 2048 + 1 * p.val = r.val; omega
  | ⟨1, _⟩ => show win1_2.index t (1 : Fin 2) * 8 + 1 * k.val = k.val; omega

/-- Row `p` of term window 3's block at point `t` is row `2048·t + p` of its array. -/
theorem term_rows1_3 (c : Dev nD) (t : Fin cfg1.N) (p : Fin 2048) (r : Fin 131072) (hr : r.val = 2048 * t.val + p.val) (k : Fin 8) :
    iblk1 V c 3 t (ix2 p k) = V c main_v162 (ix2 r k) := by
  obtain ⟨e00, e01, e10, e11, e20, e21, e30, e31, e40, e41, e50, e51, e52, e60, e70, e71⟩ := block_index1 t
  show (V c main_v162 : S131072x8.Idx → Elt Ideal .f32) (((cfg1.win 3).blk t).view.emb (ix2 p k)) = V c main_v162 (ix2 r k)
  refine congrArg (V c main_v162) (funext fun a => Fin.ext ?_)
  match a with
  | ⟨0, _⟩ => show win1_3.index t (0 : Fin 2) * 2048 + 1 * p.val = r.val; omega
  | ⟨1, _⟩ => show win1_3.index t (1 : Fin 2) * 8 + 1 * k.val = k.val; omega

/-- Row `p` of term window 4's block at point `t` is row `2048·t + p` of its array. -/
theorem term_rows1_4 (c : Dev nD) (t : Fin cfg1.N) (p : Fin 2048) (r : Fin 131072) (hr : r.val = 2048 * t.val + p.val) (k : Fin 8) :
    iblk1 V c 4 t (ix2 p k) = V c main_v182 (ix2 r k) := by
  obtain ⟨e00, e01, e10, e11, e20, e21, e30, e31, e40, e41, e50, e51, e52, e60, e70, e71⟩ := block_index1 t
  show (V c main_v182 : S131072x8.Idx → Elt Ideal .f32) (((cfg1.win 4).blk t).view.emb (ix2 p k)) = V c main_v182 (ix2 r k)
  refine congrArg (V c main_v182) (funext fun a => Fin.ext ?_)
  match a with
  | ⟨0, _⟩ => show win1_4.index t (0 : Fin 2) * 2048 + 1 * p.val = r.val; omega
  | ⟨1, _⟩ => show win1_4.index t (1 : Fin 2) * 8 + 1 * k.val = k.val; omega

/-- The weights' block at any point is the whole weights. -/
theorem weights_block1 (c : Dev nD) (t : Fin cfg1.N) (s : Fin 5) (k : Fin 8) (q : Fin 8) :
    iblk1 V c 5 t (ix3 s k q) = V c main_arg6 (ix3 s k q) := by
  obtain ⟨e00, e01, e10, e11, e20, e21, e30, e31, e40, e41, e50, e51, e52, e60, e70, e71⟩ := block_index1 t
  show (V c main_arg6 : S5x8x8.Idx → Elt Ideal .f32) (((cfg1.win 5).blk t).view.emb (ix3 s k q)) = V c main_arg6 (ix3 s k q)
  refine congrArg (V c main_arg6) (funext fun a => Fin.ext ?_)
  match a with
  | ⟨0, _⟩ => show win1_5.index t (0 : Fin 3) * 5 + 1 * s.val = s.val; omega
  | ⟨1, _⟩ => show win1_5.index t (1 : Fin 3) * 8 + 1 * k.val = k.val; omega
  | ⟨2, _⟩ => show win1_5.index t (2 : Fin 3) * 8 + 1 * q.val = q.val; omega

/-- The bias's block at any point is the whole bias. -/
theorem bias_block1 (c : Dev nD) (t : Fin cfg1.N) (q : Fin 8) : iblk1 V c 6 t (ix1 q) = V c main_arg7 (ix1 q) := by
  obtain ⟨e00, e01, e10, e11, e20, e21, e30, e31, e40, e41, e50, e51, e52, e60, e70, e71⟩ := block_index1 t
  show (V c main_arg7 : S8.Idx → Elt Ideal .f32) (((cfg1.win 6).blk t).view.emb (ix1 q)) = V c main_arg7 (ix1 q)
  refine congrArg (V c main_arg7) (funext fun a => Fin.ext ?_)
  match a with
  | ⟨0, _⟩ => show win1_6.index t (0 : Fin 1) * 8 + 1 * q.val = q.val; omega

/-- Row `p` of the output window's block at point `t` is row `2048·t + p` of the output array. -/
theorem out_rows1 (t : Fin cfg1.N) (p : Fin 2048) (q : Fin 8) (r : Fin 131072) (hr : r.val = 2048 * t.val + p.val) :
    ((cfg1.win 7).blk t).view.emb (ix2 p q) = (ix2 r q : S131072x8.Idx) := by
  obtain ⟨e00, e01, e10, e11, e20, e21, e30, e31, e40, e41, e50, e51, e52, e60, e70, e71⟩ := block_index1 t
  refine funext fun a => Fin.ext ?_
  match a with
  | ⟨0, _⟩ => show win1_7.index t (0 : Fin 2) * 2048 + 1 * p.val = r.val; omega
  | ⟨1, _⟩ => show win1_7.index t (1 : Fin 2) * 8 + 1 * q.val = q.val; omega

/-- WHAT POINT `t` WRITES BACK is block `t` of the layer of the arrays as the region finds them. -/
theorem flushed1_eq (c : Dev nD) (t : Fin cfg1.N) :
    (dat1 (F := Ideal) V c).flushed 7 t = ((cfg1.win 7).blk t).view.read (Elt Ideal) (G1 V c) := by
  show (cfg1.win 7).cut (grid1.coords t) ((dat1 V c).after 7 t) = _
  rw [after1_7]
  unfold out1_7
  rw [View.canon_unit_zero zero_off1_2]
  simp only [View.ld_unit_zero (S := S2048x8) zero_off1_2, View.ld_unit_zero (S := S8) zero_off1_1]
  funext j
  obtain ⟨p, q, rfl⟩ : ∃ (p : Fin 2048) (q : Fin 8), j = ix2 p q := ⟨j 0, j 1, ValueIdx.eq_ix2 (n0 := 2048) (n1 := 8) j⟩
  have hN : cfg1.N = 64 := N_1
  have hr : 2048 * t.val + p.val < 131072 := by have := t.isLt; omega
  refine (block_layer1 (V c main_v105) (V c main_v122) (V c main_v142) (V c main_v162) (V c main_v182) (V c main_arg6) (V c main_arg7)
    (iblk1 V c 0 t) (iblk1 V c 1 t) (iblk1 V c 2 t) (iblk1 V c 3 t) (iblk1 V c 4 t) (iblk1 V c 5 t) (iblk1 V c 6 t) ⟨2048 * t.val + p.val, hr⟩ p q
    (term_rows1_0 V c t p _ rfl) (term_rows1_1 V c t p _ rfl) (term_rows1_2 V c t p _ rfl) (term_rows1_3 V c t p _ rfl) (term_rows1_4 V c t p _ rfl)
    (fun s k => weights_block1 V c t s k q) (bias_block1 V c t q)).trans ?_
  show G1 V c (ix2 ⟨2048 * t.val + p.val, hr⟩ q) = G1 V c (((cfg1.win 7).blk t).view.emb (ix2 p q))
  rw [out_rows1 t p q ⟨2048 * t.val + p.val, hr⟩ rfl]

/-- An index of the output array is in point `t`'s block iff each coordinate is in the block's range on its axis. -/
theorem mem_blk1 (t : Fin cfg1.N) (i : S131072x8.Idx) :
    i ∈ ((cfg1.win 7).blk t).view.set ↔ ∀ a : Fin 2, win1_7.index t a * S2048x8.size a ≤ (i a).val ∧ (i a).val < win1_7.index t a * S2048x8.size a + S2048x8.size a := by
  show i ∈ ((View.whole main_v183).slice (win1_7.rect t)).set ↔ _
  rw [View.set_slice_whole, Rect.mem_set_unit]
  exact Iff.rfl

/-- Every row of the output array is in some point's block: row `r` in that of point `r / 2048`, and every point writes
    its block back. -/
theorem covered1 (i : S131072x8.Idx) : ∃ t : Fin cfg1.N, (cfg1.win 7).flush t = true ∧ i ∈ ((cfg1.win 7).blk t).view.set := by
  have hN : cfg1.N = 64 := N_1
  have hi0 : (i 0).val < 131072 := (i 0).isLt
  have hi1 : (i 1).val < 8 := (i 1).isLt
  let t : Fin cfg1.N := ⟨(i 0).val / 2048, by omega⟩
  have ht : t.val = (i 0).val / 2048 := rfl
  obtain ⟨e00, e01, e10, e11, e20, e21, e30, e31, e40, e41, e50, e51, e52, e60, e70, e71⟩ := block_index1 t
  refine ⟨t, flush1_7 t, ?_⟩
  rw [mem_blk1]
  intro a
  match a with
  | ⟨0, _⟩ => show win1_7.index t (0 : Fin 2) * 2048 ≤ (i 0).val ∧ (i 0).val < win1_7.index t (0 : Fin 2) * 2048 + 2048; omega
  | ⟨1, _⟩ => show win1_7.index t (1 : Fin 2) * 8 ≤ (i 1).val ∧ (i 1).val < win1_7.index t (1 : Fin 2) * 8 + 8; omega

/-- THE OUTPUT ARRAY after the region: the layer of the arrays the region is entered with. -/
theorem final1 (c : Dev nD) : (dat1 (F := Ideal) V c).arrAt 7 cfg1.N = G1 V c :=
  (dat1 (F := Ideal) V c).arrAt_eq_of_cover 7 (G1 V c) (fun t _ => flushed1_eq V c t) (covered1)

end Cert.KernelIdeal.Hand

end
-- ==== Proof.KI.Pay2.lean ====
/-
  The head kernel's arithmetic on its blocks, read at an index at the ideal values. A change of float format and a cast of a
  shape to itself are the identity there; the matrix unit's product into a zero accumulator is the plain sum of products over
  the one inner index; a bias row laid along every row of a block reads the bias at the column.
-/
import proofs.«121312_j57732950393207_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The two products' dimension numbers: rows of the left operand against columns of the right, one contracted axis. -/
abbrev D2a := dot_S16x2048_S2048x1000_S16x1000_1_0_0_1_n_n
abbrev D2b := dot_S16x1000_S1000x34_S16x34_1_0_0_1_n_n

theorem lhs2a_0 (i : S16x1000.Idx) (q : D2a.contr.Idx) : (D2a.lhsIdx i q 0).val = (i 0).val := by
  unfold DotDims.lhsIdx
  rw [dif_neg (show ¬(0 : Fin S16x2048.rank) ∈ D2a.lhsBatch by decide), dif_pos (show (0 : Fin S16x2048.rank) ∈ D2a.lhsNonContracting by decide)]
  rfl
theorem lhs2a_1 (i : S16x1000.Idx) (q : D2a.contr.Idx) : (D2a.lhsIdx i q 1).val = (q ⟨0, by decide⟩).val :=
  D2a.lhsIdx_val_of_single rfl i q
theorem rhs2a_0 (i : S16x1000.Idx) (q : D2a.contr.Idx) : (D2a.rhsIdx i q 0).val = (q ⟨0, by decide⟩).val :=
  D2a.rhsIdx_val_of_single rfl i q
theorem rhs2a_1 (i : S16x1000.Idx) (q : D2a.contr.Idx) : (D2a.rhsIdx i q 1).val = (i 1).val := by
  unfold DotDims.rhsIdx
  rw [dif_neg (show ¬(1 : Fin S2048x1000.rank) ∈ D2a.rhsBatch by decide), dif_pos (show (1 : Fin S2048x1000.rank) ∈ D2a.rhsNonContracting by decide)]
  rfl

/-- The matrix unit's product into zeros, at row `p` and column `q`: the sum of products over the inner index. -/
theorem mm2a_apply (x : FVec Ideal S16x2048 .bf16) (w : FVec Ideal S2048x1000 .bf16) (p : Fin 16) (q : Fin 1000) :
    (matmul D2a none x w (constant S16x1000 .f32 0x00000000#32) : FVec Ideal S16x1000 .f32) (ix2 p q)
      = ∑ k : Fin 2048, x (ix2 p k) * w (ix2 k q) := by
  simp only [matmul]
  rw [Ideal.matmul_constant_zero_apply, ← Equiv.sum_comp (contrEquiv1 D2a 2048 rfl rfl).symm]
  refine Finset.sum_congr rfl fun k _ => ?_
  have hk := contrEquiv1_symm_val D2a 2048 rfl rfl k
  have el : D2a.lhsIdx (ix2 p q) ((contrEquiv1 D2a 2048 rfl rfl).symm k) = ix2 p k := funext fun a => Fin.ext (by
    match a with
    | ⟨0, _⟩ => exact lhs2a_0 _ _
    | ⟨1, _⟩ => exact (lhs2a_1 _ _).trans hk)
  have er : D2a.rhsIdx (ix2 p q) ((contrEquiv1 D2a 2048 rfl rfl).symm k) = ix2 k q := funext fun a => Fin.ext (by
    match a with
    | ⟨0, _⟩ => exact (rhs2a_0 _ _).trans hk
    | ⟨1, _⟩ => exact rhs2a_1 _ _)
  rw [el, er]

theorem lhs2b_0 (i : S16x34.Idx) (q : D2b.contr.Idx) : (D2b.lhsIdx i q 0).val = (i 0).val := by
  unfold DotDims.lhsIdx
  rw [dif_neg (show ¬(0 : Fin S16x1000.rank) ∈ D2b.lhsBatch by decide), dif_pos (show (0 : Fin S16x1000.rank) ∈ D2b.lhsNonContracting by decide)]
  rfl
theorem lhs2b_1 (i : S16x34.Idx) (q : D2b.contr.Idx) : (D2b.lhsIdx i q 1).val = (q ⟨0, by decide⟩).val :=
  D2b.lhsIdx_val_of_single rfl i q
theorem rhs2b_0 (i : S16x34.Idx) (q : D2b.contr.Idx) : (D2b.rhsIdx i q 0).val = (q ⟨0, by decide⟩).val :=
  D2b.rhsIdx_val_of_single rfl i q
theorem rhs2b_1 (i : S16x34.Idx) (q : D2b.contr.Idx) : (D2b.rhsIdx i q 1).val = (i 1).val := by
  unfold DotDims.rhsIdx
  rw [dif_neg (show ¬(1 : Fin S1000x34.rank) ∈ D2b.rhsBatch by decide), dif_pos (show (1 : Fin S1000x34.rank) ∈ D2b.rhsNonContracting by decide)]
  rfl

/-- The matrix unit's product into zeros, at row `p` and column `q`: the sum of products over the inner index. -/
theorem mm2b_apply (x : FVec Ideal S16x1000 .bf16) (w : FVec Ideal S1000x34 .bf16) (p : Fin 16) (q : Fin 34) :
    (matmul D2b none x w (constant S16x34 .f32 0x00000000#32) : FVec Ideal S16x34 .f32) (ix2 p q)
      = ∑ k : Fin 1000, x (ix2 p k) * w (ix2 k q) := by
  simp only [matmul]
  rw [Ideal.matmul_constant_zero_apply, ← Equiv.sum_comp (contrEquiv1 D2b 1000 rfl rfl).symm]
  refine Finset.sum_congr rfl fun k _ => ?_
  have hk := contrEquiv1_symm_val D2b 1000 rfl rfl k
  have el : D2b.lhsIdx (ix2 p q) ((contrEquiv1 D2b 1000 rfl rfl).symm k) = ix2 p k := funext fun a => Fin.ext (by
    match a with
    | ⟨0, _⟩ => exact lhs2b_0 _ _
    | ⟨1, _⟩ => exact (lhs2b_1 _ _).trans hk)
  have er : D2b.rhsIdx (ix2 p q) ((contrEquiv1 D2b 1000 rfl rfl).symm k) = ix2 k q := funext fun a => Fin.ext (by
    match a with
    | ⟨0, _⟩ => exact (rhs2b_0 _ _).trans hk
    | ⟨1, _⟩ => exact rhs2b_1 _ _)
  rw [el, er]

/-- The reset's payload: zeros. -/
theorem pay2_zero_apply (p : Fin 16) (q : Fin 1000) : (k2_pay1 (F := Ideal)) (ix2 p q) = Ideal.ofBits .f32 0x00000000#32 := by
  unfold k2_pay1
  simp only [shapeCast_self]
  rfl

/-- THE UPDATE at row `p` and unit `q`: what the accumulator held plus the product of the two blocks there. -/
theorem pay2_step_apply (x : Vec Ideal S16x2048 .f32) (w : Vec Ideal S2048x1000 .f32) (a : Vec Ideal S16x1000 .f32) (p : Fin 16) (q : Fin 1000) :
    k2_pay2 x w a (ix2 p q) = a (ix2 p q) + ∑ k : Fin 2048, x (ix2 p k) * w (ix2 k q) := by
  unfold k2_pay2
  simp only [shapeCast_self]
  simp only [addf_apply, mm2a_apply, truncf_apply]

/-- A bias of 1000 entries laid along every row of a block, read at `(p, j)`. -/
theorem bias2_hidden_apply (b : Vec Ideal S1000 .f32) (p : Fin 16) (j : Fin 1000) :
    (broadcastTo S16x1000 (shapeCast S1x1000 b shapeCasts_S1000_S1x1000) broadcasts_S1x1000_S16x1000 : FVec Ideal S16x1000 .f32) (ix2 p j) = b (ix1 j) := by
  rw [broadcastTo_1b_ab_apply, shapeCast_a_1a_apply]

/-- A bias of 34 entries laid along every row of a block, read at `(p, q)`. -/
theorem bias2_out_apply (b : Vec Ideal S34 .f32) (p : Fin 16) (q : Fin 34) :
    (broadcastTo S16x34 (shapeCast S1x34 b shapeCasts_S34_S1x34) broadcasts_S1x34_S16x34 : FVec Ideal S16x34 .f32) (ix2 p q) = b (ix1 q) := by
  rw [broadcastTo_1b_ab_apply, shapeCast_a_1a_apply]

/-- THE EPILOGUE at row `p` and column `q`: the rectified accumulator-plus-bias against the second weight matrix, plus the
    second bias. -/
theorem pay2_out_apply (a : Vec Ideal S16x1000 .f32) (b1 : Vec Ideal S1000 .f32) (w2 : Vec Ideal S1000x34 .f32) (b2 : Vec Ideal S34 .f32)
    (p : Fin 16) (q : Fin 34) :
    k2_pay3 a b1 w2 b2 (ix2 p q)
      = (∑ j : Fin 1000, max (a (ix2 p j) + b1 (ix1 j)) (Ideal.ofBits .f32 0x00000000#32) * w2 (ix2 j q)) + b2 (ix1 q) := by
  unfold k2_pay3
  simp only [addf_apply, mm2b_apply, truncf_apply, maximumf_apply, broadcast_apply, bias2_hidden_apply, bias2_out_apply]
  rfl

end Cert.KernelIdeal.Hand

end
-- ==== Proof.LibDenseHead.lean ====
/-
  The dense head of the network as ONE function of its arrays, index by index, over the extended reals.

  The head takes the activations `H` (16 rows of 65536 features), a first weight matrix `W1` (65536 × 1000) with its bias
  `b1`, and a second weight matrix `W2` (1000 × 34) with its bias `b2`. The hidden layer at row `r` and unit `j` is
    max (Σₖ H(r,k)·W1(k,j) + b1(j)) 0,
  and entry `(r, q)` of the result is  Σⱼ hidden(r,j)·W2(j,q) + b2(q).
  The contraction over the 65536 features may be taken block by block: the sum over the features is the sum, over blocks of
  consecutive features, of the blocks' sums, which is what lets a kernel stream the first weight matrix 2048 rows at a time.
-/
import Idealize.ShloMosaic.PureOps.Ideal.Laws
import Idealize.ShloMosaic.Lib.ValueIdx

noncomputable section

open Idealize.ShloMosaic Idealize.ShloMosaic.ValueIdx

namespace DenseHead

/-- The hidden layer at row `r` and unit `j`: the rectified affine image of the row. -/
def hidden (H : FVec Ideal ⟨2, ![16, 65536]⟩ .f32) (W1 : FVec Ideal ⟨2, ![65536, 1000]⟩ .f32) (b1 : FVec Ideal ⟨1, ![1000]⟩ .f32)
    (r : Fin 16) (j : Fin 1000) : EReal :=
  max ((∑ k : Fin 65536, H (ix2 r k) * W1 (ix2 k j)) + b1 (ix1 j)) (Ideal.ofBits .f32 0x00000000#32)

/-- The head: the affine image of the hidden layer, entry by entry. -/
def head (H : FVec Ideal ⟨2, ![16, 65536]⟩ .f32) (W1 : FVec Ideal ⟨2, ![65536, 1000]⟩ .f32) (b1 : FVec Ideal ⟨1, ![1000]⟩ .f32)
    (W2 : FVec Ideal ⟨2, ![1000, 34]⟩ .f32) (b2 : FVec Ideal ⟨1, ![34]⟩ .f32) : FVec Ideal ⟨2, ![16, 34]⟩ .f32 :=
  fun i => (∑ j : Fin 1000, hidden H W1 b1 (i 0) j * W2 (ix2 j (i 1))) + b2 (ix1 (i 1))

theorem head_apply (H : FVec Ideal ⟨2, ![16, 65536]⟩ .f32) (W1 : FVec Ideal ⟨2, ![65536, 1000]⟩ .f32) (b1 : FVec Ideal ⟨1, ![1000]⟩ .f32)
    (W2 : FVec Ideal ⟨2, ![1000, 34]⟩ .f32) (b2 : FVec Ideal ⟨1, ![34]⟩ .f32) (r : Fin 16) (q : Fin 34) :
    head H W1 b1 W2 b2 (ix2 r q) = (∑ j : Fin 1000, hidden H W1 b1 r j * W2 (ix2 j q)) + b2 (ix1 q) := rfl

/-- A sum over `m · n` consecutive naturals, taken in `m` blocks of `n`. -/
theorem sum_blocks {M : Type*} [AddCommMonoid M] (m n : ℕ) (f : ℕ → M) :
    ∑ k : Fin (m * n), f k.val = ∑ t : Fin m, ∑ k : Fin n, f (n * t.val + k.val) := by
  rw [← Fintype.sum_prod_type', ← Equiv.sum_comp finProdFinEquiv]
  refine Finset.sum_congr rfl fun x _ => ?_
  rw [finProdFinEquiv_apply_val, Nat.add_comm]

end DenseHead

end
-- ==== Proof.KI.Val2.lean ====
/-
  What the head kernel leaves in its output array, at the ideal values: the dense head of the five arrays it is entered with.
  Point `t` of the grid is handed columns `2048·t … 2048·t + 2047` of the activations and the same rows of the first weight
  matrix (and the whole of the two biases and the second weight matrix); it adds their product into an accumulator that the
  first point zeroed. After the 32 points the accumulator holds, entry by entry, the blocks' sums added from the left, which is
  the sum over all 65536 features; the last point forms the result from it and writes back the one block of the output array,
  which is the whole array.
-/
import proofs.«121312_j57732950393207_1_alg».proof.Proof.KI.Region2
import proofs.«121312_j57732950393207_1_alg».proof.Proof.KI.Pay2
import proofs.«121312_j57732950393207_1_alg».proof.Proof.LibDenseHead

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem zero_off2_2 : (![0, 0] : Fin 2 → Nat) = fun _ => 0 := funext fun a => by fin_cases a <;> rfl
theorem zero_off2_1 : (![0] : Fin 1 → Nat) = fun _ => 0 := funext fun a => by fin_cases a <;> rfl

/-! ## Every store is of a whole buffer: what it leaves is its payload, and every load reads the contents -/

theorem zero2_eq : (zero2 (F := Ideal)) = (k2_pay1 (F := Ideal)) := by
  unfold zero2
  rw [View.canon_unit_zero zero_off2_2]

theorem step2_eq (h : Vec Ideal S16x2048 .f32) (w1 : Vec Ideal S2048x1000 .f32) (a : Vec Ideal S16x1000 .f32) :
    step2 h w1 a = k2_pay2 h w1 a := by
  unfold step2
  rw [View.canon_unit_zero zero_off2_2]
  simp only [View.ld_unit_zero (S := S16x2048) zero_off2_2, View.ld_unit_zero (S := S2048x1000) zero_off2_2,
    View.ld_unit_zero (S := S16x1000) zero_off2_2]

theorem out2_5_eq (a : Vec Ideal S16x1000 .f32) (b1 : Vec Ideal S1000 .f32) (w2 : Vec Ideal S1000x34 .f32) (b2 : Vec Ideal S34 .f32) :
    out2_5 a b1 w2 b2 = k2_pay3 a b1 w2 b2 := by
  unfold out2_5
  rw [View.canon_unit_zero zero_off2_2]
  simp only [View.ld_unit_zero (S := S16x1000) zero_off2_2, View.ld_unit_zero (S := S1000) zero_off2_1,
    View.ld_unit_zero (S := S1000x34) zero_off2_2, View.ld_unit_zero (S := S34) zero_off2_1]

variable (V : (c : Dev nD) → (b : Ref sig .tc) → Buf (Elt Ideal) ((c : Thread nD τ).loc b))

/-! ## The blocks the points are handed -/

/-- The activations and the first weight matrix as the region finds them, and their blocks at a point. -/
abbrev actIn2 (c : Dev nD) : Vec Ideal S16x65536 .f32 := V c main_v184
abbrev w1In2 (c : Dev nD) : Vec Ideal S65536x1000 .f32 := V c main_arg8
abbrev hblk2 (c : Dev nD) (t : Fin cfg2.N) : Vec Ideal S16x2048 .f32 := iblk2 V c 0 t
abbrev wblk2 (c : Dev nD) (t : Fin cfg2.N) : Vec Ideal S2048x1000 .f32 := iblk2 V c 1 t

/-- The printed index maps, decided over the grid: the activations' window sits at block column `t`, the first weight
    matrix's at block row `t`; the biases, the second weight matrix and the output at their one block. -/
theorem block_index2 : ∀ t : Fin cfg2.N,
    win2_0.index t (0 : Fin 2) = 0 ∧ win2_0.index t (1 : Fin 2) = t.val
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0 :=
  (by decide +kernel : ∀ t : Fin grid2.N, _)

/-- Column `k` of the activations' block at point `t` is column `2048·t + k` of the activations. -/
theorem act_cols2 (c : Dev nD) (t : Fin cfg2.N) (r : Fin 16) (k : Fin 2048) (K : Fin 65536) (hK : K.val = 2048 * t.val + k.val) :
    hblk2 V c t (ix2 r k) = actIn2 V c (ix2 r K) := by
  obtain ⟨e00, e01, e10, e11, e20, e30, e31, e40, e50, e51⟩ := block_index2 t
  show (V c main_v184 : S16x65536.Idx → Elt Ideal .f32) (((cfg2.win 0).blk t).view.emb (ix2 r k)) = V c main_v184 (ix2 r K)
  refine congrArg (V c main_v184) (funext fun a => Fin.ext ?_)
  match a with
  | ⟨0, _⟩ => show win2_0.index t (0 : Fin 2) * 16 + 1 * r.val = r.val; omega
  | ⟨1, _⟩ => show win2_0.index t (1 : Fin 2) * 2048 + 1 * k.val = K.val; omega

/-- Row `k` of the first weight matrix's block at point `t` is row `2048·t + k` of the matrix. -/
theorem w1_rows2 (c : Dev nD) (t : Fin cfg2.N) (k : Fin 2048) (j : Fin 1000) (K : Fin 65536) (hK : K.val = 2048 * t.val + k.val) :
    wblk2 V c t (ix2 k j) = w1In2 V c (ix2 K j) := by
  obtain ⟨e00, e01, e10, e11, e20, e30, e31, e40, e50, e51⟩ := block_index2 t
  show (V c main_arg8 : S65536x1000.Idx → Elt Ideal .f32) (((cfg2.win 1).blk t).view.emb (ix2 k j)) = V c main_arg8 (ix2 K j)
  refine congrArg (V c main_arg8) (funext fun a => Fin.ext ?_)
  match a with
  | ⟨0, _⟩ => show win2_1.index t (0 : Fin 2) * 2048 + 1 * k.val = K.val; omega
  | ⟨1, _⟩ => show win2_1.index t (1 : Fin 2) * 1000 + 1 * j.val = j.val; omega

/-- The first bias's block at any point is the whole bias. -/
theorem b1_block2 (c : Dev nD) (t : Fin cfg2.N) (j : Fin 1000) : iblk2 V c 2 t (ix1 j) = V c main_arg9 (ix1 j) := by
  obtain ⟨e00, e01, e10, e11, e20, e30, e31, e40, e50, e51⟩ := block_index2 t
  show (V c main_arg9 : S1000.Idx → Elt Ideal .f32) (((cfg2.win 2).blk t).view.emb (ix1 j)) = V c main_arg9 (ix1 j)
  refine congrArg (V c main_arg9) (funext fun a => Fin.ext ?_)
  match a with
  | ⟨0, _⟩ => show win2_2.index t (0 : Fin 1) * 1000 + 1 * j.val = j.val; omega

/-- The second weight matrix's block at any point is the whole matrix. -/
theorem w2_block2 (c : Dev nD) (t : Fin cfg2.N) (j : Fin 1000) (q : Fin 34) : iblk2 V c 3 t (ix2 j q) = V c main_arg10 (ix2 j q) := by
  obtain ⟨e00, e01, e10, e11, e20, e30, e31, e40, e50, e51⟩ := block_index2 t
  show (V c main_arg10 : S1000x34.Idx → Elt Ideal .f32) (((cfg2.win 3).blk t).view.emb (ix2 j q)) = V c main_arg10 (ix2 j q)
  refine congrArg (V c main_arg10) (funext fun a => Fin.ext ?_)
  match a with
  | ⟨0, _⟩ => show win2_3.index t (0 : Fin 2) * 1000 + 1 * j.val = j.val; omega
  | ⟨1, _⟩ => show win2_3.index t (1 : Fin 2) * 34 + 1 * q.val = q.val; omega

/-- The second bias's block at any point is the whole bias. -/
theorem b2_block2 (c : Dev nD) (t : Fin cfg2.N) (q : Fin 34) : iblk2 V c 4 t (ix1 q) = V c main_arg11 (ix1 q) := by
  obtain ⟨e00, e01, e10, e11, e20, e30, e31, e40, e50, e51⟩ := block_index2 t
  show (V c main_arg11 : S34.Idx → Elt Ideal .f32) (((cfg2.win 4).blk t).view.emb (ix1 q)) = V c main_arg11 (ix1 q)
  refine congrArg (V c main_arg11) (funext fun a => Fin.ext ?_)
  match a with
  | ⟨0, _⟩ => show win2_4.index t (0 : Fin 1) * 34 + 1 * q.val = q.val; omega

/-- The output window's one block is the output array. -/
theorem out_block2 (t : Fin cfg2.N) (p : Fin 16) (q : Fin 34) :
    ((cfg2.win 5).blk t).view.emb (ix2 p q) = (ix2 p q : S16x34.Idx) := by
  obtain ⟨e00, e01, e10, e11, e20, e30, e31, e40, e50, e51⟩ := block_index2 t
  refine funext fun a => Fin.ext ?_
  match a with
  | ⟨0, _⟩ => show win2_5.index t (0 : Fin 2) * 16 + 1 * p.val = p.val; omega
  | ⟨1, _⟩ => show win2_5.index t (1 : Fin 2) * 34 + 1 * q.val = q.val; omega

/-! ## The accumulator, entry by entry -/

/-- Feature `n`'s term of the contraction at row `r` and unit `j` (zero past the last feature). -/
def feat2 (c : Dev nD) (r : Fin 16) (j : Fin 1000) (n : ℕ) : EReal :=
  if h : n < 65536 then actIn2 V c (ix2 r ⟨n, h⟩) * w1In2 V c (ix2 ⟨n, h⟩ j) else 0

/-- Point `t`'s contribution to the accumulator at row `r` and unit `j`: the product of its two blocks there (zero past
    the last point). -/
def blockSum2 (c : Dev nD) (r : Fin 16) (j : Fin 1000) (t : ℕ) : EReal :=
  if h : t < cfg2.N then
    ∑ k : Fin 2048, hblk2 V c ⟨t, h⟩ (ix2 r k) * wblk2 V c ⟨t, h⟩ (ix2 k j)
  else 0

/-- It is the sum of the terms of the point's 2048 features. -/
theorem blockSum2_eq (c : Dev nD) (r : Fin 16) (j : Fin 1000) (t : ℕ) (h : t < 32) :
    blockSum2 V c r j t = ∑ k : Fin 2048, feat2 V c r j (2048 * t + k.val) := by
  have h' : t < cfg2.N := lt_of_lt_of_eq h N_2.symm
  unfold blockSum2
  rw [dif_pos h']
  refine Finset.sum_congr rfl fun k _ => ?_
  have hK : 2048 * t + k.val < 65536 := by have := k.isLt; omega
  unfold feat2
  rw [dif_pos hK, act_cols2 V c ⟨t, h'⟩ r k ⟨2048 * t + k.val, hK⟩ rfl, w1_rows2 V c ⟨t, h'⟩ k j ⟨2048 * t + k.val, hK⟩ rfl]

/-- THE ACCUMULATOR after `n` points, at row `r` and unit `j`: the first `n` points' contributions, added from the left
    onto zero. -/
theorem acc2_apply (c : Dev nD) (r : Fin 16) (j : Fin 1000) :
    ∀ n : ℕ, acc2 V c n (ix2 r j) = ∑ t ∈ Finset.range n, blockSum2 V c r j t
  | 0 => by
    rw [acc2_zero, zero2_eq, pay2_zero_apply, Ideal.ofBits_zero_f32, Finset.range_zero, Finset.sum_empty]
  | n + 1 => by
    rw [Finset.sum_range_succ, ← acc2_apply c r j n]
    by_cases h : n < cfg2.N
    · rw [(acc2_succ V c ⟨n, h⟩ : acc2 V c (n + 1) = step2 (iblk2 V c 0 ⟨n, h⟩) (iblk2 V c 1 ⟨n, h⟩) (acc2 V c n)),
        step2_eq, pay2_step_apply]
      unfold blockSum2
      rw [dif_pos h]
    · have e : acc2 V c (n + 1) = acc2 V c n := by simp only [acc2, dif_neg h]
      rw [e]
      unfold blockSum2
      rw [dif_neg h, add_zero]

/-- After all 32 points: the whole contraction over the 65536 features. -/
theorem acc2_full (c : Dev nD) (r : Fin 16) (j : Fin 1000) :
    acc2 V c 32 (ix2 r j) = ∑ K : Fin 65536, actIn2 V c (ix2 r K) * w1In2 V c (ix2 K j) := by
  rw [acc2_apply, Finset.sum_range]
  rw [Finset.sum_congr rfl (fun (t : Fin 32) _ => blockSum2_eq V c r j t.val t.isLt)]
  rw [← DenseHead.sum_blocks 32 2048 (feat2 V c r j)]
  show ∑ K : Fin 65536, feat2 V c r j K.val = _
  refine Finset.sum_congr rfl fun K _ => ?_
  unfold feat2
  rw [dif_pos K.isLt]

/-! ## From the one block to the array -/

/-- The dense head of the arrays the kernel is entered with. -/
abbrev G2 (c : Dev nD) : S16x34.Idx → Elt Ideal .f32 :=
  DenseHead.head (V c main_v184) (V c main_arg8) (V c main_arg9) (V c main_arg10) (V c main_arg11)

/-- WHAT A POINT WRITES BACK (only the last one does) is the one block of the head of the arrays as the region finds them. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5, out2_5_eq]
  funext y
  obtain ⟨p, q, rfl⟩ : ∃ (p : Fin 16) (q : Fin 34), y = ix2 p q := ⟨y 0, y 1, ValueIdx.eq_ix2 (n0 := 16) (n1 := 34) y⟩
  refine (pay2_out_apply (acc2 V c 32) (iblk2 V c 2 t) (iblk2 V c 3 t) (iblk2 V c 4 t) p q).trans ?_
  show _ = G2 V c (((cfg2.win 5).blk t).view.emb (ix2 p q))
  rw [out_block2 t p q]
  show _ = DenseHead.head (V c main_v184) (V c main_arg8) (V c main_arg9) (V c main_arg10) (V c main_arg11) (ix2 p q)
  rw [DenseHead.head_apply]
  unfold DenseHead.hidden
  simp only [acc2_full V c p, b1_block2 V c t, w2_block2 V c t, b2_block2 V c t]

/-- An index of the output array is in a point's block iff each coordinate is in the block's range on its axis. -/
theorem mem_blk2 (t : Fin cfg2.N) (i : S16x34.Idx) :
    i ∈ ((cfg2.win 5).blk t).view.set ↔ ∀ a : Fin 2, win2_5.index t a * S16x34.size a ≤ (i a).val ∧ (i a).val < win2_5.index t a * S16x34.size a + S16x34.size a := by
  show i ∈ ((View.whole main_v185).slice (win2_5.rect t)).set ↔ _
  rw [View.set_slice_whole, Rect.mem_set_unit]
  exact Iff.rfl

/-- Every index of the output array is in the last point's block, which is written back. -/
theorem covered2 (i : S16x34.Idx) : ∃ t : Fin cfg2.N, (cfg2.win 5).flush t = true ∧ i ∈ ((cfg2.win 5).blk t).view.set := by
  have hN : cfg2.N = 32 := N_2
  have hi0 : (i 0).val < 16 := (i 0).isLt
  have hi1 : (i 1).val < 34 := (i 1).isLt
  let t : Fin cfg2.N := ⟨31, by omega⟩
  obtain ⟨e00, e01, e10, e11, e20, e30, e31, e40, e50, e51⟩ := block_index2 t
  refine ⟨t, (flush2_5 t).mpr rfl, ?_⟩
  rw [mem_blk2]
  intro a
  match a with
  | ⟨0, _⟩ => show win2_5.index t (0 : Fin 2) * 16 ≤ (i 0).val ∧ (i 0).val < win2_5.index t (0 : Fin 2) * 16 + 16; omega
  | ⟨1, _⟩ => show win2_5.index t (1 : Fin 2) * 34 ≤ (i 1).val ∧ (i 1).val < win2_5.index t (1 : Fin 2) * 34 + 34; omega

/-- THE OUTPUT ARRAY after the region: the dense head of the arrays the region is entered with. -/
theorem final2 (c : Dev nD) :
    (dat2 (F := Ideal) V c).arrAt 5 cfg2.N
      = DenseHead.head (V c main_v184) (V c main_arg8) (V c main_arg9) (V c main_arg10) (V c main_arg11) :=
  (dat2 (F := Ideal) V c).arrAt_eq_of_cover 5 (G2 V c) (fun t _ => flushed2_eq V c t) (covered2)

end Cert.KernelIdeal.Hand

end
-- ==== Proof.KI.Casts.lean ====
/-
  Inside an outlined function a buffer's contents are read at the function's own tensor type and moved to the buffer's
  type along the equation between the two. At each of this program's buffers the two types are the same type, so the
  move is the identity; stated here once per buffer the two outlined selections touch.
-/
import proofs.«121312_j57732950393207_1_alg».proof.Proof.Gen.KernelIdeal
import Idealize.ShloMosaic.Lib.StableHlo.Run
import Idealize.ShloMosaic.PureOps.Ideal

noncomputable section

namespace Cert.KernelIdeal.Hand

open Cert.KernelIdeal Idealize.ShloMosaic Idealize.ShloMosaic.StableHlo

theorem ofBuf_main_cst_2 (v : (⟨S_, .f32⟩ : BufTy).Contents (Elt Ideal)) : (TRef.of main_cst_2 : TRef sig ⟨S_, .f32⟩).ofBuf v = v := rfl
theorem toBuf_main_call0_v0 (v : (⟨S_, .f32⟩ : BufTy).Contents (Elt Ideal)) : (TRef.of main_call0_v0 : TRef sig ⟨S_, .f32⟩).toBuf v = v := rfl
theorem ofBuf_main_call0_v0 (v : (⟨S_, .f32⟩ : BufTy).Contents (Elt Ideal)) : (TRef.of main_call0_v0 : TRef sig ⟨S_, .f32⟩).ofBuf v = v := rfl
theorem toBuf_main_call0_v1 (v : (⟨S131072, .f32⟩ : BufTy).Contents (Elt Ideal)) : (TRef.of main_call0_v1 : TRef sig ⟨S131072, .f32⟩).toBuf v = v := rfl
theorem ofBuf_main_call0_v1 (v : (⟨S131072, .f32⟩ : BufTy).Contents (Elt Ideal)) : (TRef.of main_call0_v1 : TRef sig ⟨S131072, .f32⟩).ofBuf v = v := rfl
theorem ofBuf_main_v10 (v : (⟨S131072, .i1⟩ : BufTy).Contents (Elt Ideal)) : (TRef.of main_v10 : TRef sig ⟨S131072, .i1⟩).ofBuf v = v := rfl
theorem ofBuf_main_v13 (v : (⟨S131072, .f32⟩ : BufTy).Contents (Elt Ideal)) : (TRef.of main_v13 : TRef sig ⟨S131072, .f32⟩).ofBuf v = v := rfl
theorem toBuf_main_v14 (v : (⟨S131072, .f32⟩ : BufTy).Contents (Elt Ideal)) : (TRef.of main_v14 : TRef sig ⟨S131072, .f32⟩).toBuf v = v := rfl
theorem ofBuf_main_cst_7 (v : (⟨S_, .f32⟩ : BufTy).Contents (Elt Ideal)) : (TRef.of main_cst_7 : TRef sig ⟨S_, .f32⟩).ofBuf v = v := rfl
theorem ofBuf_main_cst_8 (v : (⟨S_, .f32⟩ : BufTy).Contents (Elt Ideal)) : (TRef.of main_cst_8 : TRef sig ⟨S_, .f32⟩).ofBuf v = v := rfl
theorem toBuf_main_call1_v0 (v : (⟨S131072, .f32⟩ : BufTy).Contents (Elt Ideal)) : (TRef.of main_call1_v0 : TRef sig ⟨S131072, .f32⟩).toBuf v = v := rfl
theorem ofBuf_main_call1_v0 (v : (⟨S131072, .f32⟩ : BufTy).Contents (Elt Ideal)) : (TRef.of main_call1_v0 : TRef sig ⟨S131072, .f32⟩).ofBuf v = v := rfl
theorem toBuf_main_call1_v1 (v : (⟨S131072, .f32⟩ : BufTy).Contents (Elt Ideal)) : (TRef.of main_call1_v1 : TRef sig ⟨S131072, .f32⟩).toBuf v = v := rfl
theorem ofBuf_main_call1_v1 (v : (⟨S131072, .f32⟩ : BufTy).Contents (Elt Ideal)) : (TRef.of main_call1_v1 : TRef sig ⟨S131072, .f32⟩).ofBuf v = v := rfl
theorem ofBuf_main_v33 (v : (⟨S131072, .i1⟩ : BufTy).Contents (Elt Ideal)) : (TRef.of main_v33 : TRef sig ⟨S131072, .i1⟩).ofBuf v = v := rfl
theorem toBuf_main_v34 (v : (⟨S131072, .f32⟩ : BufTy).Contents (Elt Ideal)) : (TRef.of main_v34 : TRef sig ⟨S131072, .f32⟩).toBuf v = v := rfl

end Cert.KernelIdeal.Hand

end
-- ==== Proof.KI.HostA.lean ====
/-
  The graph's normalisation, computed on the host before the first kernel, read as the reference's stages, one stretch
  of operations at a time: the edges' two ends and the self-loop mask, the degrees and their inverse roots (a selection
  outlined as a function: zero where the degree is zero), the edge weights, and the operator's diagonal (a second outlined
  selection). The kernel's program applies the same operations as the reference, so each buffer holds the reference's
  stage of the same edge list.
-/
import proofs.«121312_j57732950393207_1_alg».proof.Proof.KI.Run
import proofs.«121312_j57732950393207_1_alg».proof.Proof.Ref.ReadP
import proofs.«121312_j57732950393207_1_alg».proof.Proof.KI.Casts

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

set_option maxHeartbeats 40000000 in
theorem S1_main_v1 (c : Dev nD) :
    W1 (F := Ideal) m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  simp only [hostOps0]
  after_results_simp
  rfl

set_option maxHeartbeats 40000000 in
theorem S1_main_v3 (c : Dev nD) :
    W1 (F := Ideal) m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  simp only [hostOps0]
  after_results_simp
  rfl

set_option maxHeartbeats 40000000 in
theorem S1_main_v5 (c : Dev nD) :
    W1 (F := Ideal) m ρ c (Proc.devRef .tc main_v5) = Cert.ReferenceIdeal.Read.val_main_v5 (F := Ideal) (m ((c : Thread nD τ).loc main_arg1)) := by
  show StableHlo.after hostOps0 (W0 m ρ c) (Proc.devRef .tc main_v5) = _
  simp only [hostOps0]
  after_results_simp
  rfl

set_option maxHeartbeats 40000000 in
theorem S1_main_v8 (c : Dev nD) :
    W1 (F := Ideal) m ρ c (Proc.devRef .tc main_v8) = Cert.ReferenceIdeal.Read.val_main_v8 (F := Ideal) (m ((c : Thread nD τ).loc main_arg1)) := by
  show StableHlo.after hostOps0 (W0 m ρ c) (Proc.devRef .tc main_v8) = _
  simp only [hostOps0]
  after_results_simp
  rfl

set_option maxHeartbeats 40000000 in
theorem S1_main_v10 (c : Dev nD) :
    W1 (F := Ideal) m ρ c (Proc.devRef .tc main_v10) = Cert.ReferenceIdeal.Read.val_main_v10 (F := Ideal) (m ((c : Thread nD τ).loc main_arg1)) := by
  show StableHlo.after hostOps0 (W0 m ρ c) (Proc.devRef .tc main_v10) = _
  simp only [hostOps0]
  after_results_simp
  rfl

set_option maxHeartbeats 40000000 in
theorem S1_main_v13 (c : Dev nD) :
    W1 (F := Ideal) m ρ c (Proc.devRef .tc main_v13) = Cert.ReferenceIdeal.Read.val_main_v13 (F := Ideal) (m ((c : Thread nD τ).loc main_arg1)) := by
  show StableHlo.after hostOps0 (W0 m ρ c) (Proc.devRef .tc main_v13) = _
  simp only [hostOps0]
  after_results_simp
  rfl

set_option maxHeartbeats 40000000 in
theorem S1_main_cst_2 (c : Dev nD) :
    W1 (F := Ideal) m ρ c (Proc.devRef .tc main_cst_2) = Cert.ReferenceIdeal.Read.val_main_cst_2 (F := Ideal) := by
  show StableHlo.after hostOps0 (W0 m ρ c) (Proc.devRef .tc main_cst_2) = _
  simp only [hostOps0]
  after_results_simp
  rfl

/-- The buffers' contents after stretch 1, as one named valuation (what the next stretch's operations read). -/
def B1 (c : Dev nD) : Valuation τ sig (Elt Ideal) := W1 m ρ c

set_option maxHeartbeats 40000000 in
theorem S2_main_v14 (c : Dev nD) :
    W2 (F := Ideal) m ρ c (Proc.devRef .tc main_v14) = Cert.ReferenceIdeal.Read.val_main_v14 (F := Ideal) (m ((c : Thread nD τ).loc main_arg1)) := by
  show StableHlo.after hostOps0_1 (B1 m ρ c) (Proc.devRef .tc main_v14) = _
  simp only [hostOps0_1]
  after_results_simp
  rw [toBuf_main_v14, ofBuf_main_v10, ofBuf_main_v13, ofBuf_main_call0_v1, toBuf_main_call0_v1, ofBuf_main_call0_v0, toBuf_main_call0_v0, ofBuf_main_cst_2]
  rw [show B1 m ρ c (Proc.devRef .tc main_v10) = Cert.ReferenceIdeal.Read.val_main_v10 (F := Ideal) (m ((c : Thread nD τ).loc main_arg1)) from (S1_main_v10 m ρ c),
    show B1 m ρ c (Proc.devRef .tc main_v13) = Cert.ReferenceIdeal.Read.val_main_v13 (F := Ideal) (m ((c : Thread nD τ).loc main_arg1)) from (S1_main_v13 m ρ c),
    show B1 m ρ c (Proc.devRef .tc main_cst_2) = Cert.ReferenceIdeal.Read.val_main_cst_2 (F := Ideal) from (S1_main_cst_2 m ρ c)]
  rfl

/-- The buffers' contents after stretch 2, as one named valuation (what the next stretch's operations read). -/
def B2 (c : Dev nD) : Valuation τ sig (Elt Ideal) := W2 m ρ c

set_option maxHeartbeats 40000000 in
theorem S3_main_v31 (c : Dev nD) :
    W3 (F := Ideal) m ρ c (Proc.devRef .tc main_v31) = Cert.ReferenceIdeal.Read.val_main_v31 (F := Ideal) (m ((c : Thread nD τ).loc main_arg1)) := by
  show StableHlo.after hostOps0_2 (B2 m ρ c) (Proc.devRef .tc main_v31) = _
  simp only [hostOps0_2]
  after_results_simp
  rw [show B2 m ρ c (Proc.devRef .tc main_v1) = Cert.ReferenceIdeal.Read.val_main_v1 (F := Ideal) (m ((c : Thread nD τ).loc main_arg1)) from ((StableHlo.after_of_writes_sub hostOps0_1 _ hostOps0_1_writes (by decide)).trans (S1_main_v1 m ρ c)),
    show B2 m ρ c (Proc.devRef .tc main_v3) = Cert.ReferenceIdeal.Read.val_main_v3 (F := Ideal) (m ((c : Thread nD τ).loc main_arg1)) from ((StableHlo.after_of_writes_sub hostOps0_1 _ hostOps0_1_writes (by decide)).trans (S1_main_v3 m ρ c)),
    show B2 m ρ c (Proc.devRef .tc main_v5) = Cert.ReferenceIdeal.Read.val_main_v5 (F := Ideal) (m ((c : Thread nD τ).loc main_arg1)) from ((StableHlo.after_of_writes_sub hostOps0_1 _ hostOps0_1_writes (by decide)).trans (S1_main_v5 m ρ c)),
    show B2 m ρ c (Proc.devRef .tc main_v14) = Cert.ReferenceIdeal.Read.val_main_v14 (F := Ideal) (m ((c : Thread nD τ).loc main_arg1)) from (S2_main_v14 m ρ c)]
  rfl

set_option maxHeartbeats 40000000 in
theorem S3_main_v33 (c : Dev nD) :
    W3 (F := Ideal) m ρ c (Proc.devRef .tc main_v33) = Cert.ReferenceIdeal.Read.val_main_v33 (F := Ideal) (m ((c : Thread nD τ).loc main_arg1)) := by
  show StableHlo.after hostOps0_2 (B2 m ρ c) (Proc.devRef .tc main_v33) = _
  simp only [hostOps0_2]
  after_results_simp
  rw [show B2 m ρ c (Proc.devRef .tc main_v8) = Cert.ReferenceIdeal.Read.val_main_v8 (F := Ideal) (m ((c : Thread nD τ).loc main_arg1)) from ((StableHlo.after_of_writes_sub hostOps0_1 _ hostOps0_1_writes (by decide)).trans (S1_main_v8 m ρ c))]
  rfl

set_option maxHeartbeats 40000000 in
theorem S3_main_cst_7 (c : Dev nD) :
    W3 (F := Ideal) m ρ c (Proc.devRef .tc main_cst_7) = Cert.ReferenceIdeal.Read.val_main_cst_7 (F := Ideal) := by
  show StableHlo.after hostOps0_2 (B2 m ρ c) (Proc.devRef .tc main_cst_7) = _
  simp only [hostOps0_2]
  after_results_simp
  rfl

set_option maxHeartbeats 40000000 in
theorem S3_main_cst_8 (c : Dev nD) :
    W3 (F := Ideal) m ρ c (Proc.devRef .tc main_cst_8) = Cert.ReferenceIdeal.Read.val_main_cst_8 (F := Ideal) := by
  show StableHlo.after hostOps0_2 (B2 m ρ c) (Proc.devRef .tc main_cst_8) = _
  simp only [hostOps0_2]
  after_results_simp
  rfl

/-- The buffers' contents after stretch 3, as one named valuation (what the next stretch's operations read). -/
def B3 (c : Dev nD) : Valuation τ sig (Elt Ideal) := W3 m ρ c

set_option maxHeartbeats 40000000 in
theorem S4_main_v34 (c : Dev nD) :
    W4 (F := Ideal) m ρ c (Proc.devRef .tc main_v34) = Cert.ReferenceIdeal.Read.val_main_v34 (F := Ideal) (m ((c : Thread nD τ).loc main_arg1)) := by
  show StableHlo.after hostOps0_3 (B3 m ρ c) (Proc.devRef .tc main_v34) = _
  simp only [hostOps0_3]
  after_results_simp
  rw [toBuf_main_v34, ofBuf_main_v33, ofBuf_main_call1_v0, toBuf_main_call1_v0, ofBuf_main_cst_7, ofBuf_main_call1_v1, toBuf_main_call1_v1, ofBuf_main_cst_8]
  rw [show B3 m ρ c (Proc.devRef .tc main_v33) = Cert.ReferenceIdeal.Read.val_main_v33 (F := Ideal) (m ((c : Thread nD τ).loc main_arg1)) from (S3_main_v33 m ρ c),
    show B3 m ρ c (Proc.devRef .tc main_cst_7) = Cert.ReferenceIdeal.Read.val_main_cst_7 (F := Ideal) from (S3_main_cst_7 m ρ c),
    show B3 m ρ c (Proc.devRef .tc main_cst_8) = Cert.ReferenceIdeal.Read.val_main_cst_8 (F := Ideal) from (S3_main_cst_8 m ρ c)]
  rfl

/-- The buffers' contents after stretch 4, as one named valuation (what the next stretch's operations read). -/
def B4 (c : Dev nD) : Valuation τ sig (Elt Ideal) := W4 m ρ c

end Cert.KernelIdeal.Hand

end
-- ==== Proof.KI.HostB.lean ====
/-
  The first layer's Chebyshev terms, computed on the host before the first kernel, read as the reference's stages. Each
  term is the graph operator (a gather of the previous term at the edges' sources, scaled by the edge weights and
  scatter-added at the targets, plus the diagonal times the term) applied to the previous term, doubled and less the term
  before from the third on; the kernel's program applies the same operations in the same order as the reference.
-/
import proofs.«121312_j57732950393207_1_alg».proof.Proof.KI.HostA

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

set_option maxHeartbeats 40000000 in
theorem S5_main_v35 (c : Dev nD) :
    W5 (F := Ideal) m ρ c (Proc.devRef .tc main_v35) = Cert.ReferenceIdeal.Read.val_main_v35 (F := Ideal) (m ((c : Thread nD τ).loc main_arg1)) := by
  show StableHlo.after hostOps0_4 (B4 m ρ c) (Proc.devRef .tc main_v35) = _
  simp only [hostOps0_4]
  after_results_simp
  rw [show B4 m ρ c (Proc.devRef .tc main_v34) = Cert.ReferenceIdeal.Read.val_main_v34 (F := Ideal) (m ((c : Thread nD τ).loc main_arg1)) from (S4_main_v34 m ρ c)]
  rfl

set_option maxHeartbeats 40000000 in
theorem S5_main_v50 (c : Dev nD) :
    W5 (F := Ideal) m ρ c (Proc.devRef .tc main_v50) = Cert.ReferenceIdeal.Read.val_main_v53 (F := Ideal) (m ((c : Thread nD τ).loc main_arg0)) (m ((c : Thread nD τ).loc main_arg1)) := by
  show StableHlo.after hostOps0_4 (B4 m ρ c) (Proc.devRef .tc main_v50) = _
  simp only [hostOps0_4]
  after_results_simp
  rw [show B4 m ρ c (Proc.devRef .tc main_v34) = Cert.ReferenceIdeal.Read.val_main_v34 (F := Ideal) (m ((c : Thread nD τ).loc main_arg1)) from (S4_main_v34 m ρ c),
    show B4 m ρ c (Proc.devRef .tc main_v31) = Cert.ReferenceIdeal.Read.val_main_v31 (F := Ideal) (m ((c : Thread nD τ).loc main_arg1)) from ((StableHlo.after_of_writes_sub hostOps0_3 _ hostOps0_3_writes (by decide)).trans (S3_main_v31 m ρ c)),
    show B4 m ρ c (Proc.devRef .tc main_v1) = Cert.ReferenceIdeal.Read.val_main_v1 (F := Ideal) (m ((c : Thread nD τ).loc main_arg1)) from ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans (S1_main_v1 m ρ c)))),
    show B4 m ρ c (Proc.devRef .tc main_v3) = Cert.ReferenceIdeal.Read.val_main_v3 (F := Ideal) (m ((c : Thread nD τ).loc main_arg1)) from ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans (S1_main_v3 m ρ c)))),
    show B4 m ρ c (Proc.devRef .tc main_arg0) = (m ((c : Thread nD τ).loc main_arg0)) from ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans ((StableHlo.after_of_writes_sub hostOps0 _ hostOps0_writes (by decide)).trans rfl))))]
  rfl

set_option maxHeartbeats 40000000 in
theorem S5_main_v68 (c : Dev nD) :
    W5 (F := Ideal) m ρ c (Proc.devRef .tc main_v68) = Cert.ReferenceIdeal.Read.val_main_v75 (F := Ideal) (m ((c : Thread nD τ).loc main_arg0)) (m ((c : Thread nD τ).loc main_arg1)) := by
  show StableHlo.after hostOps0_4 (B4 m ρ c) (Proc.devRef .tc main_v68) = _
  simp only [hostOps0_4]
  after_results_simp
  rw [show B4 m ρ c (Proc.devRef .tc main_v34) = Cert.ReferenceIdeal.Read.val_main_v34 (F := Ideal) (m ((c : Thread nD τ).loc main_arg1)) from (S4_main_v34 m ρ c),
    show B4 m ρ c (Proc.devRef .tc main_v31) = Cert.ReferenceIdeal.Read.val_main_v31 (F := Ideal) (m ((c : Thread nD τ).loc main_arg1)) from ((StableHlo.after_of_writes_sub hostOps0_3 _ hostOps0_3_writes (by decide)).trans (S3_main_v31 m ρ c)),
    show B4 m ρ c (Proc.devRef .tc main_v1) = Cert.ReferenceIdeal.Read.val_main_v1 (F := Ideal) (m ((c : Thread nD τ).loc main_arg1)) from ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans (S1_main_v1 m ρ c)))),
    show B4 m ρ c (Proc.devRef .tc main_v3) = Cert.ReferenceIdeal.Read.val_main_v3 (F := Ideal) (m ((c : Thread nD τ).loc main_arg1)) from ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans (S1_main_v3 m ρ c)))),
    show B4 m ρ c (Proc.devRef .tc main_arg0) = (m ((c : Thread nD τ).loc main_arg0)) from ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans ((StableHlo.after_of_writes_sub hostOps0 _ hostOps0_writes (by decide)).trans rfl))))]
  rfl

set_option maxHeartbeats 40000000 in
theorem S5_main_v86 (c : Dev nD) :
    W5 (F := Ideal) m ρ c (Proc.devRef .tc main_v86) = Cert.ReferenceIdeal.Read.val_main_v97 (F := Ideal) (m ((c : Thread nD τ).loc main_arg0)) (m ((c : Thread nD τ).loc main_arg1)) := by
  show StableHlo.after hostOps0_4 (B4 m ρ c) (Proc.devRef .tc main_v86) = _
  simp only [hostOps0_4]
  after_results_simp
  rw [show B4 m ρ c (Proc.devRef .tc main_v34) = Cert.ReferenceIdeal.Read.val_main_v34 (F := Ideal) (m ((c : Thread nD τ).loc main_arg1)) from (S4_main_v34 m ρ c),
    show B4 m ρ c (Proc.devRef .tc main_v31) = Cert.ReferenceIdeal.Read.val_main_v31 (F := Ideal) (m ((c : Thread nD τ).loc main_arg1)) from ((StableHlo.after_of_writes_sub hostOps0_3 _ hostOps0_3_writes (by decide)).trans (S3_main_v31 m ρ c)),
    show B4 m ρ c (Proc.devRef .tc main_v1) = Cert.ReferenceIdeal.Read.val_main_v1 (F := Ideal) (m ((c : Thread nD τ).loc main_arg1)) from ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans (S1_main_v1 m ρ c)))),
    show B4 m ρ c (Proc.devRef .tc main_v3) = Cert.ReferenceIdeal.Read.val_main_v3 (F := Ideal) (m ((c : Thread nD τ).loc main_arg1)) from ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans (S1_main_v3 m ρ c)))),
    show B4 m ρ c (Proc.devRef .tc main_arg0) = (m ((c : Thread nD τ).loc main_arg0)) from ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans ((StableHlo.after_of_writes_sub hostOps0 _ hostOps0_writes (by decide)).trans rfl))))]
  rfl

set_option maxHeartbeats 40000000 in
theorem S5_main_v104 (c : Dev nD) :
    W5 (F := Ideal) m ρ c (Proc.devRef .tc main_v104) = Cert.ReferenceIdeal.Read.val_main_v119 (F := Ideal) (m ((c : Thread nD τ).loc main_arg0)) (m ((c : Thread nD τ).loc main_arg1)) := by
  show StableHlo.after hostOps0_4 (B4 m ρ c) (Proc.devRef .tc main_v104) = _
  simp only [hostOps0_4]
  after_results_simp
  rw [show B4 m ρ c (Proc.devRef .tc main_v34) = Cert.ReferenceIdeal.Read.val_main_v34 (F := Ideal) (m ((c : Thread nD τ).loc main_arg1)) from (S4_main_v34 m ρ c),
    show B4 m ρ c (Proc.devRef .tc main_v31) = Cert.ReferenceIdeal.Read.val_main_v31 (F := Ideal) (m ((c : Thread nD τ).loc main_arg1)) from ((StableHlo.after_of_writes_sub hostOps0_3 _ hostOps0_3_writes (by decide)).trans (S3_main_v31 m ρ c)),
    show B4 m ρ c (Proc.devRef .tc main_v1) = Cert.ReferenceIdeal.Read.val_main_v1 (F := Ideal) (m ((c : Thread nD τ).loc main_arg1)) from ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans (S1_main_v1 m ρ c)))),
    show B4 m ρ c (Proc.devRef .tc main_v3) = Cert.ReferenceIdeal.Read.val_main_v3 (F := Ideal) (m ((c : Thread nD τ).loc main_arg1)) from ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans (S1_main_v3 m ρ c)))),
    show B4 m ρ c (Proc.devRef .tc main_arg0) = (m ((c : Thread nD τ).loc main_arg0)) from ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans ((StableHlo.after_of_writes_sub hostOps0 _ hostOps0_writes (by decide)).trans rfl))))]
  rfl

/-- The normalisation's results and the arguments, as the first kernel finds them. -/
theorem W5_main_v1 (c : Dev nD) : W5 (F := Ideal) m ρ c (Proc.devRef .tc main_v1) = Cert.ReferenceIdeal.Read.val_main_v1 (F := Ideal) (m ((c : Thread nD τ).loc main_arg1)) := ((StableHlo.after_of_writes_sub hostOps0_4 _ hostOps0_4_writes (by decide)).trans ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans (S1_main_v1 m ρ c)))))
theorem W5_main_v3 (c : Dev nD) : W5 (F := Ideal) m ρ c (Proc.devRef .tc main_v3) = Cert.ReferenceIdeal.Read.val_main_v3 (F := Ideal) (m ((c : Thread nD τ).loc main_arg1)) := ((StableHlo.after_of_writes_sub hostOps0_4 _ hostOps0_4_writes (by decide)).trans ((StableHlo.after_of_writes_sub hostOps0_3 _ hostOps0_3_writes (by decide)).trans ((StableHlo.after_of_writes_sub hostOps0_2 _ hostOps0_2_writes (by decide)).trans ((StableHlo.after_of_writes_sub hostOps0_1 _ hostOps0_1_writes (by decide)).trans (S1_main_v3 m ρ c)))))
theorem W5_main_v31 (c : Dev nD) : W5 (F := Ideal) m ρ c (Proc.devRef .tc main_v31) = Cert.ReferenceIdeal.Read.val_main_v31 (F := Ideal) (m ((c : Thread nD τ).loc main_arg1)) := ((StableHlo.after_of_writes_sub hostOps0_4 _ hostOps0_4_writes (by decide)).trans ((StableHlo.after_of_writes_sub hostOps0_3 _ hostOps0_3_writes (by decide)).trans (S3_main_v31 m ρ c)))
theorem W5_main_v35 (c : Dev nD) : W5 (F := Ideal) m ρ c (Proc.devRef .tc main_v35) = Cert.ReferenceIdeal.Read.val_main_v35 (F := Ideal) (m ((c : Thread nD τ).loc main_arg1)) := S5_main_v35 m ρ c
theorem W5_main_v50 (c : Dev nD) : W5 (F := Ideal) m ρ c (Proc.devRef .tc main_v50) = Cert.ReferenceIdeal.Read.val_main_v53 (F := Ideal) (m ((c : Thread nD τ).loc main_arg0)) (m ((c : Thread nD τ).loc main_arg1)) := S5_main_v50 m ρ c
theorem W5_main_v68 (c : Dev nD) : W5 (F := Ideal) m ρ c (Proc.devRef .tc main_v68) = Cert.ReferenceIdeal.Read.val_main_v75 (F := Ideal) (m ((c : Thread nD τ).loc main_arg0)) (m ((c : Thread nD τ).loc main_arg1)) := S5_main_v68 m ρ c
theorem W5_main_v86 (c : Dev nD) : W5 (F := Ideal) m ρ c (Proc.devRef .tc main_v86) = Cert.ReferenceIdeal.Read.val_main_v97 (F := Ideal) (m ((c : Thread nD τ).loc main_arg0)) (m ((c : Thread nD τ).loc main_arg1)) := S5_main_v86 m ρ c
theorem W5_main_v104 (c : Dev nD) : W5 (F := Ideal) m ρ c (Proc.devRef .tc main_v104) = Cert.ReferenceIdeal.Read.val_main_v119 (F := Ideal) (m ((c : Thread nD τ).loc main_arg0)) (m ((c : Thread nD τ).loc main_arg1)) := S5_main_v104 m ρ c
theorem W5_arg (c : Dev nD) (r : Ref sig .tc) (hr0 : r ∉ hostOps0_W) (hr1 : r ∉ hostOps0_1_W) (hr2 : r ∉ hostOps0_2_W)
    (hr3 : r ∉ hostOps0_3_W) (hr4 : r ∉ hostOps0_4_W) : W5 (F := Ideal) m ρ c (Proc.devRef .tc r) = m ((c : Thread nD τ).loc r) :=
  (StableHlo.after_of_writes_sub hostOps0_4 _ hostOps0_4_writes hr4).trans <|
  (StableHlo.after_of_writes_sub hostOps0_3 _ hostOps0_3_writes hr3).trans <|
  (StableHlo.after_of_writes_sub hostOps0_2 _ hostOps0_2_writes hr2).trans <|
  (StableHlo.after_of_writes_sub hostOps0_1 _ hostOps0_1_writes hr1).trans <|
  (StableHlo.after_of_writes_sub hostOps0 _ hostOps0_writes hr0).trans rfl

end Cert.KernelIdeal.Hand

end
-- ==== Proof.KI.HostC.lean ====
/-
  The second layer's Chebyshev terms, computed on the host between the two combining kernels, read as the reference's
  stages, given that the first kernel's output array holds the reference's first layer; and the reshape of the second
  layer into one row per graph. The kernels change only their own output arrays, so the normalisation's results and the
  arguments are still what they were.
-/
import proofs.«121312_j57732950393207_1_alg».proof.Proof.KI.HostB

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

variable (D0 : Entry (F := Ideal) → (c : Dev nD) → Pipeline.Dat τ (Elt Ideal) Unit ℕ (UR sig nD τ) ℕ cfg0 c)
variable (D1 : Entry (F := Ideal) → (c : Dev nD) → Pipeline.Dat τ (Elt Ideal) Unit ℕ (UR sig nD τ) ℕ cfg1 c)
variable (h0 : Half0 D0) (h1 : Half1 D1)

set_option maxHeartbeats 400000000 in
include h0 in
theorem W7_main_v122 (c : Dev nD)
    (h105 : W6 D0 m ρ c (Proc.devRef .tc main_v105) = Cert.ReferenceIdeal.Read.val_main_v127 (F := Ideal) (m ((c : Thread nD τ).loc main_arg0)) (m ((c : Thread nD τ).loc main_arg1)) (m ((c : Thread nD τ).loc main_arg4)) (m ((c : Thread nD τ).loc main_arg5))) :
    W7 D0 m ρ c (Proc.devRef .tc main_v122) = Cert.ReferenceIdeal.Read.val_main_v147 (F := Ideal) (m ((c : Thread nD τ).loc main_arg0)) (m ((c : Thread nD τ).loc main_arg1)) (m ((c : Thread nD τ).loc main_arg4)) (m ((c : Thread nD τ).loc main_arg5)) := by
  show StableHlo.after hostOps1 (W6 D0 m ρ c) (Proc.devRef .tc main_v122) = _
  simp only [hostOps1]
  after_results_simp
  rw [h105, W6_kept D0 h0 m ρ c main_v1 (by decide), W6_kept D0 h0 m ρ c main_v3 (by decide), W6_kept D0 h0 m ρ c main_v31 (by decide),
    W6_kept D0 h0 m ρ c main_v35 (by decide), W5_main_v1 m ρ c, W5_main_v3 m ρ c, W5_main_v31 m ρ c, W5_main_v35 m ρ c]
  rfl

set_option maxHeartbeats 400000000 in
include h0 in
theorem W7_main_v142 (c : Dev nD)
    (h105 : W6 D0 m ρ c (Proc.devRef .tc main_v105) = Cert.ReferenceIdeal.Read.val_main_v127 (F := Ideal) (m ((c : Thread nD τ).loc main_arg0)) (m ((c : Thread nD τ).loc main_arg1)) (m ((c : Thread nD τ).loc main_arg4)) (m ((c : Thread nD τ).loc main_arg5))) :
    W7 D0 m ρ c (Proc.devRef .tc main_v142) = Cert.ReferenceIdeal.Read.val_main_v171 (F := Ideal) (m ((c : Thread nD τ).loc main_arg0)) (m ((c : Thread nD τ).loc main_arg1)) (m ((c : Thread nD τ).loc main_arg4)) (m ((c : Thread nD τ).loc main_arg5)) := by
  show StableHlo.after hostOps1 (W6 D0 m ρ c) (Proc.devRef .tc main_v142) = _
  simp only [hostOps1]
  after_results_simp
  rw [h105, W6_kept D0 h0 m ρ c main_v1 (by decide), W6_kept D0 h0 m ρ c main_v3 (by decide), W6_kept D0 h0 m ρ c main_v31 (by decide),
    W6_kept D0 h0 m ρ c main_v35 (by decide), W5_main_v1 m ρ c, W5_main_v3 m ρ c, W5_main_v31 m ρ c, W5_main_v35 m ρ c]
  rfl

set_option maxHeartbeats 400000000 in
include h0 in
theorem W7_main_v162 (c : Dev nD)
    (h105 : W6 D0 m ρ c (Proc.devRef .tc main_v105) = Cert.ReferenceIdeal.Read.val_main_v127 (F := Ideal) (m ((c : Thread nD τ).loc main_arg0)) (m ((c : Thread nD τ).loc main_arg1)) (m ((c : Thread nD τ).loc main_arg4)) (m ((c : Thread nD τ).loc main_arg5))) :
    W7 D0 m ρ c (Proc.devRef .tc main_v162) = Cert.ReferenceIdeal.Read.val_main_v195 (F := Ideal) (m ((c : Thread nD τ).loc main_arg0)) (m ((c : Thread nD τ).loc main_arg1)) (m ((c : Thread nD τ).loc main_arg4)) (m ((c : Thread nD τ).loc main_arg5)) := by
  show StableHlo.after hostOps1 (W6 D0 m ρ c) (Proc.devRef .tc main_v162) = _
  simp only [hostOps1]
  after_results_simp
  rw [h105, W6_kept D0 h0 m ρ c main_v1 (by decide), W6_kept D0 h0 m ρ c main_v3 (by decide), W6_kept D0 h0 m ρ c main_v31 (by decide),
    W6_kept D0 h0 m ρ c main_v35 (by decide), W5_main_v1 m ρ c, W5_main_v3 m ρ c, W5_main_v31 m ρ c, W5_main_v35 m ρ c]
  rfl

set_option maxHeartbeats 400000000 in
include h0 in
theorem W7_main_v182 (c : Dev nD)
    (h105 : W6 D0 m ρ c (Proc.devRef .tc main_v105) = Cert.ReferenceIdeal.Read.val_main_v127 (F := Ideal) (m ((c : Thread nD τ).loc main_arg0)) (m ((c : Thread nD τ).loc main_arg1)) (m ((c : Thread nD τ).loc main_arg4)) (m ((c : Thread nD τ).loc main_arg5))) :
    W7 D0 m ρ c (Proc.devRef .tc main_v182) = Cert.ReferenceIdeal.Read.val_main_v219 (F := Ideal) (m ((c : Thread nD τ).loc main_arg0)) (m ((c : Thread nD τ).loc main_arg1)) (m ((c : Thread nD τ).loc main_arg4)) (m ((c : Thread nD τ).loc main_arg5)) := by
  show StableHlo.after hostOps1 (W6 D0 m ρ c) (Proc.devRef .tc main_v182) = _
  simp only [hostOps1]
  after_results_simp
  rw [h105, W6_kept D0 h0 m ρ c main_v1 (by decide), W6_kept D0 h0 m ρ c main_v3 (by decide), W6_kept D0 h0 m ρ c main_v31 (by decide),
    W6_kept D0 h0 m ρ c main_v35 (by decide), W5_main_v1 m ρ c, W5_main_v3 m ρ c, W5_main_v31 m ρ c, W5_main_v35 m ρ c]
  rfl

include h0 in
/-- The term stretch of the second layer does not write the first kernel's output. -/
theorem W7_main_v105 (c : Dev nD) : W7 D0 m ρ c (Proc.devRef .tc main_v105) = W6 D0 m ρ c (Proc.devRef .tc main_v105) :=
  StableHlo.after_of_writes_sub hostOps1 _ hostOps1_writes (by decide)

include h0 in
/-- An argument is unchanged when the second kernel is entered. -/
theorem W7_arg (c : Dev nD) (r : Ref sig .tc) (hr0 : r ∉ hostOps0_W) (hr1 : r ∉ hostOps0_1_W) (hr2 : r ∉ hostOps0_2_W)
    (hr3 : r ∉ hostOps0_3_W) (hr4 : r ∉ hostOps0_4_W) (hr5 : r ∉ hostOps1_W) (ho0 : r ≠ main_v105) :
    W7 D0 m ρ c (Proc.devRef .tc r) = m ((c : Thread nD τ).loc r) :=
  (StableHlo.after_of_writes_sub hostOps1 _ hostOps1_writes hr5).trans <|
  (W6_kept D0 h0 m ρ c r ho0).trans (W5_arg m ρ c r hr0 hr1 hr2 hr3 hr4)

include h0 h1 in
/-- An argument is unchanged when the last kernel is entered. -/
theorem W9_arg (c : Dev nD) (r : Ref sig .tc) (hr0 : r ∉ hostOps0_W) (hr1 : r ∉ hostOps0_1_W) (hr2 : r ∉ hostOps0_2_W)
    (hr3 : r ∉ hostOps0_3_W) (hr4 : r ∉ hostOps0_4_W) (hr5 : r ∉ hostOps1_W) (hr6 : r ∉ hostOps2_W) (ho0 : r ≠ main_v105) (ho1 : r ≠ main_v183) :
    W9 D0 D1 m ρ c (Proc.devRef .tc r) = m ((c : Thread nD τ).loc r) :=
  (StableHlo.after_of_writes_sub hostOps2 _ hostOps2_writes hr6).trans <|
  (W8_kept D0 D1 h1 m ρ c r ho1).trans (W7_arg m ρ D0 h0 c r hr0 hr1 hr2 hr3 hr4 hr5 ho0)

/-- The last kernel's first operand is the second kernel's output, reshaped to one row per graph. -/
theorem W9_main_v184 (c : Dev nD) (y : Buf (Elt Ideal) ((c : Thread nD τ).loc main_v183))
    (h183 : W8 D0 D1 m ρ c (Proc.devRef .tc main_v183) = y) :
    W9 D0 D1 m ρ c (Proc.devRef .tc main_v184) = shapeCast S16x65536 y shapeCasts_S131072x8_S16x65536 := by
  show StableHlo.after hostOps2 (W8 D0 D1 m ρ c) (Proc.devRef .tc main_v184) = _
  simp only [hostOps2]
  after_results_simp
  rw [h183]
  rfl

end Cert.KernelIdeal.Hand

end
-- ==== Proof.Ref.Layer1.lean ====
/-
  The reference's first graph-convolution layer is the Chebyshev layer of its five terms: its five products (each a
  `dot_general` of a term with one slice of the weights, the slice cut out and reshaped from `1 × 1 × 8` to `1 × 8`), added from
  the left, the bias broadcast along the rows, and the maximum with a broadcast zero — read at an index one operation at
  a time.
-/
import proofs.«121312_j57732950393207_1_alg».proof.Proof.Ref.ReadP
import proofs.«121312_j57732950393207_1_alg».proof.Proof.LibChebLayer

set_option maxRecDepth 16384

noncomputable section

namespace Cert.ReferenceIdeal.Layers

open Cert.ReferenceIdeal Cert.ReferenceIdeal.Read
open Idealize.ShloMosaic Idealize.ShloMosaic.ValueIdx

/-- Slice 0 of the weights as the first product reads it: entry `(k, q)` of the reshaped slice is the weights at `(0, k, q)`. -/
theorem weight1_0 (w : (⟨S5x1x8, .f32⟩ : BufTy).Contents (Elt Ideal)) (r : Fin 131072) (q : Fin 8) (k : Fin 1) :
    val_main_v37 (F := Ideal) w (ridx_main_v38 (ix2 r q) k) = w (ix3 (0 : Fin 5) k q) := by
  rw [val_main_v37_apply, val_main_v36_apply]
  refine congrArg w (funext fun a => Fin.ext ?_)
  have hk := k.isLt; have hq := q.isLt
  match a with
  | ⟨0, _⟩ => show 0 = 0; rfl
  | ⟨1, _⟩ => show 0 = k.val; omega
  | ⟨2, _⟩ => show (k.val * 8 + q.val) % 8 = q.val; omega

/-- Slice 1 of the weights as the second product reads it: entry `(k, q)` of the reshaped slice is the weights at `(1, k, q)`. -/
theorem weight1_1 (w : (⟨S5x1x8, .f32⟩ : BufTy).Contents (Elt Ideal)) (r : Fin 131072) (q : Fin 8) (k : Fin 1) :
    val_main_v55 (F := Ideal) w (ridx_main_v56 (ix2 r q) k) = w (ix3 (1 : Fin 5) k q) := by
  rw [val_main_v55_apply, val_main_v54_apply]
  refine congrArg w (funext fun a => Fin.ext ?_)
  have hk := k.isLt; have hq := q.isLt
  match a with
  | ⟨0, _⟩ => show 1 + 0 = 1; omega
  | ⟨1, _⟩ => show 0 = k.val; omega
  | ⟨2, _⟩ => show (k.val * 8 + q.val) % 8 = q.val; omega

/-- Slice 2 of the weights as the third product reads it: entry `(k, q)` of the reshaped slice is the weights at `(2, k, q)`. -/
theorem weight1_2 (w : (⟨S5x1x8, .f32⟩ : BufTy).Contents (Elt Ideal)) (r : Fin 131072) (q : Fin 8) (k : Fin 1) :
    val_main_v77 (F := Ideal) w (ridx_main_v78 (ix2 r q) k) = w (ix3 (2 : Fin 5) k q) := by
  rw [val_main_v77_apply, val_main_v76_apply]
  refine congrArg w (funext fun a => Fin.ext ?_)
  have hk := k.isLt; have hq := q.isLt
  match a with
  | ⟨0, _⟩ => show 2 + 0 = 2; omega
  | ⟨1, _⟩ => show 0 = k.val; omega
  | ⟨2, _⟩ => show (k.val * 8 + q.val) % 8 = q.val; omega

/-- Slice 3 of the weights as the fourth product reads it: entry `(k, q)` of the reshaped slice is the weights at `(3, k, q)`. -/
theorem weight1_3 (w : (⟨S5x1x8, .f32⟩ : BufTy).Contents (Elt Ideal)) (r : Fin 131072) (q : Fin 8) (k : Fin 1) :
    val_main_v99 (F := Ideal) w (ridx_main_v100 (ix2 r q) k) = w (ix3 (3 : Fin 5) k q) := by
  rw [val_main_v99_apply, val_main_v98_apply]
  refine congrArg w (funext fun a => Fin.ext ?_)
  have hk := k.isLt; have hq := q.isLt
  match a with
  | ⟨0, _⟩ => show 3 + 0 = 3; omega
  | ⟨1, _⟩ => show 0 = k.val; omega
  | ⟨2, _⟩ => show (k.val * 8 + q.val) % 8 = q.val; omega

/-- Slice 4 of the weights as the fifth product reads it: entry `(k, q)` of the reshaped slice is the weights at `(4, k, q)`. -/
theorem weight1_4 (w : (⟨S5x1x8, .f32⟩ : BufTy).Contents (Elt Ideal)) (r : Fin 131072) (q : Fin 8) (k : Fin 1) :
    val_main_v121 (F := Ideal) w (ridx_main_v122 (ix2 r q) k) = w (ix3 (4 : Fin 5) k q) := by
  rw [val_main_v121_apply, val_main_v120_apply]
  refine congrArg w (funext fun a => Fin.ext ?_)
  have hk := k.isLt; have hq := q.isLt
  match a with
  | ⟨0, _⟩ => show 4 + 0 = 4; omega
  | ⟨1, _⟩ => show 0 = k.val; omega
  | ⟨2, _⟩ => show (k.val * 8 + q.val) % 8 = q.val; omega

/-- THE LAYER. The reference's stage after the first layer's rectification is the Chebyshev layer of the five terms. -/
theorem layer1_eq (x0 : (⟨S131072x1, .f32⟩ : BufTy).Contents (Elt Ideal)) (x1 : (⟨S2x4194304, .i32⟩ : BufTy).Contents (Elt Ideal)) (x4 : (⟨S5x1x8, .f32⟩ : BufTy).Contents (Elt Ideal)) (x5 : (⟨S8, .f32⟩ : BufTy).Contents (Elt Ideal)) :
    val_main_v127 (F := Ideal) x0 x1 x4 x5
      = ChebLayer.layer 131072 1 (x0) (val_main_v53 (F := Ideal) x0 x1) (val_main_v75 (F := Ideal) x0 x1) (val_main_v97 (F := Ideal) x0 x1) (val_main_v119 (F := Ideal) x0 x1) x4 x5 := by
  funext i
  obtain ⟨r, q, rfl⟩ : ∃ (r : Fin 131072) (q : Fin 8), i = ix2 r q := ⟨i 0, i 1, eq_ix2 i⟩
  rw [ChebLayer.layer_apply]
  unfold ChebLayer.pre ChebLayer.term
  rw [val_main_v127_apply, val_main_v126_apply, val_main_v123_apply, val_main_v101_apply, val_main_v79_apply, val_main_v57_apply,
    val_main_v38_apply, val_main_v56_apply, val_main_v78_apply, val_main_v100_apply, val_main_v122_apply,
    val_main_v125_apply, val_main_v124_apply, val_main_call2_v0_apply, val_main_call2_cst_apply]
  -- each product reads its term at row `r` and inner index `k`, and the bias at column `q`
  have t0 : ∀ k : Fin 1, x0 (lidx_main_v38 (ix2 r q) k) = x0 (ix2 r k) := fun k => congrArg x0 (funext fun a => match a with | ⟨0, _⟩ => rfl | ⟨1, _⟩ => rfl)
  have t1 : ∀ k : Fin 1, val_main_v53 (F := Ideal) x0 x1 (lidx_main_v56 (ix2 r q) k) = val_main_v53 (F := Ideal) x0 x1 (ix2 r k) :=
    fun k => congrArg (val_main_v53 (F := Ideal) x0 x1) (funext fun a => match a with | ⟨0, _⟩ => rfl | ⟨1, _⟩ => rfl)
  have t2 : ∀ k : Fin 1, val_main_v75 (F := Ideal) x0 x1 (lidx_main_v78 (ix2 r q) k) = val_main_v75 (F := Ideal) x0 x1 (ix2 r k) :=
    fun k => congrArg (val_main_v75 (F := Ideal) x0 x1) (funext fun a => match a with | ⟨0, _⟩ => rfl | ⟨1, _⟩ => rfl)
  have t3 : ∀ k : Fin 1, val_main_v97 (F := Ideal) x0 x1 (lidx_main_v100 (ix2 r q) k) = val_main_v97 (F := Ideal) x0 x1 (ix2 r k) :=
    fun k => congrArg (val_main_v97 (F := Ideal) x0 x1) (funext fun a => match a with | ⟨0, _⟩ => rfl | ⟨1, _⟩ => rfl)
  have t4 : ∀ k : Fin 1, val_main_v119 (F := Ideal) x0 x1 (lidx_main_v122 (ix2 r q) k) = val_main_v119 (F := Ideal) x0 x1 (ix2 r k) :=
    fun k => congrArg (val_main_v119 (F := Ideal) x0 x1) (funext fun a => match a with | ⟨0, _⟩ => rfl | ⟨1, _⟩ => rfl)
  have tb : x5 (idx_main_v124 (idx_main_v125 (ix2 r q))) = x5 (ix1 q) := congrArg x5 (funext fun a => match a with | ⟨0, _⟩ => rfl)
  simp only [weight1_0, weight1_1, weight1_2, weight1_3, weight1_4, t0, t1, t2, t3, t4, tb]
  try rfl

end Cert.ReferenceIdeal.Layers

end
-- ==== Proof.Ref.Layer2.lean ====
/-
  The reference's second graph-convolution layer is the Chebyshev layer of its five terms: its five products (each a
  `dot_general` of a term with one slice of the weights, the slice cut out and reshaped from `1 × 8 × 8` to `8 × 8`), added from
  the left, the bias broadcast along the rows, and the maximum with a broadcast zero — read at an index one operation at
  a time.
-/
import proofs.«121312_j57732950393207_1_alg».proof.Proof.Ref.ReadP
import proofs.«121312_j57732950393207_1_alg».proof.Proof.LibChebLayer

set_option maxRecDepth 16384

noncomputable section

namespace Cert.ReferenceIdeal.Layers

open Cert.ReferenceIdeal Cert.ReferenceIdeal.Read
open Idealize.ShloMosaic Idealize.ShloMosaic.ValueIdx

/-- Slice 0 of the weights as the first product reads it: entry `(k, q)` of the reshaped slice is the weights at `(0, k, q)`. -/
theorem weight2_0 (w : (⟨S5x8x8, .f32⟩ : BufTy).Contents (Elt Ideal)) (r : Fin 131072) (q : Fin 8) (k : Fin 8) :
    val_main_v129 (F := Ideal) w (ridx_main_v130 (ix2 r q) k) = w (ix3 (0 : Fin 5) k q) := by
  rw [val_main_v129_apply, val_main_v128_apply]
  refine congrArg w (funext fun a => Fin.ext ?_)
  have hk := k.isLt; have hq := q.isLt
  match a with
  | ⟨0, _⟩ => show 0 = 0; rfl
  | ⟨1, _⟩ => show (k.val * 8 + q.val) / 8 % 8 = k.val; omega
  | ⟨2, _⟩ => show (k.val * 8 + q.val) % 8 = q.val; omega

/-- Slice 1 of the weights as the second product reads it: entry `(k, q)` of the reshaped slice is the weights at `(1, k, q)`. -/
theorem weight2_1 (w : (⟨S5x8x8, .f32⟩ : BufTy).Contents (Elt Ideal)) (r : Fin 131072) (q : Fin 8) (k : Fin 8) :
    val_main_v149 (F := Ideal) w (ridx_main_v150 (ix2 r q) k) = w (ix3 (1 : Fin 5) k q) := by
  rw [val_main_v149_apply, val_main_v148_apply]
  refine congrArg w (funext fun a => Fin.ext ?_)
  have hk := k.isLt; have hq := q.isLt
  match a with
  | ⟨0, _⟩ => show 1 + 0 = 1; omega
  | ⟨1, _⟩ => show (k.val * 8 + q.val) / 8 % 8 = k.val; omega
  | ⟨2, _⟩ => show (k.val * 8 + q.val) % 8 = q.val; omega

/-- Slice 2 of the weights as the third product reads it: entry `(k, q)` of the reshaped slice is the weights at `(2, k, q)`. -/
theorem weight2_2 (w : (⟨S5x8x8, .f32⟩ : BufTy).Contents (Elt Ideal)) (r : Fin 131072) (q : Fin 8) (k : Fin 8) :
    val_main_v173 (F := Ideal) w (ridx_main_v174 (ix2 r q) k) = w (ix3 (2 : Fin 5) k q) := by
  rw [val_main_v173_apply, val_main_v172_apply]
  refine congrArg w (funext fun a => Fin.ext ?_)
  have hk := k.isLt; have hq := q.isLt
  match a with
  | ⟨0, _⟩ => show 2 + 0 = 2; omega
  | ⟨1, _⟩ => show (k.val * 8 + q.val) / 8 % 8 = k.val; omega
  | ⟨2, _⟩ => show (k.val * 8 + q.val) % 8 = q.val; omega

/-- Slice 3 of the weights as the fourth product reads it: entry `(k, q)` of the reshaped slice is the weights at `(3, k, q)`. -/
theorem weight2_3 (w : (⟨S5x8x8, .f32⟩ : BufTy).Contents (Elt Ideal)) (r : Fin 131072) (q : Fin 8) (k : Fin 8) :
    val_main_v197 (F := Ideal) w (ridx_main_v198 (ix2 r q) k) = w (ix3 (3 : Fin 5) k q) := by
  rw [val_main_v197_apply, val_main_v196_apply]
  refine congrArg w (funext fun a => Fin.ext ?_)
  have hk := k.isLt; have hq := q.isLt
  match a with
  | ⟨0, _⟩ => show 3 + 0 = 3; omega
  | ⟨1, _⟩ => show (k.val * 8 + q.val) / 8 % 8 = k.val; omega
  | ⟨2, _⟩ => show (k.val * 8 + q.val) % 8 = q.val; omega

/-- Slice 4 of the weights as the fifth product reads it: entry `(k, q)` of the reshaped slice is the weights at `(4, k, q)`. -/
theorem weight2_4 (w : (⟨S5x8x8, .f32⟩ : BufTy).Contents (Elt Ideal)) (r : Fin 131072) (q : Fin 8) (k : Fin 8) :
    val_main_v221 (F := Ideal) w (ridx_main_v222 (ix2 r q) k) = w (ix3 (4 : Fin 5) k q) := by
  rw [val_main_v221_apply, val_main_v220_apply]
  refine congrArg w (funext fun a => Fin.ext ?_)
  have hk := k.isLt; have hq := q.isLt
  match a with
  | ⟨0, _⟩ => show 4 + 0 = 4; omega
  | ⟨1, _⟩ => show (k.val * 8 + q.val) / 8 % 8 = k.val; omega
  | ⟨2, _⟩ => show (k.val * 8 + q.val) % 8 = q.val; omega

/-- THE LAYER. The reference's stage after the second layer's rectification is the Chebyshev layer of the five terms. -/
theorem layer2_eq (x0 : (⟨S131072x1, .f32⟩ : BufTy).Contents (Elt Ideal)) (x1 : (⟨S2x4194304, .i32⟩ : BufTy).Contents (Elt Ideal)) (x4 : (⟨S5x1x8, .f32⟩ : BufTy).Contents (Elt Ideal)) (x5 : (⟨S8, .f32⟩ : BufTy).Contents (Elt Ideal)) (x6 : (⟨S5x8x8, .f32⟩ : BufTy).Contents (Elt Ideal)) (x7 : (⟨S8, .f32⟩ : BufTy).Contents (Elt Ideal)) :
    val_main_v227 (F := Ideal) x0 x1 x4 x5 x6 x7
      = ChebLayer.layer 131072 8 (val_main_v127 (F := Ideal) x0 x1 x4 x5) (val_main_v147 (F := Ideal) x0 x1 x4 x5) (val_main_v171 (F := Ideal) x0 x1 x4 x5) (val_main_v195 (F := Ideal) x0 x1 x4 x5) (val_main_v219 (F := Ideal) x0 x1 x4 x5) x6 x7 := by
  funext i
  obtain ⟨r, q, rfl⟩ : ∃ (r : Fin 131072) (q : Fin 8), i = ix2 r q := ⟨i 0, i 1, eq_ix2 i⟩
  rw [ChebLayer.layer_apply]
  unfold ChebLayer.pre ChebLayer.term
  rw [val_main_v227_apply, val_main_v226_apply, val_main_v223_apply, val_main_v199_apply, val_main_v175_apply, val_main_v151_apply,
    val_main_v130_apply, val_main_v150_apply, val_main_v174_apply, val_main_v198_apply, val_main_v222_apply,
    val_main_v225_apply, val_main_v224_apply, val_main_call3_v0_apply, val_main_call3_cst_apply]
  -- each product reads its term at row `r` and inner index `k`, and the bias at column `q`
  have t0 : ∀ k : Fin 8, val_main_v127 (F := Ideal) x0 x1 x4 x5 (lidx_main_v130 (ix2 r q) k) = val_main_v127 (F := Ideal) x0 x1 x4 x5 (ix2 r k) :=
    fun k => congrArg (val_main_v127 (F := Ideal) x0 x1 x4 x5) (funext fun a => match a with | ⟨0, _⟩ => rfl | ⟨1, _⟩ => rfl)
  have t1 : ∀ k : Fin 8, val_main_v147 (F := Ideal) x0 x1 x4 x5 (lidx_main_v150 (ix2 r q) k) = val_main_v147 (F := Ideal) x0 x1 x4 x5 (ix2 r k) :=
    fun k => congrArg (val_main_v147 (F := Ideal) x0 x1 x4 x5) (funext fun a => match a with | ⟨0, _⟩ => rfl | ⟨1, _⟩ => rfl)
  have t2 : ∀ k : Fin 8, val_main_v171 (F := Ideal) x0 x1 x4 x5 (lidx_main_v174 (ix2 r q) k) = val_main_v171 (F := Ideal) x0 x1 x4 x5 (ix2 r k) :=
    fun k => congrArg (val_main_v171 (F := Ideal) x0 x1 x4 x5) (funext fun a => match a with | ⟨0, _⟩ => rfl | ⟨1, _⟩ => rfl)
  have t3 : ∀ k : Fin 8, val_main_v195 (F := Ideal) x0 x1 x4 x5 (lidx_main_v198 (ix2 r q) k) = val_main_v195 (F := Ideal) x0 x1 x4 x5 (ix2 r k) :=
    fun k => congrArg (val_main_v195 (F := Ideal) x0 x1 x4 x5) (funext fun a => match a with | ⟨0, _⟩ => rfl | ⟨1, _⟩ => rfl)
  have t4 : ∀ k : Fin 8, val_main_v219 (F := Ideal) x0 x1 x4 x5 (lidx_main_v222 (ix2 r q) k) = val_main_v219 (F := Ideal) x0 x1 x4 x5 (ix2 r k) :=
    fun k => congrArg (val_main_v219 (F := Ideal) x0 x1 x4 x5) (funext fun a => match a with | ⟨0, _⟩ => rfl | ⟨1, _⟩ => rfl)
  have tb : x7 (idx_main_v224 (idx_main_v225 (ix2 r q))) = x7 (ix1 q) := congrArg x7 (funext fun a => match a with | ⟨0, _⟩ => rfl)
  simp only [weight2_0, weight2_1, weight2_2, weight2_3, weight2_4, t0, t1, t2, t3, t4, tb]
  try rfl

end Cert.ReferenceIdeal.Layers

end
-- ==== Proof.Ref.Head.lean ====
/-
  The reference's dense head is the dense head of the reshaped second layer: a product over the 65536 features with the
  first weight matrix, the bias broadcast along the rows, the maximum with a broadcast zero, a product over the 1000
  hidden units with the second weight matrix, and the second bias — read at an index one operation at a time.
-/
import proofs.«121312_j57732950393207_1_alg».proof.Proof.Ref.ReadP
import proofs.«121312_j57732950393207_1_alg».proof.Proof.LibDenseHead

set_option maxRecDepth 16384

noncomputable section

namespace Cert.ReferenceIdeal.Layers

open Cert.ReferenceIdeal Cert.ReferenceIdeal.Read
open Idealize.ShloMosaic Idealize.ShloMosaic.ValueIdx

/-- THE HEAD. The reference's result is the dense head of its reshaped second layer and the four head arrays. -/
theorem head_eq (x0 : (⟨S131072x1, .f32⟩ : BufTy).Contents (Elt Ideal)) (x1 : (⟨S2x4194304, .i32⟩ : BufTy).Contents (Elt Ideal)) (x4 : (⟨S5x1x8, .f32⟩ : BufTy).Contents (Elt Ideal)) (x5 : (⟨S8, .f32⟩ : BufTy).Contents (Elt Ideal)) (x6 : (⟨S5x8x8, .f32⟩ : BufTy).Contents (Elt Ideal)) (x7 : (⟨S8, .f32⟩ : BufTy).Contents (Elt Ideal)) (x8 : (⟨S65536x1000, .f32⟩ : BufTy).Contents (Elt Ideal)) (x9 : (⟨S1000, .f32⟩ : BufTy).Contents (Elt Ideal)) (x10 : (⟨S1000x34, .f32⟩ : BufTy).Contents (Elt Ideal)) (x11 : (⟨S34, .f32⟩ : BufTy).Contents (Elt Ideal)) :
    val_main_v237 (F := Ideal) x0 x1 x4 x5 x6 x7 x8 x9 x10 x11
      = DenseHead.head (val_main_v228 (F := Ideal) x0 x1 x4 x5 x6 x7) x8 x9 x10 x11 := by
  funext i
  obtain ⟨r, q, rfl⟩ : ∃ (r : Fin 16) (q : Fin 34), i = ix2 r q := ⟨i 0, i 1, eq_ix2 i⟩
  rw [DenseHead.head_apply]
  unfold DenseHead.hidden
  rw [val_main_v237_apply, val_main_v234_apply, val_main_v236_apply, val_main_v235_apply]
  simp only [val_main_v233_apply, val_main_v232_apply, val_main_v229_apply, val_main_v231_apply, val_main_v230_apply,
    val_main_call4_v0_apply, val_main_call4_cst_apply]
  -- the first product reads the activations at row `r`, feature `k`, and the first weights at `(k, j)`; the second the
  -- hidden layer at `(r, j)` and the second weights at `(j, q)`; the biases at `j` and at `q`
  have hH : ∀ (j : Fin 1000) (k : Fin 65536), val_main_v228 (F := Ideal) x0 x1 x4 x5 x6 x7 (lidx_main_v229 (lidx_main_v234 (ix2 r q) j) k)
      = val_main_v228 (F := Ideal) x0 x1 x4 x5 x6 x7 (ix2 r k) :=
    fun j k => congrArg (val_main_v228 (F := Ideal) x0 x1 x4 x5 x6 x7) (funext fun a => match a with | ⟨0, _⟩ => rfl | ⟨1, _⟩ => rfl)
  have h8 : ∀ (j : Fin 1000) (k : Fin 65536), x8 (ridx_main_v229 (lidx_main_v234 (ix2 r q) j) k) = x8 (ix2 k j) :=
    fun j k => congrArg x8 (funext fun a => match a with | ⟨0, _⟩ => rfl | ⟨1, _⟩ => rfl)
  have h9 : ∀ j : Fin 1000, x9 (idx_main_v230 (idx_main_v231 (lidx_main_v234 (ix2 r q) j))) = x9 (ix1 j) :=
    fun j => congrArg x9 (funext fun a => match a with | ⟨0, _⟩ => rfl)
  have h10 : ∀ j : Fin 1000, x10 (ridx_main_v234 (ix2 r q) j) = x10 (ix2 j q) := fun j => congrArg x10 (funext fun a => match a with | ⟨0, _⟩ => rfl | ⟨1, _⟩ => rfl)
  have h11 : x11 (idx_main_v235 (idx_main_v236 (ix2 r q))) = x11 (ix1 q) := congrArg x11 (funext fun a => match a with | ⟨0, _⟩ => rfl)
  simp only [hH, h8, h9, h10, h11]
  try rfl

end Cert.ReferenceIdeal.Layers

end
-- ==== Proof.KI.Value.lean ====
/-
  THE VALUE of the idealized kernel program: its result array holds the reference's result stage of the same arguments.

  Read backwards from the return: the result is the dense head's output array, which holds the dense head of the
  reshaped second layer and the four head arrays; the second layer is the second combining kernel's output array, which
  holds the Chebyshev layer of the second layer's five terms; those terms are host stages over the first layer and the
  graph's normalisation; the first layer is the first combining kernel's output array, the Chebyshev layer of the first
  five terms; and those are host stages over the arguments. At each step the kernel program's buffer holds the
  reference's stage, because the host operations are the reference's own and each kernel computes, block by block, the
  layer the reference computes in one piece (sums of extended reals may be regrouped freely).
-/
import proofs.«121312_j57732950393207_1_alg».proof.Proof.KI.Frame
import proofs.«121312_j57732950393207_1_alg».proof.Proof.KI.Val0
import proofs.«121312_j57732950393207_1_alg».proof.Proof.KI.Val1
import proofs.«121312_j57732950393207_1_alg».proof.Proof.KI.Val2
import proofs.«121312_j57732950393207_1_alg».proof.Proof.KI.HostC
import proofs.«121312_j57732950393207_1_alg».proof.Proof.Ref.Layer1
import proofs.«121312_j57732950393207_1_alg».proof.Proof.Ref.Layer2
import proofs.«121312_j57732950393207_1_alg».proof.Proof.Ref.Head

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.Read (val_main_v127 val_main_v227 val_main_v228 val_main_v237)
open Cert.ReferenceIdeal.Layers (layer1_eq layer2_eq head_eq)

variable (m : (ℓ : Loc nD τ sig) → Buf (Elt Ideal) ℓ) (ρ : Dev nD → PrngReg)

/-- The first combining kernel's output array holds the reference's first layer. -/
theorem out0_eq (c : Dev nD) :
    W6 dat0 m ρ c (Proc.devRef .tc main_v105) = val_main_v127 (F := Ideal) (m ((c : Thread nD τ).loc main_arg0)) (m ((c : Thread nD τ).loc main_arg1)) (m ((c : Thread nD τ).loc main_arg4)) (m ((c : Thread nD τ).loc main_arg5)) := by
  refine (W6_arr dat0 m ρ c 7).trans ?_
  rw [final0 (V5 m ρ) c, layer1_eq]
  show ChebLayer.layer 131072 1 (W5 m ρ c (Proc.devRef .tc main_arg0)) (W5 m ρ c (Proc.devRef .tc main_v50)) (W5 m ρ c (Proc.devRef .tc main_v68))
    (W5 m ρ c (Proc.devRef .tc main_v86)) (W5 m ρ c (Proc.devRef .tc main_v104)) (W5 m ρ c (Proc.devRef .tc main_arg4)) (W5 m ρ c (Proc.devRef .tc main_arg5)) = _
  rw [W5_main_v50 m ρ c, W5_main_v68 m ρ c, W5_main_v86 m ρ c, W5_main_v104 m ρ c,
    W5_arg m ρ c main_arg0 (by decide) (by decide) (by decide) (by decide) (by decide), W5_arg m ρ c main_arg4 (by decide) (by decide) (by decide) (by decide) (by decide), W5_arg m ρ c main_arg5 (by decide) (by decide) (by decide) (by decide) (by decide)]

/-- The second combining kernel's output array holds the reference's second layer. -/
theorem out1_eq (c : Dev nD) :
    W8 dat0 dat1 m ρ c (Proc.devRef .tc main_v183) = val_main_v227 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W8_arr dat0 dat1 m ρ c 7).trans ?_
  rw [final1 (V7 dat0 m ρ) c, layer2_eq]
  show ChebLayer.layer 131072 8 (W7 dat0 m ρ c (Proc.devRef .tc main_v105)) (W7 dat0 m ρ c (Proc.devRef .tc main_v122)) (W7 dat0 m ρ c (Proc.devRef .tc main_v142))
    (W7 dat0 m ρ c (Proc.devRef .tc main_v162)) (W7 dat0 m ρ c (Proc.devRef .tc main_v182)) (W7 dat0 m ρ c (Proc.devRef .tc main_arg6)) (W7 dat0 m ρ c (Proc.devRef .tc main_arg7)) = _
  rw [W7_main_v105 m ρ dat0 half0 c, out0_eq m ρ c, W7_main_v122 m ρ dat0 half0 c (out0_eq m ρ c), W7_main_v142 m ρ dat0 half0 c (out0_eq m ρ c),
    W7_main_v162 m ρ dat0 half0 c (out0_eq m ρ c), W7_main_v182 m ρ dat0 half0 c (out0_eq m ρ c),
    W7_arg m ρ dat0 half0 c main_arg6 (by decide) (by decide) (by decide) (by decide) (by decide) (by decide) (by decide), W7_arg m ρ dat0 half0 c main_arg7 (by decide) (by decide) (by decide) (by decide) (by decide) (by decide) (by decide)]

/-- THE RESULT: the program's result array holds the reference's result stage of the same arguments. -/
theorem result_eq (c : Dev nD) :
    Wend m ρ c (Proc.devRef .tc main_v185)
      = val_main_v237 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_result dat0 dat1 dat2 m ρ c).trans ?_
  rw [final2 (V9 dat0 dat1 m ρ) c, head_eq]
  show DenseHead.head (W9 dat0 dat1 m ρ c (Proc.devRef .tc main_v184)) (W9 dat0 dat1 m ρ c (Proc.devRef .tc main_arg8)) (W9 dat0 dat1 m ρ c (Proc.devRef .tc main_arg9))
    (W9 dat0 dat1 m ρ c (Proc.devRef .tc main_arg10)) (W9 dat0 dat1 m ρ c (Proc.devRef .tc main_arg11)) = _
  rw [W9_main_v184 m ρ dat0 dat1 c _ (out1_eq m ρ c), W9_arg m ρ dat0 dat1 half0 half1 c main_arg8 (by decide) (by decide) (by decide) (by decide) (by decide) (by decide) (by decide) (by decide) (by decide), W9_arg m ρ dat0 dat1 half0 half1 c main_arg9 (by decide) (by decide) (by decide) (by decide) (by decide) (by decide) (by decide) (by decide) (by decide),
    W9_arg m ρ dat0 dat1 half0 half1 c main_arg10 (by decide) (by decide) (by decide) (by decide) (by decide) (by decide) (by decide) (by decide) (by decide), W9_arg m ρ dat0 dat1 half0 half1 c main_arg11 (by decide) (by decide) (by decide) (by decide) (by decide) (by decide) (by decide) (by decide) (by decide)]
  rfl

/-- THE RUN, READ: the idealized kernel program terminates with its result array at the reference's result stage of its
    arguments, and its arguments unchanged. -/
theorem run_value : θ_run defs (onTc (τ := τ) (main (F := Ideal))) ⟨m, fun _ => 0, ρ⟩ (fun r => ∀ c : Dev nD,
      r.2.mem ((c.tc : Thread nD τ).loc main_v185)
        = val_main_v237 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v185 (by decide))).trans (result_eq m ρ c),
      (h c _ (mem_uc main_arg0 (by decide))).trans (W10_main_arg0 dat0 dat1 dat2 half0 half1 half2 m ρ c),
      (h c _ (mem_uc main_arg1 (by decide))).trans (W10_main_arg1 dat0 dat1 dat2 half0 half1 half2 m ρ c),
      (h c _ (mem_uc main_arg2 (by decide))).trans (W10_main_arg2 dat0 dat1 dat2 half0 half1 half2 m ρ c),
      (h c _ (mem_uc main_arg3 (by decide))).trans (W10_main_arg3 dat0 dat1 dat2 half0 half1 half2 m ρ c),
      (h c _ (mem_uc main_arg4 (by decide))).trans (W10_main_arg4 dat0 dat1 dat2 half0 half1 half2 m ρ c),
      (h c _ (mem_uc main_arg5 (by decide))).trans (W10_main_arg5 dat0 dat1 dat2 half0 half1 half2 m ρ c),
      (h c _ (mem_uc main_arg6 (by decide))).trans (W10_main_arg6 dat0 dat1 dat2 half0 half1 half2 m ρ c),
      (h c _ (mem_uc main_arg7 (by decide))).trans (W10_main_arg7 dat0 dat1 dat2 half0 half1 half2 m ρ c),
      (h c _ (mem_uc main_arg8 (by decide))).trans (W10_main_arg8 dat0 dat1 dat2 half0 half1 half2 m ρ c),
      (h c _ (mem_uc main_arg9 (by decide))).trans (W10_main_arg9 dat0 dat1 dat2 half0 half1 half2 m ρ c),
      (h c _ (mem_uc main_arg10 (by decide))).trans (W10_main_arg10 dat0 dat1 dat2 half0 half1 half2 m ρ c),
      (h c _ (mem_uc main_arg11 (by decide))).trans (W10_main_arg11 dat0 dat1 dat2 half0 half1 half2 m ρ c)⟩)
    (run m ρ)

end Cert.KernelIdeal.Hand

end
-- ==== Proof.lean ====
/-
  The certificate of a two-layer Chebyshev graph convolution with a dense head, computed by three kernels among host
  operations, against its plain reference.

  The three frames: the word-level program and its idealization run to the end, fault nowhere and leave their argument
  arrays unchanged (the run of the ten segments, each kernel's body proved at every grid point); the reference's frame is
  its run with the result dropped. The idealization rewrote nothing, so nothing is owed for it. The value claim: at the
  ideal values the kernel program's result array and the reference's hold the same function of the arguments — the host
  operations are the same on both sides, each combining kernel computes 2048 rows at a time the layer the reference
  computes whole, and the dense head's accumulation over 32 blocks of 2048 features is the reference's one sum over
  65536, regrouped (sums of extended reals commute and associate, so no finiteness of the inputs is used).
-/
import proofs.«121312_j57732950393207_1_alg».proof.Defs
import proofs.«121312_j57732950393207_1_alg».proof.Proof.Gen.Kernel
import proofs.«121312_j57732950393207_1_alg».proof.Proof.Gen.KernelIdeal
import proofs.«121312_j57732950393207_1_alg».proof.Proof.Gen.ReferenceIdeal
import proofs.«121312_j57732950393207_1_alg».proof.Proof.Gen.Pre_finite_inputs
import proofs.«121312_j57732950393207_1_alg».proof.Proof.Ref.RunV
import proofs.«121312_j57732950393207_1_alg».proof.Proof.K.Frame
import proofs.«121312_j57732950393207_1_alg».proof.Proof.KI.Frame
import proofs.«121312_j57732950393207_1_alg».proof.Proof.KI.Value
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_r : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- Both idealized programs end with the reference's result stage of the (agreeing) arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7, e8, e9, e10, e11⟩ := hagree c
  rw [e0, e1, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
